-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_arg15 : FVec F S128 .f32) (main_arg16 : FVec F S128x40 .f32) (main_arg17 : FVec F S40 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x40 .f32 := Host.absf main_arg16
  let main_cst_28 : FVec F S_ .f32 := constant S_ .f32 0x7F800000#32
  let main_v75 : FVec F S128x40 .f32 := broadcastInDim S128x40 ![] bcast_S_S128x40 main_cst_28
  let main_v76 : IVec S128x40 1 := cmpf .olt main_v74 main_v75
  let main_c_29 : IVec S_ 1 := constantI S_ 1 1#1
  let main_v77 : IVec S_ 1 := (fun x v => Host.reduce IntOp.andi x v reducesTo_S128x40_S_d0_1 h_S_) main_v76 main_c_29
  let main_v78 : IVec S_ 1 := andi main_v73 main_v77
  let main_v79 : FVec F S40 .f32 := Host.absf main_arg17
  let main_cst_30 : FVec F S_ .f32 := constant S_ .f32 0x7F800000#32
  let main_v80 : FVec F S40 .f32 := broadcastInDim S40 ![] bcast_S_S40 main_cst_30
  let main_v81 : IVec S40 1 := cmpf .olt main_v79 main_v80
  let main_c_31 : IVec S_ 1 := constantI S_ 1 1#1
  let main_v82 : IVec S_ 1 := (fun x v => Host.reduce IntOp.andi x v reducesTo_S40_S_d0 h_S_) main_v81 main_c_31
  let main_v83 : IVec S_ 1 := andi main_v78 main_v82
  main_v83

def fn_part3 {F : FTy → Type} [FloatOps F] (main_arg12 : FVec F S128x128 .f32) (main_arg13 : FVec F S128 .f32) (main_arg14 : FVec F S128x128 .f32) (main_arg15 : FVec F S128 .f32) (main_arg16 : FVec F S128x40 .f32) (main_arg17 : FVec F S40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_v63 main_v67

def fn_part2 {F : FTy → Type} [FloatOps F] (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128x40 .f32) (main_arg17 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128x40 .f32) (main_arg17 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128x40 .f32) (main_arg17 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩
abbrev S1x40 : Shape := ⟨2, ![1, 40]⟩
abbrev S50000x40 : Shape := ⟨2, ![50000, 40]⟩
abbrev S2000x40 : Shape := ⟨2, ![2000, 40]⟩
abbrev S2000 : Shape := ⟨1, ![2000]⟩
abbrev S2000x1 : Shape := ⟨2, ![2000, 1]⟩

abbrev nBuf : Space → Nat
  | .hbm => 85
  | .vmem => 44
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x40, .f32⟩
  | .hbm, ⟨17, _⟩ => ⟨S40, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S1x128, .f32⟩
  | .hbm, ⟨39, _⟩ => ⟨S1x128, .f32⟩
  | .hbm, ⟨40, _⟩ => ⟨S_, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S1x128, .f32⟩
  | .hbm, ⟨69, _⟩ => ⟨S1x128, .f32⟩
  | .hbm, ⟨70, _⟩ => ⟨S_, .f32⟩
  | .hbm, ⟨71, _⟩ => ⟨S1x128, .f32⟩
  | .hbm, ⟨72, _⟩ => ⟨S1x128, .f32⟩
  | .hbm, ⟨73, _⟩ => ⟨S_, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S50000x128, .f32⟩
  | .hbm, ⟨82, _⟩ => ⟨S1x128, .f32⟩
  | .hbm, ⟨83, _⟩ => ⟨S1x40, .f32⟩
  | .hbm, ⟨84, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S1x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x128, .f32⟩
  | .local _ .vmem, ⟨39, _⟩ => ⟨S1x128, .f32⟩
  | .local _ .vmem, ⟨40, _⟩ => ⟨S128x40, .f32⟩
  | .local _ .vmem, ⟨41, _⟩ => ⟨S1x40, .f32⟩
  | .local _ .vmem, ⟨42, _⟩ => ⟨S2000x40, .f32⟩
  | .local _ .vmem, ⟨43, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16_0 : Ref sig .tc := ⟨.hbm, 37, rfl⟩
abbrev main_v16_1 : Ref sig .tc := ⟨.hbm, 38, rfl⟩
abbrev main_v16_2 : Ref sig .tc := ⟨.hbm, 39, rfl⟩
abbrev main_cst_1 : Ref sig .tc := ⟨.hbm, 40, rfl⟩
abbrev main_v17 : Ref sig .tc := ⟨.hbm, 41, rfl⟩
abbrev main_v18 : Ref sig .tc := ⟨.hbm, 42, rfl⟩
abbrev main_cst_2 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_3 : Ref sig .tc := ⟨.hbm, 52, rfl⟩
abbrev main_v27 : Ref sig .tc := ⟨.hbm, 53, rfl⟩
abbrev main_v28 : Ref sig .tc := ⟨.hbm, 54, rfl⟩
abbrev main_c_4 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39_0 : Ref sig .tc := ⟨.hbm, 67, rfl⟩
abbrev main_v39_1 : Ref sig .tc := ⟨.hbm, 68, rfl⟩
abbrev main_v39_2 : Ref sig .tc := ⟨.hbm, 69, rfl⟩
abbrev main_cst_6 : Ref sig .tc := ⟨.hbm, 70, rfl⟩
abbrev main_v40 : Ref sig .tc := ⟨.hbm, 71, rfl⟩
abbrev main_v41 : Ref sig .tc := ⟨.hbm, 72, rfl⟩
abbrev main_cst_7 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg7_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem5_0 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x40 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x40 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x40 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S50000x128.size a
  hwx3_7 : ∀ i : grid3.Coords, EltTy.bits .f32 = 32 ∨ (Rect.block (s := S50000x128) S2000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x40.size a ≤ S128x40.size a
  hwx4_3 : ∀ i : grid4.Coords, EltTy.bits .f32 = 32 ∨ (Rect.block (s := S128x40) S128x40.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x40.size a ≤ S1x40.size a
  hwx4_4 : ∀ i : grid4.Coords, EltTy.bits .f32 = 32 ∨ (Rect.block (s := S1x40) S1x40.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x40.size a ≤ S50000x40.size a
  hwx4_5 : ∀ i : grid4.Coords, EltTy.bits .f32 = 32 ∨ (Rect.block (s := S50000x40) S2000x40.size (cc4_transform_5 i) (hinb4_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_v14) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v37) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39_0) S2000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v39_1) S1x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39_2) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v39_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v48) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v49) S2000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v49) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v50) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg16) S128x40.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v51) S1x40.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v52) S2000x40.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x40 : Shape := ⟨2, ![50000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 195
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x40, .f32⟩
  | 17 => ⟨S40, .f32⟩
  | 18 => ⟨S1x800000, .i32⟩
  | 19 => ⟨S800000, .i32⟩
  | 20 => ⟨S1x800000, .i32⟩
  | 21 => ⟨S800000, .i32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .f32⟩
  | 32 => ⟨S50000x128, .f32⟩
  | 33 => ⟨S800000x1, .i32⟩
  | 34 => ⟨S50000x128, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S_, .f32⟩
  | 41 => ⟨S128, .f32⟩
  | 42 => ⟨S_, .f32⟩
  | 43 => ⟨S128, .f32⟩
  | 44 => ⟨S128, .f32⟩
  | 45 => ⟨S_, .i32⟩
  | 46 => ⟨S_, .f32⟩
  | 47 => ⟨S128, .f32⟩
  | 48 => ⟨S1x128, .f32⟩
  | 49 => ⟨S_, .f32⟩
  | 50 => ⟨S1x128, .f32⟩
  | 51 => ⟨S1x128, .f32⟩
  | 52 => ⟨S50000x128, .f32⟩
  | 53 => ⟨S50000x128, .f32⟩
  | 54 => ⟨S50000x128, .f32⟩
  | 55 => ⟨S_, .f32⟩
  | 56 => ⟨S_, .f32⟩
  | 57 => ⟨S_, .f32⟩
  | 58 => ⟨S_, .f32⟩
  | 59 => ⟨S128, .f32⟩
  | 60 => ⟨S128, .f32⟩
  | 61 => ⟨S128, .f32⟩
  | 62 => ⟨S_, .f32⟩
  | 63 => ⟨S_, .i1⟩
  | 64 => ⟨S_, .f32⟩
  | 65 => ⟨S_, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S_, .f32⟩
  | 72 => ⟨S128, .f32⟩
  | 73 => ⟨S128, .f32⟩
  | 74 => ⟨S128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S128, .f32⟩
  | 117 => ⟨S_, .f32⟩
  | 118 => ⟨S128, .f32⟩
  | 119 => ⟨S128, .f32⟩
  | 120 => ⟨S_, .i32⟩
  | 121 => ⟨S_, .f32⟩
  | 122 => ⟨S128, .f32⟩
  | 123 => ⟨S1x128, .f32⟩
  | 124 => ⟨S_, .f32⟩
  | 125 => ⟨S1x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S_, .f32⟩
  | 4 => ⟨S_, .f32⟩
  | 5 => ⟨S_, .f32⟩
  | 6 => ⟨S128, .f32⟩
  | 7 => ⟨S128, .f32⟩
  | 8 => ⟨S128, .f32⟩
  | 9 => ⟨S_, .f32⟩
  | 10 => ⟨S_, .i1⟩
  | 11 => ⟨S_, .f32⟩
  | 12 => ⟨S_, .f32⟩
  | 13 => ⟨S128, .f32⟩
  | 14 => ⟨S128, .f32⟩
  | 15 => ⟨S1x128, .f32⟩
  | 16 => ⟨S50000x128, .f32⟩
  | 17 => ⟨S50000x128, .f32⟩
  | 18 => ⟨S_, .f32⟩
  | 19 => ⟨S128, .f32⟩
  | 20 => ⟨S128, .f32⟩
  | 21 => ⟨S128, .f32⟩
  | 22 => ⟨S1x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S50000x40, .f32⟩
  | 49 => ⟨S1x40, .f32⟩
  | 50 => ⟨S50000x40, .f32⟩
  | 51 => ⟨S50000x40, .f32⟩
  | 52 => ⟨S_, .f32⟩
  | 53 => ⟨S50000, .f32⟩
  | 54 => ⟨S_, .f32⟩
  | 55 => ⟨S50000, .f32⟩
  | 56 => ⟨S50000, .f32⟩
  | 57 => ⟨S50000x1, .f32⟩
  | 58 => ⟨S50000x40, .f32⟩
  | 59 => ⟨S50000x40, .f32⟩
  | 60 => ⟨S50000x40, .f32⟩
  | 61 => ⟨S_, .f32⟩
  | 62 => ⟨S50000, .f32⟩
  | 63 => ⟨S50000x1, .f32⟩
  | 64 => ⟨S50000x1, .f32⟩
  | 65 => ⟨S50000x40, .f32⟩
  | 66 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_c_3 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_cst_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_cst_1 : Ref sig .tc := ⟨.hbm, 56, rfl⟩
abbrev main_call0_v8 : Ref sig .tc := ⟨.hbm, 57, rfl⟩
abbrev main_call0_cst_2 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_cst_3 : Ref sig .tc := ⟨.hbm, 62, rfl⟩
abbrev main_call0_v12 : Ref sig .tc := ⟨.hbm, 63, rfl⟩
abbrev main_call0_cst_4 : Ref sig .tc := ⟨.hbm, 64, rfl⟩
abbrev main_call0_call0_v0 : Ref sig .tc := ⟨.hbm, 65, rfl⟩
abbrev main_call0_call0_v1 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_cst_4 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_call1_cst : Ref sig .tc := ⟨.hbm, 84, rfl⟩
abbrev main_call1_v0 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_call2_cst : Ref sig .tc := ⟨.hbm, 91, rfl⟩
abbrev main_call2_v0 : Ref sig .tc := ⟨.hbm, 92, rfl⟩
abbrev main_v43 : Ref sig .tc := ⟨.hbm, 93, rfl⟩
abbrev main_call3_cst : Ref sig .tc := ⟨.hbm, 94, rfl⟩
abbrev main_call3_v0 : Ref sig .tc := ⟨.hbm, 95, rfl⟩
abbrev main_v44 : Ref sig .tc := ⟨.hbm, 96, rfl⟩
abbrev main_c_5 : Ref sig .tc := ⟨.hbm, 97, rfl⟩
abbrev main_v45 : Ref sig .tc := ⟨.hbm, 98, rfl⟩
abbrev main_v46 : Ref sig .tc := ⟨.hbm, 99, rfl⟩
abbrev main_c_6 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_cst_7 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_cst_8 : Ref sig .tc := ⟨.hbm, 115, rfl⟩
abbrev main_v60 : Ref sig .tc := ⟨.hbm, 116, rfl⟩
abbrev main_cst_9 : Ref sig .tc := ⟨.hbm, 117, rfl⟩
abbrev main_v61 : Ref sig .tc := ⟨.hbm, 118, rfl⟩
abbrev main_v62 : Ref sig .tc := ⟨.hbm, 119, rfl⟩
abbrev main_c_10 : Ref sig .tc := ⟨.hbm, 120, rfl⟩
abbrev main_call4_cst : Ref sig .tc := ⟨.hbm, 121, rfl⟩
abbrev main_call4_v0 : Ref sig .tc := ⟨.hbm, 122, rfl⟩
abbrev main_call4_v1 : Ref sig .tc := ⟨.hbm, 123, rfl⟩
abbrev main_call4_cst_0 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_call4_v5 : Ref sig .tc := ⟨.hbm, 128, rfl⟩
abbrev main_call4_v6 : Ref sig .tc := ⟨.hbm, 129, rfl⟩
abbrev main_call4_v7 : Ref sig .tc := ⟨.hbm, 130, rfl⟩
abbrev main_call4_cst_1 : Ref sig .tc := ⟨.hbm, 131, rfl⟩
abbrev main_call4_v8 : Ref sig .tc := ⟨.hbm, 132, rfl⟩
abbrev main_call4_cst_2 : Ref sig .tc := ⟨.hbm, 133, rfl⟩
abbrev main_call4_v9 : Ref sig .tc := ⟨.hbm, 134, rfl⟩
abbrev main_call4_v10 : Ref sig .tc := ⟨.hbm, 135, rfl⟩
abbrev main_call4_v11 : Ref sig .tc := ⟨.hbm, 136, rfl⟩
abbrev main_call4_cst_3 : Ref sig .tc := ⟨.hbm, 137, rfl⟩
abbrev main_call4_v12 : Ref sig .tc := ⟨.hbm, 138, rfl⟩
abbrev main_call4_cst_4 : Ref sig .tc := ⟨.hbm, 139, rfl⟩
abbrev main_call4_call0_v0 : Ref sig .tc := ⟨.hbm, 140, rfl⟩
abbrev main_call4_call0_v1 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_cst_11 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_call5_cst : Ref sig .tc := ⟨.hbm, 159, rfl⟩
abbrev main_call5_v0 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_call6_cst : Ref sig .tc := ⟨.hbm, 166, rfl⟩
abbrev main_call6_v0 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_call7_cst : Ref sig .tc := ⟨.hbm, 173, rfl⟩
abbrev main_call7_v0 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_call8_cst : Ref sig .tc := ⟨.hbm, 180, rfl⟩
abbrev main_call8_v0 : Ref sig .tc := ⟨.hbm, 181, rfl⟩
abbrev main_call8_cst_0 : Ref sig .tc := ⟨.hbm, 182, rfl⟩
abbrev main_call8_v1 : Ref sig .tc := ⟨.hbm, 183, rfl⟩
abbrev main_call8_v2 : Ref sig .tc := ⟨.hbm, 184, rfl⟩
abbrev main_call8_v3 : Ref sig .tc := ⟨.hbm, 185, rfl⟩
abbrev main_call8_v4 : Ref sig .tc := ⟨.hbm, 186, rfl⟩
abbrev main_call8_v5 : Ref sig .tc := ⟨.hbm, 187, rfl⟩
abbrev main_call8_v6 : Ref sig .tc := ⟨.hbm, 188, rfl⟩
abbrev main_call8_cst_1 : Ref sig .tc := ⟨.hbm, 189, rfl⟩
abbrev main_call8_v7 : Ref sig .tc := ⟨.hbm, 190, rfl⟩
abbrev main_call8_v8 : Ref sig .tc := ⟨.hbm, 191, rfl⟩
abbrev main_call8_v9 : Ref sig .tc := ⟨.hbm, 192, rfl⟩
abbrev main_call8_v10 : Ref sig .tc := ⟨.hbm, 193, rfl⟩
abbrev main_v94 : Ref sig .tc := ⟨.hbm, 194, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KRun.lean ====
/-
  The idealized kernel program's run with its RESULT named: every weakly fair execution of @main terminates without a
  fault, the result array ends at what the last boundary of the run's fold holds for it (`W10 … main_v52`: the
  contents after the fifth pallas_call's write-backs), and the argument arrays end as launched.
  The fold's boundaries `W0 … W10` are those of the frame certificate; only the postcondition read off the last
  thread state is larger here (the result buffer is read beside the arguments).
-/
import proofs.«125030_j49014166782120_1_alg».proof.Proof.KernelIdealP.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_value : θ_run defs (onTc (τ := τ) (main (F := F))) ⟨m, fun _ => 0, ρ⟩ (fun r => ∀ c : Dev nD,
      r.2.mem ((c.tc : Thread nD τ).loc main_v52) = W10 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v52 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c)⟩)

end Cert.KernelIdeal.KRun

end
-- ==== Proof.RefOps.lean ====
/- The reference program's @main as one straight line of host operations: its 110 statements with each
   called function's operations written out at the call site over that call's buffer record (the variance
   function twice, each time with the select function inside it; the rectifier six times; the log-softmax
   once) — 177 operations in order. `main_eq` says @main IS that line. -/
import proofs.«125030_j49014166782120_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order: statements 1 … 60 give the first 87, statements 61 … 110 the other 90. -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_arg0 main_v13 main_v14 (addf : (⟨S50000x128, .f32⟩ : BufTy).Contents (Elt F) → (⟨S50000x128, .f32⟩ : BufTy).Contents (Elt F) → (⟨S50000x128, .f32⟩ : BufTy).Contents (Elt F)),
    StableHlo.binary main_v14 main_arg2 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S50000x128 ![0, 1] bcast_S1x128_S50000x128_0_1 : (⟨S1x128, .f32⟩ : BufTy).Contents (Elt F) → (⟨S50000x128, .f32⟩ : BufTy).Contents (Elt F)),
    StableHlo.binary main_v15 main_v17 main_v18 (addf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x00000000#32),
    StableHlo.binary main_v18 main_cst_1 main_v19 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v20 (broadcastInDim S128 ![] bcast_S_S128 : (⟨S_, .f32⟩ : BufTy).Contents (Elt F) → (⟨S128, .f32⟩ : BufTy).Contents (Elt F)),
    StableHlo.binary main_v19 main_v20 main_v21 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (.of main_v18 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v18 : StableHlo.TRef sig ⟨S50000x128, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v21 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S50000x128 ![0, 1] bcast_S1x128_S50000x128_0_1 : (⟨S1x128, .f32⟩ : BufTy).Contents (Elt F) → (⟨S50000x128, .f32⟩ : BufTy).Contents (Elt F)),
    StableHlo.binary main_v18 main_v24 main_v25 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v26 (broadcastInDim S128 ![] bcast_S_S128 : (⟨S_, .f32⟩ : BufTy).Contents (Elt F) → (⟨S128, .f32⟩ : BufTy).Contents (Elt F)),
    StableHlo.binary main_v22 main_v26 main_v27 (addf : (⟨S128, .f32⟩ : BufTy).Contents (Elt F) → (⟨S128, .f32⟩ : BufTy).Contents (Elt F) → (⟨S128, .f32⟩ : BufTy).Contents (Elt F)),
    StableHlo.unary main_v27 main_v28 (Host.rsqrt : (⟨S128, .f32⟩ : BufTy).Contents (Elt F) → (⟨S128, .f32⟩ : BufTy).Contents (Elt F)),
    StableHlo.unary main_v28 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S50000x128 ![0, 1] bcast_S1x128_S50000x128_0_1 : (⟨S1x128, .f32⟩ : BufTy).Contents (Elt F) → (⟨S50000x128, .f32⟩ : BufTy).Contents (Elt F)),
    StableHlo.binary main_v25 main_v30 main_v31 (mulf : (⟨S50000x128, .f32⟩ : BufTy).Contents (Elt F) → (⟨S50000x128, .f32⟩ : BufTy).Contents (Elt F) → (⟨S50000x128, .f32⟩ : BufTy).Contents (Elt F)),
    StableHlo.unary main_arg4 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S50000x128 ![0, 1] bcast_S1x128_S50000x128_0_1 : (⟨S1x128, .f32⟩ : BufTy).Contents (Elt F) → (⟨S50000x128, .f32⟩ : BufTy).Contents (Elt F)),
    StableHlo.binary main_v31 main_v33 main_v34 (mulf : (⟨S50000x128, .f32⟩ : BufTy).Contents (Elt F) → (⟨S50000x128, .f32⟩ : BufTy).Contents (Elt F) → (⟨S50000x128, .f32⟩ : BufTy).Contents (Elt F)),
    StableHlo.unary main_arg5 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S50000x128 ![0, 1] bcast_S1x128_S50000x128_0_1 : (⟨S1x128, .f32⟩ : BufTy).Contents (Elt F) → (⟨S50000x128, .f32⟩ : BufTy).Contents (Elt F)),
    StableHlo.binary main_v34 main_v36 main_v37 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v37 : StableHlo.TRef sig ⟨S50000x128, .f32⟩) main_call1.v0 main_call1.v1 maximumf,
    StableHlo.binary main_v38 main_arg6 main_v39 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v39 main_v41 main_v42 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v42 : StableHlo.TRef sig ⟨S50000x128, .f32⟩) main_call2.v0 main_call2.v1 maximumf,
    StableHlo.TRef.nullary main_call3.cst (constant S_ .f32 0x00000000#32),
    StableHlo.TRef.unary main_call3.cst main_call3.v0 (broadcastInDim S50000x128 ![] bcast_S_S50000x128),
    StableHlo.TRef.binary (.of main_v43 : StableHlo.TRef sig ⟨S50000x128, .f32⟩) main_call3.v0 main_call3.v1 maximumf,
    StableHlo.nullary main_c_5 (constantI S_ 32 0#32),
    StableHlo.unary main_c_5 main_v45 (broadcastInDim S800000 ![] bcast_S_S800000 : (⟨S_, .i32⟩ : BufTy).Contents (Elt F) → (⟨S800000, .i32⟩ : BufTy).Contents (Elt F)),
    StableHlo.binary main_v1 main_v45 main_v46 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v47 (broadcastInDim S800000 ![] bcast_S_S800000 : (⟨S_, .i32⟩ : BufTy).Contents (Elt F) → (⟨S800000, .i32⟩ : BufTy).Contents (Elt F)),
    StableHlo.binary main_v1 main_v47 main_v48 (addi : (⟨S800000, .i32⟩ : BufTy).Contents (Elt F) → (⟨S800000, .i32⟩ : BufTy).Contents (Elt F) → (⟨S800000, .i32⟩ : BufTy).Contents (Elt F)),
    StableHlo.ternary main_v46 main_v48 main_v1 main_v49 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v49 main_v50 (broadcastInDim S800000x1 ![0] bcast_S800000_S800000x1_0 : (⟨S800000, .i32⟩ : BufTy).Contents (Elt F) → (⟨S800000x1, .i32⟩ : BufTy).Contents (Elt F)),
    StableHlo.binary main_v44 main_v50 main_v51 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_7 (constant S_ .f32 0x00000000#32),
    StableHlo.unary main_cst_7 main_v52 (broadcastInDim S50000x128 ![] bcast_S_S50000x128 : (⟨S_, .f32⟩ : BufTy).Contents (Elt F) → (⟨S50000x128, .f32⟩ : BufTy).Contents (Elt F)),
    StableHlo.unary main_v3 main_v53 (broadcastInDim S800000x1 ![0] bcast_S800000_S800000x1_0 : (⟨S800000, .i32⟩ : BufTy).Contents (Elt F) → (⟨S800000x1, .i32⟩ : BufTy).Contents (Elt F)),
    StableHlo.ternary main_v52 main_v53 main_v51 main_v54 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v44 main_v54 main_v55 (addf : (⟨S50000x128, .f32⟩ : BufTy).Contents (Elt F) → (⟨S50000x128, .f32⟩ : BufTy).Contents (Elt F) → (⟨S50000x128, .f32⟩ : BufTy).Contents (Elt F)),
    StableHlo.binary main_v55 main_arg8 main_v56 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S50000x128 ![0, 1] bcast_S1x128_S50000x128_0_1 : (⟨S1x128, .f32⟩ : BufTy).Contents (Elt F) → (⟨S50000x128, .f32⟩ : BufTy).Contents (Elt F)),
    StableHlo.binary main_v56 main_v58 main_v59 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x00000000#32),
    StableHlo.binary main_v59 main_cst_8 main_v60 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v61 (broadcastInDim S128 ![] bcast_S_S128 : (⟨S_, .f32⟩ : BufTy).Contents (Elt F) → (⟨S128, .f32⟩ : BufTy).Contents (Elt F)),
    StableHlo.binary main_v60 main_v61 main_v62 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call4.cst (constant S_ .f32 0x00000000#32),
    StableHlo.TRef.binary (.of main_v59 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v59 : StableHlo.TRef sig ⟨S50000x128, .f32⟩) main_call4.v4 main_call4.v5 subf,
    StableHlo.TRef.binary main_call4.v5 main_call4.v5 main_call4.v6 mulf,
    StableHlo.TRef.unary (.of main_c_10 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v62 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v59 main_v65 main_v66 (subf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v67 (broadcastInDim S128 ![] bcast_S_S128 : (⟨S_, .f32⟩ : BufTy).Contents (Elt F) → (⟨S128, .f32⟩ : BufTy).Contents (Elt F)),
    StableHlo.binary main_v63 main_v67 main_v68 (addf : (⟨S128, .f32⟩ : BufTy).Contents (Elt F) → (⟨S128, .f32⟩ : BufTy).Contents (Elt F) → (⟨S128, .f32⟩ : BufTy).Contents (Elt F)),
    StableHlo.unary main_v68 main_v69 (Host.rsqrt : (⟨S128, .f32⟩ : BufTy).Contents (Elt F) → (⟨S128, .f32⟩ : BufTy).Contents (Elt F)),
    StableHlo.unary main_v69 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S50000x128 ![0, 1] bcast_S1x128_S50000x128_0_1 : (⟨S1x128, .f32⟩ : BufTy).Contents (Elt F) → (⟨S50000x128, .f32⟩ : BufTy).Contents (Elt F)),
    StableHlo.binary main_v66 main_v71 main_v72 (mulf : (⟨S50000x128, .f32⟩ : BufTy).Contents (Elt F) → (⟨S50000x128, .f32⟩ : BufTy).Contents (Elt F) → (⟨S50000x128, .f32⟩ : BufTy).Contents (Elt F)),
    StableHlo.unary main_arg10 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S50000x128 ![0, 1] bcast_S1x128_S50000x128_0_1 : (⟨S1x128, .f32⟩ : BufTy).Contents (Elt F) → (⟨S50000x128, .f32⟩ : BufTy).Contents (Elt F)),
    StableHlo.binary main_v72 main_v74 main_v75 (mulf : (⟨S50000x128, .f32⟩ : BufTy).Contents (Elt F) → (⟨S50000x128, .f32⟩ : BufTy).Contents (Elt F) → (⟨S50000x128, .f32⟩ : BufTy).Contents (Elt F)),
    StableHlo.unary main_arg11 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S50000x128 ![0, 1] bcast_S1x128_S50000x128_0_1 : (⟨S1x128, .f32⟩ : BufTy).Contents (Elt F) → (⟨S50000x128, .f32⟩ : BufTy).Contents (Elt F)),
    StableHlo.binary main_v75 main_v77 main_v78 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v78 : StableHlo.TRef sig ⟨S50000x128, .f32⟩) main_call5.v0 main_call5.v1 maximumf,
    StableHlo.binary main_v79 main_arg12 main_v80 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg13 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v80 main_v82 main_v83 (addf : (⟨S50000x128, .f32⟩ : BufTy).Contents (Elt F) → (⟨S50000x128, .f32⟩ : BufTy).Contents (Elt F) → (⟨S50000x128, .f32⟩ : BufTy).Contents (Elt F)),
    StableHlo.TRef.nullary main_call6.cst (constant S_ .f32 0x00000000#32),
    StableHlo.TRef.unary main_call6.cst main_call6.v0 (broadcastInDim S50000x128 ![] bcast_S_S50000x128),
    StableHlo.TRef.binary (.of main_v83 : StableHlo.TRef sig ⟨S50000x128, .f32⟩) main_call6.v0 main_call6.v1 maximumf,
    StableHlo.binary main_v84 main_arg14 main_v85 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg15 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S50000x128 ![0, 1] bcast_S1x128_S50000x128_0_1 : (⟨S1x128, .f32⟩ : BufTy).Contents (Elt F) → (⟨S50000x128, .f32⟩ : BufTy).Contents (Elt F)),
    StableHlo.binary main_v85 main_v87 main_v88 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v88 : StableHlo.TRef sig ⟨S50000x128, .f32⟩) main_call7.v0 main_call7.v1 maximumf,
    StableHlo.binary main_v89 main_arg16 main_v90 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    StableHlo.unary main_arg17 main_v91 (broadcastInDim S1x40 ![1] bcast_S40_S1x40_1 : (⟨S40, .f32⟩ : BufTy).Contents (Elt F) → (⟨S1x40, .f32⟩ : BufTy).Contents (Elt F)),
    StableHlo.unary main_v91 main_v92 (broadcastInDim S50000x40 ![0, 1] bcast_S1x40_S50000x40_0_1 : (⟨S1x40, .f32⟩ : BufTy).Contents (Elt F) → (⟨S50000x40, .f32⟩ : BufTy).Contents (Elt F)),
    StableHlo.binary main_v90 main_v92 main_v93 (addf : (⟨S50000x40, .f32⟩ : BufTy).Contents (Elt F) → (⟨S50000x40, .f32⟩ : BufTy).Contents (Elt F) → (⟨S50000x40, .f32⟩ : BufTy).Contents (Elt F)),
    StableHlo.TRef.nullary main_call8.cst (constant S_ .f32 0xFF800000#32),
    StableHlo.TRef.binary (.of main_v93 : StableHlo.TRef sig ⟨S50000x40, .f32⟩) main_call8.cst main_call8.v0 (fun x v => Host.reduce FloatOps.maximumf x v reducesTo_S50000x40_S50000_d1 h_S_),
    StableHlo.TRef.nullary main_call8.cst_0 (constant S_ .f32 0xFF800000#32),
    StableHlo.TRef.unary main_call8.cst_0 main_call8.v1 (broadcastInDim S50000 ![] bcast_S_S50000),
    StableHlo.TRef.binary main_call8.v1 main_call8.v0 main_call8.v2 maximumf,
    StableHlo.TRef.unary main_call8.v2 main_call8.v3 (broadcastInDim S50000x1 ![0] bcast_S50000_S50000x1_0),
    StableHlo.TRef.unary main_call8.v3 main_call8.v4 (broadcastInDim S50000x40 ![0, 1] bcast_S50000x1_S50000x40_0_1),
    StableHlo.TRef.binary (.of main_v93 : StableHlo.TRef sig ⟨S50000x40, .f32⟩) main_call8.v4 main_call8.v5 subf,
    StableHlo.TRef.unary main_call8.v5 main_call8.v6 Host.exp,
    StableHlo.TRef.nullary main_call8.cst_1 (constant S_ .f32 0x00000000#32),
    StableHlo.TRef.binary main_call8.v6 main_call8.cst_1 main_call8.v7 (fun x v => Host.reduceAdd x v reducesTo_S50000x40_S50000_d1 h_S_),
    StableHlo.TRef.unary main_call8.v7 main_call8.v8 (broadcastInDim S50000x1 ![0] bcast_S50000_S50000x1_0),
    StableHlo.TRef.unary main_call8.v8 main_call8.v9 Host.log,
    StableHlo.TRef.unary main_call8.v9 main_call8.v10 (broadcastInDim S50000x40 ![0, 1] bcast_S50000x1_S50000x40_0_1),
    StableHlo.TRef.binary main_call8.v5 main_call8.v10 main_call8.v11 subf ]

-- 177 steps of sequencing computed on each side: deeper than the default recursion and reduction budgets
set_option maxRecDepth 8192 in
set_option maxHeartbeats 4000000 in
/-- @main is that line: both sides are one chain of operation steps once the called functions' bodies are
    unfolded at their calls and sequencing is computed. -/
theorem main_eq (c : Dev nD) : main (F := F) c = seq ops := rfl

end Cert.ReferenceIdeal.RefRun

end
-- ==== Proof.RefRun.lean ====
/- The reference program's run: every weakly fair execution of its @main terminates, and leaves every buffer at
   the fold of the 177 operations' results over the launch contents; the eighteen argument arrays, which no operation
   writes, are left as they were. -/
import proofs.«125030_j49014166782120_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., binary_bufs_sub .., binary_bufs_sub .., unary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

/-- Every operation of the line determines what it writes. -/
theorem ops_fresh : ∀ op ∈ (ops : List (HloOp τ sig (Elt F))), op.fresh = ∅ :=
  List.forall_iff_forall_mem.1 (show (ops : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl⟩)

/-- The eighteen argument arrays. -/
abbrev args : List (Ref sig .tc) :=
  [main_arg0, main_arg1, main_arg2, main_arg3, main_arg4, main_arg5, main_arg6, main_arg7, main_arg8,
   main_arg9, main_arg10, main_arg11, main_arg12, main_arg13, main_arg14, main_arg15, main_arg16, main_arg17]

/-- An operation whose one written buffer is not an argument writes no argument. -/
theorem not_arg_of {op : HloOp τ sig (Elt F)} {y : Ref sig .tc} (hw : op.writes = {Proc.devRef .tc y}) (hy : y ∉ args) :
    ∀ r ∈ args, Proc.devRef (τ := τ) .tc r ∉ op.writes := by
  intro r hr h
  rw [hw, Finset.mem_singleton] at h
  exact hy (Proc.devRef_injective _ h ▸ hr)

/-- No operation of the line writes an argument: each writes the one buffer of its own value. -/
theorem ops_not_arg : (ops : List (HloOp τ sig (Elt F))).Forall fun op => ∀ r ∈ args, Proc.devRef (τ := τ) .tc r ∉ op.writes :=
  ⟨not_arg_of (y := main_v0) rfl (by decide), not_arg_of (y := main_v1) rfl (by decide), not_arg_of (y := main_v2) rfl (by decide),
    not_arg_of (y := main_v3) rfl (by decide), not_arg_of (y := main_c) rfl (by decide), not_arg_of (y := main_v4) rfl (by decide),
    not_arg_of (y := main_v5) rfl (by decide), not_arg_of (y := main_c_0) rfl (by decide), not_arg_of (y := main_v6) rfl (by decide),
    not_arg_of (y := main_v7) rfl (by decide), not_arg_of (y := main_v8) rfl (by decide), not_arg_of (y := main_v9) rfl (by decide),
    not_arg_of (y := main_v10) rfl (by decide), not_arg_of (y := main_cst) rfl (by decide), not_arg_of (y := main_v11) rfl (by decide),
    not_arg_of (y := main_v12) rfl (by decide), not_arg_of (y := main_v13) rfl (by decide), not_arg_of (y := main_v14) rfl (by decide),
    not_arg_of (y := main_v15) rfl (by decide), not_arg_of (y := main_v16) rfl (by decide), not_arg_of (y := main_v17) rfl (by decide),
    not_arg_of (y := main_v18) rfl (by decide), not_arg_of (y := main_cst_1) rfl (by decide), not_arg_of (y := main_v19) rfl (by decide),
    not_arg_of (y := main_cst_2) rfl (by decide), not_arg_of (y := main_v20) rfl (by decide), not_arg_of (y := main_v21) rfl (by decide),
    not_arg_of (y := main_c_3) rfl (by decide), not_arg_of (y := main_call0.cst.ref) rfl (by decide), not_arg_of (y := main_call0.v0.ref) rfl (by decide),
    not_arg_of (y := main_call0.v1.ref) rfl (by decide), not_arg_of (y := main_call0.cst_0.ref) rfl (by decide), not_arg_of (y := main_call0.v2.ref) rfl (by decide),
    not_arg_of (y := main_call0.v3.ref) rfl (by decide), not_arg_of (y := main_call0.v4.ref) rfl (by decide), not_arg_of (y := main_call0.v5.ref) rfl (by decide),
    not_arg_of (y := main_call0.v6.ref) rfl (by decide), not_arg_of (y := main_call0.v7.ref) rfl (by decide), not_arg_of (y := main_call0.cst_1.ref) rfl (by decide),
    not_arg_of (y := main_call0.v8.ref) rfl (by decide), not_arg_of (y := main_call0.cst_2.ref) rfl (by decide), not_arg_of (y := main_call0.v9.ref) rfl (by decide),
    not_arg_of (y := main_call0.v10.ref) rfl (by decide), not_arg_of (y := main_call0.v11.ref) rfl (by decide), not_arg_of (y := main_call0.cst_3.ref) rfl (by decide),
    not_arg_of (y := main_call0.v12.ref) rfl (by decide), not_arg_of (y := main_call0.cst_4.ref) rfl (by decide), not_arg_of (y := main_call0.call0.v0.ref) rfl (by decide),
    not_arg_of (y := main_call0.call0.v1.ref) rfl (by decide), not_arg_of (y := main_call0.call0.v2.ref) rfl (by decide), not_arg_of (y := main_v23) rfl (by decide),
    not_arg_of (y := main_v24) rfl (by decide), not_arg_of (y := main_v25) rfl (by decide), not_arg_of (y := main_cst_4) rfl (by decide),
    not_arg_of (y := main_v26) rfl (by decide), not_arg_of (y := main_v27) rfl (by decide), not_arg_of (y := main_v28) rfl (by decide),
    not_arg_of (y := main_v29) rfl (by decide), not_arg_of (y := main_v30) rfl (by decide), not_arg_of (y := main_v31) rfl (by decide),
    not_arg_of (y := main_v32) rfl (by decide), not_arg_of (y := main_v33) rfl (by decide), not_arg_of (y := main_v34) rfl (by decide),
    not_arg_of (y := main_v35) rfl (by decide), not_arg_of (y := main_v36) rfl (by decide), not_arg_of (y := main_v37) rfl (by decide),
    not_arg_of (y := main_call1.cst.ref) rfl (by decide), not_arg_of (y := main_call1.v0.ref) rfl (by decide), not_arg_of (y := main_call1.v1.ref) rfl (by decide),
    not_arg_of (y := main_v39) rfl (by decide), not_arg_of (y := main_v40) rfl (by decide), not_arg_of (y := main_v41) rfl (by decide),
    not_arg_of (y := main_v42) rfl (by decide), not_arg_of (y := main_call2.cst.ref) rfl (by decide), not_arg_of (y := main_call2.v0.ref) rfl (by decide),
    not_arg_of (y := main_call2.v1.ref) rfl (by decide), not_arg_of (y := main_call3.cst.ref) rfl (by decide), not_arg_of (y := main_call3.v0.ref) rfl (by decide),
    not_arg_of (y := main_call3.v1.ref) rfl (by decide), not_arg_of (y := main_c_5) rfl (by decide), not_arg_of (y := main_v45) rfl (by decide),
    not_arg_of (y := main_v46) rfl (by decide), not_arg_of (y := main_c_6) rfl (by decide), not_arg_of (y := main_v47) rfl (by decide),
    not_arg_of (y := main_v48) rfl (by decide), not_arg_of (y := main_v49) rfl (by decide), not_arg_of (y := main_v50) rfl (by decide),
    not_arg_of (y := main_v51) rfl (by decide), not_arg_of (y := main_cst_7) rfl (by decide), not_arg_of (y := main_v52) rfl (by decide),
    not_arg_of (y := main_v53) rfl (by decide), not_arg_of (y := main_v54) rfl (by decide), not_arg_of (y := main_v55) rfl (by decide),
    not_arg_of (y := main_v56) rfl (by decide), not_arg_of (y := main_v57) rfl (by decide), not_arg_of (y := main_v58) rfl (by decide),
    not_arg_of (y := main_v59) rfl (by decide), not_arg_of (y := main_cst_8) rfl (by decide), not_arg_of (y := main_v60) rfl (by decide),
    not_arg_of (y := main_cst_9) rfl (by decide), not_arg_of (y := main_v61) rfl (by decide), not_arg_of (y := main_v62) rfl (by decide),
    not_arg_of (y := main_c_10) rfl (by decide), not_arg_of (y := main_call4.cst.ref) rfl (by decide), not_arg_of (y := main_call4.v0.ref) rfl (by decide),
    not_arg_of (y := main_call4.v1.ref) rfl (by decide), not_arg_of (y := main_call4.cst_0.ref) rfl (by decide), not_arg_of (y := main_call4.v2.ref) rfl (by decide),
    not_arg_of (y := main_call4.v3.ref) rfl (by decide), not_arg_of (y := main_call4.v4.ref) rfl (by decide), not_arg_of (y := main_call4.v5.ref) rfl (by decide),
    not_arg_of (y := main_call4.v6.ref) rfl (by decide), not_arg_of (y := main_call4.v7.ref) rfl (by decide), not_arg_of (y := main_call4.cst_1.ref) rfl (by decide),
    not_arg_of (y := main_call4.v8.ref) rfl (by decide), not_arg_of (y := main_call4.cst_2.ref) rfl (by decide), not_arg_of (y := main_call4.v9.ref) rfl (by decide),
    not_arg_of (y := main_call4.v10.ref) rfl (by decide), not_arg_of (y := main_call4.v11.ref) rfl (by decide), not_arg_of (y := main_call4.cst_3.ref) rfl (by decide),
    not_arg_of (y := main_call4.v12.ref) rfl (by decide), not_arg_of (y := main_call4.cst_4.ref) rfl (by decide), not_arg_of (y := main_call4.call0.v0.ref) rfl (by decide),
    not_arg_of (y := main_call4.call0.v1.ref) rfl (by decide), not_arg_of (y := main_call4.call0.v2.ref) rfl (by decide), not_arg_of (y := main_v64) rfl (by decide),
    not_arg_of (y := main_v65) rfl (by decide), not_arg_of (y := main_v66) rfl (by decide), not_arg_of (y := main_cst_11) rfl (by decide),
    not_arg_of (y := main_v67) rfl (by decide), not_arg_of (y := main_v68) rfl (by decide), not_arg_of (y := main_v69) rfl (by decide),
    not_arg_of (y := main_v70) rfl (by decide), not_arg_of (y := main_v71) rfl (by decide), not_arg_of (y := main_v72) rfl (by decide),
    not_arg_of (y := main_v73) rfl (by decide), not_arg_of (y := main_v74) rfl (by decide), not_arg_of (y := main_v75) rfl (by decide),
    not_arg_of (y := main_v76) rfl (by decide), not_arg_of (y := main_v77) rfl (by decide), not_arg_of (y := main_v78) rfl (by decide),
    not_arg_of (y := main_call5.cst.ref) rfl (by decide), not_arg_of (y := main_call5.v0.ref) rfl (by decide), not_arg_of (y := main_call5.v1.ref) rfl (by decide),
    not_arg_of (y := main_v80) rfl (by decide), not_arg_of (y := main_v81) rfl (by decide), not_arg_of (y := main_v82) rfl (by decide),
    not_arg_of (y := main_v83) rfl (by decide), not_arg_of (y := main_call6.cst.ref) rfl (by decide), not_arg_of (y := main_call6.v0.ref) rfl (by decide),
    not_arg_of (y := main_call6.v1.ref) rfl (by decide), not_arg_of (y := main_v85) rfl (by decide), not_arg_of (y := main_v86) rfl (by decide),
    not_arg_of (y := main_v87) rfl (by decide), not_arg_of (y := main_v88) rfl (by decide), not_arg_of (y := main_call7.cst.ref) rfl (by decide),
    not_arg_of (y := main_call7.v0.ref) rfl (by decide), not_arg_of (y := main_call7.v1.ref) rfl (by decide), not_arg_of (y := main_v90) rfl (by decide),
    not_arg_of (y := main_v91) rfl (by decide), not_arg_of (y := main_v92) rfl (by decide), not_arg_of (y := main_v93) rfl (by decide),
    not_arg_of (y := main_call8.cst.ref) rfl (by decide), not_arg_of (y := main_call8.v0.ref) rfl (by decide), not_arg_of (y := main_call8.cst_0.ref) rfl (by decide),
    not_arg_of (y := main_call8.v1.ref) rfl (by decide), not_arg_of (y := main_call8.v2.ref) rfl (by decide), not_arg_of (y := main_call8.v3.ref) rfl (by decide),
    not_arg_of (y := main_call8.v4.ref) rfl (by decide), not_arg_of (y := main_call8.v5.ref) rfl (by decide), not_arg_of (y := main_call8.v6.ref) rfl (by decide),
    not_arg_of (y := main_call8.cst_1.ref) rfl (by decide), not_arg_of (y := main_call8.v7.ref) rfl (by decide), not_arg_of (y := main_call8.v8.ref) rfl (by decide),
    not_arg_of (y := main_call8.v9.ref) rfl (by decide), not_arg_of (y := main_call8.v10.ref) rfl (by decide), not_arg_of (y := main_call8.v11.ref) rfl (by decide)⟩

/-- An argument array holds after the line what it held before. -/
theorem arg_keep (V : Valuation τ sig (Elt F)) (r : Ref sig .tc) (hr : r ∈ args) :
    after ops V (Proc.devRef .tc r) = V (Proc.devRef .tc r) :=
  after_of_forall_not_mem ops V fun op hop => List.forall_iff_forall_mem.1 ops_not_arg op hop r hr

/-- On every device, for any float values, from any memory with zero counters: every weakly fair execution of @main
    terminates with every TensorCore buffer at the fold of the operations' results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The same read at the result and at the arguments: the result buffer holds the fold's value there, each argument
    array what it held at launch. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v94) = after ops (launchContents m c) (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨h c main_v94,
      (h c main_arg0).trans (arg_keep _ main_arg0 (by decide)),
      (h c main_arg1).trans (arg_keep _ main_arg1 (by decide)),
      (h c main_arg2).trans (arg_keep _ main_arg2 (by decide)),
      (h c main_arg3).trans (arg_keep _ main_arg3 (by decide)),
      (h c main_arg4).trans (arg_keep _ main_arg4 (by decide)),
      (h c main_arg5).trans (arg_keep _ main_arg5 (by decide)),
      (h c main_arg6).trans (arg_keep _ main_arg6 (by decide)),
      (h c main_arg7).trans (arg_keep _ main_arg7 (by decide)),
      (h c main_arg8).trans (arg_keep _ main_arg8 (by decide)),
      (h c main_arg9).trans (arg_keep _ main_arg9 (by decide)),
      (h c main_arg10).trans (arg_keep _ main_arg10 (by decide)),
      (h c main_arg11).trans (arg_keep _ main_arg11 (by decide)),
      (h c main_arg12).trans (arg_keep _ main_arg12 (by decide)),
      (h c main_arg13).trans (arg_keep _ main_arg13 (by decide)),
      (h c main_arg14).trans (arg_keep _ main_arg14 (by decide)),
      (h c main_arg15).trans (arg_keep _ main_arg15 (by decide)),
      (h c main_arg16).trans (arg_keep _ main_arg16 (by decide)),
      (h c main_arg17).trans (arg_keep _ main_arg17 (by decide))⟩)
    (run_all m ρ)

end Cert.ReferenceIdeal.RefRun

end
-- ==== Proof.RefStages.lean ====
/-
  The reference's array-level stages, each built from the library's host operations in the order the program prints
  them, at the ideal values (extended reals, every operation exact).

  One convolution after the aggregation: a linear layer (a product with a weight matrix plus a bias vector laid along
  every row), the column means and variances over all 50000 rows, the normalisation with its affine map and the
  rectifier, a second linear layer and the rectifier. The head: two linear layers with a rectifier between them and the
  row-wise log-softmax. The variance follows the printed function line by line: the mean as a one-row matrix, the
  deviations, their squares, the column sums, the division by 50000.0 − 0, and the selection against a NaN constant on
  the comparison 50000.0 − 0 > 0.
-/
import proofs.«125030_j49014166782120_1_alg».proof.ReferenceIdeal
import Idealize.ShloMosaic.PureOps.Ideal

noncomputable section

namespace Cert.RefStages

open Idealize.ShloMosaic
open Cert.ReferenceIdeal
open Cert.ReferenceIdeal.Facts₀

variable [Cert.ReferenceIdeal.Facts₀]

/-- The scalar constants the program prints, as rank-0 arrays. -/
def kZero : FVec Ideal S_ .f32 := constant (F := Ideal) S_ .f32 0x00000000#32
def kN : FVec Ideal S_ .f32 := constant (F := Ideal) S_ .f32 0x47435000#32
def kEps : FVec Ideal S_ .f32 := constant (F := Ideal) S_ .f32 0x3727C5AC#32
def kNegInf : FVec Ideal S_ .f32 := constant (F := Ideal) S_ .f32 0xFF800000#32
def kNaN : FVec Ideal S_ .f32 := constant (F := Ideal) S_ .f32 0x7FC00000#32

/-- A 128-vector laid as one row, the row laid along all 50000 rows. -/
def rowsOf (b : FVec Ideal S128 .f32) : FVec Ideal S50000x128 .f32 :=
  broadcastInDim S50000x128 ![0, 1] bcast_S1x128_S50000x128_0_1 (broadcastInDim S1x128 ![1] bcast_S128_S1x128_1 b)

/-- A linear layer: the product with the weight matrix plus the bias along every row. -/
def refLin (a : FVec Ideal S50000x128 .f32) (W : FVec Ideal S128x128 .f32) (b : FVec Ideal S128 .f32) :
    FVec Ideal S50000x128 .f32 :=
  addf (Host.dotGeneral dot_S50000x128_S128x128_S50000x128_1_0_0_1_n_n none a W) (rowsOf b)

/-- The last linear layer, onto 40 columns. -/
def refLinOut (a : FVec Ideal S50000x128 .f32) (W : FVec Ideal S128x40 .f32) (b : FVec Ideal S40 .f32) :
    FVec Ideal S50000x40 .f32 :=
  addf (Host.dotGeneral dot_S50000x128_S128x40_S50000x40_1_0_0_1_n_n none a W)
    (broadcastInDim S50000x40 ![0, 1] bcast_S1x40_S50000x40_0_1 (broadcastInDim S1x40 ![1] bcast_S40_S1x40_1 b))

/-- The column sums over all rows, from a zero. -/
def refColSum (h : FVec Ideal S50000x128 .f32) : FVec Ideal S128 .f32 :=
  Host.reduceAdd h kZero reducesTo_S50000x128_S128_d0 h_S_

/-- The column means: the column sums divided by 50000.0. -/
def refMean (h : FVec Ideal S50000x128 .f32) : FVec Ideal S128 .f32 :=
  Host.divf (refColSum h) (broadcastInDim S128 ![] bcast_S_S128 kN)

/-- The variance function's divisor, 50000.0 minus the integer 0 converted. -/
def refCount : FVec Ideal S_ .f32 :=
  subf kN (sitofp .f32 (constantI S_ 32 0#32))

/-- The variance function's deviations from its own mean (kept as a one-row matrix). -/
def refDev (h : FVec Ideal S50000x128 .f32) : FVec Ideal S50000x128 .f32 :=
  subf h (broadcastInDim S50000x128 ![0, 1] bcast_S1x128_S50000x128_0_1
    (Host.divf (broadcastInDim S1x128 ![1] bcast_S128_S1x128_1 (refColSum h))
      (broadcastInDim S1x128 ![] bcast_S_S1x128 kN)))

/-- The column variances: the column sums of the squared deviations divided by the count, selected against a NaN
    constant on the comparison of the count with zero. -/
def refVar (h : FVec Ideal S50000x128 .f32) : FVec Ideal S128 .f32 :=
  select (broadcastInDim S128 ![] bcast_S_S128 (cmpf .ogt refCount kZero))
    (Host.divf (refColSum (mulf (refDev h) (refDev h))) (broadcastInDim S128 ![] bcast_S_S128 refCount))
    (broadcastInDim S128 ![] bcast_S_S128 kNaN)

/-- The rectifier: the maximum with a zero laid over the whole array. -/
def refRelu (x : FVec Ideal S50000x128 .f32) : FVec Ideal S50000x128 .f32 :=
  maximumf x (broadcastInDim S50000x128 ![] bcast_S_S50000x128 kZero)

/-- The normalisation with its affine map, then the rectifier. -/
def refBnRelu (h : FVec Ideal S50000x128 .f32) (mean var g be : FVec Ideal S128 .f32) : FVec Ideal S50000x128 .f32 :=
  refRelu (addf (mulf (mulf (subf h (rowsOf mean))
    (rowsOf (Host.rsqrt (addf var (broadcastInDim S128 ![] bcast_S_S128 kEps))))) (rowsOf g)) (rowsOf be))

/-- A linear layer followed by the rectifier. -/
def refLinRelu (a : FVec Ideal S50000x128 .f32) (W : FVec Ideal S128x128 .f32) (b : FVec Ideal S128 .f32) :
    FVec Ideal S50000x128 .f32 :=
  refRelu (refLin a W b)

/-- One convolution after the aggregation. -/
def refConv (a : FVec Ideal S50000x128 .f32) (W1 : FVec Ideal S128x128 .f32) (b1 g be : FVec Ideal S128 .f32)
    (W2 : FVec Ideal S128x128 .f32) (b2 : FVec Ideal S128 .f32) : FVec Ideal S50000x128 .f32 :=
  refLinRelu (refBnRelu (refLin a W1 b1) (refMean (refLin a W1 b1)) (refVar (refLin a W1 b1)) g be) W2 b2

/-- The row maxima: the reduction by maximum from -inf along the columns, and the maximum with -inf once more. -/
def refRowMax (l : FVec Ideal S50000x40 .f32) : FVec Ideal S50000 .f32 :=
  maximumf (broadcastInDim S50000 ![] bcast_S_S50000 kNegInf)
    (Host.reduce FloatOps.maximumf l kNegInf reducesTo_S50000x40_S50000_d1 h_S_)

/-- A 50000-vector laid as a column, the column laid along all 40 columns. -/
def colsOf (v : FVec Ideal S50000 .f32) : FVec Ideal S50000x1 .f32 :=
  broadcastInDim S50000x1 ![0] bcast_S50000_S50000x1_0 v

/-- The entries less their row's maximum. -/
def refShifted (l : FVec Ideal S50000x40 .f32) : FVec Ideal S50000x40 .f32 :=
  subf l (broadcastInDim S50000x40 ![0, 1] bcast_S50000x1_S50000x40_0_1 (colsOf (refRowMax l)))

/-- The row-wise log-softmax: the shifted entries less the logarithm of the row sums of their exponentials. -/
def refLogSoftmax (l : FVec Ideal S50000x40 .f32) : FVec Ideal S50000x40 .f32 :=
  subf (refShifted l) (broadcastInDim S50000x40 ![0, 1] bcast_S50000x1_S50000x40_0_1
    (Host.log (colsOf (Host.reduceAdd (Host.exp (refShifted l)) kZero reducesTo_S50000x40_S50000_d1 h_S_))))

/-- The classifier head. -/
def refHead (z : FVec Ideal S50000x128 .f32) (Wl1 : FVec Ideal S128x128 .f32) (bl1 : FVec Ideal S128 .f32)
    (Wl2 : FVec Ideal S128x40 .f32) (bl2 : FVec Ideal S40 .f32) : FVec Ideal S50000x40 .f32 :=
  refLogSoftmax (refLinOut (refLinRelu z Wl1 bl1) Wl2 bl2)

/-- The whole network in the program's dataflow: the aggregation applied to the input and to the first convolution's
    output after one more rectifier. -/
def refModel (agg : FVec Ideal S50000x128 .f32 → FVec Ideal S50000x128 .f32) (x : FVec Ideal S50000x128 .f32)
    (W1a : FVec Ideal S128x128 .f32) (b1a g1 be1 : FVec Ideal S128 .f32) (W2a : FVec Ideal S128x128 .f32)
    (b2a : FVec Ideal S128 .f32)
    (W1b : FVec Ideal S128x128 .f32) (b1b g2 be2 : FVec Ideal S128 .f32) (W2b : FVec Ideal S128x128 .f32)
    (b2b : FVec Ideal S128 .f32)
    (Wl1 : FVec Ideal S128x128 .f32) (bl1 : FVec Ideal S128 .f32) (Wl2 : FVec Ideal S128x40 .f32)
    (bl2 : FVec Ideal S40 .f32) : FVec Ideal S50000x40 .f32 :=
  refHead (refConv (agg (refRelu (refConv (agg x) W1a b1a g1 be1 W2a b2a))) W1b b1b g2 be2 W2b b2b) Wl1 bl1 Wl2 bl2

end Cert.RefStages

end
-- ==== Proof.Spec.lean ====
/-
  The mathematics both programs compute, on the extended reals, written over explicit row and column coordinates.

  A graph-isomorphism network of two convolutions and a classifier head, on N = 50000 nodes with 128 features:
  each convolution aggregates the neighbours' rows into every node's row (`A`, the same gather and scatter-add of
  the edge list in both programs, carried here as one function), applies a linear layer, normalises every column by
  its batch mean and variance over all N rows, applies the affine map and the rectifier, a second linear layer and
  the rectifier; the head is two linear layers with a rectifier between them and a row-wise log-softmax.

  The two programs differ in ONE formula: the kernel computes a column's variance as the mean of the squares minus
  the square of the mean (`varK`), the reference as the mean of the squared deviations from the mean (`varR`).
  On real entries the two agree; on the extended reals they need not, so the equality is proved for real arguments.
-/
import Idealize.ShloMosaic.PureOps.Ideal
import Idealize.ShloMosaic.Lib.ValueIdx

noncomputable section

namespace Cert.Spec

open Idealize.ShloMosaic

/-- A matrix and a row, as functions of explicit coordinates. -/
abbrev Mat (R C : ℕ) : Type := Fin R → Fin C → EReal
abbrev Row (C : ℕ) : Type := Fin C → EReal

/-- The float literals both programs print, kept as their words: 50000.0, f32(1e-5), 0.0 and -inf. -/
def cN : EReal := Ideal.ofBits .f32 0x47435000#32
def cEps : EReal := Ideal.ofBits .f32 0x3727C5AC#32
def cZero : EReal := Ideal.ofBits .f32 0x00000000#32
def cNegInf : EReal := Ideal.ofBits .f32 0xFF800000#32

/-- A linear layer: entry (p, j) of `a · W + b`. -/
def lin {R K M : ℕ} (a : Mat R K) (W : Mat K M) (b : Row M) : Mat R M :=
  fun p j => (∑ k : Fin K, a p k * W k j) + b j

/-- A column's sum, and the sum of its squares, over all rows. -/
def csum {R C : ℕ} (h : Mat R C) : Row C := fun j => ∑ p : Fin R, h p j
def csumsq {R C : ℕ} (h : Mat R C) : Row C := fun j => ∑ p : Fin R, h p j * h p j

/-- A column's mean: its sum divided by 50000.0. -/
def meanOf {R C : ℕ} (h : Mat R C) : Row C := fun j => Ideal.div (csum h j) cN

/-- The kernel's variance: the mean of the squares minus the square of the mean. -/
def varK {R C : ℕ} (h : Mat R C) : Row C :=
  fun j => Ideal.div (csumsq h j) cN - meanOf h j * meanOf h j

/-- The reference's variance: the mean of the squared deviations from the mean. -/
def varR {R C : ℕ} (h : Mat R C) : Row C :=
  fun j => Ideal.div (∑ p : Fin R, (h p j - meanOf h j) * (h p j - meanOf h j)) cN

/-- Batch normalisation with the affine map, then the rectifier. -/
def bnrelu {R C : ℕ} (h : Mat R C) (mean var g be : Row C) : Mat R C :=
  fun p j => max (((h p j - mean j) * Ideal.rsqrt (var j + cEps)) * g j + be j) cZero

/-- A linear layer followed by the rectifier. -/
def linrelu {R K M : ℕ} (a : Mat R K) (W : Mat K M) (b : Row M) : Mat R M :=
  fun p j => max (lin a W b p j) cZero

/-- One convolution after the aggregation, with the variance formula `var` left open. -/
def convWith {R C : ℕ} (var : Mat R C → Row C) (a : Mat R C) (W1 : Mat C C) (b1 g be : Row C) (W2 : Mat C C) (b2 : Row C) : Mat R C :=
  linrelu (bnrelu (lin a W1 b1) (meanOf (lin a W1 b1)) (var (lin a W1 b1)) g be) W2 b2

/-- A row's maximum, folded from -inf. -/
def rowMax {R C : ℕ} (l : Mat R C) : Fin R → EReal :=
  fun p => (Finset.univ : Finset (Fin C)).fold max cNegInf (fun j => l p j)

/-- The row-wise log-softmax: `(l − max) − log Σ exp (l − max)`. -/
def logSoftmax {R C : ℕ} (l : Mat R C) : Mat R C :=
  fun p j => (l p j - rowMax l p) - Ideal.log (∑ j' : Fin C, Ideal.exp (l p j' - rowMax l p))

/-- The classifier head. -/
def head {R C M : ℕ} (z : Mat R C) (Wl1 : Mat C C) (bl1 : Row C) (Wl2 : Mat C M) (bl2 : Row M) : Mat R M :=
  logSoftmax (lin (linrelu z Wl1 bl1) Wl2 bl2)

/-- The kernel's network: `A` is the neighbour aggregation `x ↦ x + segment_sum (x[src], dst)`. -/
def modelK {R C M : ℕ} (A : Mat R C → Mat R C) (x : Mat R C)
    (W1a : Mat C C) (b1a g1 be1 : Row C) (W2a : Mat C C) (b2a : Row C)
    (W1b : Mat C C) (b1b g2 be2 : Row C) (W2b : Mat C C) (b2b : Row C)
    (Wl1 : Mat C C) (bl1 : Row C) (Wl2 : Mat C M) (bl2 : Row M) : Mat R M :=
  head (convWith varK (A (convWith varK (A x) W1a b1a g1 be1 W2a b2a)) W1b b1b g2 be2 W2b b2b) Wl1 bl1 Wl2 bl2

/-- The reference's network: the other variance formula, and one more rectifier after the first convolution. -/
def modelR {R C M : ℕ} (A : Mat R C → Mat R C) (x : Mat R C)
    (W1a : Mat C C) (b1a g1 be1 : Row C) (W2a : Mat C C) (b2a : Row C)
    (W1b : Mat C C) (b1b g2 be2 : Row C) (W2b : Mat C C) (b2b : Row C)
    (Wl1 : Mat C C) (bl1 : Row C) (Wl2 : Mat C M) (bl2 : Row M) : Mat R M :=
  head (convWith varR (A (fun p j => max (convWith varR (A x) W1a b1a g1 be1 W2a b2a p j) cZero)) W1b b1b g2 be2 W2b b2b) Wl1 bl1 Wl2 bl2

/-- Every entry is a real number. -/
def IsReal {R C : ℕ} (h : Mat R C) : Prop := ∀ p j, ∃ r : ℝ, h p j = (r : EReal)
def IsRealRow {C : ℕ} (b : Row C) : Prop := ∀ j, ∃ r : ℝ, b j = (r : EReal)

end Cert.Spec

end
-- ==== Proof.SpecLaw.lean ====
/-
  The algebra on the extended reals behind the common specification: the float constants as extended reals,
  the coercion of the reals through finite sums and maxima, the equality of the two variance formulas on real
  entries, that every stage of a convolution keeps real entries real, and from these the equality of the two
  networks on real data.
-/
import proofs.«125030_j49014166782120_1_alg».proof.Proof.Spec

noncomputable section

namespace Cert.Spec

open Idealize.ShloMosaic

theorem cN_eq : cN = ((50000 : ℝ) : EReal) := by
  simp [cN, Ideal.ofBits, Ideal.ieee, -EReal.coe_mul]; norm_num

theorem cZero_eq : cZero = 0 := by
  simp [cZero, Ideal.ofBits, Ideal.ieee]

theorem cNegInf_eq : cNegInf = ⊥ := by
  simp [cNegInf, Ideal.ofBits, Ideal.ieee]

theorem cEps_pos : ∃ e : ℝ, 0 < e ∧ cEps = (e : EReal) := by
  refine ⟨_, ?_, by simp [cEps, Ideal.ofBits, Ideal.ieee, -EReal.coe_mul]; rfl⟩
  positivity

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On a real matrix of 50000 rows the two variance formulas agree:
    Σh²/N − (Σh/N)² = Σ(h − Σh/N)²/N, with N the number of rows. -/
theorem varK_eq_varR {C : ℕ} (h : Mat 50000 C) (hh : IsReal h) : varK h = varR h := by
  choose f hf using hh
  have e : h = fun p j => (f p j : EReal) := by funext p j; exact hf p j
  subst e
  funext j
  have hN : (50000 : ℝ) ≠ 0 := by norm_num
  simp only [varK, varR, meanOf, csum, csumsq, cN_eq, Ideal.div_coe hN]
  simp only [← EReal.coe_mul, ← coe_sum, ← EReal.coe_sub]
  congr 1
  have key : ∀ m : ℝ, ∑ p : Fin 50000, (f p j - m) * (f p j - m)
      = (∑ p : Fin 50000, f p j * f p j) - 2 * m * (∑ p : Fin 50000, f p j) + 50000 * (m * m) := by
    intro m
    have : ∀ p : Fin 50000, (f p j - m) * (f p j - m) = f p j * f p j - 2 * m * f p j + m * m := by
      intro p; ring
    simp only [this, Finset.sum_add_distrib, Finset.sum_sub_distrib, ← Finset.mul_sum, Finset.sum_const,
      Finset.card_univ, Fintype.card_fin, nsmul_eq_mul]
    push_cast; ring
  rw [key]
  ring

/-- The coercion of the reals into the extended reals commutes with the maximum. -/
theorem coe_max (x y : ℝ) : ((max x y : ℝ) : EReal) = max (x : EReal) (y : EReal) :=
  EReal.coe_strictMono.monotone.map_max

/-- A linear layer of real data is real. -/
theorem isReal_lin {R K M : ℕ} {a : Mat R K} {W : Mat K M} {b : Row M}
    (ha : IsReal a) (hW : IsReal W) (hb : IsRealRow b) : IsReal (lin a W b) := by
  choose fa hfa using ha
  choose fW hfW using hW
  choose fb hfb using hb
  intro p j
  refine ⟨(∑ k, fa p k * fW k j) + fb j, ?_⟩
  simp only [lin, hfa, hfW, hfb, EReal.coe_add, coe_sum, EReal.coe_mul]

/-- A linear layer of real data followed by the rectifier is real. -/
theorem isReal_linrelu {R K M : ℕ} {a : Mat R K} {W : Mat K M} {b : Row M}
    (ha : IsReal a) (hW : IsReal W) (hb : IsRealRow b) : IsReal (linrelu a W b) := by
  intro p j
  obtain ⟨r, hr⟩ := isReal_lin ha hW hb p j
  exact ⟨max r 0, by simp only [linrelu, hr, cZero_eq, coe_max, EReal.coe_zero]⟩

/-- The column means of a real matrix are real. -/
theorem isRealRow_meanOf {R C : ℕ} {h : Mat R C} (hh : IsReal h) : IsRealRow (meanOf h) := by
  choose f hf using hh
  intro j
  have hN : (50000 : ℝ) ≠ 0 := by norm_num
  refine ⟨(∑ p, f p j) * (1 / 50000), ?_⟩
  simp only [meanOf, csum, cN_eq, Ideal.div_coe hN, hf, EReal.coe_mul, coe_sum]

/-- The mean of the squared deviations of a real column is a real number and is not negative. -/
theorem varR_real_nonneg {R C : ℕ} {h : Mat R C} (hh : IsReal h) (j : Fin C) :
    ∃ r : ℝ, 0 ≤ r ∧ varR h j = (r : EReal) := by
  obtain ⟨m, hm⟩ := isRealRow_meanOf hh j
  choose f hf using hh
  have hN : (50000 : ℝ) ≠ 0 := by norm_num
  refine ⟨(∑ p, (f p j - m) * (f p j - m)) * (1 / 50000), ?_, ?_⟩
  · apply mul_nonneg
    · exact Finset.sum_nonneg (fun p _ => mul_self_nonneg _)
    · norm_num
  · simp only [varR, hm, cN_eq, Ideal.div_coe hN, hf, EReal.coe_mul, coe_sum, EReal.coe_sub]

/-- The reciprocal square root of a non-negative real plus the positive constant is real. -/
theorem rsqrt_real {r : ℝ} (hr : 0 ≤ r) : ∃ s : ℝ, Ideal.rsqrt ((r : EReal) + cEps) = (s : EReal) := by
  obtain ⟨e, he, hce⟩ := cEps_pos
  have hpos : 0 < r + e := by linarith
  refine ⟨(Real.sqrt (r + e))⁻¹, ?_⟩
  rw [hce, ← EReal.coe_add, Ideal.rsqrt_coe, if_neg (not_lt.mpr hpos.le), if_neg hpos.ne']

/-- Batch normalisation of real data with a real scale factor is real. -/
theorem isReal_bnrelu {R C : ℕ} {h : Mat R C} {mean var g be : Row C} (hh : IsReal h) (hm : IsRealRow mean)
    (hv : ∀ j, ∃ s : ℝ, Ideal.rsqrt (var j + cEps) = (s : EReal)) (hg : IsRealRow g) (hbe : IsRealRow be) :
    IsReal (bnrelu h mean var g be) := by
  choose f hf using hh
  choose m hm using hm
  choose s hs using hv
  choose gg hg using hg
  choose bb hbe using hbe
  intro p j
  refine ⟨max (((f p j - m j) * s j) * gg j + bb j) 0, ?_⟩
  simp only [bnrelu, hf, hm, hs, hg, hbe, cZero_eq, coe_max, EReal.coe_add, EReal.coe_mul, EReal.coe_sub,
    EReal.coe_zero]

/-- One convolution with the reference's variance, on real data, is real. -/
theorem isReal_convWith_varR {C : ℕ} (a : Mat 50000 C) (W1 : Mat C C) (b1 g be : Row C) (W2 : Mat C C) (b2 : Row C)
    (ha : IsReal a) (hW1 : IsReal W1) (hb1 : IsRealRow b1) (hg : IsRealRow g) (hbe : IsRealRow be)
    (hW2 : IsReal W2) (hb2 : IsRealRow b2) : IsReal (convWith varR a W1 b1 g be W2 b2) := by
  have hl := isReal_lin ha hW1 hb1
  unfold convWith
  refine isReal_linrelu (isReal_bnrelu hl (isRealRow_meanOf hl) (fun j => ?_) hg hbe) hW2 hb2
  obtain ⟨r, hr0, hr⟩ := varR_real_nonneg hl j
  rw [hr]; exact rsqrt_real hr0

/-- On real data one convolution is the same with either variance formula. -/
theorem convWith_varK_eq {C : ℕ} (a : Mat 50000 C) (W1 : Mat C C) (b1 g be : Row C) (W2 : Mat C C) (b2 : Row C)
    (ha : IsReal a) (hW1 : IsReal W1) (hb1 : IsRealRow b1) (hg : IsRealRow g) (hbe : IsRealRow be)
    (hW2 : IsReal W2) (hb2 : IsRealRow b2) :
    convWith varK a W1 b1 g be W2 b2 = convWith varR a W1 b1 g be W2 b2 := by
  unfold convWith
  rw [varK_eq_varR (lin a W1 b1) (isReal_lin ha hW1 hb1)]

/-- The two networks agree on real data: each convolution is the same with either variance formula, and the
    reference's extra rectifier acts on a value that is already rectified. -/
theorem model_eq {C M : ℕ} (A : Mat 50000 C → Mat 50000 C) (hA : ∀ y, IsReal y → IsReal (A y))
    (x : Mat 50000 C) (hx : IsReal x)
    (W1a : Mat C C) (b1a g1 be1 : Row C) (W2a : Mat C C) (b2a : Row C)
    (W1b : Mat C C) (b1b g2 be2 : Row C) (W2b : Mat C C) (b2b : Row C)
    (Wl1 : Mat C C) (bl1 : Row C) (Wl2 : Mat C M) (bl2 : Row M)
    (hW1a : IsReal W1a) (hb1a : IsRealRow b1a) (hg1 : IsRealRow g1) (hbe1 : IsRealRow be1)
    (hW2a : IsReal W2a) (hb2a : IsRealRow b2a)
    (hW1b : IsReal W1b) (hb1b : IsRealRow b1b) (hg2 : IsRealRow g2) (hbe2 : IsRealRow be2)
    (hW2b : IsReal W2b) (hb2b : IsRealRow b2b) :
    modelK A x W1a b1a g1 be1 W2a b2a W1b b1b g2 be2 W2b b2b Wl1 bl1 Wl2 bl2
      = modelR A x W1a b1a g1 be1 W2a b2a W1b b1b g2 be2 W2b b2b Wl1 bl1 Wl2 bl2 := by
  have h1 : convWith varK (A x) W1a b1a g1 be1 W2a b2a = convWith varR (A x) W1a b1a g1 be1 W2a b2a :=
    convWith_varK_eq (A x) W1a b1a g1 be1 W2a b2a (hA x hx) hW1a hb1a hg1 hbe1 hW2a hb2a
  have hz : IsReal (convWith varR (A x) W1a b1a g1 be1 W2a b2a) :=
    isReal_convWith_varR (A x) W1a b1a g1 be1 W2a b2a (hA x hx) hW1a hb1a hg1 hbe1 hW2a hb2a
  have h2 : (fun p j => max (convWith varR (A x) W1a b1a g1 be1 W2a b2a p j) cZero)
      = convWith varR (A x) W1a b1a g1 be1 W2a b2a := by
    funext p j
    simp only [convWith, linrelu, max_assoc, max_self]
  unfold modelK modelR
  rw [h1, h2, convWith_varK_eq _ W1b b1b g2 be2 W2b b2b (hA _ hz) hW1b hb1b hg2 hbe2 hW2b hb2b]

end Cert.Spec

end
-- ==== Proof.PreReal.lean ====
/-
  From the precondition to real entries. The precondition is the conjunction, over the float arguments, of
  "every entry has absolute value below +∞"; on the extended reals that says every entry is a real number.
  Each conjunct is read back from its reduction by `and`, and the element test is decided by cases on the
  extended real: at ±∞ the absolute value is +∞, which is not below +∞.
-/
import proofs.«125030_j49014166782120_1_alg».proof.Defs
import proofs.«125030_j49014166782120_1_alg».proof.Proof.Gen.Pre_finite_inputs
import proofs.«125030_j49014166782120_1_alg».proof.Proof.Spec
import Idealize.ShloMosaic.Lib.ReduceAll

noncomputable section

namespace Cert.PreReal

open Idealize.ShloMosaic Idealize.SL.Sem

instance : Subsingleton Cert.Pre_finite_inputs.S_.Idx := ⟨fun a b => funext fun d => d.elim0⟩

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  have hT : Ideal.ofBits .f32 0x7F800000#32 = ⊤ := by simp [Ideal.ofBits, Ideal.ieee]
  rw [hT] at h
  induction x using EReal.rec with
  | bot => simp [Ideal.cmp] at h
  | coe r => exact ⟨r, rfl⟩
  | top => simp [Ideal.cmp] at h

/-- An array all of whose entries pass the test `|x| < +∞` has only real entries. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32)
    (e : Host.reduce IntOp.andi
      (cmpf .olt (Host.absf x) (broadcastInDim s ![] hb (constant (F := Ideal) Cert.Pre_finite_inputs.S_ .f32 0x7F800000#32)))
      (constantI Cert.Pre_finite_inputs.S_ 1 1#1) hr hu ValueIdx.ix0 = 1#1) :
    ∀ i, ∃ r : ℝ, (x : s.Idx → EReal) i = (r : EReal) := fun i =>
  real_of_abs_lt _ (Host.reduce_andi_all _ _ hr hu ValueIdx.ix0 e i)

/-- The conjunction of two one-bit scalars is 1 exactly when both are. -/
theorem andi_ix0 (x y : IVec Cert.Pre_finite_inputs.S_ 1) :
    andi x y ValueIdx.ix0 = 1#1 ↔ x ValueIdx.ix0 = 1#1 ∧ y ValueIdx.ix0 = 1#1 := IntOp.andi_eq_one

/-- Under the precondition every entry of every float argument is a real number. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0) : Cert.KernelIdeal.S50000x128.Idx → EReal) i = (r : EReal))
    ∧ (∀ i, ∃ r : ℝ, (m ((c.tc : Thread Cert.KernelIdeal.nD Cert.KernelIdeal.τ).loc Cert.KernelIdeal.main_arg2) : Cert.KernelIdeal.S128x128.Idx → EReal) i = (r : EReal))
    ∧ (∀ i, ∃ r : ℝ, (m ((c.tc : Thread Cert.KernelIdeal.nD Cert.KernelIdeal.τ).loc Cert.KernelIdeal.main_arg3) : Cert.KernelIdeal.S128.Idx → EReal) i = (r : EReal))
    ∧ (∀ i, ∃ r : ℝ, (m ((c.tc : Thread Cert.KernelIdeal.nD Cert.KernelIdeal.τ).loc Cert.KernelIdeal.main_arg4) : Cert.KernelIdeal.S128.Idx → EReal) i = (r : EReal))
    ∧ (∀ i, ∃ r : ℝ, (m ((c.tc : Thread Cert.KernelIdeal.nD Cert.KernelIdeal.τ).loc Cert.KernelIdeal.main_arg5) : Cert.KernelIdeal.S128.Idx → EReal) i = (r : EReal))
    ∧ (∀ i, ∃ r : ℝ, (m ((c.tc : Thread Cert.KernelIdeal.nD Cert.KernelIdeal.τ).loc Cert.KernelIdeal.main_arg6) : Cert.KernelIdeal.S128x128.Idx → EReal) i = (r : EReal))
    ∧ (∀ i, ∃ r : ℝ, (m ((c.tc : Thread Cert.KernelIdeal.nD Cert.KernelIdeal.τ).loc Cert.KernelIdeal.main_arg7) : Cert.KernelIdeal.S128.Idx → EReal) i = (r : EReal))
    ∧ (∀ i, ∃ r : ℝ, (m ((c.tc : Thread Cert.KernelIdeal.nD Cert.KernelIdeal.τ).loc Cert.KernelIdeal.main_arg8) : Cert.KernelIdeal.S128x128.Idx → EReal) i = (r : EReal))
    ∧ (∀ i, ∃ r : ℝ, (m ((c.tc : Thread Cert.KernelIdeal.nD Cert.KernelIdeal.τ).loc Cert.KernelIdeal.main_arg9) : Cert.KernelIdeal.S128.Idx → EReal) i = (r : EReal))
    ∧ (∀ i, ∃ r : ℝ, (m ((c.tc : Thread Cert.KernelIdeal.nD Cert.KernelIdeal.τ).loc Cert.KernelIdeal.main_arg10) : Cert.KernelIdeal.S128.Idx → EReal) i = (r : EReal))
    ∧ (∀ i, ∃ r : ℝ, (m ((c.tc : Thread Cert.KernelIdeal.nD Cert.KernelIdeal.τ).loc Cert.KernelIdeal.main_arg11) : Cert.KernelIdeal.S128.Idx → EReal) i = (r : EReal))
    ∧ (∀ i, ∃ r : ℝ, (m ((c.tc : Thread Cert.KernelIdeal.nD Cert.KernelIdeal.τ).loc Cert.KernelIdeal.main_arg12) : Cert.KernelIdeal.S128x128.Idx → EReal) i = (r : EReal))
    ∧ (∀ i, ∃ r : ℝ, (m ((c.tc : Thread Cert.KernelIdeal.nD Cert.KernelIdeal.τ).loc Cert.KernelIdeal.main_arg13) : Cert.KernelIdeal.S128.Idx → EReal) i = (r : EReal))
    ∧ (∀ i, ∃ r : ℝ, (m ((c.tc : Thread Cert.KernelIdeal.nD Cert.KernelIdeal.τ).loc Cert.KernelIdeal.main_arg14) : Cert.KernelIdeal.S128x128.Idx → EReal) i = (r : EReal))
    ∧ (∀ i, ∃ r : ℝ, (m ((c.tc : Thread Cert.KernelIdeal.nD Cert.KernelIdeal.τ).loc Cert.KernelIdeal.main_arg15) : Cert.KernelIdeal.S128.Idx → EReal) i = (r : EReal))
    ∧ (∀ i, ∃ r : ℝ, (m ((c.tc : Thread Cert.KernelIdeal.nD Cert.KernelIdeal.τ).loc Cert.KernelIdeal.main_arg16) : Cert.KernelIdeal.S128x40.Idx → EReal) i = (r : EReal))
    ∧ (∀ i, ∃ r : ℝ, (m ((c.tc : Thread Cert.KernelIdeal.nD Cert.KernelIdeal.τ).loc Cert.KernelIdeal.main_arg17) : Cert.KernelIdeal.S40.Idx → EReal) i = (r : EReal)) := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h0, e17⟩ := (andi_ix0 _ _).1 h0
  obtain ⟨h0, e16⟩ := (andi_ix0 _ _).1 h0
  obtain ⟨h0, e15⟩ := (andi_ix0 _ _).1 h0
  obtain ⟨h0, e14⟩ := (andi_ix0 _ _).1 h0
  obtain ⟨h0, e13⟩ := (andi_ix0 _ _).1 h0
  obtain ⟨h0, e12⟩ := (andi_ix0 _ _).1 h0
  obtain ⟨h0, e11⟩ := (andi_ix0 _ _).1 h0
  obtain ⟨h0, e10⟩ := (andi_ix0 _ _).1 h0
  obtain ⟨h0, e9⟩ := (andi_ix0 _ _).1 h0
  obtain ⟨h0, e8⟩ := (andi_ix0 _ _).1 h0
  obtain ⟨h0, e7⟩ := (andi_ix0 _ _).1 h0
  obtain ⟨h0, e6⟩ := (andi_ix0 _ _).1 h0
  obtain ⟨h0, e5⟩ := (andi_ix0 _ _).1 h0
  obtain ⟨h0, e4⟩ := (andi_ix0 _ _).1 h0
  obtain ⟨h0, e3⟩ := (andi_ix0 _ _).1 h0
  obtain ⟨h0, e2⟩ := (andi_ix0 _ _).1 h0
  exact ⟨real_of_all _ _ _ _ h0,
    real_of_all _ _ _ _ e2,
    real_of_all _ _ _ _ e3,
    real_of_all _ _ _ _ e4,
    real_of_all _ _ _ _ e5,
    real_of_all _ _ _ _ e6,
    real_of_all _ _ _ _ e7,
    real_of_all _ _ _ _ e8,
    real_of_all _ _ _ _ e9,
    real_of_all _ _ _ _ e10,
    real_of_all _ _ _ _ e11,
    real_of_all _ _ _ _ e12,
    real_of_all _ _ _ _ e13,
    real_of_all _ _ _ _ e14,
    real_of_all _ _ _ _ e15,
    real_of_all _ _ _ _ e16,
    real_of_all _ _ _ _ e17⟩

/-- A rank-2 array of real entries, read over its two coordinates, is a real matrix. -/
theorem isReal_cur {R C : ℕ} {X : (⟨2, ![R, C]⟩ : Shape).Idx → EReal} (h : ∀ i, ∃ r : ℝ, X i = (r : EReal)) :
    Cert.Spec.IsReal (fun p j => X (ValueIdx.ix2 p j)) := fun _ _ => h _

/-- A rank-1 array of real entries, read over its coordinate, is a real row. -/
theorem isRealRow_row {C : ℕ} {b : (⟨1, ![C]⟩ : Shape).Idx → EReal} (h : ∀ i, ∃ r : ℝ, b i = (r : EReal)) :
    Cert.Spec.IsRealRow (fun j => b (ValueIdx.ix1 j)) := fun _ => h _

end Cert.PreReal

end
-- ==== Proof.AssemblyCore.lean ====
/-
  The assembly of the certificate's claims from its parts, with the parts taken as hypotheses: the neighbour
  aggregation `A` on real matrices, the value the kernel's result array ends at (the kernel's network `modelK` of the
  argument arrays), the reference's run ending at its array-level network `refModel`, and the reading of that network
  at an entry as the reference's network `modelR`.  Under the precondition every float argument has real entries, so
  the two networks agree (the two variance formulas agree on real columns, and the reference's extra rectifier acts
  on a rectified value): both result arrays are `modelR` of the same arguments.
-/
import proofs.«125030_j49014166782120_1_alg».proof.Defs
import proofs.«125030_j49014166782120_1_alg».proof.Proof.KernelP.Frame
import proofs.«125030_j49014166782120_1_alg».proof.Proof.KernelIdealP.Frame
import proofs.«125030_j49014166782120_1_alg».proof.Proof.KRun
import proofs.«125030_j49014166782120_1_alg».proof.Proof.RefRun
import proofs.«125030_j49014166782120_1_alg».proof.Proof.RefStages
import proofs.«125030_j49014166782120_1_alg».proof.Proof.SpecLaw
import proofs.«125030_j49014166782120_1_alg».proof.Proof.PreReal
import proofs.«125030_j49014166782120_1_alg».proof.Proof.Gen.Kernel
import proofs.«125030_j49014166782120_1_alg».proof.Proof.Gen.KernelIdeal
import proofs.«125030_j49014166782120_1_alg».proof.Proof.Gen.ReferenceIdeal
import proofs.«125030_j49014166782120_1_alg».proof.Proof.Gen.Pre_finite_inputs

noncomputable section

namespace Cert.Proof.Parts

open Idealize.ShloMosaic Idealize.SL.Sem Idealize.ShloMosaic.ValueIdx

/-- A rank-2 array over its two coordinates, and a rank-1 array over its coordinate. -/
abbrev cur {R C : ℕ} (X : (⟨2, ![R, C]⟩ : Shape).Idx → EReal) : Cert.Spec.Mat R C := fun p j => X (ix2 p j)
abbrev row {C : ℕ} (b : (⟨1, ![C]⟩ : Shape).Idx → EReal) : Cert.Spec.Row C := fun j => b (ix1 j)

/-! ## The frames -/

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.RefRun.run (F := Ideal) m ρ)
theorem preserves : Cert.preserves_Kernel_KernelIdeal := trivial

/-! ## The two networks of a memory's argument arrays -/

section Values
variable (A : (Cert.KernelIdeal.S2x800000.Idx → BitVec 32) → Cert.Spec.Mat 50000 128 → Cert.Spec.Mat 50000 128)
variable (m : (ℓ : Loc Cert.KernelIdeal.nD Cert.KernelIdeal.τ Cert.KernelIdeal.sig) → Buf (Elt Ideal) ℓ) (c : Dev Cert.KernelIdeal.nD)

/-- The kernel's network of the argument arrays a memory holds on a device. -/
def valK : Cert.Spec.Mat 50000 40 :=
  Cert.Spec.modelK (A (m ((c.tc : Thread Cert.KernelIdeal.nD Cert.KernelIdeal.τ).loc Cert.KernelIdeal.main_arg1)))
      (cur (R := 50000) (C := 128) (m ((c.tc : Thread Cert.KernelIdeal.nD Cert.KernelIdeal.τ).loc Cert.KernelIdeal.main_arg0)))
      (cur (R := 128) (C := 128) (m ((c.tc : Thread Cert.KernelIdeal.nD Cert.KernelIdeal.τ).loc Cert.KernelIdeal.main_arg2)))
      (row (C := 128) (m ((c.tc : Thread Cert.KernelIdeal.nD Cert.KernelIdeal.τ).loc Cert.KernelIdeal.main_arg3)))
      (row (C := 128) (m ((c.tc : Thread Cert.KernelIdeal.nD Cert.KernelIdeal.τ).loc Cert.KernelIdeal.main_arg4)))
      (row (C := 128) (m ((c.tc : Thread Cert.KernelIdeal.nD Cert.KernelIdeal.τ).loc Cert.KernelIdeal.main_arg5)))
      (cur (R := 128) (C := 128) (m ((c.tc : Thread Cert.KernelIdeal.nD Cert.KernelIdeal.τ).loc Cert.KernelIdeal.main_arg6)))
      (row (C := 128) (m ((c.tc : Thread Cert.KernelIdeal.nD Cert.KernelIdeal.τ).loc Cert.KernelIdeal.main_arg7)))
      (cur (R := 128) (C := 128) (m ((c.tc : Thread Cert.KernelIdeal.nD Cert.KernelIdeal.τ).loc Cert.KernelIdeal.main_arg8)))
      (row (C := 128) (m ((c.tc : Thread Cert.KernelIdeal.nD Cert.KernelIdeal.τ).loc Cert.KernelIdeal.main_arg9)))
      (row (C := 128) (m ((c.tc : Thread Cert.KernelIdeal.nD Cert.KernelIdeal.τ).loc Cert.KernelIdeal.main_arg10)))
      (row (C := 128) (m ((c.tc : Thread Cert.KernelIdeal.nD Cert.KernelIdeal.τ).loc Cert.KernelIdeal.main_arg11)))
      (cur (R := 128) (C := 128) (m ((c.tc : Thread Cert.KernelIdeal.nD Cert.KernelIdeal.τ).loc Cert.KernelIdeal.main_arg12)))
      (row (C := 128) (m ((c.tc : Thread Cert.KernelIdeal.nD Cert.KernelIdeal.τ).loc Cert.KernelIdeal.main_arg13)))
      (cur (R := 128) (C := 128) (m ((c.tc : Thread Cert.KernelIdeal.nD Cert.KernelIdeal.τ).loc Cert.KernelIdeal.main_arg14)))
      (row (C := 128) (m ((c.tc : Thread Cert.KernelIdeal.nD Cert.KernelIdeal.τ).loc Cert.KernelIdeal.main_arg15)))
      (cur (R := 128) (C := 40) (m ((c.tc : Thread Cert.KernelIdeal.nD Cert.KernelIdeal.τ).loc Cert.KernelIdeal.main_arg16)))
      (row (C := 40) (m ((c.tc : Thread Cert.KernelIdeal.nD Cert.KernelIdeal.τ).loc Cert.KernelIdeal.main_arg17)))

/-- The reference's network of the same arrays. -/
def valR : Cert.Spec.Mat 50000 40 :=
  Cert.Spec.modelR (A (m ((c.tc : Thread Cert.KernelIdeal.nD Cert.KernelIdeal.τ).loc Cert.KernelIdeal.main_arg1)))
      (cur (R := 50000) (C := 128) (m ((c.tc : Thread Cert.KernelIdeal.nD Cert.KernelIdeal.τ).loc Cert.KernelIdeal.main_arg0)))
      (cur (R := 128) (C := 128) (m ((c.tc : Thread Cert.KernelIdeal.nD Cert.KernelIdeal.τ).loc Cert.KernelIdeal.main_arg2)))
      (row (C := 128) (m ((c.tc : Thread Cert.KernelIdeal.nD Cert.KernelIdeal.τ).loc Cert.KernelIdeal.main_arg3)))
      (row (C := 128) (m ((c.tc : Thread Cert.KernelIdeal.nD Cert.KernelIdeal.τ).loc Cert.KernelIdeal.main_arg4)))
      (row (C := 128) (m ((c.tc : Thread Cert.KernelIdeal.nD Cert.KernelIdeal.τ).loc Cert.KernelIdeal.main_arg5)))
      (cur (R := 128) (C := 128) (m ((c.tc : Thread Cert.KernelIdeal.nD Cert.KernelIdeal.τ).loc Cert.KernelIdeal.main_arg6)))
      (row (C := 128) (m ((c.tc : Thread Cert.KernelIdeal.nD Cert.KernelIdeal.τ).loc Cert.KernelIdeal.main_arg7)))
      (cur (R := 128) (C := 128) (m ((c.tc : Thread Cert.KernelIdeal.nD Cert.KernelIdeal.τ).loc Cert.KernelIdeal.main_arg8)))
      (row (C := 128) (m ((c.tc : Thread Cert.KernelIdeal.nD Cert.KernelIdeal.τ).loc Cert.KernelIdeal.main_arg9)))
      (row (C := 128) (m ((c.tc : Thread Cert.KernelIdeal.nD Cert.KernelIdeal.τ).loc Cert.KernelIdeal.main_arg10)))
      (row (C := 128) (m ((c.tc : Thread Cert.KernelIdeal.nD Cert.KernelIdeal.τ).loc Cert.KernelIdeal.main_arg11)))
      (cur (R := 128) (C := 128) (m ((c.tc : Thread Cert.KernelIdeal.nD Cert.KernelIdeal.τ).loc Cert.KernelIdeal.main_arg12)))
      (row (C := 128) (m ((c.tc : Thread Cert.KernelIdeal.nD Cert.KernelIdeal.τ).loc Cert.KernelIdeal.main_arg13)))
      (cur (R := 128) (C := 128) (m ((c.tc : Thread Cert.KernelIdeal.nD Cert.KernelIdeal.τ).loc Cert.KernelIdeal.main_arg14)))
      (row (C := 128) (m ((c.tc : Thread Cert.KernelIdeal.nD Cert.KernelIdeal.τ).loc Cert.KernelIdeal.main_arg15)))
      (cur (R := 128) (C := 40) (m ((c.tc : Thread Cert.KernelIdeal.nD Cert.KernelIdeal.τ).loc Cert.KernelIdeal.main_arg16)))
      (row (C := 40) (m ((c.tc : Thread Cert.KernelIdeal.nD Cert.KernelIdeal.τ).loc Cert.KernelIdeal.main_arg17)))

/-- Under the precondition the arguments are real, so the two networks agree. -/
theorem valK_eq_valR (hAreal : ∀ ei y, Cert.Spec.IsReal y → Cert.Spec.IsReal (A ei y)) (hpre : Cert.Pre_KernelIdeal m) :
    valK A m c = valR A m c := by
  obtain ⟨r0, r2, r3, r4, r5, r6, r7, r8, r9, r10, r11, r12, r13, r14, r15, r16, r17⟩ := Cert.PreReal.real_of_pre m hpre c
  exact Cert.Spec.model_eq _ (fun y hy => hAreal _ y hy) _ (Cert.PreReal.isReal_cur r0)
    _ _ _ _ _ _ _ _ _ _ _ _ _ _ _ _
    (Cert.PreReal.isReal_cur r2) (Cert.PreReal.isRealRow_row r3) (Cert.PreReal.isRealRow_row r4) (Cert.PreReal.isRealRow_row r5) (Cert.PreReal.isReal_cur r6) (Cert.PreReal.isRealRow_row r7) (Cert.PreReal.isReal_cur r8) (Cert.PreReal.isRealRow_row r9) (Cert.PreReal.isRealRow_row r10) (Cert.PreReal.isRealRow_row r11) (Cert.PreReal.isReal_cur r12) (Cert.PreReal.isRealRow_row r13)

end Values

/-! ## The value claim -/

/-- THE ASSEMBLY. From the parts — the aggregation keeps real matrices real; the kernel's result array ends at
    `modelK` of the arguments; the reference runs to its array-level network, whose aggregation reads as `A` and whose
    entries read as `modelR` — both programs end with the result `modelR` of the arguments and unchanged arguments. -/
theorem algebraic_of
    (A : (Cert.KernelIdeal.S2x800000.Idx → BitVec 32) → Cert.Spec.Mat 50000 128 → Cert.Spec.Mat 50000 128)
    (hAreal : ∀ ei y, Cert.Spec.IsReal y → Cert.Spec.IsReal (A ei y))
    (aggRef : (Cert.ReferenceIdeal.S2x800000.Idx → BitVec 32) → FVec Ideal Cert.ReferenceIdeal.S50000x128 .f32 → FVec Ideal Cert.ReferenceIdeal.S50000x128 .f32)
    (hBridge : ∀ (ei : Cert.ReferenceIdeal.S2x800000.Idx → BitVec 32) (y : FVec Ideal Cert.ReferenceIdeal.S50000x128 .f32) (p : Fin 50000) (j : Fin 128),
      aggRef ei y (ix2 p j) = A ei (cur y) p j)
    (hK : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD)
      (p : Fin 50000) (j : Fin 40),
      (Cert.KernelIdeal.GenP.W10 m ρ c (Proc.devRef .tc Cert.KernelIdeal.main_v52) : Cert.KernelIdeal.S50000x40.Idx → EReal) (ix2 p j) = valK A m c p j)
    (hRef : ∀ (m : (ℓ : Loc Cert.ReferenceIdeal.nD Cert.ReferenceIdeal.τ Cert.ReferenceIdeal.sig) → Buf (Elt Ideal) ℓ) (ρ : Dev Cert.ReferenceIdeal.nD → PrngReg),
      θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v94)
        = Cert.RefStages.refModel (aggRef (m ((c.tc : Thread Cert.ReferenceIdeal.nD Cert.ReferenceIdeal.τ).loc Cert.ReferenceIdeal.main_arg1)))
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10))
          (m ((c.tc : Thread Cert.ReferenceIdeal.nD Cert.ReferenceIdeal.τ).loc Cert.ReferenceIdeal.main_arg11))
          (m ((c.tc : Thread Cert.ReferenceIdeal.nD Cert.ReferenceIdeal.τ).loc Cert.ReferenceIdeal.main_arg12))
          (m ((c.tc : Thread Cert.ReferenceIdeal.nD Cert.ReferenceIdeal.τ).loc Cert.ReferenceIdeal.main_arg13))
          (m ((c.tc : Thread Cert.ReferenceIdeal.nD Cert.ReferenceIdeal.τ).loc Cert.ReferenceIdeal.main_arg14))
          (m ((c.tc : Thread Cert.ReferenceIdeal.nD Cert.ReferenceIdeal.τ).loc Cert.ReferenceIdeal.main_arg15))
          (m ((c.tc : Thread Cert.ReferenceIdeal.nD Cert.ReferenceIdeal.τ).loc Cert.ReferenceIdeal.main_arg16))
          (m ((c.tc : Thread Cert.ReferenceIdeal.nD Cert.ReferenceIdeal.τ).loc Cert.ReferenceIdeal.main_arg17))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)))
    (hRead : ∀ (agg : FVec Ideal Cert.ReferenceIdeal.S50000x128 .f32 → FVec Ideal Cert.ReferenceIdeal.S50000x128 .f32)
      (A' : Cert.Spec.Mat 50000 128 → Cert.Spec.Mat 50000 128)
      (hA : ∀ (y : FVec Ideal Cert.ReferenceIdeal.S50000x128 .f32) (p : Fin 50000) (j : Fin 128), agg y (ix2 p j) = A' (cur y) p j)
      (x : FVec Ideal Cert.ReferenceIdeal.S50000x128 .f32)
      (W1a : FVec Ideal Cert.ReferenceIdeal.S128x128 .f32) (b1a g1 be1 : FVec Ideal Cert.ReferenceIdeal.S128 .f32) (W2a : FVec Ideal Cert.ReferenceIdeal.S128x128 .f32)
      (b2a : FVec Ideal Cert.ReferenceIdeal.S128 .f32)
      (W1b : FVec Ideal Cert.ReferenceIdeal.S128x128 .f32) (b1b g2 be2 : FVec Ideal Cert.ReferenceIdeal.S128 .f32) (W2b : FVec Ideal Cert.ReferenceIdeal.S128x128 .f32)
      (b2b : FVec Ideal Cert.ReferenceIdeal.S128 .f32)
      (Wl1 : FVec Ideal Cert.ReferenceIdeal.S128x128 .f32) (bl1 : FVec Ideal Cert.ReferenceIdeal.S128 .f32) (Wl2 : FVec Ideal Cert.ReferenceIdeal.S128x40 .f32)
      (bl2 : FVec Ideal Cert.ReferenceIdeal.S40 .f32) (p : Fin 50000) (j : Fin 40),
      Cert.RefStages.refModel agg x W1a b1a g1 be1 W2a b2a W1b b1b g2 be2 W2b b2b Wl1 bl1 Wl2 bl2 (ix2 p j)
        = Cert.Spec.modelR A' (cur x) (cur W1a) (row b1a) (row g1) (row be1) (cur W2a) (row b2a)
            (cur W1b) (row b1b) (row g2) (row be2) (cur W2b) (row b2b) (cur Wl1) (row bl1) (cur Wl2) (row bl2) p j) :
    Cert.algebraic_KernelIdeal_ReferenceIdeal := by
  intro m ρ m' ρ' hpre hagree
  refine ⟨fun c => (fun i => valR A m c (i 0) (i 1) : Cert.KernelIdeal.S50000x40.Idx → EReal), ?_, ?_⟩
  · refine (θ_run Cert.KernelIdeal.defs _ _).mono (fun _ h c => ⟨(h c).1.trans ?_, (h c).2⟩)
      (Cert.KernelIdeal.KRun.run_value (F := Ideal) m ρ)
    funext i
    obtain ⟨p, j, rfl⟩ : ∃ p j, i = ix2 p j := ⟨i 0, i 1, eq_ix2 i⟩
    exact (hK m ρ c p j).trans (congrFun (congrFun (valK_eq_valR A m c hAreal hpre) p) j)
  · refine (θ_run Cert.ReferenceIdeal.defs _ _).mono (fun _ h c => ⟨(h c).1.trans ?_, (h c).2⟩) (hRef m' ρ')
    obtain ⟨a0, a1, a2, a3, a4, a5, a6, a7, a8, a9, a10, a11, a12, a13, a14, a15, a16, a17⟩ := hagree c
    rw [a0, a1, a2, a3, a4, a5, a6, a7, a8, a9, a10, a11, a12, a13, a14, a15, a16, a17]
    funext i
    obtain ⟨p, j, rfl⟩ : ∃ p j, i = ix2 p j := ⟨i 0, i 1, eq_ix2 i⟩
    exact hRead _ (A (m ((c.tc : Thread Cert.KernelIdeal.nD Cert.KernelIdeal.τ).loc Cert.KernelIdeal.main_arg1))) (fun y p j => hBridge _ y p j) _ _ _ _ _ _ _ _ _ _ _ _ _ _ _ _ _ p j

/-- The certificate's claim, from the value claim. -/
theorem claim_of (halg : Cert.algebraic_KernelIdeal_ReferenceIdeal) : Cert.Claim :=
  ⟨Cert.Kernel.Gen.facts, Cert.KernelIdeal.Gen.facts, Cert.ReferenceIdeal.Gen.facts, Cert.Pre_finite_inputs.Gen.facts,
    frame_k, frame_ki, frame_ri, preserves, halg⟩

end Cert.Proof.Parts

end
-- ==== Proof.Agg.lean ====
/-
  The neighbour aggregation x ↦ x + segment_sum (x[src], dst), which both programs compute on the host before each
  convolution: from the edge list the source row and the destination row are taken as index columns (a negative source
  index is moved up by N = 50000), the source rows of x are gathered, scattered with accumulation onto zeros at the
  destination rows, and the result is added to x.

  Both programs perform the same operations with the same dimension numbers, so the two aggregations are one function;
  on the extended reals a gathered entry is an entry of x and a scattered entry is a finite sum of gathered entries,
  so the aggregation of a matrix of real numbers is a matrix of real numbers.
-/
import proofs.«125030_j49014166782120_1_alg».proof.KernelIdeal
import proofs.«125030_j49014166782120_1_alg».proof.ReferenceIdeal
import proofs.«125030_j49014166782120_1_alg».proof.Proof.Spec

noncomputable section

namespace Cert.Agg

open Idealize.ShloMosaic

/-! ## The kernel's aggregation -/
section K
open Cert.KernelIdeal Cert.KernelIdeal.Facts₀
variable [Cert.KernelIdeal.Facts₀]

/-- The source indices: row 0 of the edge list, flattened. -/
def srcOf (ei : S2x800000.Idx → BitVec 32) : S800000.Idx → BitVec 32 :=
  shapeCast S800000 (extractStridedSlice S1x800000 ![0, 0] ei slices_S2x800000_S1x800000_0_0) shapeCasts_S1x800000_S800000

/-- The destination indices: row 1 of the edge list, flattened. -/
def dstOf (ei : S2x800000.Idx → BitVec 32) : S800000.Idx → BitVec 32 :=
  shapeCast S800000 (extractStridedSlice S1x800000 ![1, 0] ei slices_S2x800000_S1x800000_1_0) shapeCasts_S1x800000_S800000

/-- x plus the rows of x gathered at the source indices (a negative one moved up by 50000) and accumulated, from
    zeros, at the destination indices. -/
def aggCore (s d : S800000.Idx → BitVec 32) (x : S50000x128.Idx → EReal) : S50000x128.Idx → EReal :=
  addf (F := Ideal) (φ := .f32) x
    (Host.scatterAdd (F := Ideal) (φ := .f32) scatter_S50000x128_S800000x1_S800000x128_1_0_0_1
      (broadcastInDim S50000x128 ![] bcast_S_S50000x128 (constant (F := Ideal) S_ .f32 0x00000000#32))
      (broadcastInDim S800000x1 ![0] bcast_S800000_S800000x1_0 d)
      (Host.gather gather_S50000x128_S800000x1_S800000x128_1_0_n_n_0_1_1128 x
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))

/-- The aggregation along the edge list. -/
def aggK (ei : S2x800000.Idx → BitVec 32) (x : S50000x128.Idx → EReal) : S50000x128.Idx → EReal :=
  aggCore (srcOf ei) (dstOf ei) x

end K

/-! ## The reference's aggregation -/
section R
open Cert.ReferenceIdeal Cert.ReferenceIdeal.Facts₀
variable [Cert.ReferenceIdeal.Facts₀]

/-- The source indices: row 0 of the edge list, flattened. -/
def srcOfR (ei : S2x800000.Idx → BitVec 32) : S800000.Idx → BitVec 32 :=
  shapeCast S800000 (extractStridedSlice S1x800000 ![0, 0] ei slices_S2x800000_S1x800000_0_0) shapeCasts_S1x800000_S800000

/-- The destination indices: row 1 of the edge list, flattened. -/
def dstOfR (ei : S2x800000.Idx → BitVec 32) : S800000.Idx → BitVec 32 :=
  shapeCast S800000 (extractStridedSlice S1x800000 ![1, 0] ei slices_S2x800000_S1x800000_1_0) shapeCasts_S1x800000_S800000

/-- x plus the rows of x gathered at the source indices (a negative one moved up by 50000) and accumulated, from
    zeros, at the destination indices. -/
def aggCoreR (s d : S800000.Idx → BitVec 32) (x : S50000x128.Idx → EReal) : S50000x128.Idx → EReal :=
  addf (F := Ideal) (φ := .f32) x
    (Host.scatterAdd (F := Ideal) (φ := .f32) scatter_S50000x128_S800000x1_S800000x128_1_0_0_1
      (broadcastInDim S50000x128 ![] bcast_S_S50000x128 (constant (F := Ideal) S_ .f32 0x00000000#32))
      (broadcastInDim S800000x1 ![0] bcast_S800000_S800000x1_0 d)
      (Host.gather gather_S50000x128_S800000x1_S800000x128_1_0_n_n_0_1_1128 x
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))

/-- The aggregation along the edge list. -/
def aggR (ei : S2x800000.Idx → BitVec 32) (x : S50000x128.Idx → EReal) : S50000x128.Idx → EReal :=
  aggCoreR (srcOfR ei) (dstOfR ei) x

end R

/-! ## The two are one function -/

section Same
variable [Cert.KernelIdeal.Facts₀] [Cert.ReferenceIdeal.Facts₀]

/-- The reference's shapes and dimension records are the kernel's, literal for literal. -/
theorem srcOfR_eq : srcOfR = srcOf := rfl
theorem dstOfR_eq : dstOfR = dstOf := rfl
theorem aggCoreR_eq : aggCoreR = aggCore := rfl
theorem aggR_eq : aggR = aggK := rfl

end Same

/-! ## The curried form, and realness -/

section Curried
open Cert.KernelIdeal Cert.Spec
variable [Cert.KernelIdeal.Facts₀]

/-- The aggregation over explicit row and column coordinates. -/
def A (ei : S2x800000.Idx → BitVec 32) : Mat 50000 128 → Mat 50000 128 :=
  fun x p j => aggK ei (fun i => x (i 0) (i 1)) (ValueIdx.ix2 p j)

/-- A sum of two real numbers is a real number. -/
theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

/-- A finite sum of real numbers is a real number. -/
theorem real_sum {ι : Type} (S : Finset ι) (f : ι → EReal) (hf : ∀ j, ∃ r : ℝ, f j = (r : EReal)) :
    ∃ r : ℝ, ∑ j ∈ S, f j = (r : EReal) := by
  classical
  induction S using Finset.induction_on with
  | empty => exact ⟨0, by simp⟩
  | insert a S ha ih =>
    rw [Finset.sum_insert ha]
    exact real_add (hf a) ih

/-- The float literal 0.0 is the real number zero. -/
theorem zero_real : ∃ r : ℝ, Ideal.ofBits .f32 0x00000000#32 = (r : EReal) :=
  ⟨0, by simp [Ideal.ofBits, Ideal.ieee]⟩

/-- A gathered entry is an entry of the operand. -/
theorem gather_real {s si t : Shape} {w : Nat} (g : GatherDims s si t) (x : s.Idx → EReal) (idx : IVec si w)
    (hx : ∀ i, ∃ r : ℝ, x i = (r : EReal)) : ∀ j, ∃ r : ℝ, Host.gather g x idx j = (r : EReal) :=
  fun j => hx (g.operandIdx j idx)

/-- An accumulating scatter's entry is the operand's entry plus a finite sum of update entries. -/
theorem scatterAdd_real {s si su : Shape} {w : Nat} (g : ScatterDims s si su) (v : s.Idx → EReal) (idx : IVec si w)
    (upd : su.Idx → EReal) (hv : ∀ i, ∃ r : ℝ, v i = (r : EReal)) (hu : ∀ j, ∃ r : ℝ, upd j = (r : EReal)) :
    ∀ i, ∃ r : ℝ, Host.scatterAdd (F := Ideal) (φ := .f32) g v idx upd i = (r : EReal) := by
  intro i
  have h : Host.scatterAdd (F := Ideal) (φ := .f32) g v idx upd i = Ideal.hostScatterAdd g v idx upd i := rfl
  rw [h]
  unfold Ideal.hostScatterAdd
  exact real_add (hv i) (real_sum _ _ hu)

/-- The zero matrix is real. -/
theorem zeros_real {t : Shape} (hb : (⟨0, ![]⟩ : Shape).BroadcastsInDim t (![] : Fin 0 → Fin t.rank)) :
    ∀ i, ∃ r : ℝ, broadcastInDim t ![] hb (constant (F := Ideal) ⟨0, ![]⟩ .f32 0x00000000#32) i = (r : EReal) := by
  intro i
  unfold broadcastInDim constant
  rw [Ideal.ofBits_def]
  exact zero_real

/-- An elementwise sum of real matrices is real. -/
theorem addf_real {s : Shape} (a b : s.Idx → EReal) (ha : ∀ i, ∃ r : ℝ, a i = (r : EReal))
    (hb : ∀ i, ∃ r : ℝ, b i = (r : EReal)) : ∀ i, ∃ r : ℝ, addf (F := Ideal) (φ := .f32) a b i = (r : EReal) := by
  intro i
  rw [ValueIdx.addf_apply]
  exact real_add (ha i) (hb i)

/-- THE AGGREGATION KEEPS REAL ENTRIES REAL: entry i is x i plus zero plus a finite sum of entries of x. -/
theorem aggCore_real (s d : S800000.Idx → BitVec 32) (x : S50000x128.Idx → EReal)
    (hx : ∀ i, ∃ r : ℝ, x i = (r : EReal)) : ∀ i, ∃ r : ℝ, aggCore s d x i = (r : EReal) := by
  intro i
  unfold aggCore
  exact addf_real _ _ hx (scatterAdd_real _ _ _ _ (zeros_real _) (gather_real _ _ _ hx)) i

theorem aggK_real (ei : S2x800000.Idx → BitVec 32) (x : S50000x128.Idx → EReal)
    (hx : ∀ i, ∃ r : ℝ, x i = (r : EReal)) : ∀ i, ∃ r : ℝ, aggK ei x i = (r : EReal) :=
  aggCore_real (srcOf ei) (dstOf ei) x hx

theorem A_real (ei : S2x800000.Idx → BitVec 32) (y : Mat 50000 128) (hy : IsReal y) : IsReal (A ei y) :=
  fun p j => aggK_real ei (fun i => y (i 0) (i 1)) (fun i => hy (i 0) (i 1)) (ValueIdx.ix2 p j)

end Curried

end Cert.Agg

end
-- ==== Proof.LibSageLayer.lean ====
/-
  One dense graph-convolution layer read at one entry, at the ideal values (extended reals, every operation exact; a
  change of float format is the identity).

  `dense A X Wl Wr b p j` is entry (p, j) of `A Wl + X Wr + b`: the two sums over the contracted coordinate of the
  products, added, plus the bias entry. `kernel_layer_apply`: the two products, each of format-narrowed operands and
  accumulated into a zero splat, added, plus a [1, N] bias row laid along every row, is `dense`. `host_layer_apply`: the
  first product plus the bias vector (laid as one row, then along every row), plus the second product, is `dense` too —
  addition of extended reals is commutative and associative, so the bias may be added before or after the second
  product. `relu_host_apply`, `relu_kernel_apply`: the maximum with a zero (a scalar constant broadcast, or a splat of
  the zero word), read at an entry, is `max · 0`. `rowcast_apply`: a vector cast to a one-row matrix reads, at (0, j),
  the vector at j.
-/
import Idealize.ShloMosaic.Lib.ValueLayout
import Idealize.ShloMosaic.Lib.StackMember
import Idealize.ShloMosaic.Lib.KernelVsHost
import Idealize.ShloMosaic.PureOps.Ideal.Laws
import Idealize.ShloMosaic.Lib.Pipeline.Value

noncomputable section

open scoped BigOperators

namespace Cert.Sage

open Idealize.ShloMosaic Idealize.ShloMosaic.ValueIdx Idealize.ShloMosaic.StackMember

/-- Entry (p, j) of `A Wl + X Wr + b`. -/
def dense {R K N : Nat} (A X : (⟨2, ![R, K]⟩ : Shape).Idx → EReal) (Wl Wr : (⟨2, ![K, N]⟩ : Shape).Idx → EReal) (b : Fin N → EReal) (p : Fin R) (j : Fin N) : EReal :=
  (∑ k : Fin K, A (ix2 p k) * Wl (ix2 k j) + ∑ k : Fin K, X (ix2 p k) * Wr (ix2 k j)) + b j

/-- A plain [R, K] by [K, N] product into a zero accumulator, read at (p, j), whatever the operands' formats: the sum
    over the contracted coordinate of the products. -/
theorem matmul0_apply {R K N : Nat} {φ₁ φ₂ : FTy} (prec : Option ContractPrecision)
    (h : FVec Ideal ⟨2, ![R, K]⟩ φ₁) (w : FVec Ideal ⟨2, ![K, N]⟩ φ₂) (p : Fin R) (j : Fin N) :
    matmul (DotDims.plain R K N) prec h w (constant ⟨2, ![R, N]⟩ .f32 0x00000000#32) (ix2 p j)
      = ∑ k : Fin K, h (ix2 p k) * w (ix2 k j) :=
  (congrFun (matmul_zero_eq_dotGeneral _ prec h w) _).trans (dotGeneral_plain_apply prec h w p j)

/-- A vector laid as one row (axis 1 of a [1, N] matrix), read at (0, j), is the vector at j. -/
theorem broadcastInDim_vecRow_apply {α : Type} {N : Nat} (h1 : (⟨1, ![N]⟩ : Shape).BroadcastsInDim ⟨2, ![1, N]⟩ ![1])
    (bl : (⟨1, ![N]⟩ : Shape).Idx → α) (j : Fin N) :
    broadcastInDim ⟨2, ![1, N]⟩ ![1] h1 bl (ix2 (0 : Fin 1) j) = bl (ix1 j) := by
  refine broadcastInDim_apply ![1] h1 bl (ix2 (0 : Fin 1) j) (ix1 j) ?_
  intro a
  match a with
  | ⟨0, _⟩ =>
    show j.val = if N = 1 then 0 else j.val
    split
    · have := j.isLt; omega
    · rfl

/-- The kernel's layer: the two products of format-narrowed operands into zero accumulators, added, plus the bias row
    laid along every row. The dimension numbers are any record equal to the plain ones. -/
theorem kernel_layer_apply {R K N : Nat} (D : DotDims ⟨2, ![R, K]⟩ ⟨2, ![K, N]⟩ ⟨2, ![R, N]⟩) (hD : D = DotDims.plain R K N)
    (a x : FVec Ideal ⟨2, ![R, K]⟩ .f32) (wl wr : FVec Ideal ⟨2, ![K, N]⟩ .f32) (b : FVec Ideal ⟨2, ![1, N]⟩ .f32)
    (ht : FTy.bits .bf16 < FTy.bits .f32) (hb : (⟨2, ![1, N]⟩ : Shape).Broadcasts ⟨2, ![R, N]⟩) (p : Fin R) (j : Fin N) :
    addf (addf (matmul D none (truncf .bf16 a ht) (truncf .bf16 wl ht) (constant ⟨2, ![R, N]⟩ .f32 0x00000000#32))
               (matmul D none (truncf .bf16 x ht) (truncf .bf16 wr ht) (constant ⟨2, ![R, N]⟩ .f32 0x00000000#32)))
         (broadcastTo ⟨2, ![R, N]⟩ b hb) (ix2 p j)
      = dense a x wl wr (fun j => b (ix2 (0 : Fin 1) j)) p j := by
  subst hD
  rw [addf_apply, addf_apply, broadcastTo_1b_ab_apply, matmul0_apply, matmul0_apply]
  rfl

/-- The host's layer: the first product plus the bias (a vector laid as one row, the row laid along every row), plus
    the second product. The bias is added before the second product here and after it in `dense`; the two sums agree. -/
theorem host_layer_apply {R K N : Nat} (D : DotDims ⟨2, ![R, K]⟩ ⟨2, ![K, N]⟩ ⟨2, ![R, N]⟩) (hD : D = DotDims.plain R K N)
    (A X : FVec Ideal ⟨2, ![R, K]⟩ .f32) (Wl Wr : FVec Ideal ⟨2, ![K, N]⟩ .f32) (bl : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (j : Fin N) :
    addf (addf (Host.dotGeneral D none A Wl) (broadcastInDim ⟨2, ![R, N]⟩ ![0, 1] h2 (broadcastInDim ⟨2, ![1, N]⟩ ![1] h1 bl)))
         (Host.dotGeneral D none X Wr) (ix2 p j)
      = dense A X Wl Wr (fun j => bl (ix1 j)) p j := by
  subst hD
  rw [addf_apply, addf_apply, broadcastInDim_oneRow_apply, broadcastInDim_vecRow_apply, dotGeneral_plain_apply,
    dotGeneral_plain_apply]
  unfold dense
  exact add_right_comm _ _ _

/-- The maximum with a scalar zero constant broadcast to the shape, read at an entry. -/
theorem relu_host_apply {s : Shape} (v : FVec Ideal s .f32) (h : (⟨0, ![]⟩ : Shape).BroadcastsInDim s ![]) (i : s.Idx) :
    maximumf v (broadcastInDim s ![] h (constant (F := Ideal) ⟨0, ![]⟩ .f32 0x00000000#32)) i = max (v i) 0 := by
  rw [maximumf_apply]
  refine congrArg (max (v i)) ?_
  refine (broadcastInDim_apply ![] h (constant (F := Ideal) ⟨0, ![]⟩ .f32 0x00000000#32) i (fun a => a.elim0)
    (fun a => a.elim0)).trans ?_
  rw [constant_apply, Ideal.ofBits_zero_f32]

/-- The maximum with a splat of the zero word, read at an entry. -/
theorem relu_kernel_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- A vector cast to a one-row matrix reads, at (0, j), the vector at j. -/
theorem rowcast_apply {α : Type} {N : Nat} (bl : (⟨1, ![N]⟩ : Shape).Idx → α) (h : (⟨1, ![N]⟩ : Shape).ShapeCasts ⟨2, ![1, N]⟩) (j : Fin N) :
    shapeCast ⟨2, ![1, N]⟩ bl h (ix2 (0 : Fin 1) j) = bl (ix1 j) :=
  shapeCast_apply bl h (ix2 (0 : Fin 1) j) (ix1 j) (by
    rw [Shape.rowMajor_val_two, Shape.rowMajor_val_one]; show j.val = 0 * N + j.val; omega)

end Cert.Sage

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.LibMaxReduce.lean ====
/-
  Maximum reductions read at an index, over the extended reals, as folds of `max` over one coordinate.

  A vector maximum-reduction of an [a, b] array over its rows, at lane q, is the fold of max from the accumulator's
  value over the entries (j, q); the host's reduce with a maximum body over the middle axis of an [a, b, c] array,
  at (n, k), is the fold of max from the initial value over the entries (n, j, k).  Each index with the reduced
  coordinate put back is named by its coordinates, so a proof continues entry by entry.
-/
import Idealize.ShloMosaic.PureOps.Ideal.Laws
import Idealize.ShloMosaic.PureOps.Reduce
import Idealize.ShloMosaic.Lib.ValueIdx

noncomputable section

namespace MaxReduce

open Idealize.ShloMosaic Idealize.ShloMosaic.ValueIdx

variable {a b c : ℕ}

/-- In an [a, b] array reduced over its rows, the reduced index `q` with row `j` put back is (j, q). -/
theorem lift_rows (h : (⟨2, ![a, b]⟩ : Shape).Reduces [0] (⟨1, ![b]⟩ : Shape)) (q : Fin b)
    (j : Fin ((⟨2, ![a, b]⟩ : Shape).size 0)) : h.lift (ix1 q) j = ix2 (⟨j.val, j.isLt⟩ : Fin a) q := by
  funext d; apply Fin.ext
  fin_cases d <;> rfl

/-- A vector maximum-reduction of an [a, b] array over its rows, at lane `q`: the fold of max from the accumulator's
    value over the rows' entries at that lane. -/
theorem multiReduction_max_rows {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (q : Fin b) :
    multiReduction .maximumf [0] (⟨1, ![b]⟩ : Shape) src acc h hφ hacc (ix1 q)
      = (Finset.univ : Finset (Fin a)).fold max (Ideal.ofBits φ acc) fun j => src (ix2 j q) := by
  refine (Ideal.multiReduction_maximumf_single src acc h hφ hacc (ix1 q)).trans ?_
  refine congrArg (fun f => Finset.fold max (Ideal.ofBits φ acc) f (Finset.univ : Finset (Fin a))) ?_
  funext j
  exact congrArg src (lift_rows h q j)

/-- In an [a, b, c] array reduced over its middle axis, the reduced index (n, k) with coordinate `j` put back is
    (n, j, k). -/
theorem lift_mid (h : (⟨3, ![a, b, c]⟩ : Shape).Reduces [1] (⟨2, ![a, c]⟩ : Shape)) (n : Fin a) (k : Fin c)
    (j : Fin ((⟨3, ![a, b, c]⟩ : Shape).size 1)) : h.lift (ix2 n k) j = ix3 n (⟨j.val, j.isLt⟩ : Fin b) k := by
  funext d; apply Fin.ext
  fin_cases d <;> rfl

/-- The host's reduce with a maximum body over the middle axis of an [a, b, c] array, at (n, k): the fold of max
    from the initial value's element over the entries (n, j, k). -/
theorem hostReduce_max_mid {φ : FTy} {u : Shape} (x : FVec Ideal ⟨3, ![a, b, c]⟩ φ) (init : u.Idx → Ideal φ)
    (h' : (⟨3, ![a, b, c]⟩ : Shape).ReducesTo [1] (⟨2, ![a, c]⟩ : Shape))
    (h : (⟨3, ![a, b, c]⟩ : Shape).Reduces [1] (⟨2, ![a, c]⟩ : Shape)) (hu : 0 < u.numel) (n : Fin a) (k : Fin c) :
    Host.reduce FloatOps.maximumf x init h' hu (ix2 n k)
      = (Finset.univ : Finset (Fin b)).fold max (init (Shape.Idx.first hu)) fun j => x (ix3 n j k) := by
  rw [Host.reduce_eq_fold_single FloatOps.maximumf x init h' h hu]
  refine congrArg (fun f => Finset.fold max (init (Shape.Idx.first hu)) f (Finset.univ : Finset (Fin b))) ?_
  funext j
  exact congrArg x (lift_mid h n k j)

end MaxReduce

end
-- ==== Proof.RefRead.lean ====
/-
  The reference's stages read at an index: each array-level stage, at a row and a column, is the specification's
  function of the same arrays written over explicit coordinates.

  The layout operations carry a vector along rows or columns and a scalar everywhere; a product with a weight matrix at
  (p, j) is the sum over the contracted coordinate; a column sum from zero is the sum over the rows; the variance
  function's count 50000.0 − 0 is 50000.0 and is above zero, so its selection takes the quotient.
-/
import proofs.«125030_j49014166782120_1_alg».proof.Proof.RefStages
import proofs.«125030_j49014166782120_1_alg».proof.Proof.Spec
import proofs.«125030_j49014166782120_1_alg».proof.Proof.LibSageLayer
import proofs.«125030_j49014166782120_1_alg».proof.Proof.LibColumnLayout
import proofs.«125030_j49014166782120_1_alg».proof.Proof.LibMaxReduce
import Idealize.ShloMosaic.Lib.IdealHost
import Idealize.ShloMosaic.PureOps.Reduce

noncomputable section

open scoped BigOperators

namespace Cert.RefStages

open Idealize.ShloMosaic Idealize.ShloMosaic.ValueIdx Idealize.ShloMosaic.StackMember
open Cert.ReferenceIdeal
open Cert.ReferenceIdeal.Facts₀

/-- An array over a rank-2 shape as a function of its row and column; a vector as a function of its coordinate. -/
abbrev cur {R C : ℕ} (X : (⟨2, ![R, C]⟩ : Shape).Idx → EReal) : Cert.Spec.Mat R C := fun p j => X (ix2 p j)
abbrev row {C : ℕ} (b : (⟨1, ![C]⟩ : Shape).Idx → EReal) : Cert.Spec.Row C := fun j => b (ix1 j)

/-! ## The constants -/

/-- The word of 50000.0 denotes the real 50000. -/
theorem cN_eq : Cert.Spec.cN = ((50000 : ℝ) : EReal) := by
  unfold Cert.Spec.cN
  simp [Ideal.ofBits, Ideal.ieee, -EReal.coe_mul]; norm_num

theorem cZero_eq : Cert.Spec.cZero = 0 := Ideal.ofBits_zero_f32

/-- Zero is below 50000.0. -/
theorem cZero_lt_cN : Cert.Spec.cZero < Cert.Spec.cN := by
  rw [cN_eq, cZero_eq]
  exact_mod_cast (by norm_num : (0 : ℝ) < 50000)

/-- The word of -inf denotes the bottom element. -/
theorem cNegInf_eq : Cert.Spec.cNegInf = ⊥ := by
  unfold Cert.Spec.cNegInf
  simp [Ideal.ofBits, Ideal.ieee]

variable [Cert.ReferenceIdeal.Facts₀]

theorem kZero_apply (i : S_.Idx) : kZero i = Cert.Spec.cZero := rfl
theorem kN_apply (i : S_.Idx) : kN i = Cert.Spec.cN := rfl
theorem kEps_apply (i : S_.Idx) : kEps i = Cert.Spec.cEps := rfl
theorem kNegInf_apply (i : S_.Idx) : kNegInf i = Cert.Spec.cNegInf := rfl

/-- The count 50000.0 − 0 is 50000.0. -/
theorem refCount_apply (i : S_.Idx) : refCount i = Cert.Spec.cN := by
  unfold refCount
  rw [subf_apply, sitofp_apply, kN_apply]
  show Cert.Spec.cN - (((0#32 : BitVec 32).toInt : ℝ) : EReal) = _
  simp

/-! ## The host's one-operand operations at an index -/

theorem hostRsqrt_apply {s : Shape} (x : FVec Ideal s .f32) (i : s.Idx) : Host.rsqrt x i = Ideal.rsqrt (x i) := rfl
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-! ## The layout operations -/

/-- A vector laid along all rows, at (p, j), is the vector at j. -/
theorem rowsOf_apply (b : FVec Ideal S128 .f32) (p : Fin 50000) (j : Fin 128) : rowsOf b (ix2 p j) = b (ix1 j) := by
  unfold rowsOf
  rw [broadcastInDim_oneRow_apply, Cert.Sage.broadcastInDim_vecRow_apply]

/-! ## The linear layers -/

theorem refLin_apply (a : FVec Ideal S50000x128 .f32) (W : FVec Ideal S128x128 .f32) (b : FVec Ideal S128 .f32)
    (p : Fin 50000) (j : Fin 128) :
    refLin a W b (ix2 p j) = Cert.Spec.lin (cur a) (cur W) (row b) p j := by
  unfold refLin
  rw [addf_apply, rowsOf_apply]
  have hD : dot_S50000x128_S128x128_S50000x128_1_0_0_1_n_n = DotDims.plain 50000 128 128 := rfl
  rw [hD, dotGeneral_plain_apply]
  rfl

theorem refLinOut_apply (a : FVec Ideal S50000x128 .f32) (W : FVec Ideal S128x40 .f32) (b : FVec Ideal S40 .f32)
    (p : Fin 50000) (j : Fin 40) :
    refLinOut a W b (ix2 p j) = Cert.Spec.lin (cur a) (cur W) (row b) p j := by
  unfold refLinOut
  rw [addf_apply, broadcastInDim_oneRow_apply, Cert.Sage.broadcastInDim_vecRow_apply]
  have hD : dot_S50000x128_S128x40_S50000x40_1_0_0_1_n_n = DotDims.plain 50000 128 40 := rfl
  rw [hD, dotGeneral_plain_apply]
  rfl

/-! ## The rectifier -/

theorem refRelu_apply (x : FVec Ideal S50000x128 .f32) (p : Fin 50000) (j : Fin 128) :
    refRelu x (ix2 p j) = max (x (ix2 p j)) Cert.Spec.cZero := by
  unfold refRelu
  rw [maximumf_apply, broadcastInDim_scalar_apply]
  rfl

theorem refLinRelu_apply (a : FVec Ideal S50000x128 .f32) (W : FVec Ideal S128x128 .f32) (b : FVec Ideal S128 .f32)
    (p : Fin 50000) (j : Fin 128) :
    refLinRelu a W b (ix2 p j) = Cert.Spec.linrelu (cur a) (cur W) (row b) p j := by
  unfold refLinRelu
  rw [refRelu_apply, refLin_apply]
  rfl

/-! ## The column sums, means and variances -/

theorem refColSum_apply (h : FVec Ideal S50000x128 .f32) (j : Fin 128) :
    refColSum h (ix1 j) = Cert.Spec.csum (cur h) j := by
  unfold refColSum
  have hR : S50000x128.Reduces [0] S128 := by decide
  rw [hostReduceAdd_apply, Ideal.hostReduceAdd_single reducesTo_S50000x128_S128_d0 hR, kZero_apply, cZero_eq, zero_add]
  exact Finset.sum_congr rfl fun k _ => congrArg h (MaxReduce.lift_rows hR j k)

theorem refMean_apply (h : FVec Ideal S50000x128 .f32) (j : Fin 128) :
    refMean h (ix1 j) = Cert.Spec.meanOf (cur h) j := by
  unfold refMean
  rw [hostDivf_apply, refColSum_apply, broadcastInDim_scalar_apply]
  rfl

/-- The variance function's deviations: the entry less its column's mean. -/
theorem refDev_apply (h : FVec Ideal S50000x128 .f32) (p : Fin 50000) (j : Fin 128) :
    refDev h (ix2 p j) = h (ix2 p j) - Cert.Spec.meanOf (cur h) j := by
  unfold refDev
  rw [subf_apply, broadcastInDim_oneRow_apply, hostDivf_apply, Cert.Sage.broadcastInDim_vecRow_apply, refColSum_apply,
    broadcastInDim_scalar_apply]
  rfl

/-- The comparison of the count with zero answers true. -/
theorem cmp_count :
    FloatOps.cmpf (F := Idealize.ShloMosaic.Ideal) (φ := .f32) .ogt Cert.Spec.cN Cert.Spec.cZero = 1#1 := by
  rw [Ideal.cmpf_def]
  unfold Ideal.cmp
  simp [cZero_lt_cN]

theorem refVar_apply (h : FVec Ideal S50000x128 .f32) (j : Fin 128) :
    refVar h (ix1 j) = Cert.Spec.varR (cur h) j := by
  unfold refVar
  rw [select_apply, broadcastInDim_scalar_apply (x := cmpf .ogt refCount kZero), cmpf_apply, refCount_apply, kZero_apply,
    cmp_count, select_one, hostDivf_apply, broadcastInDim_scalar_apply, refCount_apply, refColSum_apply]
  unfold Cert.Spec.varR Cert.Spec.csum
  refine congrArg (fun s => Ideal.div s Cert.Spec.cN) (Finset.sum_congr rfl fun p _ => ?_)
  show mulf (refDev h) (refDev h) (ix2 p j) = _
  rw [mulf_apply, refDev_apply]

/-! ## The normalisation and one convolution -/

theorem refBnRelu_apply (h : FVec Ideal S50000x128 .f32) (mean var g be : FVec Ideal S128 .f32) (p : Fin 50000)
    (j : Fin 128) :
    refBnRelu h mean var g be (ix2 p j) = Cert.Spec.bnrelu (cur h) (row mean) (row var) (row g) (row be) p j := by
  unfold refBnRelu
  rw [refRelu_apply, addf_apply, mulf_apply, mulf_apply, subf_apply, rowsOf_apply, rowsOf_apply, rowsOf_apply,
    rowsOf_apply, hostRsqrt_apply, addf_apply, broadcastInDim_scalar_apply, kEps_apply]
  rfl

theorem refConv_apply (a : FVec Ideal S50000x128 .f32) (W1 : FVec Ideal S128x128 .f32) (b1 g be : FVec Ideal S128 .f32)
    (W2 : FVec Ideal S128x128 .f32) (b2 : FVec Ideal S128 .f32) (p : Fin 50000) (j : Fin 128) :
    refConv a W1 b1 g be W2 b2 (ix2 p j)
      = Cert.Spec.convWith Cert.Spec.varR (cur a) (cur W1) (row b1) (row g) (row be) (cur W2) (row b2) p j := by
  have e1 : cur (refLin a W1 b1) = Cert.Spec.lin (cur a) (cur W1) (row b1) :=
    funext fun p => funext fun j => refLin_apply a W1 b1 p j
  have e2 : row (refMean (refLin a W1 b1)) = Cert.Spec.meanOf (cur (refLin a W1 b1)) :=
    funext fun j => refMean_apply _ j
  have e3 : row (refVar (refLin a W1 b1)) = Cert.Spec.varR (cur (refLin a W1 b1)) :=
    funext fun j => refVar_apply _ j
  have e4 : cur (refBnRelu (refLin a W1 b1) (refMean (refLin a W1 b1)) (refVar (refLin a W1 b1)) g be)
      = Cert.Spec.bnrelu (cur (refLin a W1 b1)) (row (refMean (refLin a W1 b1))) (row (refVar (refLin a W1 b1)))
          (row g) (row be) :=
    funext fun p => funext fun j => refBnRelu_apply _ _ _ g be p j
  unfold refConv Cert.Spec.convWith
  rw [refLinRelu_apply, e4, e2, e3, e1]

/-! ## The log-softmax and the head -/

/-- A vector laid as a column, at (p, 0), is the vector at p. -/
theorem bcast_col_apply {α : Type} {a : ℕ} (h : (⟨1, ![a]⟩ : Shape).BroadcastsInDim ⟨2, ![a, 1]⟩ ![0])
    (v : (⟨1, ![a]⟩ : Shape).Idx → α) (p : Fin a) (u : Fin 1) :
    broadcastInDim ⟨2, ![a, 1]⟩ ![0] h v (ix2 p u) = v (ix1 p) := by
  refine broadcastInDim_apply ![0] h v (ix2 p u) (ix1 p) ?_
  intro ax
  match ax with
  | ⟨0, _⟩ =>
    show p.val = if a = 1 then 0 else p.val
    split
    · have := p.isLt; omega
    · rfl

/-- A column laid along all columns, at (p, c), is the column at (p, 0). -/
theorem bcast_cols_apply {α : Type} {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ => rfl

/-- In an [a, b] array reduced along its columns, the reduced index p with column k put back is (p, k). -/
theorem lift_cols {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext d; apply Fin.ext
  fin_cases d <;> rfl

theorem colsOf_apply (v : FVec Ideal S50000 .f32) (p : Fin 50000) : colsOf v (ix2 p (0 : Fin 1)) = v (ix1 p) := by
  unfold colsOf
  exact bcast_col_apply _ v p 0

theorem refRowMax_apply (l : FVec Ideal S50000x40 .f32) (p : Fin 50000) :
    refRowMax l (ix1 p) = Cert.Spec.rowMax (cur l) p := by
  unfold refRowMax
  have hR : S50000x40.Reduces [1] S50000 := by decide
  rw [maximumf_apply, broadcastInDim_scalar_apply, kNegInf_apply,
    Host.reduce_eq_fold_single FloatOps.maximumf l kNegInf reducesTo_S50000x40_S50000_d1 hR h_S_]
  have e : (Finset.univ : Finset (Fin (S50000x40.size 1))).fold FloatOps.maximumf (kNegInf (Shape.Idx.first h_S_))
      (l ∘ hR.lift (ix1 p)) = Cert.Spec.rowMax (cur l) p := by
    unfold Cert.Spec.rowMax
    refine congrArg (fun f => Finset.fold max Cert.Spec.cNegInf f (Finset.univ : Finset (Fin 40))) ?_
    funext k
    exact congrArg l (lift_cols hR p k)
  rw [e]
  exact max_eq_right ((Finset.le_fold_max _).mpr (Or.inl le_rfl))

theorem refShifted_apply (l : FVec Ideal S50000x40 .f32) (p : Fin 50000) (j : Fin 40) :
    refShifted l (ix2 p j) = l (ix2 p j) - Cert.Spec.rowMax (cur l) p := by
  unfold refShifted
  rw [subf_apply, bcast_cols_apply, colsOf_apply, refRowMax_apply]

theorem refLogSoftmax_apply (l : FVec Ideal S50000x40 .f32) (p : Fin 50000) (j : Fin 40) :
    refLogSoftmax l (ix2 p j) = Cert.Spec.logSoftmax (cur l) p j := by
  unfold refLogSoftmax
  have hR : S50000x40.Reduces [1] S50000 := by decide
  rw [subf_apply, bcast_cols_apply, refShifted_apply]
  rw [hostLog_apply, colsOf_apply, hostReduceAdd_apply, Ideal.hostReduceAdd_single reducesTo_S50000x40_S50000_d1 hR, kZero_apply,
    cZero_eq, zero_add]
  unfold Cert.Spec.logSoftmax
  refine congrArg (fun s => (l (ix2 p j) - Cert.Spec.rowMax (cur l) p) - Ideal.log s) ?_
  refine Finset.sum_congr rfl fun k _ => ?_
  rw [lift_cols hR p k]
  rw [hostExp_apply, refShifted_apply]
  rfl

theorem refHead_apply (z : FVec Ideal S50000x128 .f32) (Wl1 : FVec Ideal S128x128 .f32) (bl1 : FVec Ideal S128 .f32)
    (Wl2 : FVec Ideal S128x40 .f32) (bl2 : FVec Ideal S40 .f32) (p : Fin 50000) (j : Fin 40) :
    refHead z Wl1 bl1 Wl2 bl2 (ix2 p j) = Cert.Spec.head (cur z) (cur Wl1) (row bl1) (cur Wl2) (row bl2) p j := by
  have e1 : cur (refLinRelu z Wl1 bl1) = Cert.Spec.linrelu (cur z) (cur Wl1) (row bl1) :=
    funext fun p => funext fun j => refLinRelu_apply z Wl1 bl1 p j
  have e2 : cur (refLinOut (refLinRelu z Wl1 bl1) Wl2 bl2)
      = Cert.Spec.lin (cur (refLinRelu z Wl1 bl1)) (cur Wl2) (row bl2) :=
    funext fun p => funext fun j => refLinOut_apply _ Wl2 bl2 p j
  unfold refHead Cert.Spec.head
  rw [refLogSoftmax_apply, e2, e1]

/-! ## The whole network -/

theorem refModel_apply (agg : FVec Ideal S50000x128 .f32 → FVec Ideal S50000x128 .f32)
    (A : Cert.Spec.Mat 50000 128 → Cert.Spec.Mat 50000 128)
    (hA : ∀ (y : FVec Ideal S50000x128 .f32) (p : Fin 50000) (j : Fin 128), agg y (ix2 p j) = A (cur y) p j)
    (x : FVec Ideal S50000x128 .f32)
    (W1a : FVec Ideal S128x128 .f32) (b1a g1 be1 : FVec Ideal S128 .f32) (W2a : FVec Ideal S128x128 .f32)
    (b2a : FVec Ideal S128 .f32)
    (W1b : FVec Ideal S128x128 .f32) (b1b g2 be2 : FVec Ideal S128 .f32) (W2b : FVec Ideal S128x128 .f32)
    (b2b : FVec Ideal S128 .f32)
    (Wl1 : FVec Ideal S128x128 .f32) (bl1 : FVec Ideal S128 .f32) (Wl2 : FVec Ideal S128x40 .f32)
    (bl2 : FVec Ideal S40 .f32) (p : Fin 50000) (j : Fin 40) :
    refModel agg x W1a b1a g1 be1 W2a b2a W1b b1b g2 be2 W2b b2b Wl1 bl1 Wl2 bl2 (ix2 p j)
      = Cert.Spec.modelR A (cur x) (cur W1a) (row b1a) (row g1) (row be1) (cur W2a) (row b2a)
          (cur W1b) (row b1b) (row g2) (row be2) (cur W2b) (row b2b) (cur Wl1) (row bl1) (cur Wl2) (row bl2) p j := by
  have eA : ∀ y : FVec Ideal S50000x128 .f32, cur (agg y) = A (cur y) :=
    fun y => funext fun p => funext fun j => hA y p j
  have eC : ∀ (a : FVec Ideal S50000x128 .f32) (W1 : FVec Ideal S128x128 .f32) (b1 g be : FVec Ideal S128 .f32)
      (W2 : FVec Ideal S128x128 .f32) (b2 : FVec Ideal S128 .f32),
      cur (refConv a W1 b1 g be W2 b2)
        = Cert.Spec.convWith Cert.Spec.varR (cur a) (cur W1) (row b1) (row g) (row be) (cur W2) (row b2) :=
    fun a W1 b1 g be W2 b2 => funext fun p => funext fun j => refConv_apply a W1 b1 g be W2 b2 p j
  have eR : ∀ y : FVec Ideal S50000x128 .f32, cur (refRelu y) = fun p j => max (cur y p j) Cert.Spec.cZero :=
    fun y => funext fun p => funext fun j => refRelu_apply y p j
  unfold refModel Cert.Spec.modelR
  rw [refHead_apply, eC, eA, eR, eC, eA]

end Cert.RefStages

end
-- ==== Proof.KChainBase.lean ====
/-
  Reading the idealized kernel program's run boundary by boundary: the shared tools.

  The run's fold `W0 … W10` holds every buffer's contents at each boundary between a stretch of host operations and a
  pallas_call. A buffer that nothing has written since the launch holds its launch contents (one step per boundary
  below); a host stretch's result buffer holds its operations' term of the buffers before it; a pallas_call's output
  arrays hold what its write-backs leave. Arrays are read at explicit row and column coordinates (`cur`, `row1`).
-/
import proofs.«125030_j49014166782120_1_alg».proof.Proof.KRun
import proofs.«125030_j49014166782120_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KChain

open Idealize.ShloMosaic Idealize.ShloMosaic.TcCoe Idealize.ShloMosaic.Tactic
open Idealize.SL.Sem
open Cert.KernelIdeal Cert.KernelIdeal.Gen Cert.KernelIdeal.GenP
open ValueIdx Cert.Spec

variable (m : (ℓ : Loc nD τ sig) → Buf (Elt Ideal) ℓ) (ρ : Dev nD → PrngReg) (c : Dev nD)

/-- A matrix and a row read at explicit coordinates. -/
abbrev cur {R C : ℕ} (X : (⟨2, ![R, C]⟩ : Shape).Idx → EReal) : Mat R C := fun p j => X (ix2 p j)
abbrev row1 {C : ℕ} (b : (⟨1, ![C]⟩ : Shape).Idx → EReal) : Row C := fun j => b (ix1 j)

/-- An argument array's launch contents on core `c`. -/
abbrev argv (b : Ref sig .tc) : Buf (Elt Ideal) ((c : Thread nD τ).loc b) := m ((c : Thread nD τ).loc b)

/-- A vector recast as a one-row matrix, read at its row. -/
theorem rowcast {n : ℕ} (b : (⟨1, ![n]⟩ : Shape).Idx → EReal) (h : (⟨1, ![n]⟩ : Shape).ShapeCasts ⟨2, ![1, n]⟩) (j : Fin n) :
    shapeCast (⟨2, ![1, n]⟩ : Shape) b h (ix2 0 j) = b (ix1 j) :=
  (shapeCast_addUnit_apply ![n] b h (ix2 0 j)).trans (congrArg b (funext fun a => by match a with | ⟨0, _⟩ => rfl))

/-- A scalar constant spread over an array, read at an entry: the constant's word. -/
theorem bcastConst_apply {s : Shape} (h : S_.BroadcastsInDim s ![]) (w : BitVec 32) (i : s.Idx) :
    broadcastInDim s ![] h (constant (F := Ideal) S_ .f32 w) i = Ideal.ofBits .f32 w :=
  broadcastInDim_apply _ h _ i ix0 (fun a => a.elim0)

/-- An array is its own reading at the coordinates of each index. -/
theorem uncur {R C : ℕ} (X : (⟨2, ![R, C]⟩ : Shape).Idx → EReal) : (fun i => cur X (i 0) (i 1)) = X :=
  funext fun i => congrArg X (eq_ix2 i).symm

/-- An array that agrees with a curried function at every pair of coordinates is that function uncurried. -/
theorem eq_of_cur {R C : ℕ} (X : (⟨2, ![R, C]⟩ : Shape).Idx → EReal) (y : Mat R C) (h : ∀ p j, X (ix2 p j) = y p j) :
    X = fun i => y (i 0) (i 1) :=
  funext fun i => (congrArg X (eq_ix2 i)).trans (h (i 0) (i 1))

/-- Closes `after ops W b = W b` for a literal stretch `ops` none of whose operations writes `b`. -/
macro "host_keep" : tactic => `(tactic| (
  refine StableHlo.after_of_forall_not_mem _ _ (List.forall_iff_forall_mem.mp ?_)
  simp only [hostOps0, hostOps1, hostOps2, hostOps3, hostOps4, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## A buffer nothing has written yet holds its launch contents: one step per boundary -/

theorem a1 (b : Ref sig .tc) (h : StableHlo.after hostOps0 (W0 m ρ c) (Proc.devRef .tc b) = W0 m ρ c (Proc.devRef .tc b)) :
    W1 m ρ c (Proc.devRef .tc b) = m ((c : Thread nD τ).loc b) := h.trans rfl
theorem a2 (b : Ref sig .tc) (hb : ∀ w, Pipeline.arrRef spec0 w ≠ b) (h : W1 m ρ c (Proc.devRef .tc b) = m ((c : Thread nD τ).loc b)) :
    W2 m ρ c (Proc.devRef .tc b) = m ((c : Thread nD τ).loc b) := (W2_of_ne m ρ c b hb).trans h
theorem a3 (b : Ref sig .tc) (h' : StableHlo.after hostOps1 (W2 m ρ c) (Proc.devRef .tc b) = W2 m ρ c (Proc.devRef .tc b))
    (h : W2 m ρ c (Proc.devRef .tc b) = m ((c : Thread nD τ).loc b)) : W3 m ρ c (Proc.devRef .tc b) = m ((c : Thread nD τ).loc b) := h'.trans h
theorem a4 (b : Ref sig .tc) (hb : ∀ w, Pipeline.arrRef spec1 w ≠ b) (h : W3 m ρ c (Proc.devRef .tc b) = m ((c : Thread nD τ).loc b)) :
    W4 m ρ c (Proc.devRef .tc b) = m ((c : Thread nD τ).loc b) := (W4_of_ne m ρ c b hb).trans h
theorem a5 (b : Ref sig .tc) (h' : StableHlo.after hostOps2 (W4 m ρ c) (Proc.devRef .tc b) = W4 m ρ c (Proc.devRef .tc b))
    (h : W4 m ρ c (Proc.devRef .tc b) = m ((c : Thread nD τ).loc b)) : W5 m ρ c (Proc.devRef .tc b) = m ((c : Thread nD τ).loc b) := h'.trans h
theorem a6 (b : Ref sig .tc) (hb : ∀ w, Pipeline.arrRef spec2 w ≠ b) (h : W5 m ρ c (Proc.devRef .tc b) = m ((c : Thread nD τ).loc b)) :
    W6 m ρ c (Proc.devRef .tc b) = m ((c : Thread nD τ).loc b) := (W6_of_ne m ρ c b hb).trans h
theorem a7 (b : Ref sig .tc) (h' : StableHlo.after hostOps3 (W6 m ρ c) (Proc.devRef .tc b) = W6 m ρ c (Proc.devRef .tc b))
    (h : W6 m ρ c (Proc.devRef .tc b) = m ((c : Thread nD τ).loc b)) : W7 m ρ c (Proc.devRef .tc b) = m ((c : Thread nD τ).loc b) := h'.trans h
theorem a8 (b : Ref sig .tc) (hb : ∀ w, Pipeline.arrRef spec3 w ≠ b) (h : W7 m ρ c (Proc.devRef .tc b) = m ((c : Thread nD τ).loc b)) :
    W8 m ρ c (Proc.devRef .tc b) = m ((c : Thread nD τ).loc b) := (W8_of_ne m ρ c b hb).trans h
theorem a9 (b : Ref sig .tc) (h' : StableHlo.after hostOps4 (W8 m ρ c) (Proc.devRef .tc b) = W8 m ρ c (Proc.devRef .tc b))
    (h : W8 m ρ c (Proc.devRef .tc b) = m ((c : Thread nD τ).loc b)) : W9 m ρ c (Proc.devRef .tc b) = m ((c : Thread nD τ).loc b) := h'.trans h

/-- An argument array at each later boundary, in one term: `kN m ρ c arg (by host_keep) (by decide) …` alternates
    the stretches (none writes it) and the pallas_calls (it is none of their output arrays). -/
theorem k1 (b : Ref sig .tc) (h0 : StableHlo.after hostOps0 (W0 m ρ c) (Proc.devRef .tc b) = W0 m ρ c (Proc.devRef .tc b)) :
    W1 m ρ c (Proc.devRef .tc b) = argv m c b := a1 m ρ c b h0

end Cert.KernelIdeal.KChain

end
-- ==== Proof.LibBlockRead.lean ====
/-
  Reading a block at an index given by coordinates: general lemmas over shapes written with literal
  extents and indices written `ix1 … ix4`.  A load through a unit-stride rectangle reads the contents at
  the offset index; a column `[a, 1]` cast to a vector, a leading slice of a stack of matrices, a row or
  a column of a small table taken as a vector, a vector written as one row and spread over the rows of a
  block, a flat vector folded into rows, and the one entry of a vector of length one, each read at an
  index; a product of an `[a, c]` block with a `[c, b]` matrix into the zero accumulator, on the extended
  reals, is at `(n, k)` the sum over the contracted coordinate; the sum over the lanes of an `[a, b]`
  block is at `n` the sum of row `n`; and the minimum over the lanes from `+∞` exceeds `c` exactly when
  `+∞` and every entry of the row do.
-/
import Idealize.ShloMosaic.Lib.ValueLayout
import Idealize.ShloMosaic.PureOps.Ideal.Laws
import Idealize.ShloMosaic.Lib.Pipeline.FrameBody

open Idealize.ShloMosaic Idealize.ShloMosaic.ValueIdx
open scoped BigOperators

namespace Cert.Lib.BlockRead

variable {α : Type}

/-- A load through a unit-stride rectangle reads the contents at the offset index. -/
theorem ld_unit_apply {Val : EltTy → Type} {S : Shape} {e : EltTy} (X : S.Idx → Val e) (off size : Fin S.rank → Nat)
    (inb : ∀ a, off a + size a ≤ S.size a) (y : (Rect.unit off size inb).shape.Idx) (k : S.Idx)
    (hk : ∀ a, (k a).val = off a + (y a).val) : View.ld X (Rect.unit off size inb) y = X k :=
  congrArg X (funext fun a => Fin.ext (by
    rw [hk a]; show off a + 1 * (y a).val = _; rw [Nat.one_mul]))

/-- A column `[a, 1]` cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A stack of matrices cut along its first axis from `o` reads, at `(j, b, c)`, the source at `(k, b, c)`
    with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (c : Fin n2) (k : Fin n0) (hk : k.val = o + j.val) :
    extractStridedSlice ⟨3, ![m, n1, n2]⟩ ![o, 0, 0] X h (ix3 j b c) = X (ix3 k b c) :=
  extractStridedSlice_apply _ _ _ _ _ (fun ax => by
    match ax with
    | ⟨0, _⟩ => exact hk
    | ⟨1, _⟩ => exact (Nat.zero_add _).symm
    | ⟨2, _⟩ => exact (Nat.zero_add _).symm)

/-- A flat vector of `N = a · b` entries folded into `a` rows of `b` reads, at `(p, q)`, the operand at `b p + q`. -/
theorem shapeCast_flat_rows_apply {N a b : ℕ} (x : (⟨1, ![N]⟩ : Shape).Idx → α)
    (h : (⟨1, ![N]⟩ : Shape).ShapeCasts ⟨2, ![a, b]⟩) (p : Fin a) (q : Fin b) (hlt : p.val * b + q.val < N) :
    shapeCast ⟨2, ![a, b]⟩ x h (ix2 p q) = x (ix1 (⟨p.val * b + q.val, hlt⟩ : Fin N)) :=
  shapeCast_apply x h _ _ (by
    rw [Shape.rowMajor_val_two, Shape.rowMajor_val_one]
    rfl)

/-- A flat vector of 4096 folded into 32 rows of 128 reads, at `(p, q)`, the operand at `128 p + q`. -/
theorem shapeCast_4096_32x128_apply (x : (⟨1, ![4096]⟩ : Shape).Idx → α)
    (h : (⟨1, ![4096]⟩ : Shape).ShapeCasts ⟨2, ![32, 128]⟩) (p : Fin 32) (q : Fin 128) :
    shapeCast ⟨2, ![32, 128]⟩ x h (ix2 p q) = x (ix1 (⟨p.val * 128 + q.val, by omega⟩ : Fin 4096)) :=
  shapeCast_flat_rows_apply x h p q _

/-- The one entry of a vector of length one. -/
theorem extractAt_one (x : (⟨1, ![1]⟩ : Shape).Idx → α)
    (h : ∀ a, (![0] : Fin 1 → Nat) a < (⟨1, ![1]⟩ : Shape).size a) :
    extractAt ![0] x h = x (ix1 (0 : Fin 1)) :=
  congrArg x (funext fun a => match a with | ⟨0, _⟩ => rfl)

/-- A vector `[b]` written as one row and spread over `a` rows reads, at `(p, c)`, the vector at `c`. -/
theorem rows_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- Row `o` of a stack of three matrices, as a matrix. -/
theorem mat_of_stack_apply {a b : ℕ} (o : Nat) (ho : o < 3) (w : (⟨3, ![3, a, b]⟩ : Shape).Idx → α)
    (h1 : (⟨3, ![3, a, b]⟩ : Shape).Slices ![o, 0, 0] ⟨3, ![1, a, b]⟩)
    (h2 : (⟨3, ![1, a, b]⟩ : Shape).ShapeCasts ⟨2, ![a, b]⟩) (j : Fin a) (k : Fin b) :
    shapeCast ⟨2, ![a, b]⟩ (extractStridedSlice ⟨3, ![1, a, b]⟩ ![o, 0, 0] w h1) h2 (ix2 j k)
      = w (ix3 (⟨o, ho⟩ : Fin 3) j k) := by
  rw [shapeCast_1ab_ab_apply, slice3_axis0_apply o w h1 (0 : Fin 1) j k ⟨o, ho⟩ rfl]

/-- Row `o` of a table of three rows, as a vector. -/
theorem row_of_table_apply {b : ℕ} (o : Nat) (ho : o < 3) (w : (⟨2, ![3, b]⟩ : Shape).Idx → α)
    (h1 : (⟨2, ![3, b]⟩ : Shape).Slices ![o, 0] ⟨2, ![1, b]⟩)
    (h2 : (⟨2, ![1, b]⟩ : Shape).ShapeCasts ⟨1, ![b]⟩) (k : Fin b) :
    shapeCast ⟨1, ![b]⟩ (extractStridedSlice ⟨2, ![1, b]⟩ ![o, 0] w h1) h2 (ix1 k)
      = w (ix2 (⟨o, ho⟩ : Fin 3) k) := by
  rw [shapeCast_1a_a_apply, slice2_axis0_apply o w h1 (0 : Fin 1) k ⟨o, ho⟩ rfl]

/-- Column `o` of a table of two columns, as a vector. -/
theorem col_of_table_apply {a : ℕ} (o : Nat) (ho : o < 2) (w : (⟨2, ![a, 2]⟩ : Shape).Idx → α)
    (h1 : (⟨2, ![a, 2]⟩ : Shape).Slices ![0, o] ⟨2, ![a, 1]⟩)
    (h2 : (⟨2, ![a, 1]⟩ : Shape).ShapeCasts ⟨1, ![a]⟩) (d : Fin a) :
    shapeCast ⟨1, ![a]⟩ (extractStridedSlice ⟨2, ![a, 1]⟩ ![0, o] w h1) h2 (ix1 d)
      = w (ix2 d (⟨o, ho⟩ : Fin 2)) := by
  rw [shapeCast_a1_a_apply, slice2_axis1_apply o w h1 d (0 : Fin 1) ⟨o, ho⟩ rfl]

/-- A product of an `[a, c]` block with a `[c, b]` matrix (one contracted axis: the block's second, the
    matrix's first) into the zero accumulator reads, at `(n, k)`, the sum over the contracted coordinate. -/
theorem matmul_zero_apply {a b c : ℕ} {φ₁ φ₂ : FTy}
    (D : DotDims ⟨2, ![a, c]⟩ ⟨2, ![c, b]⟩ ⟨2, ![a, b]⟩) (hr : D.contr.rank = 1)
    (hs : D.contr.size ⟨0, by omega⟩ = c)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (lhs : FVec Ideal ⟨2, ![a, c]⟩ φ₁) (rhs : FVec Ideal ⟨2, ![c, b]⟩ φ₂)
    (n : Fin a) (k : Fin b) :
    matmul D prec lhs rhs (constant ⟨2, ![a, b]⟩ .f32 0x00000000#32) (ix2 n k)
      = ∑ d : Fin c, lhs (ix2 n d) * rhs (ix2 d k) := by
  refine (Ideal.matmul_constant_zero_apply D prec lhs rhs (ix2 n k)).trans ?_
  rw [← Equiv.sum_comp (contrEquiv1 D c hr hs).symm]
  refine Finset.sum_congr rfl fun d _ => ?_
  have e := contrEquiv1_symm_val D c hr hs d
  congr 2
  · funext ax
    match ax with
    | ⟨0, _⟩ => exact Fin.ext (hl0 _ _)
    | ⟨1, _⟩ => exact Fin.ext ((hl1 _ _).trans e)
  · funext ax
    match ax with
    | ⟨0, _⟩ => exact Fin.ext ((hr0 _ _).trans e)
    | ⟨1, _⟩ => exact Fin.ext (hr1 _ _)

/-- The sum over the lanes of an `[a, b]` block reads, at `n`, the sum of row `n`. -/
theorem sum_lanes_apply {a b : ℕ} (src : FVec Ideal ⟨2, ![a, b]⟩ .f32)
    (h : (⟨2, ![a, b]⟩ : Shape).Reduces [1] ⟨1, ![a]⟩)
    (hφ : FKind.Formats .f32) (hacc : (0x00000000#32 : BitVec 32) = FKind.add.neutral .f32 hφ) (n : Fin a) :
    multiReduction .add [1] ⟨1, ![a]⟩ src 0x00000000#32 h hφ hacc (ix1 n) = ∑ k : Fin b, src (ix2 n k) := by
  refine (Ideal.multiReduction_add_single src _ h hφ hacc (ix1 n)).trans ?_
  refine Finset.sum_congr rfl fun k _ => congrArg src ?_
  funext ax
  match ax with
  | ⟨0, _⟩ => exact Fin.ext rfl
  | ⟨1, _⟩ => exact Fin.ext rfl

/-- The minimum over the lanes of an `[a, b]` block, from `+∞`, exceeds `c` exactly when `+∞` and every
    entry of the row do. -/
theorem lt_min_lanes_iff {a b : ℕ} (src : FVec Ideal ⟨2, ![a, b]⟩ .f32)
    (h : (⟨2, ![a, b]⟩ : Shape).Reduces [1] ⟨1, ![a]⟩)
    (hφ : FKind.Formats .f32) (hacc : (0x7F800000#32 : BitVec 32) = FKind.minimumf.neutral .f32 hφ) (n : Fin a)
    (c : EReal) :
    c < multiReduction .minimumf [1] ⟨1, ![a]⟩ src 0x7F800000#32 h hφ hacc (ix1 n)
      ↔ c < Ideal.ofBits .f32 0x7F800000#32 ∧ ∀ k : Fin b, c < src (ix2 n k) := by
  rw [multiReduction_minimumf_eq_fold, h.fold_filter_drop_single]
  have e : ∀ k : Fin b, h.lift (ix1 n) k = ix2 n k := fun k => by
    funext ax
    match ax with
    | ⟨0, _⟩ => exact Fin.ext rfl
    | ⟨1, _⟩ => exact Fin.ext rfl
  refine (Finset.lt_fold_min (f := src ∘ h.lift (ix1 n)) (b := Ideal.ofBits .f32 0x7F800000#32)
    (s := Finset.univ) (c := c)).trans ?_
  constructor
  · rintro ⟨h1, h2⟩
    exact ⟨h1, fun k => by
      have := h2 k (Finset.mem_univ _)
      show c < src (ix2 n k)
      rw [← e k]; exact this⟩
  · rintro ⟨h1, h2⟩
    exact ⟨h1, fun k _ => by
      show c < src (h.lift (ix1 n) k)
      rw [e k]; exact h2 k⟩

end Cert.Lib.BlockRead
-- ==== Proof.KStats0.lean ====
/-
  The first call of a convolution: the linear layer of the aggregated features, tile by tile, with the column sums
  of the result and of its squares accumulated over the tiles.

  The 50000 rows are cut into 25 tiles of 2000. At tile `t` the body multiplies the tile of the input by the
  128 × 128 matrix into a zero accumulator and adds the bias row to every row; it writes that tile of the result,
  and adds, lane by lane, the sum over the tile's rows of the result (and of its square) into two rows of 128 that
  are reset to zero at the first tile and stay in place across the tiles. On the extended reals, with every operation
  exact and every format change the identity:

    arr3 — the result array at (p, j) is `lin x W b p j`, the row of the input times the column of the matrix plus
      the bias entry;
    arr4 — the first accumulated row at lane j is `csum (lin x W b) j`, the sum of column j over all 50000 rows;
    arr5 — the second at lane j is `csumsq (lin x W b) j`, the sum of the squares of column j.

  The sum over the 50000 rows is the sum over the 25 tiles of the sums over each tile's 2000 rows (`sum_rows`); the
  accumulated rows after tile `n` are the partial sums over the tiles up to `n` (`outs4`, `outs5`, by induction on `n`:
  the first tile adds to the zero row, every later one to what the tile before left).
-/
import proofs.«125030_j49014166782120_1_alg».proof.Proof.KernelIdealP.Frame
import proofs.«125030_j49014166782120_1_alg».proof.Proof.Spec
import proofs.«125030_j49014166782120_1_alg».proof.Proof.LibBlockRead
import Idealize.ShloMosaic.Lib.Pipeline.Value
import Idealize.ShloMosaic.Lib.Tactic

set_option maxRecDepth 16384

noncomputable section

open Idealize.ShloMosaic Idealize.ShloMosaic.ValueIdx
open scoped BigOperators

open Idealize.ShloMosaic.TcCoe Idealize.SL.Sem
open Idealize.ShloMosaic.Pipeline (Dat)

namespace Cert.KernelIdeal.KStats0
open Cert.KernelIdeal Cert.KernelIdeal.Gen Cert.KernelIdeal.GenP

/-- The tile of the linear layer at an entry: the row of the block times the column of the matrix, plus the bias entry. -/
theorem pay3_apply (x : Vec Ideal S2000x128 .f32) (w : Vec Ideal S128x128 .f32) (b : Vec Ideal S1x128 .f32)
    (r : Fin 2000) (j : Fin 128) :
    k0_pay3 (F := Ideal) x w b (ix2 r j) = (∑ k : Fin 128, x (ix2 r k) * w (ix2 k j)) + b (ix2 (0 : Fin 1) j) := by
  unfold k0_pay3
  rw [shapeCast_self, shapeCast_self, addf_apply, broadcastTo_1b_ab_apply]
  rw [Cert.Lib.BlockRead.matmul_zero_apply _ rfl rfl (fun _ _ => rfl) (fun _ _ => rfl) (fun _ _ => rfl) (fun _ _ => rfl)]
  rfl

/-- The sum over the rows of a [2000, 128] block, kept as one row, read at a lane: the sum of that column. -/
theorem rowsum_apply (src : FVec Ideal S2000x128 .f32) (j : Fin 128) :
    shapeCast S1x128 (multiReduction .add [0] S128 src 0x00000000#32 reduces_S2000x128_S128 (.inl rfl) rfl)
        shapeCasts_S128_S1x128 (ix2 (0 : Fin 1) j)
      = ∑ r : Fin 2000, src (ix2 r j) := by
  rw [shapeCast_a_1a_apply]
  refine (Ideal.multiReduction_add_single src _ reduces_S2000x128_S128 (.inl rfl) rfl (ix1 j)).trans ?_
  refine Finset.sum_congr rfl fun r _ => congrArg src ?_
  funext ax
  match ax with
  | ⟨0, _⟩ => exact Fin.ext rfl
  | ⟨1, _⟩ => exact Fin.ext rfl

/-- The running column sum after a tile: what was there plus the tile's column sum. -/
theorem pay4_apply (x : Vec Ideal S2000x128 .f32) (w : Vec Ideal S128x128 .f32) (b : Vec Ideal S1x128 .f32)
    (acc : Vec Ideal S1x128 .f32) (j : Fin 128) :
    k0_pay4 (F := Ideal) x w b acc (ix2 (0 : Fin 1) j)
      = acc (ix2 (0 : Fin 1) j) + ∑ r : Fin 2000, k0_pay3 (F := Ideal) x w b (ix2 r j) := by
  unfold k0_pay4
  rw [shapeCast_self, addf_apply, rowsum_apply]

/-- The running column sum of squares after a tile: what was there plus the tile's column sum of squares. -/
theorem pay5_apply (x : Vec Ideal S2000x128 .f32) (w : Vec Ideal S128x128 .f32) (b : Vec Ideal S1x128 .f32)
    (acc : Vec Ideal S1x128 .f32) (j : Fin 128) :
    k0_pay5 (F := Ideal) x w b acc (ix2 (0 : Fin 1) j)
      = acc (ix2 (0 : Fin 1) j)
        + ∑ r : Fin 2000, k0_pay3 (F := Ideal) x w b (ix2 r j) * k0_pay3 (F := Ideal) x w b (ix2 r j) := by
  unfold k0_pay5
  rw [shapeCast_self, addf_apply, rowsum_apply]
  rfl

/-- The reset rows are zero. -/
theorem pay1_apply (i : S1x128.Idx) : k0_pay1 (F := Ideal) i = 0 := by
  unfold k0_pay1
  show Ideal.ofBits .f32 0x00000000#32 = 0
  exact Ideal.ofBits_zero_f32
theorem pay2_apply (i : S1x128.Idx) : k0_pay2 (F := Ideal) i = 0 := by
  unfold k0_pay2
  show Ideal.ofBits .f32 0x00000000#32 = 0
  exact Ideal.ofBits_zero_f32

section Outs
variable {F : FTy → Type} [FloatOps F]

theorem hz : (![0, 0] : Fin 2 → Nat) = fun _ => 0 := funext fun a => by fin_cases a <;> rfl

/-- At a later point the tile's buffer ends at the tile of the linear layer of the three input blocks. -/
theorem out_B_3 (c : Dev nD) (i : grid0.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : ¬cond0_0 i) (x0 : Vec F S2000x128 .f32) (x1 : Vec F S128x128 .f32) (x2 : Vec F S1x128 .f32) (xo4 xo5 : Vec F S1x128 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread, View.ld_unit_zero (S := S2000x128) hz, View.ld_unit_zero (S := S128x128) hz, View.ld_unit_zero (S := S1x128) hz]

/-- At a later point the column-sum row ends at what it held plus the tile's column sums. -/
theorem out_B_4 (c : Dev nD) (i : grid0.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : ¬cond0_0 i) (x0 : Vec F S2000x128 .f32) (x1 : Vec F S128x128 .f32) (x2 : Vec F S1x128 .f32) (xo4 xo5 : Vec F S1x128 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread, View.ld_unit_zero (S := S2000x128) hz, View.ld_unit_zero (S := S128x128) hz, View.ld_unit_zero (S := S1x128) hz]

/-- At a later point the row of column sums of squares ends at what it held plus the tile's. -/
theorem out_B_5 (c : Dev nD) (i : grid0.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : ¬cond0_0 i) (x0 : Vec F S2000x128 .f32) (x1 : Vec F S128x128 .f32) (x2 : Vec F S1x128 .f32) (xo4 xo5 : Vec F S1x128 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread, View.ld_unit_zero (S := S2000x128) hz, View.ld_unit_zero (S := S128x128) hz, View.ld_unit_zero (S := S1x128) hz]

/-- At the first point the tile's buffer ends at the tile of the linear layer of the three input blocks. -/
theorem out_A_3 (c : Dev nD) (i : grid0.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : cond0_0 i) (x0 : Vec F S2000x128 .f32) (x1 : Vec F S128x128 .f32) (x2 : Vec F S1x128 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  rw [View.canon_unit_zero hz]
  simp only [View.readAt_eq_ld, h1.read_unread, h2.read_unread, h3.read_unread, h5.read_unread, h6.read_unread, View.ld_unit_zero (S := S2000x128) hz, View.ld_unit_zero (S := S128x128) hz, View.ld_unit_zero (S := S1x128) hz]

/-- At the first point the column-sum row is reset and ends at the reset row plus the tile's column sums. -/
theorem out_A_4 (c : Dev nD) (i : grid0.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : cond0_0 i) (x0 : Vec F S2000x128 .f32) (x1 : Vec F S128x128 .f32) (x2 : Vec F S1x128 .f32) :
    out0_A_4 c i a1 h1 a2 h2 a3 h3 a4 h4 a5 h5 a6 h6 hc x0 x1 x2 = k0_pay4 x0 x1 x2 k0_pay1 := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h5.read_unread, h6.read_unread, View.ld_unit_zero (S := S2000x128) hz, View.ld_unit_zero (S := S128x128) hz, View.ld_unit_zero (S := S1x128) hz]

/-- At the first point the row of column sums of squares is reset and ends at the reset row plus the tile's. -/
theorem out_A_5 (c : Dev nD) (i : grid0.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : cond0_0 i) (x0 : Vec F S2000x128 .f32) (x1 : Vec F S128x128 .f32) (x2 : Vec F S1x128 .f32) :
    out0_A_5 c i a1 h1 a2 h2 a3 h3 a4 h4 a5 h5 a6 h6 hc x0 x1 x2 = k0_pay5 x0 x1 x2 k0_pay2 := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h5.read_unread, h6.read_unread, View.ld_unit_zero (S := S2000x128) hz, View.ld_unit_zero (S := S128x128) hz, View.ld_unit_zero (S := S1x128) hz]
end Outs

section AtIdeal
variable (V : (c : Dev nD) → (b : Ref sig .tc) → Buf (Elt Ideal) ((c : Thread nD τ).loc b))

/-- Row `r` of tile `s` is row `2000 s + r` of the array. -/
def row (s : Fin 25) (r : Fin 2000) : Fin 50000 := ⟨2000 * s.val + r.val, by have := s.isLt; have := r.isLt; omega⟩

/-- The linear layer of the whole array, entry by entry. -/
def hh (c : Dev nD) : Cert.Spec.Mat 50000 128 :=
  Cert.Spec.lin (fun p k => (V c (Pipeline.arrRef spec0 0) : S50000x128.Idx → EReal) (ix2 p k))
      (fun k j => (V c (Pipeline.arrRef spec0 1) : S128x128.Idx → EReal) (ix2 k j))
      (fun j => (V c (Pipeline.arrRef spec0 2) : S1x128.Idx → EReal) (ix2 0 j))

theorem N25 : cfg0.N = 25 := N_0

/-- The block index of the row-tiled windows is the point, of the whole-array windows zero. -/
theorem index0 : ∀ t : Fin grid0.N, ((win0_0.index t 0 : Nat) = t.val ∧ (win0_0.index t 1 : Nat) = 0)
    ∧ ((win0_1.index t 0 : Nat) = 0 ∧ (win0_1.index t 1 : Nat) = 0)
    ∧ ((win0_2.index t 0 : Nat) = 0 ∧ (win0_2.index t 1 : Nat) = 0)
    ∧ ((win0_3.index t 0 : Nat) = t.val ∧ (win0_3.index t 1 : Nat) = 0)
    ∧ ((win0_4.index t 0 : Nat) = 0 ∧ (win0_4.index t 1 : Nat) = 0)
    ∧ ((win0_5.index t 0 : Nat) = 0 ∧ (win0_5.index t 1 : Nat) = 0) := by decide +kernel

/-- The input tile at point `t`, read at an entry: the array at row `2000 t + r`. -/
theorem iblk0_0_apply (c : Dev nD) (t : Fin cfg0.N) (s : Fin 25) (hs : s.val = t.val) (r : Fin 2000) (k : Fin 128) :
    (iblk0 V c 0 t : S2000x128.Idx → EReal) (ix2 r k)
      = (V c (Pipeline.arrRef spec0 0) : S50000x128.Idx → EReal) (ix2 (row s r) k) := by
  unfold iblk0
  rw [View.read_apply]
  show (V c (Pipeline.arrRef spec0 0) : S50000x128.Idx → EReal) _ = _
  congr 1
  funext a
  apply Fin.ext
  have hi := (index0 t).1
  match a with
  | ⟨0, _⟩ => show win0_0.index t 0 * 2000 + 1 * r.val = 2000 * s.val + r.val; rw [hi.1]; omega
  | ⟨1, _⟩ => show win0_0.index t 1 * 128 + 1 * k.val = k.val; rw [hi.2]; omega

/-- The matrix's block at any point is the whole matrix. -/
theorem iblk0_1_apply (c : Dev nD) (t : Fin cfg0.N) (k : Fin 128) (j : Fin 128) :
    (iblk0 V c 1 t : S128x128.Idx → EReal) (ix2 k j)
      = (V c (Pipeline.arrRef spec0 1) : S128x128.Idx → EReal) (ix2 k j) := by
  unfold iblk0
  rw [View.read_apply]
  show (V c (Pipeline.arrRef spec0 1) : S128x128.Idx → EReal) _ = _
  congr 1
  funext a
  apply Fin.ext
  have hi := (index0 t).2.1
  match a with
  | ⟨0, _⟩ => show win0_1.index t 0 * 128 + 1 * k.val = k.val; rw [hi.1]; omega
  | ⟨1, _⟩ => show win0_1.index t 1 * 128 + 1 * j.val = j.val; rw [hi.2]; omega

/-- The bias row's block at any point is the whole row. -/
theorem iblk0_2_apply (c : Dev nD) (t : Fin cfg0.N) (j : Fin 128) :
    (iblk0 V c 2 t : S1x128.Idx → EReal) (ix2 (0 : Fin 1) j)
      = (V c (Pipeline.arrRef spec0 2) : S1x128.Idx → EReal) (ix2 (0 : Fin 1) j) := by
  unfold iblk0
  rw [View.read_apply]
  show (V c (Pipeline.arrRef spec0 2) : S1x128.Idx → EReal) _ = _
  congr 1
  funext a
  apply Fin.ext
  have hi := (index0 t).2.2.1
  match a with
  | ⟨0, _⟩ => show win0_2.index t 0 * 1 + 1 * 0 = 0; rw [hi.1]
  | ⟨1, _⟩ => show win0_2.index t 1 * 128 + 1 * j.val = j.val; rw [hi.2]; omega

/-- The tile the body computes at point `t`, read at an entry: the linear layer at row `2000 t + r`. -/
theorem tile_apply (c : Dev nD) (t : Fin cfg0.N) (s : Fin 25) (hs : s.val = t.val) (r : Fin 2000) (j : Fin 128) :
    k0_pay3 (F := Ideal) (iblk0 V c 0 t) (iblk0 V c 1 t) (iblk0 V c 2 t) (ix2 r j) = hh V c (row s r) j := by
  rw [pay3_apply]
  unfold hh Cert.Spec.lin
  rw [iblk0_2_apply]
  refine congrArg (· + _) (Finset.sum_congr rfl fun k _ => ?_)
  rw [iblk0_0_apply V c t s hs, iblk0_1_apply]

/-- What the tile's buffer holds after point `t`. -/
theorem outs3 (c : Dev nD) (t : Fin cfg0.N) :
    (outsAt0 V c t.val t.isLt).1 = k0_pay3 (iblk0 V c 0 t) (iblk0 V c 1 t) (iblk0 V c 2 t) := by
  by_cases h0 : t.val % 25 = 0
  · rw [outsAt0_A V c t h0]; dsimp only; rw [out_A_3]
  · rw [outsAt0_B V c t h0]; dsimp only; rw [out_B_3]

/-- The column sums of tile `s`, and of its squares. -/
def tsum (c : Dev nD) (s : Fin 25) (j : Fin 128) : EReal := ∑ r : Fin 2000, hh V c (row s r) j
def tsumsq (c : Dev nD) (s : Fin 25) (j : Fin 128) : EReal := ∑ r : Fin 2000, hh V c (row s r) j * hh V c (row s r) j

/-- The column-sum row after point `n`: the sum of the tiles' column sums up to it. -/
theorem outs4 (c : Dev nD) (j : Fin 128) : ∀ (n : ℕ) (h : n < cfg0.N),
    ((outsAt0 V c n h).2.1 : S1x128.Idx → EReal) (ix2 (0 : Fin 1) j)
      = ∑ s : Fin (n + 1), tsum V c ⟨s.val, by have := s.isLt; have := N25; omega⟩ j
  | 0, h => by
    rw [show outsAt0 V c 0 h = _ from outsAt0_A V c ⟨0, h⟩ rfl]
    dsimp only
    rw [out_A_4, pay4_apply, pay1_apply, zero_add, Fin.sum_univ_one]
    exact Finset.sum_congr rfl fun r _ => tile_apply V c ⟨0, h⟩ _ rfl r j
  | n + 1, h => by
    have hB : ¬(⟨n + 1, h⟩ : Fin cfg0.N).val % 25 = 0 := by have := N25; dsimp only; omega
    rw [show outsAt0 V c (n + 1) h = _ from outsAt0_B V c ⟨n + 1, h⟩ hB]
    dsimp only
    rw [out_B_4, pay4_apply]
    refine Eq.trans ?_ (Fin.sum_univ_castSucc _).symm
    refine congrArg₂ (· + ·) (outs4 c j n (Nat.lt_of_succ_lt h)) ?_
    exact Finset.sum_congr rfl fun r _ => tile_apply V c ⟨n + 1, h⟩ _ rfl r j

/-- The row of column sums of squares after point `n`: the sum of the tiles' up to it. -/
theorem outs5 (c : Dev nD) (j : Fin 128) : ∀ (n : ℕ) (h : n < cfg0.N),
    ((outsAt0 V c n h).2.2 : S1x128.Idx → EReal) (ix2 (0 : Fin 1) j)
      = ∑ s : Fin (n + 1), tsumsq V c ⟨s.val, by have := s.isLt; have := N25; omega⟩ j
  | 0, h => by
    rw [show outsAt0 V c 0 h = _ from outsAt0_A V c ⟨0, h⟩ rfl]
    dsimp only
    rw [out_A_5, pay5_apply, pay2_apply, zero_add, Fin.sum_univ_one]
    exact Finset.sum_congr rfl fun r _ => congrArg₂ (· * ·) (tile_apply V c ⟨0, h⟩ _ rfl r j) (tile_apply V c ⟨0, h⟩ _ rfl r j)
  | n + 1, h => by
    have hB : ¬(⟨n + 1, h⟩ : Fin cfg0.N).val % 25 = 0 := by have := N25; dsimp only; omega
    rw [show outsAt0 V c (n + 1) h = _ from outsAt0_B V c ⟨n + 1, h⟩ hB]
    dsimp only
    rw [out_B_5, pay5_apply]
    refine Eq.trans ?_ (Fin.sum_univ_castSucc _).symm
    refine congrArg₂ (· + ·) (outs5 c j n (Nat.lt_of_succ_lt h)) ?_
    exact Finset.sum_congr rfl fun r _ => congrArg₂ (· * ·) (tile_apply V c ⟨n + 1, h⟩ _ rfl r j) (tile_apply V c ⟨n + 1, h⟩ _ rfl r j)

/-- A sum over the 50000 rows is the sum over the 25 tiles of the sums over each tile's 2000 rows. -/
theorem sum_rows (f : Fin 50000 → EReal) : ∑ p : Fin 50000, f p = ∑ s : Fin 25, ∑ r : Fin 2000, f (row s r) := by
  rw [← Fintype.sum_prod_type (f := fun x : Fin 25 × Fin 2000 => f (row x.1 x.2))]
  refine (Fintype.sum_equiv (finProdFinEquiv : Fin 25 × Fin 2000 ≃ Fin 50000) _ _ fun x => congrArg f (Fin.ext ?_)).symm
  show 2000 * x.1.val + x.2.val = x.2.val + 2000 * x.1.val
  omega

/-- An entry of a whole block is the same entry of its staging block. -/
theorem xinj_3 (i : grid0.Coords) (r : Fin 2000) (k : Fin 128) :
    win0_3.xinj i (ix2 r k : S2000x128.Idx) = (ix2 r k : S2000x128.Idx) :=
  funext fun a => match a with | ⟨0, _⟩ => Fin.ext rfl | ⟨1, _⟩ => Fin.ext rfl
theorem xinj_4 (i : grid0.Coords) (r : Fin 1) (k : Fin 128) :
    win0_4.xinj i (ix2 r k : S1x128.Idx) = (ix2 r k : S1x128.Idx) :=
  funext fun a => match a with | ⟨0, _⟩ => Fin.ext rfl | ⟨1, _⟩ => Fin.ext rfl
theorem xinj_5 (i : grid0.Coords) (r : Fin 1) (k : Fin 128) :
    win0_5.xinj i (ix2 r k : S1x128.Idx) = (ix2 r k : S1x128.Idx) :=
  funext fun a => match a with | ⟨0, _⟩ => Fin.ext rfl | ⟨1, _⟩ => Fin.ext rfl

/-- The array of the linear layer after the run: every row tile was written back at its point. -/
theorem arr3 (c : Dev nD) (p : Fin 50000) (j : Fin 128) :
    ((dat0 (F := Ideal) V c).arrAt 3 cfg0.N : S50000x128.Idx → EReal) (ix2 p j)
      = Cert.Spec.lin (fun p k => (V c (Pipeline.arrRef spec0 0) : S50000x128.Idx → EReal) (ix2 p k))
      (fun k j => (V c (Pipeline.arrRef spec0 1) : S128x128.Idx → EReal) (ix2 k j))
      (fun j => (V c (Pipeline.arrRef spec0 2) : S1x128.Idx → EReal) (ix2 0 j)) p j := by
  have hp := p.isLt
  have hN := N25
  let t : Fin cfg0.N := ⟨p.val / 2000, by rw [hN]; omega⟩
  refine (dat0 (F := Ideal) V c).arrAt_forall_of_flushed 3
    (fun i v => (v : EReal) = hh V c ((i : S50000x128.Idx) 0) ((i : S50000x128.Idx) 1)) ?_ cfg0.N t (ix2 p j) t.isLt (flush0_3 t) ?_
  · intro t hf y
    obtain ⟨r, k, rfl⟩ : ∃ (r : Fin 2000) (k : Fin 128), y = (ix2 r k : S2000x128.Idx) :=
      ⟨(y : S2000x128.Idx) 0, (y : S2000x128.Idx) 1, eq_ix2 (n0 := 2000) (n1 := 128) y⟩
    show ((dat0 (F := Ideal) V c).after 3 t : S2000x128.Idx → EReal) (win0_3.xinj (grid0.coords t) (ix2 r k)) = _
    rw [xinj_3, after0_3, outs3, tile_apply V c t ⟨t.val, lt_of_lt_of_eq t.isLt N25⟩ rfl]
    congr 1
    · apply Fin.ext; show 2000 * t.val + r.val = win0_3.index t 0 * 2000 + 1 * r.val; rw [(index0 t).2.2.2.1.1]; omega
    · apply Fin.ext; show k.val = win0_3.index t 1 * 128 + 1 * k.val; rw [(index0 t).2.2.2.1.2]; omega
  · show (ix2 p j : S50000x128.Idx) ∈ ((View.whole main_v16_0).slice (win0_3.rect t)).set
    rw [View.set_slice_whole, Rect.mem_set_unit]
    intro a
    match a with
    | ⟨0, _⟩ =>
      show win0_3.index t 0 * 2000 ≤ p.val ∧ p.val < win0_3.index t 0 * 2000 + 2000
      rw [(index0 t).2.2.2.1.1]; show p.val / 2000 * 2000 ≤ p.val ∧ p.val < p.val / 2000 * 2000 + 2000; omega
    | ⟨1, _⟩ =>
      show win0_3.index t 1 * 128 ≤ j.val ∧ j.val < win0_3.index t 1 * 128 + 128
      rw [(index0 t).2.2.2.1.2]; have := j.isLt; omega

/-- After the last point the row holds the column sums over all the rows. -/
theorem outs4_last (c : Dev nD) (j : Fin 128) (n : ℕ) (h : n < cfg0.N) (hn : n = 24) :
    ((outsAt0 V c n h).2.1 : S1x128.Idx → EReal) (ix2 (0 : Fin 1) j) = Cert.Spec.csum (hh V c) j := by
  subst hn
  rw [outs4 V c j 24 h]
  unfold Cert.Spec.csum
  rw [sum_rows]
  rfl

/-- The row of column sums after the run: written back once, after the last point, holding all 25 tiles' sums. -/
theorem arr4 (c : Dev nD) (j : Fin 128) :
    ((dat0 (F := Ideal) V c).arrAt 4 cfg0.N : S1x128.Idx → EReal) (ix2 0 j)
      = Cert.Spec.csum (Cert.Spec.lin (fun p k => (V c (Pipeline.arrRef spec0 0) : S50000x128.Idx → EReal) (ix2 p k))
      (fun k j => (V c (Pipeline.arrRef spec0 1) : S128x128.Idx → EReal) (ix2 k j))
      (fun j => (V c (Pipeline.arrRef spec0 2) : S1x128.Idx → EReal) (ix2 0 j))) j := by
  obtain ⟨t, ht⟩ : ∃ t : Fin cfg0.N, t.val = 24 := ⟨⟨24, by rw [N25]; omega⟩, rfl⟩
  refine (dat0 (F := Ideal) V c).arrAt_forall_of_flushed 4
    (fun i v => (v : EReal) = Cert.Spec.csum (hh V c) ((i : S1x128.Idx) 1)) ?_ cfg0.N t (ix2 0 j) t.isLt ((flush0_4 t).mpr (by rw [ht])) ?_
  · intro t hf y
    have ht : t.val = 24 := by have := (flush0_4 t).mp hf; have := lt_of_lt_of_eq t.isLt N25; omega
    obtain ⟨r, k, rfl⟩ : ∃ (r : Fin 1) (k : Fin 128), y = (ix2 r k : S1x128.Idx) :=
      ⟨(y : S1x128.Idx) 0, (y : S1x128.Idx) 1, eq_ix2 (n0 := 1) (n1 := 128) y⟩
    obtain rfl : r = 0 := Subsingleton.elim _ _
    have he : ((((cfg0.win 4).blk t).view.emb (ix2 (0 : Fin 1) k : S1x128.Idx) : S1x128.Idx) 1 : Fin 128) = k :=
      Fin.ext (by show win0_4.index t 1 * 128 + 1 * k.val = k.val; rw [(index0 t).2.2.2.2.1.2]; omega)
    show ((dat0 (F := Ideal) V c).after 4 t : S1x128.Idx → EReal) (win0_4.xinj (grid0.coords t) (ix2 0 k)) = Cert.Spec.csum (hh V c) _
    rw [he, xinj_4, after0_4]
    exact outs4_last V c k t.val t.isLt ht
  · show (ix2 0 j : S1x128.Idx) ∈ ((View.whole main_v16_1).slice (win0_4.rect t)).set
    rw [View.set_slice_whole, Rect.mem_set_unit]
    intro a
    match a with
    | ⟨0, _⟩ =>
      show win0_4.index t 0 * 1 ≤ 0 ∧ 0 < win0_4.index t 0 * 1 + 1
      rw [(index0 t).2.2.2.2.1.1]; omega
    | ⟨1, _⟩ =>
      show win0_4.index t 1 * 128 ≤ j.val ∧ j.val < win0_4.index t 1 * 128 + 128
      rw [(index0 t).2.2.2.2.1.2]; have := j.isLt; omega

/-- After the last point the row holds the column sums of squares over all the rows. -/
theorem outs5_last (c : Dev nD) (j : Fin 128) (n : ℕ) (h : n < cfg0.N) (hn : n = 24) :
    ((outsAt0 V c n h).2.2 : S1x128.Idx → EReal) (ix2 (0 : Fin 1) j) = Cert.Spec.csumsq (hh V c) j := by
  subst hn
  rw [outs5 V c j 24 h]
  unfold Cert.Spec.csumsq
  rw [sum_rows]
  rfl

/-- The row of column sums of squares after the run: written back once, after the last point, holding all 25 tiles' sums of squares. -/
theorem arr5 (c : Dev nD) (j : Fin 128) :
    ((dat0 (F := Ideal) V c).arrAt 5 cfg0.N : S1x128.Idx → EReal) (ix2 0 j)
      = Cert.Spec.csumsq (Cert.Spec.lin (fun p k => (V c (Pipeline.arrRef spec0 0) : S50000x128.Idx → EReal) (ix2 p k))
      (fun k j => (V c (Pipeline.arrRef spec0 1) : S128x128.Idx → EReal) (ix2 k j))
      (fun j => (V c (Pipeline.arrRef spec0 2) : S1x128.Idx → EReal) (ix2 0 j))) j := by
  obtain ⟨t, ht⟩ : ∃ t : Fin cfg0.N, t.val = 24 := ⟨⟨24, by rw [N25]; omega⟩, rfl⟩
  refine (dat0 (F := Ideal) V c).arrAt_forall_of_flushed 5
    (fun i v => (v : EReal) = Cert.Spec.csumsq (hh V c) ((i : S1x128.Idx) 1)) ?_ cfg0.N t (ix2 0 j) t.isLt ((flush0_5 t).mpr (by rw [ht])) ?_
  · intro t hf y
    have ht : t.val = 24 := by have := (flush0_5 t).mp hf; have := lt_of_lt_of_eq t.isLt N25; omega
    obtain ⟨r, k, rfl⟩ : ∃ (r : Fin 1) (k : Fin 128), y = (ix2 r k : S1x128.Idx) :=
      ⟨(y : S1x128.Idx) 0, (y : S1x128.Idx) 1, eq_ix2 (n0 := 1) (n1 := 128) y⟩
    obtain rfl : r = 0 := Subsingleton.elim _ _
    have he : ((((cfg0.win 5).blk t).view.emb (ix2 (0 : Fin 1) k : S1x128.Idx) : S1x128.Idx) 1 : Fin 128) = k :=
      Fin.ext (by show win0_5.index t 1 * 128 + 1 * k.val = k.val; rw [(index0 t).2.2.2.2.2.2]; omega)
    show ((dat0 (F := Ideal) V c).after 5 t : S1x128.Idx → EReal) (win0_5.xinj (grid0.coords t) (ix2 0 k)) = Cert.Spec.csumsq (hh V c) _
    rw [he, xinj_5, after0_5]
    exact outs5_last V c k t.val t.isLt ht
  · show (ix2 0 j : S1x128.Idx) ∈ ((View.whole main_v16_2).slice (win0_5.rect t)).set
    rw [View.set_slice_whole, Rect.mem_set_unit]
    intro a
    match a with
    | ⟨0, _⟩ =>
      show win0_5.index t 0 * 1 ≤ 0 ∧ 0 < win0_5.index t 0 * 1 + 1
      rw [(index0 t).2.2.2.2.2.1]; omega
    | ⟨1, _⟩ =>
      show win0_5.index t 1 * 128 ≤ j.val ∧ j.val < win0_5.index t 1 * 128 + 128
      rw [(index0 t).2.2.2.2.2.2]; have := j.isLt; omega
end AtIdeal

end Cert.KernelIdeal.KStats0

end
-- ==== Proof.KBn1.lean ====
/-
  The second kernel of a convolution: batch normalisation with the affine map and the rectifier, then a linear layer
  and the rectifier, over 25 tiles of 2000 rows.

  Each tile reads its 2000 rows of the first layer's output together with the whole mean, variance, scale and shift
  rows, the whole 128 by 128 weight matrix and the whole bias row, and writes the same 2000 rows of the result. Entry
  (q, j) of a tile's result depends on row q of the tile alone: it is the maximum with zero of the sum over k of the
  normalised, rectified entry (q, k) times the weight (k, j), plus the bias j. Row p of the array lies in tile p / 2000
  at row p mod 2000, the tiles cover the array, and so the array after the run is, entry by entry, the rectified linear
  layer of the normalised, rectified input, whatever the array held before.
-/
import proofs.«125030_j49014166782120_1_alg».proof.Proof.KernelIdealP.Frame
import proofs.«125030_j49014166782120_1_alg».proof.Proof.Spec
import proofs.«125030_j49014166782120_1_alg».proof.Proof.LibBlockRead
import Idealize.ShloMosaic.Lib.Pipeline.Value
import Idealize.ShloMosaic.Lib.ValueLayout
import Idealize.ShloMosaic.PureOps.Ideal.Laws

set_option maxRecDepth 16384

noncomputable section

namespace Cert.KernelIdeal.KBn1

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

/-! ## The tile's arithmetic at an entry -/

/-- The product's dimension numbers: the left operand's axis 1 against the right operand's axis 0. -/
abbrev D : DotDims S2000x128 S128x128 S2000x128 := dot_S2000x128_S128x128_S2000x128_1_0_0_1_n_n

theorem D_l0 (j : S2000x128.Idx) (k : D.contr.Idx) : (D.lhsIdx j k 0).val = (j 0).val := by
  simp [DotDims.lhsIdx, D, dot_S2000x128_S128x128_S2000x128_1_0_0_1_n_n]; rfl
theorem D_l1 (j : S2000x128.Idx) (k : D.contr.Idx) : (D.lhsIdx j k 1).val = (k ⟨0, by decide⟩).val :=
  DotDims.lhsIdx_val_of_single (d := D) (cl := 1) rfl j k
theorem D_r0 (j : S2000x128.Idx) (k : D.contr.Idx) : (D.rhsIdx j k 0).val = (k ⟨0, by decide⟩).val :=
  DotDims.rhsIdx_val_of_single (d := D) (cr := 0) rfl j k
theorem D_r1 (j : S2000x128.Idx) (k : D.contr.Idx) : (D.rhsIdx j k 1).val = (j 1).val := by
  simp [DotDims.rhsIdx, D, dot_S2000x128_S128x128_S2000x128_1_0_0_1_n_n]; rfl

/-- What a tile stores, at the entry (q, j): the rectified linear layer of row q of the normalised, rectified block.
    The casts to the same shape are the identity, a row laid along the rows reads the row, a narrowing of the format is
    the identity on extended reals, and the product into a zero accumulator is the sum over the contracted coordinate. -/
theorem pay_apply (x0 : Vec Ideal S2000x128 .f32) (xv xm xg xb : Vec Ideal S1x128 .f32) (xw : Vec Ideal S128x128 .f32)
    (xb2 : Vec Ideal S1x128 .f32) (q : Fin 2000) (j : Fin 128) :
    k1_pay1 (F := Ideal) x0 xv xm xg xb xw xb2 (ix2 q j)
      = Cert.Spec.linrelu (Cert.Spec.bnrelu (fun p k => x0 (ix2 p k)) (fun k => xm (ix2 0 k)) (fun k => xv (ix2 0 k))
          (fun k => xg (ix2 0 k)) (fun k => xb (ix2 0 k))) (fun k j => xw (ix2 k j)) (fun j => xb2 (ix2 0 j)) q j := by
  unfold k1_pay1
  simp only [shapeCast_self]
  unfold Cert.Spec.linrelu Cert.Spec.lin Cert.Spec.bnrelu Cert.Spec.cZero Cert.Spec.cEps
  rw [maximumf_apply, addf_apply, broadcast_apply, broadcastTo_1b_ab_apply]
  refine congrArg₂ max (congrArg₂ (· + ·) ?_ rfl) rfl
  refine (Cert.Lib.BlockRead.matmul_zero_apply D rfl rfl D_l0 D_l1 D_r0 D_r1 none _ _ q j).trans ?_
  refine Finset.sum_congr rfl fun k _ => ?_
  rw [truncf_apply, truncf_apply, maximumf_apply, addf_apply, mulf_apply, mulf_apply, subf_apply, broadcast_apply,
    broadcastTo_1b_ab_apply, broadcastTo_1b_ab_apply, broadcastTo_1b_ab_apply, broadcastTo_1b_ab_apply]
  rfl

/-- The layer at an entry reads one row of the input, the parameter rows, one column of the weights and one bias entry:
    two settings that agree on those give the same entry. -/
theorem linrelu_bnrelu_congr {R R' : ℕ} (h : Cert.Spec.Mat R 128) (h' : Cert.Spec.Mat R' 128)
    (mean mean' var var' g g' be be' : Cert.Spec.Row 128) (W W' : Cert.Spec.Mat 128 128) (b b' : Cert.Spec.Row 128)
    (q : Fin R) (p : Fin R') (j j' : Fin 128)
    (hh : ∀ k, h q k = h' p k) (hm : ∀ k, mean k = mean' k) (hv : ∀ k, var k = var' k) (hg : ∀ k, g k = g' k)
    (hbe : ∀ k, be k = be' k) (hW : ∀ k, W k j = W' k j') (hb : b j = b' j') :
    Cert.Spec.linrelu (Cert.Spec.bnrelu h mean var g be) W b q j
      = Cert.Spec.linrelu (Cert.Spec.bnrelu h' mean' var' g' be') W' b' p j' := by
  unfold Cert.Spec.linrelu Cert.Spec.lin Cert.Spec.bnrelu
  simp only [hh, hm, hv, hg, hbe, hW, hb]

/-! ## The tiles and the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 tiles: the input block and the output block of tile t are block (t, 0) of their
    arrays, and every parameter's block is block (0, 0), the whole of its array. -/
theorem idx_facts : ∀ t : Fin cfg1.N,
    win1_7.index t (0 : Fin 2) = t.val ∧ win1_7.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The input block of tile t at (x0, x1) is the array at row 2000 t + x0, column x1. -/
theorem blk0_apply (c : Dev nD) (t : Fin cfg1.N) (x : S2000x128.Idx) (k : S50000x128.Idx)
    (hk0 : (k 0).val = t.val * 2000 + (x 0).val) (hk1 : (k 1).val = (x 1).val) :
    (iblk1 V c 0 t : Vec Ideal S2000x128 .f32) x = (V c (Pipeline.arrRef spec1 0) : S50000x128.Idx → EReal) k := by
  obtain ⟨-, -, e0, e1, -⟩ := idx_facts t
  unfold iblk1
  rw [View.read_apply]
  refine congrArg (V c (Pipeline.arrRef spec1 0) : S50000x128.Idx → EReal) (funext fun a => Fin.ext ?_)
  match a with
  | ⟨0, _⟩ => show win1_0.index t (0 : Fin 2) * 2000 + 1 * (x 0).val = (k 0).val; rw [e0, hk0]; omega
  | ⟨1, _⟩ => show win1_0.index t (1 : Fin 2) * 128 + 1 * (x 1).val = (k 1).val; rw [e1, hk1]; omega

/-- Parameter window 1's block at any tile is the whole of its array. -/
theorem blk1_apply (c : Dev nD) (t : Fin cfg1.N) (x : S1x128.Idx) :
    (iblk1 V c 1 t : Vec Ideal S1x128 .f32) x = (V c (Pipeline.arrRef spec1 1) : S1x128.Idx → EReal) x := by
  have e := idx_facts t
  have e0 : win1_1.index t (0 : Fin 2) = 0 := by omega
  have e1 : win1_1.index t (1 : Fin 2) = 0 := by omega
  unfold iblk1
  rw [View.read_apply]
  refine congrArg (V c (Pipeline.arrRef spec1 1) : S1x128.Idx → EReal) (funext fun a => Fin.ext ?_)
  match a with
  | ⟨0, _⟩ => show win1_1.index t (0 : Fin 2) * 1 + 1 * (x 0).val = (x 0).val; rw [e0]; omega
  | ⟨1, _⟩ => show win1_1.index t (1 : Fin 2) * 128 + 1 * (x 1).val = (x 1).val; rw [e1]; omega

/-- Parameter window 2's block at any tile is the whole of its array. -/
theorem blk2_apply (c : Dev nD) (t : Fin cfg1.N) (x : S1x128.Idx) :
    (iblk1 V c 2 t : Vec Ideal S1x128 .f32) x = (V c (Pipeline.arrRef spec1 2) : S1x128.Idx → EReal) x := by
  have e := idx_facts t
  have e0 : win1_2.index t (0 : Fin 2) = 0 := by omega
  have e1 : win1_2.index t (1 : Fin 2) = 0 := by omega
  unfold iblk1
  rw [View.read_apply]
  refine congrArg (V c (Pipeline.arrRef spec1 2) : S1x128.Idx → EReal) (funext fun a => Fin.ext ?_)
  match a with
  | ⟨0, _⟩ => show win1_2.index t (0 : Fin 2) * 1 + 1 * (x 0).val = (x 0).val; rw [e0]; omega
  | ⟨1, _⟩ => show win1_2.index t (1 : Fin 2) * 128 + 1 * (x 1).val = (x 1).val; rw [e1]; omega

/-- Parameter window 3's block at any tile is the whole of its array. -/
theorem blk3_apply (c : Dev nD) (t : Fin cfg1.N) (x : S1x128.Idx) :
    (iblk1 V c 3 t : Vec Ideal S1x128 .f32) x = (V c (Pipeline.arrRef spec1 3) : S1x128.Idx → EReal) x := by
  have e := idx_facts t
  have e0 : win1_3.index t (0 : Fin 2) = 0 := by omega
  have e1 : win1_3.index t (1 : Fin 2) = 0 := by omega
  unfold iblk1
  rw [View.read_apply]
  refine congrArg (V c (Pipeline.arrRef spec1 3) : S1x128.Idx → EReal) (funext fun a => Fin.ext ?_)
  match a with
  | ⟨0, _⟩ => show win1_3.index t (0 : Fin 2) * 1 + 1 * (x 0).val = (x 0).val; rw [e0]; omega
  | ⟨1, _⟩ => show win1_3.index t (1 : Fin 2) * 128 + 1 * (x 1).val = (x 1).val; rw [e1]; omega

/-- Parameter window 4's block at any tile is the whole of its array. -/
theorem blk4_apply (c : Dev nD) (t : Fin cfg1.N) (x : S1x128.Idx) :
    (iblk1 V c 4 t : Vec Ideal S1x128 .f32) x = (V c (Pipeline.arrRef spec1 4) : S1x128.Idx → EReal) x := by
  have e := idx_facts t
  have e0 : win1_4.index t (0 : Fin 2) = 0 := by omega
  have e1 : win1_4.index t (1 : Fin 2) = 0 := by omega
  unfold iblk1
  rw [View.read_apply]
  refine congrArg (V c (Pipeline.arrRef spec1 4) : S1x128.Idx → EReal) (funext fun a => Fin.ext ?_)
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

/-- Parameter window 5's block at any tile is the whole of its array. -/
theorem blk5_apply (c : Dev nD) (t : Fin cfg1.N) (x : S128x128.Idx) :
    (iblk1 V c 5 t : Vec Ideal S128x128 .f32) x = (V c (Pipeline.arrRef spec1 5) : S128x128.Idx → EReal) x := by
  have e := idx_facts t
  have e0 : win1_5.index t (0 : Fin 2) = 0 := by omega
  have e1 : win1_5.index t (1 : Fin 2) = 0 := by omega
  unfold iblk1
  rw [View.read_apply]
  refine congrArg (V c (Pipeline.arrRef spec1 5) : S128x128.Idx → EReal) (funext fun a => Fin.ext ?_)
  match a with
  | ⟨0, _⟩ => show win1_5.index t (0 : Fin 2) * 128 + 1 * (x 0).val = (x 0).val; rw [e0]; omega
  | ⟨1, _⟩ => show win1_5.index t (1 : Fin 2) * 128 + 1 * (x 1).val = (x 1).val; rw [e1]; omega

/-- Parameter window 6's block at any tile is the whole of its array. -/
theorem blk6_apply (c : Dev nD) (t : Fin cfg1.N) (x : S1x128.Idx) :
    (iblk1 V c 6 t : Vec Ideal S1x128 .f32) x = (V c (Pipeline.arrRef spec1 6) : S1x128.Idx → EReal) x := by
  have e := idx_facts t
  have e0 : win1_6.index t (0 : Fin 2) = 0 := by omega
  have e1 : win1_6.index t (1 : Fin 2) = 0 := by omega
  unfold iblk1
  rw [View.read_apply]
  refine congrArg (V c (Pipeline.arrRef spec1 6) : S1x128.Idx → EReal) (funext fun a => Fin.ext ?_)
  match a with
  | ⟨0, _⟩ => show win1_6.index t (0 : Fin 2) * 1 + 1 * (x 0).val = (x 0).val; rw [e0]; omega
  | ⟨1, _⟩ => show win1_6.index t (1 : Fin 2) * 128 + 1 * (x 1).val = (x 1).val; rw [e1]; omega

/-- The array the run leaves: entry (p, j) is the rectified linear layer of row p of the normalised, rectified input,
    with the arrays as the region finds them. -/
def G (c : Dev nD) : S50000x128.Idx → EReal := fun i =>
  Cert.Spec.linrelu (Cert.Spec.bnrelu (fun p k => (V c (Pipeline.arrRef spec1 0) : S50000x128.Idx → EReal) (ix2 p k))
      (fun k => (V c (Pipeline.arrRef spec1 1) : S1x128.Idx → EReal) (ix2 0 k)) (fun k => (V c (Pipeline.arrRef spec1 2) : S1x128.Idx → EReal) (ix2 0 k))
      (fun k => (V c (Pipeline.arrRef spec1 3) : S1x128.Idx → EReal) (ix2 0 k)) (fun k => (V c (Pipeline.arrRef spec1 4) : S1x128.Idx → EReal) (ix2 0 k)))
    (fun k j => (V c (Pipeline.arrRef spec1 5) : S128x128.Idx → EReal) (ix2 k j)) (fun j => (V c (Pipeline.arrRef spec1 6) : S1x128.Idx → EReal) (ix2 0 j))
    (i 0) (i 1)

/-- What tile t writes back is block t of `G`: the stored entry (q, j) reads row q of the tile's input block, which is
    row 2000 t + q of the array, where the output block's entry (q, j) sits. -/
theorem flushed_eq (c : Dev nD) (t : Fin cfg1.N) :
    (dat1 (F := Ideal) V c).flushed 7 t = ((cfg1.win 7).blk t).view.read (Elt Ideal) (G V c) := by
  show (cfg1.win 7).cut (grid1.coords t) ((dat1 (F := Ideal) V c).after 7 t) = _
  rw [after1_7]
  unfold out1_7
  rw [View.canon_unit_zero hz]
  simp only [View.ld_unit_zero (S := S2000x128) hz, View.ld_unit_zero (S := S1x128) hz, View.ld_unit_zero (S := S128x128) hz]
  obtain ⟨e0, e1, -⟩ := idx_facts t
  refine funext fun (y : S2000x128.Idx) => ?_
  obtain ⟨q, j, rfl⟩ : ∃ (q : Fin 2000) (j : Fin 128), y = ix2 q j := ⟨y 0, y 1, eq_ix2 y⟩
  show k1_pay1 (F := Ideal) (iblk1 V c 0 t) (iblk1 V c 2 t) (iblk1 V c 1 t) (iblk1 V c 3 t) (iblk1 V c 4 t) (iblk1 V c 5 t) (iblk1 V c 6 t) (ix2 q j)
    = G V c (((cfg1.win 7).blk t).view.emb (ix2 q j))
  refine (pay_apply (iblk1 V c 0 t) (iblk1 V c 2 t) (iblk1 V c 1 t) (iblk1 V c 3 t) (iblk1 V c 4 t) (iblk1 V c 5 t) (iblk1 V c 6 t) q j).trans ?_
  unfold G
  have hj : ((((cfg1.win 7).blk t).view.emb (ix2 q j)) 1 : Fin 128) = j := Fin.ext (by
    show win1_7.index t (1 : Fin 2) * 128 + 1 * j.val = j.val
    rw [e1]; omega)
  rw [hj]
  refine linrelu_bnrelu_congr _ _ _ _ _ _ _ _ _ _ _ _ _ _ q _ j j (fun k => ?_) (fun k => ?_) (fun k => ?_) (fun k => ?_) (fun k => ?_) (fun k => ?_) ?_
  · refine blk0_apply V c t (ix2 q k) _ ?_ rfl
    show win1_7.index t (0 : Fin 2) * 2000 + 1 * q.val = t.val * 2000 + q.val
    rw [e0]; omega
  · exact blk1_apply V c t _
  · exact blk2_apply V c t _
  · exact blk3_apply V c t _
  · exact blk4_apply V c t _
  · exact blk5_apply V c t _
  · exact blk6_apply V c t _

/-- An index of the array is in tile t's block iff each coordinate is in the block's range on its axis. -/
theorem mem_blk (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v26).slice (win1_7.rect t)).set ↔ _
  rw [View.set_slice_whole, Rect.mem_set_unit]
  exact Iff.rfl

/-- The 25 tiles cover the array: row p lies in tile p / 2000. -/
theorem cover (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : grid1.N = 25 := N_1
  have ht : (i 0).val / 2000 < cfg1.N := by show (i 0).val / 2000 < grid1.N; rw [hN]; omega
  obtain ⟨e0, e1, -⟩ := idx_facts ⟨(i 0).val / 2000, ht⟩
  refine ⟨⟨(i 0).val / 2000, ht⟩, flush1_7 _, ?_⟩
  rw [mem_blk]
  intro a
  match a with
  | ⟨0, _⟩ =>
    show win1_7.index ⟨(i 0).val / 2000, ht⟩ (0 : Fin 2) * 2000 ≤ (i 0).val ∧ (i 0).val < win1_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_7.index ⟨(i 0).val / 2000, ht⟩ (1 : Fin 2) * 128 ≤ (i 1).val ∧ (i 1).val < win1_7.index ⟨(i 0).val / 2000, ht⟩ (1 : Fin 2) * 128 + 128
    rw [e1]; omega

/-- The output array after the run is `G`. -/
theorem final (c : Dev nD) : (dat1 (F := Ideal) V c).arrAt 7 cfg1.N = G V c :=
  (dat1 (F := Ideal) V c).arrAt_eq_of_cover 7 (G V c) (fun t _ => flushed_eq V c t) (cover)

/-- THE OUTPUT ARRAY AT AN ENTRY: after the run, entry (p, j) is the rectified linear layer of row p of the normalised,
    rectified input, over the arrays as the region finds them. -/
theorem arr7 (c : Dev nD) (p : Fin 50000) (j : Fin 128) :
    ((dat1 (F := Ideal) V c).arrAt 7 cfg1.N : S50000x128.Idx → EReal) (ix2 p j)
      = Cert.Spec.linrelu (Cert.Spec.bnrelu (fun p k => (V c (Pipeline.arrRef spec1 0) : S50000x128.Idx → EReal) (ix2 p k))
          (fun k => (V c (Pipeline.arrRef spec1 1) : S1x128.Idx → EReal) (ix2 0 k)) (fun k => (V c (Pipeline.arrRef spec1 2) : S1x128.Idx → EReal) (ix2 0 k))
          (fun k => (V c (Pipeline.arrRef spec1 3) : S1x128.Idx → EReal) (ix2 0 k)) (fun k => (V c (Pipeline.arrRef spec1 4) : S1x128.Idx → EReal) (ix2 0 k)))
        (fun k j => (V c (Pipeline.arrRef spec1 5) : S128x128.Idx → EReal) (ix2 k j)) (fun j => (V c (Pipeline.arrRef spec1 6) : S1x128.Idx → EReal) (ix2 0 j)) p j :=
  congrFun (final V c) (ix2 p j)

end Cert.KernelIdeal.KBn1

end
-- ==== Proof.KChainA.lean ====
/-
  The idealized kernel program's first convolution, boundary by boundary: the aggregation and the bias row the first
  host stretch computes, the linear layer and its two column sums the first pallas_call leaves, the column mean and the
  variance (mean of squares minus squared mean) the second host stretch computes from the sums, and the normalised,
  rectified, twice-layered rows the second pallas_call leaves — the specification's `convWith varK` of the arguments.
-/
import proofs.«125030_j49014166782120_1_alg».proof.Proof.KChainBase
import proofs.«125030_j49014166782120_1_alg».proof.Proof.Agg
import proofs.«125030_j49014166782120_1_alg».proof.Proof.KStats0
import proofs.«125030_j49014166782120_1_alg».proof.Proof.KBn1

set_option maxRecDepth 16384

noncomputable section

namespace Cert.KernelIdeal.KChain

open Idealize.ShloMosaic Idealize.ShloMosaic.TcCoe Idealize.ShloMosaic.Tactic
open Idealize.SL.Sem
open Cert.KernelIdeal Cert.KernelIdeal.Gen Cert.KernelIdeal.GenP
open ValueIdx Cert.Spec

variable (m : (ℓ : Loc nD τ sig) → Buf (Elt Ideal) ℓ) (ρ : Dev nD → PrngReg) (c : Dev nD)

/-! ## The first host stretch: the aggregation and the bias row -/

theorem w1_v1 : W1 m ρ c (Proc.devRef .tc main_v1) = Cert.Agg.srcOf (argv m c main_arg1) := by
  show StableHlo.after hostOps0 _ (Proc.devRef .tc main_v1) = _
  after_results_simp
  rfl
theorem w1_v3 : W1 m ρ c (Proc.devRef .tc main_v3) = Cert.Agg.dstOf (argv m c main_arg1) := by
  show StableHlo.after hostOps0 _ (Proc.devRef .tc main_v3) = _
  after_results_simp
  rfl
theorem w1_v14 : W1 m ρ c (Proc.devRef .tc main_v14) = Cert.Agg.aggK (argv m c main_arg1) (argv m c main_arg0) := by
  show StableHlo.after hostOps0 _ (Proc.devRef .tc main_v14) = _
  after_results_simp
  rfl
theorem w1_v15 : W1 m ρ c (Proc.devRef .tc main_v15) = shapeCast S1x128 (argv m c main_arg3) shapeCasts_S128_S1x128 := by
  show StableHlo.after hostOps0 _ (Proc.devRef .tc main_v15) = _
  after_results_simp
  rfl

theorem k1_arg2 : W1 m ρ c (Proc.devRef .tc main_arg2) = argv m c main_arg2 := a1 m ρ c _ (by host_keep)
theorem k2_arg4 : W2 m ρ c (Proc.devRef .tc main_arg4) = argv m c main_arg4 := a2 m ρ c _ (by decide) (a1 m ρ c _ (by host_keep))
theorem k2_arg5 : W2 m ρ c (Proc.devRef .tc main_arg5) = argv m c main_arg5 := a2 m ρ c _ (by decide) (a1 m ρ c _ (by host_keep))
theorem k2_arg7 : W2 m ρ c (Proc.devRef .tc main_arg7) = argv m c main_arg7 := a2 m ρ c _ (by decide) (a1 m ρ c _ (by host_keep))
theorem k3_arg6 : W3 m ρ c (Proc.devRef .tc main_arg6) = argv m c main_arg6 :=
  a3 m ρ c _ (by host_keep) (a2 m ρ c _ (by decide) (a1 m ρ c _ (by host_keep)))
theorem k3_v16_0 : W3 m ρ c (Proc.devRef .tc main_v16_0) = W2 m ρ c (Proc.devRef .tc main_v16_0) := by host_keep

/-! ## The first pallas_call: the linear layer and its column sums -/

/-- The aggregation of an array, at coordinates, is the curried aggregation of its reading. -/
theorem cur_aggK (ei : S2x800000.Idx → BitVec 32) (x : S50000x128.Idx → EReal) :
    (fun p k => Cert.Agg.aggK ei x (ix2 p k)) = Cert.Agg.A ei (cur x) :=
  funext fun p => funext fun k => (congrFun (congrArg (Cert.Agg.aggK ei) (uncur x)) (ix2 p k)).symm

/-- The first convolution's linear layer of the aggregated rows. -/
def h1 : Mat 50000 128 :=
  lin (Cert.Agg.A (argv m c main_arg1) (cur (argv m c main_arg0))) (cur (argv m c main_arg2)) (row1 (argv m c main_arg3))

/-- The linear layer as the first pallas_call finds its operands is `h1`. -/
theorem lin_args :
    lin (fun p k => Cert.Agg.aggK (argv m c main_arg1) (argv m c main_arg0) (ix2 p k)) (fun k j => (argv m c main_arg2 : S128x128.Idx → EReal) (ix2 k j))
      (fun j => shapeCast S1x128 (argv m c main_arg3) shapeCasts_S128_S1x128 (ix2 0 j)) = h1 m c :=
  (congrArg (fun a => lin a (cur (argv m c main_arg2)) _) (cur_aggK (argv m c main_arg1) (argv m c main_arg0))).trans
    (congrArg (fun b => lin _ (cur (argv m c main_arg2)) b) (funext fun j => rowcast (argv m c main_arg3) shapeCasts_S128_S1x128 j))

theorem w2_h (p : Fin 50000) (j : Fin 128) : (W2 m ρ c (Proc.devRef .tc main_v16_0) : S50000x128.Idx → EReal) (ix2 p j) = h1 m c p j := by
  have e : W2 m ρ c (Proc.devRef .tc main_v16_0) = (dat0 (V1 m ρ) c).arrAt 3 cfg0.N := W2_arr m ρ c 3
  rw [e]
  refine (KStats0.arr3 (V1 m ρ) c p j).trans ?_
  have a0 : (V1 m ρ c (Pipeline.arrRef spec0 0) : S50000x128.Idx → EReal) = Cert.Agg.aggK (argv m c main_arg1) (argv m c main_arg0) := w1_v14 m ρ c
  have a1 : (V1 m ρ c (Pipeline.arrRef spec0 1) : S128x128.Idx → EReal) = argv m c main_arg2 := k1_arg2 m ρ c
  have a2 : (V1 m ρ c (Pipeline.arrRef spec0 2) : S1x128.Idx → EReal) = shapeCast S1x128 (argv m c main_arg3) shapeCasts_S128_S1x128 := w1_v15 m ρ c
  rw [a0, a1, a2]
  exact congrFun (congrFun (lin_args m c) p) j

theorem w2_s (j : Fin 128) : (W2 m ρ c (Proc.devRef .tc main_v16_1) : S1x128.Idx → EReal) (ix2 0 j) = csum (h1 m c) j := by
  have e : W2 m ρ c (Proc.devRef .tc main_v16_1) = (dat0 (V1 m ρ) c).arrAt 4 cfg0.N := W2_arr m ρ c 4
  rw [e]
  refine (KStats0.arr4 (V1 m ρ) c j).trans ?_
  have a0 : (V1 m ρ c (Pipeline.arrRef spec0 0) : S50000x128.Idx → EReal) = Cert.Agg.aggK (argv m c main_arg1) (argv m c main_arg0) := w1_v14 m ρ c
  have a1 : (V1 m ρ c (Pipeline.arrRef spec0 1) : S128x128.Idx → EReal) = argv m c main_arg2 := k1_arg2 m ρ c
  have a2 : (V1 m ρ c (Pipeline.arrRef spec0 2) : S1x128.Idx → EReal) = shapeCast S1x128 (argv m c main_arg3) shapeCasts_S128_S1x128 := w1_v15 m ρ c
  rw [a0, a1, a2]
  exact congrArg (fun h => csum h j) (lin_args m c)

theorem w2_ss (j : Fin 128) : (W2 m ρ c (Proc.devRef .tc main_v16_2) : S1x128.Idx → EReal) (ix2 0 j) = csumsq (h1 m c) j := by
  have e : W2 m ρ c (Proc.devRef .tc main_v16_2) = (dat0 (V1 m ρ) c).arrAt 5 cfg0.N := W2_arr m ρ c 5
  rw [e]
  refine (KStats0.arr5 (V1 m ρ) c j).trans ?_
  have a0 : (V1 m ρ c (Pipeline.arrRef spec0 0) : S50000x128.Idx → EReal) = Cert.Agg.aggK (argv m c main_arg1) (argv m c main_arg0) := w1_v14 m ρ c
  have a1 : (V1 m ρ c (Pipeline.arrRef spec0 1) : S128x128.Idx → EReal) = argv m c main_arg2 := k1_arg2 m ρ c
  have a2 : (V1 m ρ c (Pipeline.arrRef spec0 2) : S1x128.Idx → EReal) = shapeCast S1x128 (argv m c main_arg3) shapeCasts_S128_S1x128 := w1_v15 m ρ c
  rw [a0, a1, a2]
  exact congrArg (fun h => csumsq h j) (lin_args m c)

/-! ## The second host stretch: the batch statistics and the affine rows -/

theorem w3_v18 : W3 m ρ c (Proc.devRef .tc main_v18) = Host.divf (W2 m ρ c (Proc.devRef .tc main_v16_1)) (broadcastInDim S1x128 ![] bcast_S_S1x128 (constant (F := Ideal) S_ .f32 0x47435000#32)) := by
  show StableHlo.after hostOps1 _ (Proc.devRef .tc main_v18) = _
  after_results_simp

theorem w3_mean (k : Fin 128) : (W3 m ρ c (Proc.devRef .tc main_v18) : S1x128.Idx → EReal) (ix2 0 k) = meanOf (h1 m c) k := by
  rw [w3_v18]
  show Ideal.div _ _ = _
  rw [w2_s, bcastConst_apply]
  rfl

theorem w3_v22 : W3 m ρ c (Proc.devRef .tc main_v22) =
    subf (Host.divf (W2 m ρ c (Proc.devRef .tc main_v16_2)) (broadcastInDim S1x128 ![] bcast_S_S1x128 (constant (F := Ideal) S_ .f32 0x47435000#32)))
      (mulf (Host.divf (W2 m ρ c (Proc.devRef .tc main_v16_1)) (broadcastInDim S1x128 ![] bcast_S_S1x128 (constant (F := Ideal) S_ .f32 0x47435000#32)))
        (Host.divf (W2 m ρ c (Proc.devRef .tc main_v16_1)) (broadcastInDim S1x128 ![] bcast_S_S1x128 (constant (F := Ideal) S_ .f32 0x47435000#32)))) := by
  show StableHlo.after hostOps1 _ (Proc.devRef .tc main_v22) = _
  after_results_simp

theorem w3_var (k : Fin 128) : (W3 m ρ c (Proc.devRef .tc main_v22) : S1x128.Idx → EReal) (ix2 0 k) = varK (h1 m c) k := by
  rw [w3_v22]
  show Ideal.div _ _ - Ideal.div _ _ * Ideal.div _ _ = _
  rw [w2_ss, w2_s, bcastConst_apply]
  rfl

theorem w3_v23 : W3 m ρ c (Proc.devRef .tc main_v23) = shapeCast S1x128 (argv m c main_arg4) shapeCasts_S128_S1x128 := by
  show StableHlo.after hostOps1 _ (Proc.devRef .tc main_v23) = _
  after_results_simp
  exact congrArg (fun b => shapeCast S1x128 b shapeCasts_S128_S1x128) (k2_arg4 m ρ c)
theorem w3_v24 : W3 m ρ c (Proc.devRef .tc main_v24) = shapeCast S1x128 (argv m c main_arg5) shapeCasts_S128_S1x128 := by
  show StableHlo.after hostOps1 _ (Proc.devRef .tc main_v24) = _
  after_results_simp
  exact congrArg (fun b => shapeCast S1x128 b shapeCasts_S128_S1x128) (k2_arg5 m ρ c)
theorem w3_v25 : W3 m ρ c (Proc.devRef .tc main_v25) = shapeCast S1x128 (argv m c main_arg7) shapeCasts_S128_S1x128 := by
  show StableHlo.after hostOps1 _ (Proc.devRef .tc main_v25) = _
  after_results_simp
  exact congrArg (fun b => shapeCast S1x128 b shapeCasts_S128_S1x128) (k2_arg7 m ρ c)

/-! ## The second pallas_call: normalisation, rectifier, second linear layer, rectifier -/

/-- The normalised and twice-layered rows depend only on the seven operands' readings. -/
theorem lrb_congr {R C : ℕ} {h h' : Mat R C} {mean mean' var var' g g' be be' : Row C} {W W' : Mat C C} {b b' : Row C}
    (e0 : h = h') (e1 : mean = mean') (e2 : var = var') (e3 : g = g') (e4 : be = be') (e5 : W = W') (e6 : b = b') :
    linrelu (bnrelu h mean var g be) W b = linrelu (bnrelu h' mean' var' g' be') W' b' := by
  rw [e0, e1, e2, e3, e4, e5, e6]

set_option maxHeartbeats 4000000 in
/-- The first convolution's output array, entry by entry. -/
theorem conv1_value (p : Fin 50000) (j : Fin 128) :
    (W4 m ρ c (Proc.devRef .tc main_v26) : S50000x128.Idx → EReal) (ix2 p j)
      = convWith varK (Cert.Agg.A (argv m c main_arg1) (cur (argv m c main_arg0))) (cur (argv m c main_arg2)) (row1 (argv m c main_arg3))
          (row1 (argv m c main_arg4)) (row1 (argv m c main_arg5)) (cur (argv m c main_arg6)) (row1 (argv m c main_arg7)) p j := by
  have e : W4 m ρ c (Proc.devRef .tc main_v26) = (dat1 (V3 m ρ) c).arrAt 7 cfg1.N := W4_arr m ρ c 7
  rw [e]
  refine (KBn1.arr7 (V3 m ρ) c p j).trans ?_
  have b0 : (V3 m ρ c (Pipeline.arrRef spec1 0) : S50000x128.Idx → EReal) = W2 m ρ c (Proc.devRef .tc main_v16_0) := k3_v16_0 m ρ c
  have f0 : (fun p k => (V3 m ρ c (Pipeline.arrRef spec1 0) : S50000x128.Idx → EReal) (ix2 p k)) = h1 m c :=
    funext fun p => funext fun k => (congrFun b0 _).trans (w2_h m ρ c p k)
  have f1 : (fun k => (V3 m ρ c (Pipeline.arrRef spec1 1) : S1x128.Idx → EReal) (ix2 0 k)) = meanOf (h1 m c) := funext (w3_mean m ρ c)
  have f2 : (fun k => (V3 m ρ c (Pipeline.arrRef spec1 2) : S1x128.Idx → EReal) (ix2 0 k)) = varK (h1 m c) := funext (w3_var m ρ c)
  have b3 : (V3 m ρ c (Pipeline.arrRef spec1 3) : S1x128.Idx → EReal) = shapeCast S1x128 (argv m c main_arg4) shapeCasts_S128_S1x128 := w3_v23 m ρ c
  have f3 : (fun k => (V3 m ρ c (Pipeline.arrRef spec1 3) : S1x128.Idx → EReal) (ix2 0 k)) = row1 (argv m c main_arg4) :=
    funext fun k => (congrFun b3 _).trans (rowcast _ _ k)
  have b4 : (V3 m ρ c (Pipeline.arrRef spec1 4) : S1x128.Idx → EReal) = shapeCast S1x128 (argv m c main_arg5) shapeCasts_S128_S1x128 := w3_v24 m ρ c
  have f4 : (fun k => (V3 m ρ c (Pipeline.arrRef spec1 4) : S1x128.Idx → EReal) (ix2 0 k)) = row1 (argv m c main_arg5) :=
    funext fun k => (congrFun b4 _).trans (rowcast _ _ k)
  have b5 : (V3 m ρ c (Pipeline.arrRef spec1 5) : S128x128.Idx → EReal) = argv m c main_arg6 := k3_arg6 m ρ c
  have f5 : (fun k j => (V3 m ρ c (Pipeline.arrRef spec1 5) : S128x128.Idx → EReal) (ix2 k j)) = cur (argv m c main_arg6) :=
    funext fun k => funext fun j => congrFun b5 _
  have b6 : (V3 m ρ c (Pipeline.arrRef spec1 6) : S1x128.Idx → EReal) = shapeCast S1x128 (argv m c main_arg7) shapeCasts_S128_S1x128 := w3_v25 m ρ c
  have f6 : (fun j => (V3 m ρ c (Pipeline.arrRef spec1 6) : S1x128.Idx → EReal) (ix2 0 j)) = row1 (argv m c main_arg7) :=
    funext fun k => (congrFun b6 _).trans (rowcast _ _ k)
  refine (congrFun (congrFun (lrb_congr f0 f1 f2 f3 f4 f5 f6) p) j).trans ?_
  unfold convWith h1
  rfl

end Cert.KernelIdeal.KChain

end
-- ==== Proof.KBn3.lean ====
/-
  The second kernel of a convolution: batch normalisation with the affine map and the rectifier, then a linear layer
  and the rectifier, over 25 tiles of 2000 rows.

  Each tile reads its 2000 rows of the first layer's output together with the whole mean, variance, scale and shift
  rows, the whole 128 by 128 weight matrix and the whole bias row, and writes the same 2000 rows of the result. Entry
  (q, j) of a tile's result depends on row q of the tile alone: it is the maximum with zero of the sum over k of the
  normalised, rectified entry (q, k) times the weight (k, j), plus the bias j. Row p of the array lies in tile p / 2000
  at row p mod 2000, the tiles cover the array, and so the array after the run is, entry by entry, the rectified linear
  layer of the normalised, rectified input, whatever the array held before.
-/
import proofs.«125030_j49014166782120_1_alg».proof.Proof.KernelIdealP.Frame
import proofs.«125030_j49014166782120_1_alg».proof.Proof.Spec
import proofs.«125030_j49014166782120_1_alg».proof.Proof.LibBlockRead
import Idealize.ShloMosaic.Lib.Pipeline.Value
import Idealize.ShloMosaic.Lib.ValueLayout
import Idealize.ShloMosaic.PureOps.Ideal.Laws

set_option maxRecDepth 16384

noncomputable section

namespace Cert.KernelIdeal.KBn3

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

/-! ## The tile's arithmetic at an entry -/

/-- The product's dimension numbers: the left operand's axis 1 against the right operand's axis 0. -/
abbrev D : DotDims S2000x128 S128x128 S2000x128 := dot_S2000x128_S128x128_S2000x128_1_0_0_1_n_n

theorem D_l0 (j : S2000x128.Idx) (k : D.contr.Idx) : (D.lhsIdx j k 0).val = (j 0).val := by
  simp [DotDims.lhsIdx, D, dot_S2000x128_S128x128_S2000x128_1_0_0_1_n_n]; rfl
theorem D_l1 (j : S2000x128.Idx) (k : D.contr.Idx) : (D.lhsIdx j k 1).val = (k ⟨0, by decide⟩).val :=
  DotDims.lhsIdx_val_of_single (d := D) (cl := 1) rfl j k
theorem D_r0 (j : S2000x128.Idx) (k : D.contr.Idx) : (D.rhsIdx j k 0).val = (k ⟨0, by decide⟩).val :=
  DotDims.rhsIdx_val_of_single (d := D) (cr := 0) rfl j k
theorem D_r1 (j : S2000x128.Idx) (k : D.contr.Idx) : (D.rhsIdx j k 1).val = (j 1).val := by
  simp [DotDims.rhsIdx, D, dot_S2000x128_S128x128_S2000x128_1_0_0_1_n_n]; rfl

/-- What a tile stores, at the entry (q, j): the rectified linear layer of row q of the normalised, rectified block.
    The casts to the same shape are the identity, a row laid along the rows reads the row, a narrowing of the format is
    the identity on extended reals, and the product into a zero accumulator is the sum over the contracted coordinate. -/
theorem pay_apply (x0 : Vec Ideal S2000x128 .f32) (xv xm xg xb : Vec Ideal S1x128 .f32) (xw : Vec Ideal S128x128 .f32)
    (xb2 : Vec Ideal S1x128 .f32) (q : Fin 2000) (j : Fin 128) :
    k3_pay1 (F := Ideal) x0 xv xm xg xb xw xb2 (ix2 q j)
      = Cert.Spec.linrelu (Cert.Spec.bnrelu (fun p k => x0 (ix2 p k)) (fun k => xm (ix2 0 k)) (fun k => xv (ix2 0 k))
          (fun k => xg (ix2 0 k)) (fun k => xb (ix2 0 k))) (fun k j => xw (ix2 k j)) (fun j => xb2 (ix2 0 j)) q j := by
  unfold k3_pay1
  simp only [shapeCast_self]
  unfold Cert.Spec.linrelu Cert.Spec.lin Cert.Spec.bnrelu Cert.Spec.cZero Cert.Spec.cEps
  rw [maximumf_apply, addf_apply, broadcast_apply, broadcastTo_1b_ab_apply]
  refine congrArg₂ max (congrArg₂ (· + ·) ?_ rfl) rfl
  refine (Cert.Lib.BlockRead.matmul_zero_apply D rfl rfl D_l0 D_l1 D_r0 D_r1 none _ _ q j).trans ?_
  refine Finset.sum_congr rfl fun k _ => ?_
  rw [truncf_apply, truncf_apply, maximumf_apply, addf_apply, mulf_apply, mulf_apply, subf_apply, broadcast_apply,
    broadcastTo_1b_ab_apply, broadcastTo_1b_ab_apply, broadcastTo_1b_ab_apply, broadcastTo_1b_ab_apply]
  rfl

/-- The layer at an entry reads one row of the input, the parameter rows, one column of the weights and one bias entry:
    two settings that agree on those give the same entry. -/
theorem linrelu_bnrelu_congr {R R' : ℕ} (h : Cert.Spec.Mat R 128) (h' : Cert.Spec.Mat R' 128)
    (mean mean' var var' g g' be be' : Cert.Spec.Row 128) (W W' : Cert.Spec.Mat 128 128) (b b' : Cert.Spec.Row 128)
    (q : Fin R) (p : Fin R') (j j' : Fin 128)
    (hh : ∀ k, h q k = h' p k) (hm : ∀ k, mean k = mean' k) (hv : ∀ k, var k = var' k) (hg : ∀ k, g k = g' k)
    (hbe : ∀ k, be k = be' k) (hW : ∀ k, W k j = W' k j') (hb : b j = b' j') :
    Cert.Spec.linrelu (Cert.Spec.bnrelu h mean var g be) W b q j
      = Cert.Spec.linrelu (Cert.Spec.bnrelu h' mean' var' g' be') W' b' p j' := by
  unfold Cert.Spec.linrelu Cert.Spec.lin Cert.Spec.bnrelu
  simp only [hh, hm, hv, hg, hbe, hW, hb]

/-! ## The tiles and the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 tiles: the input block and the output block of tile t are block (t, 0) of their
    arrays, and every parameter's block is block (0, 0), the whole of its array. -/
theorem idx_facts : ∀ t : Fin cfg3.N,
    win3_7.index t (0 : Fin 2) = t.val ∧ win3_7.index t (1 : Fin 2) = 0
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- The input block of tile t at (x0, x1) is the array at row 2000 t + x0, column x1. -/
theorem blk0_apply (c : Dev nD) (t : Fin cfg3.N) (x : S2000x128.Idx) (k : S50000x128.Idx)
    (hk0 : (k 0).val = t.val * 2000 + (x 0).val) (hk1 : (k 1).val = (x 1).val) :
    (iblk3 V c 0 t : Vec Ideal S2000x128 .f32) x = (V c (Pipeline.arrRef spec3 0) : S50000x128.Idx → EReal) k := by
  obtain ⟨-, -, e0, e1, -⟩ := idx_facts t
  unfold iblk3
  rw [View.read_apply]
  refine congrArg (V c (Pipeline.arrRef spec3 0) : S50000x128.Idx → EReal) (funext fun a => Fin.ext ?_)
  match a with
  | ⟨0, _⟩ => show win3_0.index t (0 : Fin 2) * 2000 + 1 * (x 0).val = (k 0).val; rw [e0, hk0]; omega
  | ⟨1, _⟩ => show win3_0.index t (1 : Fin 2) * 128 + 1 * (x 1).val = (k 1).val; rw [e1, hk1]; omega

/-- Parameter window 1's block at any tile is the whole of its array. -/
theorem blk1_apply (c : Dev nD) (t : Fin cfg3.N) (x : S1x128.Idx) :
    (iblk3 V c 1 t : Vec Ideal S1x128 .f32) x = (V c (Pipeline.arrRef spec3 1) : S1x128.Idx → EReal) x := by
  have e := idx_facts t
  have e0 : win3_1.index t (0 : Fin 2) = 0 := by omega
  have e1 : win3_1.index t (1 : Fin 2) = 0 := by omega
  unfold iblk3
  rw [View.read_apply]
  refine congrArg (V c (Pipeline.arrRef spec3 1) : S1x128.Idx → EReal) (funext fun a => Fin.ext ?_)
  match a with
  | ⟨0, _⟩ => show win3_1.index t (0 : Fin 2) * 1 + 1 * (x 0).val = (x 0).val; rw [e0]; omega
  | ⟨1, _⟩ => show win3_1.index t (1 : Fin 2) * 128 + 1 * (x 1).val = (x 1).val; rw [e1]; omega

/-- Parameter window 2's block at any tile is the whole of its array. -/
theorem blk2_apply (c : Dev nD) (t : Fin cfg3.N) (x : S1x128.Idx) :
    (iblk3 V c 2 t : Vec Ideal S1x128 .f32) x = (V c (Pipeline.arrRef spec3 2) : S1x128.Idx → EReal) x := by
  have e := idx_facts t
  have e0 : win3_2.index t (0 : Fin 2) = 0 := by omega
  have e1 : win3_2.index t (1 : Fin 2) = 0 := by omega
  unfold iblk3
  rw [View.read_apply]
  refine congrArg (V c (Pipeline.arrRef spec3 2) : S1x128.Idx → EReal) (funext fun a => Fin.ext ?_)
  match a with
  | ⟨0, _⟩ => show win3_2.index t (0 : Fin 2) * 1 + 1 * (x 0).val = (x 0).val; rw [e0]; omega
  | ⟨1, _⟩ => show win3_2.index t (1 : Fin 2) * 128 + 1 * (x 1).val = (x 1).val; rw [e1]; omega

/-- Parameter window 3's block at any tile is the whole of its array. -/
theorem blk3_apply (c : Dev nD) (t : Fin cfg3.N) (x : S1x128.Idx) :
    (iblk3 V c 3 t : Vec Ideal S1x128 .f32) x = (V c (Pipeline.arrRef spec3 3) : S1x128.Idx → EReal) x := by
  have e := idx_facts t
  have e0 : win3_3.index t (0 : Fin 2) = 0 := by omega
  have e1 : win3_3.index t (1 : Fin 2) = 0 := by omega
  unfold iblk3
  rw [View.read_apply]
  refine congrArg (V c (Pipeline.arrRef spec3 3) : S1x128.Idx → EReal) (funext fun a => Fin.ext ?_)
  match a with
  | ⟨0, _⟩ => show win3_3.index t (0 : Fin 2) * 1 + 1 * (x 0).val = (x 0).val; rw [e0]; omega
  | ⟨1, _⟩ => show win3_3.index t (1 : Fin 2) * 128 + 1 * (x 1).val = (x 1).val; rw [e1]; omega

/-- Parameter window 4's block at any tile is the whole of its array. -/
theorem blk4_apply (c : Dev nD) (t : Fin cfg3.N) (x : S1x128.Idx) :
    (iblk3 V c 4 t : Vec Ideal S1x128 .f32) x = (V c (Pipeline.arrRef spec3 4) : S1x128.Idx → EReal) x := by
  have e := idx_facts t
  have e0 : win3_4.index t (0 : Fin 2) = 0 := by omega
  have e1 : win3_4.index t (1 : Fin 2) = 0 := by omega
  unfold iblk3
  rw [View.read_apply]
  refine congrArg (V c (Pipeline.arrRef spec3 4) : S1x128.Idx → EReal) (funext fun a => Fin.ext ?_)
  match a with
  | ⟨0, _⟩ => show win3_4.index t (0 : Fin 2) * 1 + 1 * (x 0).val = (x 0).val; rw [e0]; omega
  | ⟨1, _⟩ => show win3_4.index t (1 : Fin 2) * 128 + 1 * (x 1).val = (x 1).val; rw [e1]; omega

/-- Parameter window 5's block at any tile is the whole of its array. -/
theorem blk5_apply (c : Dev nD) (t : Fin cfg3.N) (x : S128x128.Idx) :
    (iblk3 V c 5 t : Vec Ideal S128x128 .f32) x = (V c (Pipeline.arrRef spec3 5) : S128x128.Idx → EReal) x := by
  have e := idx_facts t
  have e0 : win3_5.index t (0 : Fin 2) = 0 := by omega
  have e1 : win3_5.index t (1 : Fin 2) = 0 := by omega
  unfold iblk3
  rw [View.read_apply]
  refine congrArg (V c (Pipeline.arrRef spec3 5) : S128x128.Idx → EReal) (funext fun a => Fin.ext ?_)
  match a with
  | ⟨0, _⟩ => show win3_5.index t (0 : Fin 2) * 128 + 1 * (x 0).val = (x 0).val; rw [e0]; omega
  | ⟨1, _⟩ => show win3_5.index t (1 : Fin 2) * 128 + 1 * (x 1).val = (x 1).val; rw [e1]; omega

/-- Parameter window 6's block at any tile is the whole of its array. -/
theorem blk6_apply (c : Dev nD) (t : Fin cfg3.N) (x : S1x128.Idx) :
    (iblk3 V c 6 t : Vec Ideal S1x128 .f32) x = (V c (Pipeline.arrRef spec3 6) : S1x128.Idx → EReal) x := by
  have e := idx_facts t
  have e0 : win3_6.index t (0 : Fin 2) = 0 := by omega
  have e1 : win3_6.index t (1 : Fin 2) = 0 := by omega
  unfold iblk3
  rw [View.read_apply]
  refine congrArg (V c (Pipeline.arrRef spec3 6) : S1x128.Idx → EReal) (funext fun a => Fin.ext ?_)
  match a with
  | ⟨0, _⟩ => show win3_6.index t (0 : Fin 2) * 1 + 1 * (x 0).val = (x 0).val; rw [e0]; omega
  | ⟨1, _⟩ => show win3_6.index t (1 : Fin 2) * 128 + 1 * (x 1).val = (x 1).val; rw [e1]; omega

/-- The array the run leaves: entry (p, j) is the rectified linear layer of row p of the normalised, rectified input,
    with the arrays as the region finds them. -/
def G (c : Dev nD) : S50000x128.Idx → EReal := fun i =>
  Cert.Spec.linrelu (Cert.Spec.bnrelu (fun p k => (V c (Pipeline.arrRef spec3 0) : S50000x128.Idx → EReal) (ix2 p k))
      (fun k => (V c (Pipeline.arrRef spec3 1) : S1x128.Idx → EReal) (ix2 0 k)) (fun k => (V c (Pipeline.arrRef spec3 2) : S1x128.Idx → EReal) (ix2 0 k))
      (fun k => (V c (Pipeline.arrRef spec3 3) : S1x128.Idx → EReal) (ix2 0 k)) (fun k => (V c (Pipeline.arrRef spec3 4) : S1x128.Idx → EReal) (ix2 0 k)))
    (fun k j => (V c (Pipeline.arrRef spec3 5) : S128x128.Idx → EReal) (ix2 k j)) (fun j => (V c (Pipeline.arrRef spec3 6) : S1x128.Idx → EReal) (ix2 0 j))
    (i 0) (i 1)

/-- What tile t writes back is block t of `G`: the stored entry (q, j) reads row q of the tile's input block, which is
    row 2000 t + q of the array, where the output block's entry (q, j) sits. -/
theorem flushed_eq (c : Dev nD) (t : Fin cfg3.N) :
    (dat3 (F := Ideal) V c).flushed 7 t = ((cfg3.win 7).blk t).view.read (Elt Ideal) (G V c) := by
  show (cfg3.win 7).cut (grid3.coords t) ((dat3 (F := Ideal) V c).after 7 t) = _
  rw [after3_7]
  unfold out3_7
  rw [View.canon_unit_zero hz]
  simp only [View.ld_unit_zero (S := S2000x128) hz, View.ld_unit_zero (S := S1x128) hz, View.ld_unit_zero (S := S128x128) hz]
  obtain ⟨e0, e1, -⟩ := idx_facts t
  refine funext fun (y : S2000x128.Idx) => ?_
  obtain ⟨q, j, rfl⟩ : ∃ (q : Fin 2000) (j : Fin 128), y = ix2 q j := ⟨y 0, y 1, eq_ix2 y⟩
  show k3_pay1 (F := Ideal) (iblk3 V c 0 t) (iblk3 V c 2 t) (iblk3 V c 1 t) (iblk3 V c 3 t) (iblk3 V c 4 t) (iblk3 V c 5 t) (iblk3 V c 6 t) (ix2 q j)
    = G V c (((cfg3.win 7).blk t).view.emb (ix2 q j))
  refine (pay_apply (iblk3 V c 0 t) (iblk3 V c 2 t) (iblk3 V c 1 t) (iblk3 V c 3 t) (iblk3 V c 4 t) (iblk3 V c 5 t) (iblk3 V c 6 t) q j).trans ?_
  unfold G
  have hj : ((((cfg3.win 7).blk t).view.emb (ix2 q j)) 1 : Fin 128) = j := Fin.ext (by
    show win3_7.index t (1 : Fin 2) * 128 + 1 * j.val = j.val
    rw [e1]; omega)
  rw [hj]
  refine linrelu_bnrelu_congr _ _ _ _ _ _ _ _ _ _ _ _ _ _ q _ j j (fun k => ?_) (fun k => ?_) (fun k => ?_) (fun k => ?_) (fun k => ?_) (fun k => ?_) ?_
  · refine blk0_apply V c t (ix2 q k) _ ?_ rfl
    show win3_7.index t (0 : Fin 2) * 2000 + 1 * q.val = t.val * 2000 + q.val
    rw [e0]; omega
  · exact blk1_apply V c t _
  · exact blk2_apply V c t _
  · exact blk3_apply V c t _
  · exact blk4_apply V c t _
  · exact blk5_apply V c t _
  · exact blk6_apply V c t _

/-- An index of the array is in tile t's block iff each coordinate is in the block's range on its axis. -/
theorem mem_blk (t : Fin cfg3.N) (i : S50000x128.Idx) :
    i ∈ ((cfg3.win 7).blk t).view.set ↔ ∀ a : Fin 2, win3_7.index t a * S2000x128.size a ≤ (i a).val ∧ (i a).val < win3_7.index t a * S2000x128.size a + S2000x128.size a := by
  show i ∈ ((View.whole main_v49).slice (win3_7.rect t)).set ↔ _
  rw [View.set_slice_whole, Rect.mem_set_unit]
  exact Iff.rfl

/-- The 25 tiles cover the array: row p lies in tile p / 2000. -/
theorem cover (i : S50000x128.Idx) :
    ∃ t : Fin cfg3.N, (cfg3.win 7).flush t = true ∧ i ∈ ((cfg3.win 7).blk t).view.set := by
  have hi0 : (i 0).val < 50000 := (i 0).isLt
  have hi1 : (i 1).val < 128 := (i 1).isLt
  have hN : grid3.N = 25 := N_3
  have ht : (i 0).val / 2000 < cfg3.N := by show (i 0).val / 2000 < grid3.N; rw [hN]; omega
  obtain ⟨e0, e1, -⟩ := idx_facts ⟨(i 0).val / 2000, ht⟩
  refine ⟨⟨(i 0).val / 2000, ht⟩, flush3_7 _, ?_⟩
  rw [mem_blk]
  intro a
  match a with
  | ⟨0, _⟩ =>
    show win3_7.index ⟨(i 0).val / 2000, ht⟩ (0 : Fin 2) * 2000 ≤ (i 0).val ∧ (i 0).val < win3_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_7.index ⟨(i 0).val / 2000, ht⟩ (1 : Fin 2) * 128 ≤ (i 1).val ∧ (i 1).val < win3_7.index ⟨(i 0).val / 2000, ht⟩ (1 : Fin 2) * 128 + 128
    rw [e1]; omega

/-- The output array after the run is `G`. -/
theorem final (c : Dev nD) : (dat3 (F := Ideal) V c).arrAt 7 cfg3.N = G V c :=
  (dat3 (F := Ideal) V c).arrAt_eq_of_cover 7 (G V c) (fun t _ => flushed_eq V c t) (cover)

/-- THE OUTPUT ARRAY AT AN ENTRY: after the run, entry (p, j) is the rectified linear layer of row p of the normalised,
    rectified input, over the arrays as the region finds them. -/
theorem arr7 (c : Dev nD) (p : Fin 50000) (j : Fin 128) :
    ((dat3 (F := Ideal) V c).arrAt 7 cfg3.N : S50000x128.Idx → EReal) (ix2 p j)
      = Cert.Spec.linrelu (Cert.Spec.bnrelu (fun p k => (V c (Pipeline.arrRef spec3 0) : S50000x128.Idx → EReal) (ix2 p k))
          (fun k => (V c (Pipeline.arrRef spec3 1) : S1x128.Idx → EReal) (ix2 0 k)) (fun k => (V c (Pipeline.arrRef spec3 2) : S1x128.Idx → EReal) (ix2 0 k))
          (fun k => (V c (Pipeline.arrRef spec3 3) : S1x128.Idx → EReal) (ix2 0 k)) (fun k => (V c (Pipeline.arrRef spec3 4) : S1x128.Idx → EReal) (ix2 0 k)))
        (fun k j => (V c (Pipeline.arrRef spec3 5) : S128x128.Idx → EReal) (ix2 k j)) (fun j => (V c (Pipeline.arrRef spec3 6) : S1x128.Idx → EReal) (ix2 0 j)) p j :=
  congrFun (final V c) (ix2 p j)

end Cert.KernelIdeal.KBn3

end
-- ==== Proof.KStats2.lean ====
/-
  The first call of a convolution: the linear layer of the aggregated features, tile by tile, with the column sums
  of the result and of its squares accumulated over the tiles.

  The 50000 rows are cut into 25 tiles of 2000. At tile `t` the body multiplies the tile of the input by the
  128 × 128 matrix into a zero accumulator and adds the bias row to every row; it writes that tile of the result,
  and adds, lane by lane, the sum over the tile's rows of the result (and of its square) into two rows of 128 that
  are reset to zero at the first tile and stay in place across the tiles. On the extended reals, with every operation
  exact and every format change the identity:

    arr3 — the result array at (p, j) is `lin x W b p j`, the row of the input times the column of the matrix plus
      the bias entry;
    arr4 — the first accumulated row at lane j is `csum (lin x W b) j`, the sum of column j over all 50000 rows;
    arr5 — the second at lane j is `csumsq (lin x W b) j`, the sum of the squares of column j.

  The sum over the 50000 rows is the sum over the 25 tiles of the sums over each tile's 2000 rows (`sum_rows`); the
  accumulated rows after tile `n` are the partial sums over the tiles up to `n` (`outs4`, `outs5`, by induction on `n`:
  the first tile adds to the zero row, every later one to what the tile before left).
-/
import proofs.«125030_j49014166782120_1_alg».proof.Proof.KernelIdealP.Frame
import proofs.«125030_j49014166782120_1_alg».proof.Proof.Spec
import proofs.«125030_j49014166782120_1_alg».proof.Proof.LibBlockRead
import Idealize.ShloMosaic.Lib.Pipeline.Value
import Idealize.ShloMosaic.Lib.Tactic

set_option maxRecDepth 16384

noncomputable section

open Idealize.ShloMosaic Idealize.ShloMosaic.ValueIdx
open scoped BigOperators

open Idealize.ShloMosaic.TcCoe Idealize.SL.Sem
open Idealize.ShloMosaic.Pipeline (Dat)

namespace Cert.KernelIdeal.KStats2
open Cert.KernelIdeal Cert.KernelIdeal.Gen Cert.KernelIdeal.GenP

/-- The tile of the linear layer at an entry: the row of the block times the column of the matrix, plus the bias entry. -/
theorem pay3_apply (x : Vec Ideal S2000x128 .f32) (w : Vec Ideal S128x128 .f32) (b : Vec Ideal S1x128 .f32)
    (r : Fin 2000) (j : Fin 128) :
    k2_pay3 (F := Ideal) x w b (ix2 r j) = (∑ k : Fin 128, x (ix2 r k) * w (ix2 k j)) + b (ix2 (0 : Fin 1) j) := by
  unfold k2_pay3
  rw [shapeCast_self, shapeCast_self, addf_apply, broadcastTo_1b_ab_apply]
  rw [Cert.Lib.BlockRead.matmul_zero_apply _ rfl rfl (fun _ _ => rfl) (fun _ _ => rfl) (fun _ _ => rfl) (fun _ _ => rfl)]
  rfl

/-- The sum over the rows of a [2000, 128] block, kept as one row, read at a lane: the sum of that column. -/
theorem rowsum_apply (src : FVec Ideal S2000x128 .f32) (j : Fin 128) :
    shapeCast S1x128 (multiReduction .add [0] S128 src 0x00000000#32 reduces_S2000x128_S128 (.inl rfl) rfl)
        shapeCasts_S128_S1x128 (ix2 (0 : Fin 1) j)
      = ∑ r : Fin 2000, src (ix2 r j) := by
  rw [shapeCast_a_1a_apply]
  refine (Ideal.multiReduction_add_single src _ reduces_S2000x128_S128 (.inl rfl) rfl (ix1 j)).trans ?_
  refine Finset.sum_congr rfl fun r _ => congrArg src ?_
  funext ax
  match ax with
  | ⟨0, _⟩ => exact Fin.ext rfl
  | ⟨1, _⟩ => exact Fin.ext rfl

/-- The running column sum after a tile: what was there plus the tile's column sum. -/
theorem pay4_apply (x : Vec Ideal S2000x128 .f32) (w : Vec Ideal S128x128 .f32) (b : Vec Ideal S1x128 .f32)
    (acc : Vec Ideal S1x128 .f32) (j : Fin 128) :
    k2_pay4 (F := Ideal) x w b acc (ix2 (0 : Fin 1) j)
      = acc (ix2 (0 : Fin 1) j) + ∑ r : Fin 2000, k2_pay3 (F := Ideal) x w b (ix2 r j) := by
  unfold k2_pay4
  rw [shapeCast_self, addf_apply, rowsum_apply]

/-- The running column sum of squares after a tile: what was there plus the tile's column sum of squares. -/
theorem pay5_apply (x : Vec Ideal S2000x128 .f32) (w : Vec Ideal S128x128 .f32) (b : Vec Ideal S1x128 .f32)
    (acc : Vec Ideal S1x128 .f32) (j : Fin 128) :
    k2_pay5 (F := Ideal) x w b acc (ix2 (0 : Fin 1) j)
      = acc (ix2 (0 : Fin 1) j)
        + ∑ r : Fin 2000, k2_pay3 (F := Ideal) x w b (ix2 r j) * k2_pay3 (F := Ideal) x w b (ix2 r j) := by
  unfold k2_pay5
  rw [shapeCast_self, addf_apply, rowsum_apply]
  rfl

/-- The reset rows are zero. -/
theorem pay1_apply (i : S1x128.Idx) : k2_pay1 (F := Ideal) i = 0 := by
  unfold k2_pay1
  show Ideal.ofBits .f32 0x00000000#32 = 0
  exact Ideal.ofBits_zero_f32
theorem pay2_apply (i : S1x128.Idx) : k2_pay2 (F := Ideal) i = 0 := by
  unfold k2_pay2
  show Ideal.ofBits .f32 0x00000000#32 = 0
  exact Ideal.ofBits_zero_f32

section Outs
variable {F : FTy → Type} [FloatOps F]

theorem hz : (![0, 0] : Fin 2 → Nat) = fun _ => 0 := funext fun a => by fin_cases a <;> rfl

/-- At a later point the tile's buffer ends at the tile of the linear layer of the three input blocks. -/
theorem out_B_3 (c : Dev nD) (i : grid2.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : ¬cond2_0 i) (x0 : Vec F S2000x128 .f32) (x1 : Vec F S128x128 .f32) (x2 : Vec F S1x128 .f32) (xo4 xo5 : Vec F S1x128 .f32) :
    out2_B_3 c i a1 h1 a2 h2 a3 h3 a4 h4 a5 h5 a6 h6 hc x0 x1 x2 xo4 xo5 = k2_pay3 x0 x1 x2 := by
  unfold out2_B_3
  rw [View.read_writes_eq_canon _ _ _ (cover2_B_3 c i a1 h1 a2 h2 a3 h3 a4 h4 a5 h5 a6 h6 hc x0 x1 x2 xo4 xo5)]
  unfold kernelRun2_B
  dsimp only
  rw [View.canon_unit_zero hz]
  simp only [View.readAt_eq_ld, h1.read_unread, h2.read_unread, h3.read_unread, h5.read_unread, h6.read_unread, View.ld_unit_zero (S := S2000x128) hz, View.ld_unit_zero (S := S128x128) hz, View.ld_unit_zero (S := S1x128) hz]

/-- At a later point the column-sum row ends at what it held plus the tile's column sums. -/
theorem out_B_4 (c : Dev nD) (i : grid2.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : ¬cond2_0 i) (x0 : Vec F S2000x128 .f32) (x1 : Vec F S128x128 .f32) (x2 : Vec F S1x128 .f32) (xo4 xo5 : Vec F S1x128 .f32) :
    out2_B_4 c i a1 h1 a2 h2 a3 h3 a4 h4 a5 h5 a6 h6 hc x0 x1 x2 xo4 xo5 = k2_pay4 x0 x1 x2 xo4 := by
  unfold out2_B_4
  rw [View.read_writes_eq_canon _ _ _ (cover2_B_4 c i a1 h1 a2 h2 a3 h3 a4 h4 a5 h5 a6 h6 hc x0 x1 x2 xo4 xo5)]
  unfold kernelRun2_B
  dsimp only
  rw [View.canon_unit_zero hz]
  simp only [View.readAt_eq_ld, h1.read_unread, h2.read_unread, h3.read_unread, h5.read_unread, h6.read_unread, View.ld_unit_zero (S := S2000x128) hz, View.ld_unit_zero (S := S128x128) hz, View.ld_unit_zero (S := S1x128) hz]

/-- At a later point the row of column sums of squares ends at what it held plus the tile's. -/
theorem out_B_5 (c : Dev nD) (i : grid2.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : ¬cond2_0 i) (x0 : Vec F S2000x128 .f32) (x1 : Vec F S128x128 .f32) (x2 : Vec F S1x128 .f32) (xo4 xo5 : Vec F S1x128 .f32) :
    out2_B_5 c i a1 h1 a2 h2 a3 h3 a4 h4 a5 h5 a6 h6 hc x0 x1 x2 xo4 xo5 = k2_pay5 x0 x1 x2 xo5 := by
  unfold out2_B_5
  rw [View.read_writes_eq_canon _ _ _ (cover2_B_5 c i a1 h1 a2 h2 a3 h3 a4 h4 a5 h5 a6 h6 hc x0 x1 x2 xo4 xo5)]
  unfold kernelRun2_B
  dsimp only
  rw [View.canon_unit_zero hz]
  simp only [View.readAt_eq_ld, h1.read_unread, h2.read_unread, h3.read_unread, h5.read_unread, h6.read_unread, View.ld_unit_zero (S := S2000x128) hz, View.ld_unit_zero (S := S128x128) hz, View.ld_unit_zero (S := S1x128) hz]

/-- At the first point the tile's buffer ends at the tile of the linear layer of the three input blocks. -/
theorem out_A_3 (c : Dev nD) (i : grid2.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : cond2_0 i) (x0 : Vec F S2000x128 .f32) (x1 : Vec F S128x128 .f32) (x2 : Vec F S1x128 .f32) :
    out2_A_3 c i a1 h1 a2 h2 a3 h3 a4 h4 a5 h5 a6 h6 hc x0 x1 x2 = k2_pay3 x0 x1 x2 := by
  unfold out2_A_3
  rw [View.read_writes_eq_canon _ _ _ (cover2_A_3 c i a1 h1 a2 h2 a3 h3 a4 h4 a5 h5 a6 h6 hc x0 x1 x2)]
  unfold kernelRun2_A
  dsimp only
  rw [View.canon_unit_zero hz]
  simp only [View.readAt_eq_ld, h1.read_unread, h2.read_unread, h3.read_unread, h5.read_unread, h6.read_unread, View.ld_unit_zero (S := S2000x128) hz, View.ld_unit_zero (S := S128x128) hz, View.ld_unit_zero (S := S1x128) hz]

/-- At the first point the column-sum row is reset and ends at the reset row plus the tile's column sums. -/
theorem out_A_4 (c : Dev nD) (i : grid2.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : cond2_0 i) (x0 : Vec F S2000x128 .f32) (x1 : Vec F S128x128 .f32) (x2 : Vec F S1x128 .f32) :
    out2_A_4 c i a1 h1 a2 h2 a3 h3 a4 h4 a5 h5 a6 h6 hc x0 x1 x2 = k2_pay4 x0 x1 x2 k2_pay1 := by
  unfold out2_A_4
  rw [View.read_writes_eq_canon _ _ _ (cover2_A_4 c i a1 h1 a2 h2 a3 h3 a4 h4 a5 h5 a6 h6 hc x0 x1 x2)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h5.read_unread, h6.read_unread, View.ld_unit_zero (S := S2000x128) hz, View.ld_unit_zero (S := S128x128) hz, View.ld_unit_zero (S := S1x128) hz]

/-- At the first point the row of column sums of squares is reset and ends at the reset row plus the tile's. -/
theorem out_A_5 (c : Dev nD) (i : grid2.Coords) (a1 : Memref sig .tc .vmem S2000x128 .f32) (h1 : a1.IsWhole) (a2 : Memref sig .tc .vmem S128x128 .f32) (h2 : a2.IsWhole) (a3 : Memref sig .tc .vmem S1x128 .f32) (h3 : a3.IsWhole) (a4 : Memref sig .tc .vmem S2000x128 .f32) (h4 : a4.IsWhole) (a5 : Memref sig .tc .vmem S1x128 .f32) (h5 : a5.IsWhole) (a6 : Memref sig .tc .vmem S1x128 .f32) (h6 : a6.IsWhole) (hc : cond2_0 i) (x0 : Vec F S2000x128 .f32) (x1 : Vec F S128x128 .f32) (x2 : Vec F S1x128 .f32) :
    out2_A_5 c i a1 h1 a2 h2 a3 h3 a4 h4 a5 h5 a6 h6 hc x0 x1 x2 = k2_pay5 x0 x1 x2 k2_pay2 := by
  unfold out2_A_5
  rw [View.read_writes_eq_canon _ _ _ (cover2_A_5 c i a1 h1 a2 h2 a3 h3 a4 h4 a5 h5 a6 h6 hc x0 x1 x2)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h5.read_unread, h6.read_unread, View.ld_unit_zero (S := S2000x128) hz, View.ld_unit_zero (S := S128x128) hz, View.ld_unit_zero (S := S1x128) hz]
end Outs

section AtIdeal
variable (V : (c : Dev nD) → (b : Ref sig .tc) → Buf (Elt Ideal) ((c : Thread nD τ).loc b))

/-- Row `r` of tile `s` is row `2000 s + r` of the array. -/
def row (s : Fin 25) (r : Fin 2000) : Fin 50000 := ⟨2000 * s.val + r.val, by have := s.isLt; have := r.isLt; omega⟩

/-- The linear layer of the whole array, entry by entry. -/
def hh (c : Dev nD) : Cert.Spec.Mat 50000 128 :=
  Cert.Spec.lin (fun p k => (V c (Pipeline.arrRef spec2 0) : S50000x128.Idx → EReal) (ix2 p k))
      (fun k j => (V c (Pipeline.arrRef spec2 1) : S128x128.Idx → EReal) (ix2 k j))
      (fun j => (V c (Pipeline.arrRef spec2 2) : S1x128.Idx → EReal) (ix2 0 j))

theorem N25 : cfg2.N = 25 := N_2

/-- The block index of the row-tiled windows is the point, of the whole-array windows zero. -/
theorem index2 : ∀ t : Fin grid2.N, ((win2_0.index t 0 : Nat) = t.val ∧ (win2_0.index t 1 : Nat) = 0)
    ∧ ((win2_1.index t 0 : Nat) = 0 ∧ (win2_1.index t 1 : Nat) = 0)
    ∧ ((win2_2.index t 0 : Nat) = 0 ∧ (win2_2.index t 1 : Nat) = 0)
    ∧ ((win2_3.index t 0 : Nat) = t.val ∧ (win2_3.index t 1 : Nat) = 0)
    ∧ ((win2_4.index t 0 : Nat) = 0 ∧ (win2_4.index t 1 : Nat) = 0)
    ∧ ((win2_5.index t 0 : Nat) = 0 ∧ (win2_5.index t 1 : Nat) = 0) := by decide +kernel

/-- The input tile at point `t`, read at an entry: the array at row `2000 t + r`. -/
theorem iblk2_0_apply (c : Dev nD) (t : Fin cfg2.N) (s : Fin 25) (hs : s.val = t.val) (r : Fin 2000) (k : Fin 128) :
    (iblk2 V c 0 t : S2000x128.Idx → EReal) (ix2 r k)
      = (V c (Pipeline.arrRef spec2 0) : S50000x128.Idx → EReal) (ix2 (row s r) k) := by
  unfold iblk2
  rw [View.read_apply]
  show (V c (Pipeline.arrRef spec2 0) : S50000x128.Idx → EReal) _ = _
  congr 1
  funext a
  apply Fin.ext
  have hi := (index2 t).1
  match a with
  | ⟨0, _⟩ => show win2_0.index t 0 * 2000 + 1 * r.val = 2000 * s.val + r.val; rw [hi.1]; omega
  | ⟨1, _⟩ => show win2_0.index t 1 * 128 + 1 * k.val = k.val; rw [hi.2]; omega

/-- The matrix's block at any point is the whole matrix. -/
theorem iblk2_1_apply (c : Dev nD) (t : Fin cfg2.N) (k : Fin 128) (j : Fin 128) :
    (iblk2 V c 1 t : S128x128.Idx → EReal) (ix2 k j)
      = (V c (Pipeline.arrRef spec2 1) : S128x128.Idx → EReal) (ix2 k j) := by
  unfold iblk2
  rw [View.read_apply]
  show (V c (Pipeline.arrRef spec2 1) : S128x128.Idx → EReal) _ = _
  congr 1
  funext a
  apply Fin.ext
  have hi := (index2 t).2.1
  match a with
  | ⟨0, _⟩ => show win2_1.index t 0 * 128 + 1 * k.val = k.val; rw [hi.1]; omega
  | ⟨1, _⟩ => show win2_1.index t 1 * 128 + 1 * j.val = j.val; rw [hi.2]; omega

/-- The bias row's block at any point is the whole row. -/
theorem iblk2_2_apply (c : Dev nD) (t : Fin cfg2.N) (j : Fin 128) :
    (iblk2 V c 2 t : S1x128.Idx → EReal) (ix2 (0 : Fin 1) j)
      = (V c (Pipeline.arrRef spec2 2) : S1x128.Idx → EReal) (ix2 (0 : Fin 1) j) := by
  unfold iblk2
  rw [View.read_apply]
  show (V c (Pipeline.arrRef spec2 2) : S1x128.Idx → EReal) _ = _
  congr 1
  funext a
  apply Fin.ext
  have hi := (index2 t).2.2.1
  match a with
  | ⟨0, _⟩ => show win2_2.index t 0 * 1 + 1 * 0 = 0; rw [hi.1]
  | ⟨1, _⟩ => show win2_2.index t 1 * 128 + 1 * j.val = j.val; rw [hi.2]; omega

/-- The tile the body computes at point `t`, read at an entry: the linear layer at row `2000 t + r`. -/
theorem tile_apply (c : Dev nD) (t : Fin cfg2.N) (s : Fin 25) (hs : s.val = t.val) (r : Fin 2000) (j : Fin 128) :
    k2_pay3 (F := Ideal) (iblk2 V c 0 t) (iblk2 V c 1 t) (iblk2 V c 2 t) (ix2 r j) = hh V c (row s r) j := by
  rw [pay3_apply]
  unfold hh Cert.Spec.lin
  rw [iblk2_2_apply]
  refine congrArg (· + _) (Finset.sum_congr rfl fun k _ => ?_)
  rw [iblk2_0_apply V c t s hs, iblk2_1_apply]

/-- What the tile's buffer holds after point `t`. -/
theorem outs3 (c : Dev nD) (t : Fin cfg2.N) :
    (outsAt2 V c t.val t.isLt).1 = k2_pay3 (iblk2 V c 0 t) (iblk2 V c 1 t) (iblk2 V c 2 t) := by
  by_cases h0 : t.val % 25 = 0
  · rw [outsAt2_A V c t h0]; dsimp only; rw [out_A_3]
  · rw [outsAt2_B V c t h0]; dsimp only; rw [out_B_3]

/-- The column sums of tile `s`, and of its squares. -/
def tsum (c : Dev nD) (s : Fin 25) (j : Fin 128) : EReal := ∑ r : Fin 2000, hh V c (row s r) j
def tsumsq (c : Dev nD) (s : Fin 25) (j : Fin 128) : EReal := ∑ r : Fin 2000, hh V c (row s r) j * hh V c (row s r) j

/-- The column-sum row after point `n`: the sum of the tiles' column sums up to it. -/
theorem outs4 (c : Dev nD) (j : Fin 128) : ∀ (n : ℕ) (h : n < cfg2.N),
    ((outsAt2 V c n h).2.1 : S1x128.Idx → EReal) (ix2 (0 : Fin 1) j)
      = ∑ s : Fin (n + 1), tsum V c ⟨s.val, by have := s.isLt; have := N25; omega⟩ j
  | 0, h => by
    rw [show outsAt2 V c 0 h = _ from outsAt2_A V c ⟨0, h⟩ rfl]
    dsimp only
    rw [out_A_4, pay4_apply, pay1_apply, zero_add, Fin.sum_univ_one]
    exact Finset.sum_congr rfl fun r _ => tile_apply V c ⟨0, h⟩ _ rfl r j
  | n + 1, h => by
    have hB : ¬(⟨n + 1, h⟩ : Fin cfg2.N).val % 25 = 0 := by have := N25; dsimp only; omega
    rw [show outsAt2 V c (n + 1) h = _ from outsAt2_B V c ⟨n + 1, h⟩ hB]
    dsimp only
    rw [out_B_4, pay4_apply]
    refine Eq.trans ?_ (Fin.sum_univ_castSucc _).symm
    refine congrArg₂ (· + ·) (outs4 c j n (Nat.lt_of_succ_lt h)) ?_
    exact Finset.sum_congr rfl fun r _ => tile_apply V c ⟨n + 1, h⟩ _ rfl r j

/-- The row of column sums of squares after point `n`: the sum of the tiles' up to it. -/
theorem outs5 (c : Dev nD) (j : Fin 128) : ∀ (n : ℕ) (h : n < cfg2.N),
    ((outsAt2 V c n h).2.2 : S1x128.Idx → EReal) (ix2 (0 : Fin 1) j)
      = ∑ s : Fin (n + 1), tsumsq V c ⟨s.val, by have := s.isLt; have := N25; omega⟩ j
  | 0, h => by
    rw [show outsAt2 V c 0 h = _ from outsAt2_A V c ⟨0, h⟩ rfl]
    dsimp only
    rw [out_A_5, pay5_apply, pay2_apply, zero_add, Fin.sum_univ_one]
    exact Finset.sum_congr rfl fun r _ => congrArg₂ (· * ·) (tile_apply V c ⟨0, h⟩ _ rfl r j) (tile_apply V c ⟨0, h⟩ _ rfl r j)
  | n + 1, h => by
    have hB : ¬(⟨n + 1, h⟩ : Fin cfg2.N).val % 25 = 0 := by have := N25; dsimp only; omega
    rw [show outsAt2 V c (n + 1) h = _ from outsAt2_B V c ⟨n + 1, h⟩ hB]
    dsimp only
    rw [out_B_5, pay5_apply]
    refine Eq.trans ?_ (Fin.sum_univ_castSucc _).symm
    refine congrArg₂ (· + ·) (outs5 c j n (Nat.lt_of_succ_lt h)) ?_
    exact Finset.sum_congr rfl fun r _ => congrArg₂ (· * ·) (tile_apply V c ⟨n + 1, h⟩ _ rfl r j) (tile_apply V c ⟨n + 1, h⟩ _ rfl r j)

/-- A sum over the 50000 rows is the sum over the 25 tiles of the sums over each tile's 2000 rows. -/
theorem sum_rows (f : Fin 50000 → EReal) : ∑ p : Fin 50000, f p = ∑ s : Fin 25, ∑ r : Fin 2000, f (row s r) := by
  rw [← Fintype.sum_prod_type (f := fun x : Fin 25 × Fin 2000 => f (row x.1 x.2))]
  refine (Fintype.sum_equiv (finProdFinEquiv : Fin 25 × Fin 2000 ≃ Fin 50000) _ _ fun x => congrArg f (Fin.ext ?_)).symm
  show 2000 * x.1.val + x.2.val = x.2.val + 2000 * x.1.val
  omega

/-- An entry of a whole block is the same entry of its staging block. -/
theorem xinj_3 (i : grid2.Coords) (r : Fin 2000) (k : Fin 128) :
    win2_3.xinj i (ix2 r k : S2000x128.Idx) = (ix2 r k : S2000x128.Idx) :=
  funext fun a => match a with | ⟨0, _⟩ => Fin.ext rfl | ⟨1, _⟩ => Fin.ext rfl
theorem xinj_4 (i : grid2.Coords) (r : Fin 1) (k : Fin 128) :
    win2_4.xinj i (ix2 r k : S1x128.Idx) = (ix2 r k : S1x128.Idx) :=
  funext fun a => match a with | ⟨0, _⟩ => Fin.ext rfl | ⟨1, _⟩ => Fin.ext rfl
theorem xinj_5 (i : grid2.Coords) (r : Fin 1) (k : Fin 128) :
    win2_5.xinj i (ix2 r k : S1x128.Idx) = (ix2 r k : S1x128.Idx) :=
  funext fun a => match a with | ⟨0, _⟩ => Fin.ext rfl | ⟨1, _⟩ => Fin.ext rfl

/-- The array of the linear layer after the run: every row tile was written back at its point. -/
theorem arr3 (c : Dev nD) (p : Fin 50000) (j : Fin 128) :
    ((dat2 (F := Ideal) V c).arrAt 3 cfg2.N : S50000x128.Idx → EReal) (ix2 p j)
      = Cert.Spec.lin (fun p k => (V c (Pipeline.arrRef spec2 0) : S50000x128.Idx → EReal) (ix2 p k))
      (fun k j => (V c (Pipeline.arrRef spec2 1) : S128x128.Idx → EReal) (ix2 k j))
      (fun j => (V c (Pipeline.arrRef spec2 2) : S1x128.Idx → EReal) (ix2 0 j)) p j := by
  have hp := p.isLt
  have hN := N25
  let t : Fin cfg2.N := ⟨p.val / 2000, by rw [hN]; omega⟩
  refine (dat2 (F := Ideal) V c).arrAt_forall_of_flushed 3
    (fun i v => (v : EReal) = hh V c ((i : S50000x128.Idx) 0) ((i : S50000x128.Idx) 1)) ?_ cfg2.N t (ix2 p j) t.isLt (flush2_3 t) ?_
  · intro t hf y
    obtain ⟨r, k, rfl⟩ : ∃ (r : Fin 2000) (k : Fin 128), y = (ix2 r k : S2000x128.Idx) :=
      ⟨(y : S2000x128.Idx) 0, (y : S2000x128.Idx) 1, eq_ix2 (n0 := 2000) (n1 := 128) y⟩
    show ((dat2 (F := Ideal) V c).after 3 t : S2000x128.Idx → EReal) (win2_3.xinj (grid2.coords t) (ix2 r k)) = _
    rw [xinj_3, after2_3, outs3, tile_apply V c t ⟨t.val, lt_of_lt_of_eq t.isLt N25⟩ rfl]
    congr 1
    · apply Fin.ext; show 2000 * t.val + r.val = win2_3.index t 0 * 2000 + 1 * r.val; rw [(index2 t).2.2.2.1.1]; omega
    · apply Fin.ext; show k.val = win2_3.index t 1 * 128 + 1 * k.val; rw [(index2 t).2.2.2.1.2]; omega
  · show (ix2 p j : S50000x128.Idx) ∈ ((View.whole main_v39_0).slice (win2_3.rect t)).set
    rw [View.set_slice_whole, Rect.mem_set_unit]
    intro a
    match a with
    | ⟨0, _⟩ =>
      show win2_3.index t 0 * 2000 ≤ p.val ∧ p.val < win2_3.index t 0 * 2000 + 2000
      rw [(index2 t).2.2.2.1.1]; show p.val / 2000 * 2000 ≤ p.val ∧ p.val < p.val / 2000 * 2000 + 2000; omega
    | ⟨1, _⟩ =>
      show win2_3.index t 1 * 128 ≤ j.val ∧ j.val < win2_3.index t 1 * 128 + 128
      rw [(index2 t).2.2.2.1.2]; have := j.isLt; omega

/-- After the last point the row holds the column sums over all the rows. -/
theorem outs4_last (c : Dev nD) (j : Fin 128) (n : ℕ) (h : n < cfg2.N) (hn : n = 24) :
    ((outsAt2 V c n h).2.1 : S1x128.Idx → EReal) (ix2 (0 : Fin 1) j) = Cert.Spec.csum (hh V c) j := by
  subst hn
  rw [outs4 V c j 24 h]
  unfold Cert.Spec.csum
  rw [sum_rows]
  rfl

/-- The row of column sums after the run: written back once, after the last point, holding all 25 tiles' sums. -/
theorem arr4 (c : Dev nD) (j : Fin 128) :
    ((dat2 (F := Ideal) V c).arrAt 4 cfg2.N : S1x128.Idx → EReal) (ix2 0 j)
      = Cert.Spec.csum (Cert.Spec.lin (fun p k => (V c (Pipeline.arrRef spec2 0) : S50000x128.Idx → EReal) (ix2 p k))
      (fun k j => (V c (Pipeline.arrRef spec2 1) : S128x128.Idx → EReal) (ix2 k j))
      (fun j => (V c (Pipeline.arrRef spec2 2) : S1x128.Idx → EReal) (ix2 0 j))) j := by
  obtain ⟨t, ht⟩ : ∃ t : Fin cfg2.N, t.val = 24 := ⟨⟨24, by rw [N25]; omega⟩, rfl⟩
  refine (dat2 (F := Ideal) V c).arrAt_forall_of_flushed 4
    (fun i v => (v : EReal) = Cert.Spec.csum (hh V c) ((i : S1x128.Idx) 1)) ?_ cfg2.N t (ix2 0 j) t.isLt ((flush2_4 t).mpr (by rw [ht])) ?_
  · intro t hf y
    have ht : t.val = 24 := by have := (flush2_4 t).mp hf; have := lt_of_lt_of_eq t.isLt N25; omega
    obtain ⟨r, k, rfl⟩ : ∃ (r : Fin 1) (k : Fin 128), y = (ix2 r k : S1x128.Idx) :=
      ⟨(y : S1x128.Idx) 0, (y : S1x128.Idx) 1, eq_ix2 (n0 := 1) (n1 := 128) y⟩
    obtain rfl : r = 0 := Subsingleton.elim _ _
    have he : ((((cfg2.win 4).blk t).view.emb (ix2 (0 : Fin 1) k : S1x128.Idx) : S1x128.Idx) 1 : Fin 128) = k :=
      Fin.ext (by show win2_4.index t 1 * 128 + 1 * k.val = k.val; rw [(index2 t).2.2.2.2.1.2]; omega)
    show ((dat2 (F := Ideal) V c).after 4 t : S1x128.Idx → EReal) (win2_4.xinj (grid2.coords t) (ix2 0 k)) = Cert.Spec.csum (hh V c) _
    rw [he, xinj_4, after2_4]
    exact outs4_last V c k t.val t.isLt ht
  · show (ix2 0 j : S1x128.Idx) ∈ ((View.whole main_v39_1).slice (win2_4.rect t)).set
    rw [View.set_slice_whole, Rect.mem_set_unit]
    intro a
    match a with
    | ⟨0, _⟩ =>
      show win2_4.index t 0 * 1 ≤ 0 ∧ 0 < win2_4.index t 0 * 1 + 1
      rw [(index2 t).2.2.2.2.1.1]; omega
    | ⟨1, _⟩ =>
      show win2_4.index t 1 * 128 ≤ j.val ∧ j.val < win2_4.index t 1 * 128 + 128
      rw [(index2 t).2.2.2.2.1.2]; have := j.isLt; omega

/-- After the last point the row holds the column sums of squares over all the rows. -/
theorem outs5_last (c : Dev nD) (j : Fin 128) (n : ℕ) (h : n < cfg2.N) (hn : n = 24) :
    ((outsAt2 V c n h).2.2 : S1x128.Idx → EReal) (ix2 (0 : Fin 1) j) = Cert.Spec.csumsq (hh V c) j := by
  subst hn
  rw [outs5 V c j 24 h]
  unfold Cert.Spec.csumsq
  rw [sum_rows]
  rfl

/-- The row of column sums of squares after the run: written back once, after the last point, holding all 25 tiles' sums of squares. -/
theorem arr5 (c : Dev nD) (j : Fin 128) :
    ((dat2 (F := Ideal) V c).arrAt 5 cfg2.N : S1x128.Idx → EReal) (ix2 0 j)
      = Cert.Spec.csumsq (Cert.Spec.lin (fun p k => (V c (Pipeline.arrRef spec2 0) : S50000x128.Idx → EReal) (ix2 p k))
      (fun k j => (V c (Pipeline.arrRef spec2 1) : S128x128.Idx → EReal) (ix2 k j))
      (fun j => (V c (Pipeline.arrRef spec2 2) : S1x128.Idx → EReal) (ix2 0 j))) j := by
  obtain ⟨t, ht⟩ : ∃ t : Fin cfg2.N, t.val = 24 := ⟨⟨24, by rw [N25]; omega⟩, rfl⟩
  refine (dat2 (F := Ideal) V c).arrAt_forall_of_flushed 5
    (fun i v => (v : EReal) = Cert.Spec.csumsq (hh V c) ((i : S1x128.Idx) 1)) ?_ cfg2.N t (ix2 0 j) t.isLt ((flush2_5 t).mpr (by rw [ht])) ?_
  · intro t hf y
    have ht : t.val = 24 := by have := (flush2_5 t).mp hf; have := lt_of_lt_of_eq t.isLt N25; omega
    obtain ⟨r, k, rfl⟩ : ∃ (r : Fin 1) (k : Fin 128), y = (ix2 r k : S1x128.Idx) :=
      ⟨(y : S1x128.Idx) 0, (y : S1x128.Idx) 1, eq_ix2 (n0 := 1) (n1 := 128) y⟩
    obtain rfl : r = 0 := Subsingleton.elim _ _
    have he : ((((cfg2.win 5).blk t).view.emb (ix2 (0 : Fin 1) k : S1x128.Idx) : S1x128.Idx) 1 : Fin 128) = k :=
      Fin.ext (by show win2_5.index t 1 * 128 + 1 * k.val = k.val; rw [(index2 t).2.2.2.2.2.2]; omega)
    show ((dat2 (F := Ideal) V c).after 5 t : S1x128.Idx → EReal) (win2_5.xinj (grid2.coords t) (ix2 0 k)) = Cert.Spec.csumsq (hh V c) _
    rw [he, xinj_5, after2_5]
    exact outs5_last V c k t.val t.isLt ht
  · show (ix2 0 j : S1x128.Idx) ∈ ((View.whole main_v39_2).slice (win2_5.rect t)).set
    rw [View.set_slice_whole, Rect.mem_set_unit]
    intro a
    match a with
    | ⟨0, _⟩ =>
      show win2_5.index t 0 * 1 ≤ 0 ∧ 0 < win2_5.index t 0 * 1 + 1
      rw [(index2 t).2.2.2.2.2.1]; omega
    | ⟨1, _⟩ =>
      show win2_5.index t 1 * 128 ≤ j.val ∧ j.val < win2_5.index t 1 * 128 + 128
      rw [(index2 t).2.2.2.2.2.2]; have := j.isLt; omega
end AtIdeal

end Cert.KernelIdeal.KStats2

end
-- ==== Proof.KChainB.lean ====
/-
  The second convolution in the idealized kernel program's run, boundary by boundary (the fourth to the eighth).

  Given the first convolution's output y in its buffer at the fourth boundary: the third host stretch aggregates it
  along the edge list (with the index vectors the first stretch left) and recasts the bias vector as a row; the third
  pallas_call leaves the linear layer h₂ of the aggregated rows, its column sums and its column sums of squares; the
  fourth host stretch divides the sums by 50000.0 — the mean — and takes the mean of the squares less the square of the
  mean — the variance —, and recasts the affine vectors and the second bias as rows; the fourth pallas_call leaves the
  rectified second linear layer of the normalised, rectified h₂. Together: the convolution of the aggregated y with the
  variance as the mean of the squares minus the square of the mean.
-/
import proofs.«125030_j49014166782120_1_alg».proof.Proof.KChainBase
import proofs.«125030_j49014166782120_1_alg».proof.Proof.Agg
import proofs.«125030_j49014166782120_1_alg».proof.Proof.KBn3
import proofs.«125030_j49014166782120_1_alg».proof.Proof.KStats2

set_option maxRecDepth 16384

noncomputable section

namespace Cert.KernelIdeal.KChain

open Idealize.ShloMosaic Idealize.ShloMosaic.TcCoe Idealize.ShloMosaic.Tactic
open Idealize.SL.Sem
open Cert.KernelIdeal Cert.KernelIdeal.Gen Cert.KernelIdeal.GenP
open ValueIdx Cert.Spec

variable (m : (ℓ : Loc nD τ sig) → Buf (Elt Ideal) ℓ) (ρ : Dev nD → PrngReg) (c : Dev nD)

/-! ## The index vectors of the first stretch, still held at the fourth boundary -/

theorem w4_v1 : W4 m ρ c (Proc.devRef .tc main_v1) = Cert.Agg.srcOf (argv m c main_arg1) := by
  have e1 : W1 m ρ c (Proc.devRef .tc main_v1) = Cert.Agg.srcOf (argv m c main_arg1) := by
    show StableHlo.after hostOps0 _ (Proc.devRef .tc main_v1) = _
    after_results_simp
    rfl
  have e3 : W3 m ρ c (Proc.devRef .tc main_v1) = W2 m ρ c (Proc.devRef .tc main_v1) := by host_keep
  exact (W4_of_ne m ρ c main_v1 (by decide)).trans (e3.trans ((W2_of_ne m ρ c main_v1 (by decide)).trans e1))

theorem w4_v3 : W4 m ρ c (Proc.devRef .tc main_v3) = Cert.Agg.dstOf (argv m c main_arg1) := by
  have e1 : W1 m ρ c (Proc.devRef .tc main_v3) = Cert.Agg.dstOf (argv m c main_arg1) := by
    show StableHlo.after hostOps0 _ (Proc.devRef .tc main_v3) = _
    after_results_simp
    rfl
  have e3 : W3 m ρ c (Proc.devRef .tc main_v3) = W2 m ρ c (Proc.devRef .tc main_v3) := by host_keep
  exact (W4_of_ne m ρ c main_v3 (by decide)).trans (e3.trans ((W2_of_ne m ρ c main_v3 (by decide)).trans e1))

/-! ## The arguments of the second convolution at the boundaries where they are read -/

theorem k4 (b : Ref sig .tc) (h0 : StableHlo.after hostOps0 (W0 m ρ c) (Proc.devRef .tc b) = W0 m ρ c (Proc.devRef .tc b))
    (h1 : ∀ w, Pipeline.arrRef spec0 w ≠ b)
    (h2 : StableHlo.after hostOps1 (W2 m ρ c) (Proc.devRef .tc b) = W2 m ρ c (Proc.devRef .tc b))
    (h3 : ∀ w, Pipeline.arrRef spec1 w ≠ b) : W4 m ρ c (Proc.devRef .tc b) = argv m c b :=
  a4 m ρ c b h3 (a3 m ρ c b h2 (a2 m ρ c b h1 (a1 m ρ c b h0)))

theorem w4_arg9 : W4 m ρ c (Proc.devRef .tc main_arg9) = argv m c main_arg9 :=
  k4 m ρ c _ (by host_keep) (by decide) (by host_keep) (by decide)
theorem w5_arg8 : W5 m ρ c (Proc.devRef .tc main_arg8) = argv m c main_arg8 :=
  a5 m ρ c _ (by host_keep) (k4 m ρ c _ (by host_keep) (by decide) (by host_keep) (by decide))

theorem k6 (b : Ref sig .tc) (h0 : StableHlo.after hostOps0 (W0 m ρ c) (Proc.devRef .tc b) = W0 m ρ c (Proc.devRef .tc b))
    (h1 : ∀ w, Pipeline.arrRef spec0 w ≠ b)
    (h2 : StableHlo.after hostOps1 (W2 m ρ c) (Proc.devRef .tc b) = W2 m ρ c (Proc.devRef .tc b))
    (h3 : ∀ w, Pipeline.arrRef spec1 w ≠ b)
    (h4 : StableHlo.after hostOps2 (W4 m ρ c) (Proc.devRef .tc b) = W4 m ρ c (Proc.devRef .tc b))
    (h5 : ∀ w, Pipeline.arrRef spec2 w ≠ b) : W6 m ρ c (Proc.devRef .tc b) = argv m c b :=
  a6 m ρ c b h5 (a5 m ρ c b h4 (k4 m ρ c b h0 h1 h2 h3))

theorem w6_arg10 : W6 m ρ c (Proc.devRef .tc main_arg10) = argv m c main_arg10 :=
  k6 m ρ c _ (by host_keep) (by decide) (by host_keep) (by decide) (by host_keep) (by decide)
theorem w6_arg11 : W6 m ρ c (Proc.devRef .tc main_arg11) = argv m c main_arg11 :=
  k6 m ρ c _ (by host_keep) (by decide) (by host_keep) (by decide) (by host_keep) (by decide)
theorem w6_arg13 : W6 m ρ c (Proc.devRef .tc main_arg13) = argv m c main_arg13 :=
  k6 m ρ c _ (by host_keep) (by decide) (by host_keep) (by decide) (by host_keep) (by decide)
theorem w7_arg12 : W7 m ρ c (Proc.devRef .tc main_arg12) = argv m c main_arg12 :=
  a7 m ρ c _ (by host_keep) (k6 m ρ c _ (by host_keep) (by decide) (by host_keep) (by decide) (by host_keep) (by decide))

/-! ## The third host stretch: the aggregation of the first convolution's output, and the bias row -/

theorem w5_v37 : W5 m ρ c (Proc.devRef .tc main_v37)
    = Cert.Agg.aggCore (W4 m ρ c (Proc.devRef .tc main_v1)) (W4 m ρ c (Proc.devRef .tc main_v3))
        (W4 m ρ c (Proc.devRef .tc main_v26)) := by
  show StableHlo.after hostOps2 _ (Proc.devRef .tc main_v37) = _
  after_results_simp
  rfl

theorem w5_v38 : W5 m ρ c (Proc.devRef .tc main_v38)
    = shapeCast S1x128 (W4 m ρ c (Proc.devRef .tc main_arg9)) shapeCasts_S128_S1x128 := by
  show StableHlo.after hostOps2 _ (Proc.devRef .tc main_v38) = _
  after_results_simp
  rfl

/-! ## The third pallas_call: the second convolution's linear layer and its column sums -/

/-- The second convolution's linear layer of the aggregated rows of y. -/
def h2 (y : Mat 50000 128) : Mat 50000 128 :=
  lin (Cert.Agg.A (argv m c main_arg1) y) (cur (argv m c main_arg8)) (row1 (argv m c main_arg9))

/-- The aggregation over explicit coordinates is the array-level one read at each entry. -/
theorem A_cur (y : Mat 50000 128) :
    Cert.Agg.A (argv m c main_arg1) y
      = fun p k => Cert.Agg.aggK (argv m c main_arg1) (fun i => y (i 0) (i 1)) (ix2 p k) := rfl

section Conv2

variable (y : Mat 50000 128)
  (hy : ∀ p j, (W4 m ρ c (Proc.devRef .tc main_v26) : S50000x128.Idx → EReal) (ix2 p j) = y p j)
include hy

theorem w5_agg : (W5 m ρ c (Proc.devRef .tc main_v37) : S50000x128.Idx → EReal)
    = Cert.Agg.aggK (argv m c main_arg1) (fun i => y (i 0) (i 1)) := by
  rw [w5_v37, w4_v1, w4_v3, eq_of_cur _ y hy]
  rfl

theorem w5_bias : (W5 m ρ c (Proc.devRef .tc main_v38) : S1x128.Idx → EReal)
    = shapeCast S1x128 (argv m c main_arg9) shapeCasts_S128_S1x128 := by
  rw [w5_v38, w4_arg9]

theorem w6_h (p : Fin 50000) (j : Fin 128) :
    (W6 m ρ c (Proc.devRef .tc main_v39_0) : S50000x128.Idx → EReal) (ix2 p j) = h2 m c y p j := by
  have e : W6 m ρ c (Proc.devRef .tc main_v39_0) = (dat2 (V5 m ρ) c).arrAt 3 cfg2.N := W6_arr m ρ c 3
  rw [e]
  refine (KStats2.arr3 (V5 m ρ) c p j).trans ?_
  have a0 : (V5 m ρ c (Pipeline.arrRef spec2 0) : S50000x128.Idx → EReal)
      = Cert.Agg.aggK (argv m c main_arg1) (fun i => y (i 0) (i 1)) := w5_agg m ρ c y hy
  have a1 : (V5 m ρ c (Pipeline.arrRef spec2 1) : S128x128.Idx → EReal) = argv m c main_arg8 := w5_arg8 m ρ c
  have a2 : (V5 m ρ c (Pipeline.arrRef spec2 2) : S1x128.Idx → EReal)
      = shapeCast S1x128 (argv m c main_arg9) shapeCasts_S128_S1x128 := w5_bias m ρ c y hy
  rw [a0, a1, a2]
  unfold h2
  rw [A_cur]
  exact congrArg (fun b => lin _ _ b p j) (funext fun j => rowcast _ _ j)

theorem w6_s (j : Fin 128) :
    (W6 m ρ c (Proc.devRef .tc main_v39_1) : S1x128.Idx → EReal) (ix2 0 j) = csum (h2 m c y) j := by
  have e : W6 m ρ c (Proc.devRef .tc main_v39_1) = (dat2 (V5 m ρ) c).arrAt 4 cfg2.N := W6_arr m ρ c 4
  rw [e]
  refine (KStats2.arr4 (V5 m ρ) c j).trans ?_
  have a0 : (V5 m ρ c (Pipeline.arrRef spec2 0) : S50000x128.Idx → EReal)
      = Cert.Agg.aggK (argv m c main_arg1) (fun i => y (i 0) (i 1)) := w5_agg m ρ c y hy
  have a1 : (V5 m ρ c (Pipeline.arrRef spec2 1) : S128x128.Idx → EReal) = argv m c main_arg8 := w5_arg8 m ρ c
  have a2 : (V5 m ρ c (Pipeline.arrRef spec2 2) : S1x128.Idx → EReal)
      = shapeCast S1x128 (argv m c main_arg9) shapeCasts_S128_S1x128 := w5_bias m ρ c y hy
  rw [a0, a1, a2]
  unfold h2
  rw [A_cur]
  exact congrArg (fun b => csum (lin _ _ b) j) (funext fun j => rowcast _ _ j)

theorem w6_ss (j : Fin 128) :
    (W6 m ρ c (Proc.devRef .tc main_v39_2) : S1x128.Idx → EReal) (ix2 0 j) = csumsq (h2 m c y) j := by
  have e : W6 m ρ c (Proc.devRef .tc main_v39_2) = (dat2 (V5 m ρ) c).arrAt 5 cfg2.N := W6_arr m ρ c 5
  rw [e]
  refine (KStats2.arr5 (V5 m ρ) c j).trans ?_
  have a0 : (V5 m ρ c (Pipeline.arrRef spec2 0) : S50000x128.Idx → EReal)
      = Cert.Agg.aggK (argv m c main_arg1) (fun i => y (i 0) (i 1)) := w5_agg m ρ c y hy
  have a1 : (V5 m ρ c (Pipeline.arrRef spec2 1) : S128x128.Idx → EReal) = argv m c main_arg8 := w5_arg8 m ρ c
  have a2 : (V5 m ρ c (Pipeline.arrRef spec2 2) : S1x128.Idx → EReal)
      = shapeCast S1x128 (argv m c main_arg9) shapeCasts_S128_S1x128 := w5_bias m ρ c y hy
  rw [a0, a1, a2]
  unfold h2
  rw [A_cur]
  exact congrArg (fun b => csumsq (lin _ _ b) j) (funext fun j => rowcast _ _ j)

end Conv2

/-! ## The fourth host stretch: the batch statistics and the affine rows -/

theorem w7_v41 : W7 m ρ c (Proc.devRef .tc main_v41)
    = Host.divf (W6 m ρ c (Proc.devRef .tc main_v39_1))
        (broadcastInDim S1x128 ![] bcast_S_S1x128 (constant (F := Ideal) S_ .f32 0x47435000#32)) := by
  show StableHlo.after hostOps3 _ (Proc.devRef .tc main_v41) = _
  after_results_simp

theorem w7_v45 : W7 m ρ c (Proc.devRef .tc main_v45)
    = subf (Host.divf (W6 m ρ c (Proc.devRef .tc main_v39_2))
          (broadcastInDim S1x128 ![] bcast_S_S1x128 (constant (F := Ideal) S_ .f32 0x47435000#32)))
        (mulf (Host.divf (W6 m ρ c (Proc.devRef .tc main_v39_1))
            (broadcastInDim S1x128 ![] bcast_S_S1x128 (constant (F := Ideal) S_ .f32 0x47435000#32)))
          (Host.divf (W6 m ρ c (Proc.devRef .tc main_v39_1))
            (broadcastInDim S1x128 ![] bcast_S_S1x128 (constant (F := Ideal) S_ .f32 0x47435000#32)))) := by
  show StableHlo.after hostOps3 _ (Proc.devRef .tc main_v45) = _
  after_results_simp

theorem w7_v46 : W7 m ρ c (Proc.devRef .tc main_v46)
    = shapeCast S1x128 (argv m c main_arg10) shapeCasts_S128_S1x128 := by
  have e : W7 m ρ c (Proc.devRef .tc main_v46)
      = shapeCast S1x128 (W6 m ρ c (Proc.devRef .tc main_arg10)) shapeCasts_S128_S1x128 := by
    show StableHlo.after hostOps3 _ (Proc.devRef .tc main_v46) = _
    after_results_simp
    rfl
  rw [e, w6_arg10]

theorem w7_v47 : W7 m ρ c (Proc.devRef .tc main_v47)
    = shapeCast S1x128 (argv m c main_arg11) shapeCasts_S128_S1x128 := by
  have e : W7 m ρ c (Proc.devRef .tc main_v47)
      = shapeCast S1x128 (W6 m ρ c (Proc.devRef .tc main_arg11)) shapeCasts_S128_S1x128 := by
    show StableHlo.after hostOps3 _ (Proc.devRef .tc main_v47) = _
    after_results_simp
    rfl
  rw [e, w6_arg11]

theorem w7_v48 : W7 m ρ c (Proc.devRef .tc main_v48)
    = shapeCast S1x128 (argv m c main_arg13) shapeCasts_S128_S1x128 := by
  have e : W7 m ρ c (Proc.devRef .tc main_v48)
      = shapeCast S1x128 (W6 m ρ c (Proc.devRef .tc main_arg13)) shapeCasts_S128_S1x128 := by
    show StableHlo.after hostOps3 _ (Proc.devRef .tc main_v48) = _
    after_results_simp
    rfl
  rw [e, w6_arg13]

theorem w7_v39_0 : W7 m ρ c (Proc.devRef .tc main_v39_0) = W6 m ρ c (Proc.devRef .tc main_v39_0) := by host_keep

/-- Equal arguments give equal values of the normalised, rectified layer followed by the rectified linear layer. -/
theorem linrelu_bnrelu_congr {X X' : Mat 50000 128} {M M' V V' G G' B B' : Row 128} {W W' : Mat 128 128}
    {b b' : Row 128} (p : Fin 50000) (j : Fin 128) (hX : X = X') (hM : M = M') (hV : V = V') (hG : G = G')
    (hB : B = B') (hW : W = W') (hb : b = b') :
    linrelu (bnrelu X M V G B) W b p j = linrelu (bnrelu X' M' V' G' B') W' b' p j := by
  subst hX hM hV hG hB hW hb
  rfl

section Conv2Stats

variable (y : Mat 50000 128)
  (hy : ∀ p j, (W4 m ρ c (Proc.devRef .tc main_v26) : S50000x128.Idx → EReal) (ix2 p j) = y p j)
include hy

theorem w7_mean (k : Fin 128) :
    (W7 m ρ c (Proc.devRef .tc main_v41) : S1x128.Idx → EReal) (ix2 0 k) = meanOf (h2 m c y) k := by
  rw [w7_v41]
  show Ideal.div _ _ = _
  rw [w6_s m ρ c y hy, bcastConst_apply]
  rfl

theorem w7_var (k : Fin 128) :
    (W7 m ρ c (Proc.devRef .tc main_v45) : S1x128.Idx → EReal) (ix2 0 k) = varK (h2 m c y) k := by
  rw [w7_v45]
  show Ideal.div _ _ - Ideal.div _ _ * Ideal.div _ _ = _
  rw [w6_ss m ρ c y hy, w6_s m ρ c y hy, bcastConst_apply]
  rfl

/-! ## The fourth pallas_call: the normalisation, the rectifier, the second linear layer -/

/-- THE SECOND CONVOLUTION: given the first convolution's output y at the fourth boundary, the array the fourth
    pallas_call leaves is the convolution of the aggregated y, with the kernel's variance formula. -/
theorem conv2_value (p : Fin 50000) (j : Fin 128) :
    (W8 m ρ c (Proc.devRef .tc main_v49) : S50000x128.Idx → EReal) (ix2 p j)
      = Cert.Spec.convWith Cert.Spec.varK (Cert.Agg.A (argv m c main_arg1) y) (cur (argv m c main_arg8))
          (row1 (argv m c main_arg9)) (row1 (argv m c main_arg10)) (row1 (argv m c main_arg11))
          (cur (argv m c main_arg12)) (row1 (argv m c main_arg13)) p j := by
  have e : W8 m ρ c (Proc.devRef .tc main_v49) = (dat3 (V7 m ρ) c).arrAt 7 cfg3.N := W8_arr m ρ c 7
  rw [e]
  refine (KBn3.arr7 (V7 m ρ) c p j).trans ?_
  have a0 : (fun p k => (V7 m ρ c (Pipeline.arrRef spec3 0) : S50000x128.Idx → EReal) (ix2 p k)) = h2 m c y :=
    funext fun p => funext fun k => (congrFun (w7_v39_0 m ρ c) (ix2 p k)).trans (w6_h m ρ c y hy p k)
  have a1 : (fun k => (V7 m ρ c (Pipeline.arrRef spec3 1) : S1x128.Idx → EReal) (ix2 0 k)) = meanOf (h2 m c y) :=
    funext fun k => w7_mean m ρ c y hy k
  have a2 : (fun k => (V7 m ρ c (Pipeline.arrRef spec3 2) : S1x128.Idx → EReal) (ix2 0 k)) = varK (h2 m c y) :=
    funext fun k => w7_var m ρ c y hy k
  have a3 : (fun k => (V7 m ρ c (Pipeline.arrRef spec3 3) : S1x128.Idx → EReal) (ix2 0 k)) = row1 (argv m c main_arg10) :=
    funext fun k => (congrFun (w7_v46 m ρ c) (ix2 0 k)).trans (rowcast _ _ k)
  have a4 : (fun k => (V7 m ρ c (Pipeline.arrRef spec3 4) : S1x128.Idx → EReal) (ix2 0 k)) = row1 (argv m c main_arg11) :=
    funext fun k => (congrFun (w7_v47 m ρ c) (ix2 0 k)).trans (rowcast _ _ k)
  have a5 : (fun k j => (V7 m ρ c (Pipeline.arrRef spec3 5) : S128x128.Idx → EReal) (ix2 k j)) = cur (argv m c main_arg12) :=
    funext fun k => funext fun j => congrFun (w7_arg12 m ρ c) (ix2 k j)
  have a6 : (fun j => (V7 m ρ c (Pipeline.arrRef spec3 6) : S1x128.Idx → EReal) (ix2 0 j)) = row1 (argv m c main_arg13) :=
    funext fun k => (congrFun (w7_v48 m ρ c) (ix2 0 k)).trans (rowcast _ _ k)
  unfold convWith
  exact linrelu_bnrelu_congr p j a0 a1 a2 a3 a4 a5 a6

end Conv2Stats

end Cert.KernelIdeal.KChain
end
-- ==== Proof.KHead4Pay.lean ====
/-
  The classifier head on one block of rows, read at one entry.

  The block's result at (p, j) is the row-wise log-softmax of the logits `relu (z W₁ + b₁) W₂ + b₂`: entry (p, j) of the
  logits minus the maximum of row p, minus the logarithm of the sum over the row of the exponentials of those differences.
  Every step reads only row p of the block of z, so the same formula holds whatever the number of rows.  The matrix
  products accumulate into a zero splat and are plain sums of products on the extended reals; the changes of float
  format are the identity there.
-/
import proofs.«125030_j49014166782120_1_alg».proof.Proof.Gen.KernelIdeal.Skeleton
import proofs.«125030_j49014166782120_1_alg».proof.Proof.Spec
import proofs.«125030_j49014166782120_1_alg».proof.Proof.LibColumnLayout
import Idealize.ShloMosaic.Lib.ValueLayout
import Idealize.ShloMosaic.Lib.StackMember
import Idealize.ShloMosaic.PureOps.Ideal.Laws

noncomputable section

open scoped BigOperators

namespace Cert.KernelIdeal.KHead4

open Idealize.ShloMosaic Idealize.ShloMosaic.ValueIdx Idealize.ShloMosaic.StackMember
open Cert.KernelIdeal Cert.KernelIdeal.Gen

/-- A plain matrix product into a zero accumulator, read at the entry (p, j): the sum over the contracted coordinate of
    the products, whatever the operands' formats. -/
theorem matmul_plain_apply {R K N : Nat} {φ₁ φ₂ : FTy} (D : DotDims ⟨2, ![R, K]⟩ ⟨2, ![K, N]⟩ ⟨2, ![R, N]⟩)
    (hD : D = DotDims.plain R K N) (prec : Option ContractPrecision) (a : FVec Ideal ⟨2, ![R, K]⟩ φ₁)
    (w : FVec Ideal ⟨2, ![K, N]⟩ φ₂) (p : Fin R) (j : Fin N) :
    matmul D prec a w (constant ⟨2, ![R, N]⟩ .f32 0x00000000#32) (ix2 p j) = ∑ k : Fin K, a (ix2 p k) * w (ix2 k j) := by
  subst hD
  exact (congrFun (matmul_zero_eq_dotGeneral _ prec a w) _).trans (dotGeneral_plain_apply prec a w p j)

/-- The product plus a bias row laid along every row is the linear layer of the operands' entries. -/
theorem lin_apply {R K N : Nat} {φ₁ φ₂ : FTy} (D : DotDims ⟨2, ![R, K]⟩ ⟨2, ![K, N]⟩ ⟨2, ![R, N]⟩)
    (hD : D = DotDims.plain R K N) (prec : Option ContractPrecision) (a : FVec Ideal ⟨2, ![R, K]⟩ φ₁)
    (w : FVec Ideal ⟨2, ![K, N]⟩ φ₂) (bias : FVec Ideal ⟨2, ![1, N]⟩ .f32)
    (hb : (⟨2, ![1, N]⟩ : Shape).Broadcasts ⟨2, ![R, N]⟩) (p : Fin R) (j : Fin N) :
    addf (matmul D prec a w (constant ⟨2, ![R, N]⟩ .f32 0x00000000#32)) (broadcastTo ⟨2, ![R, N]⟩ bias hb) (ix2 p j)
      = Cert.Spec.lin (fun p k => a (ix2 p k)) (fun k j => w (ix2 k j)) (fun j => bias (ix2 (0 : Fin 1) j)) p j := by
  rw [addf_apply, broadcastTo_1b_ab_apply, matmul_plain_apply D hD]
  rfl

/-- A row's maximum, taken over axis 1 from the word of -inf, cast to a column and laid along the row again, read at
    (p, j): the fold of `max` over row p. -/
theorem rowmax_apply (l : FVec Ideal S2000x40 .f32) (h : S2000x40.Reduces [1] S2000) (hφ : FKind.Formats .f32)
    (hacc : (0xFF800000#32 : BitVec 32) = FKind.maximumf.neutral .f32 hφ) (hc : S2000.ShapeCasts S2000x1)
    (hb : S2000x1.Broadcasts S2000x40) (p : Fin 2000) (j : Fin 40) :
    broadcastTo S2000x40 (shapeCast S2000x1 (multiReduction .maximumf [1] S2000 l 0xFF800000#32 h hφ hacc) hc) hb (ix2 p j)
      = Cert.Spec.rowMax (fun p j => l (ix2 p j)) p := by
  rw [PhysLoss.broadcastTo_a1_ab_apply, PhysLoss.shapeCast_a_a1_apply]
  refine (Ideal.multiReduction_maximumf_single l _ h hφ hacc (ix1 p)).trans ?_
  unfold Cert.Spec.rowMax
  show (Finset.univ : Finset (Fin 40)).fold max (Ideal.ofBits .f32 0xFF800000#32) (fun k => l (h.lift (ix1 p) k)) = _
  refine congrArg (fun f => (Finset.univ : Finset (Fin 40)).fold max _ f) (funext fun k => congrArg l ?_)
  funext a; apply Fin.ext
  match a with
  | ⟨0, _⟩ => rfl
  | ⟨1, _⟩ => rfl

/-- A row's sum over axis 1, cast to a column, read at (p, 0): the sum over row p. -/
theorem rowsum_apply (e : FVec Ideal S2000x40 .f32) (h : S2000x40.Reduces [1] S2000) (hφ : FKind.Formats .f32)
    (hacc : (0x00000000#32 : BitVec 32) = FKind.add.neutral .f32 hφ) (hc : S2000.ShapeCasts S2000x1)
    (p : Fin 2000) (u : Fin 1) :
    shapeCast S2000x1 (multiReduction .add [1] S2000 e 0x00000000#32 h hφ hacc) hc (ix2 p u)
      = ∑ j' : Fin 40, e (ix2 p j') := by
  rw [PhysLoss.shapeCast_a_a1_apply]
  refine (Ideal.multiReduction_add_single e _ h hφ hacc (ix1 p)).trans ?_
  show ∑ k : Fin 40, e (h.lift (ix1 p) k) = _
  refine Finset.sum_congr rfl fun k _ => congrArg e ?_
  funext a; apply Fin.ext
  match a with
  | ⟨0, _⟩ => rfl
  | ⟨1, _⟩ => rfl

/-- The row-wise log-softmax as the body takes it, read at (p, j). -/
theorem logsoftmax_apply (l : FVec Ideal S2000x40 .f32) (h : S2000x40.Reduces [1] S2000) (hφ : FKind.Formats .f32)
    (hmax : (0xFF800000#32 : BitVec 32) = FKind.maximumf.neutral .f32 hφ)
    (hadd : (0x00000000#32 : BitVec 32) = FKind.add.neutral .f32 hφ) (hc : S2000.ShapeCasts S2000x1)
    (hb : S2000x1.Broadcasts S2000x40) (p : Fin 2000) (j : Fin 40) :
    subf (subf l (broadcastTo S2000x40 (shapeCast S2000x1 (multiReduction .maximumf [1] S2000 l 0xFF800000#32 h hφ hmax) hc) hb))
        (broadcastTo S2000x40 (log (shapeCast S2000x1 (multiReduction .add [1] S2000
          (exp (subf l (broadcastTo S2000x40 (shapeCast S2000x1 (multiReduction .maximumf [1] S2000 l 0xFF800000#32 h hφ hmax) hc) hb)))
          0x00000000#32 h hφ hadd) hc)) hb) (ix2 p j)
      = Cert.Spec.logSoftmax (fun p j => l (ix2 p j)) p j := by
  rw [subf_apply, subf_apply, rowmax_apply, PhysLoss.broadcastTo_a1_ab_apply]
  show _ - Ideal.log (shapeCast S2000x1 _ hc (ix2 p (0 : Fin 1))) = _
  rw [rowsum_apply]
  unfold Cert.Spec.logSoftmax
  refine congrArg (fun s => (l (ix2 p j) - Cert.Spec.rowMax (fun p j => l (ix2 p j)) p) - Ideal.log s)
    (Finset.sum_congr rfl fun j' _ => ?_)
  show Ideal.exp (l (ix2 p j') - broadcastTo S2000x40 _ hb (ix2 p j')) = _
  rw [rowmax_apply]

/-- THE BLOCK'S RESULT at (p, j): the classifier head of the block's rows and the weights, at row p. -/
theorem pay_apply (x0 : FVec Ideal S2000x128 .f32) (x1 : FVec Ideal S128x128 .f32) (x2 : FVec Ideal S1x128 .f32)
    (x3 : FVec Ideal S128x40 .f32) (x4 : FVec Ideal S1x40 .f32) (p : Fin 2000) (j : Fin 40) :
    k4_pay1 (F := Ideal) x0 x1 x2 x3 x4 (ix2 p j)
      = Cert.Spec.head (fun p k => x0 (ix2 p k)) (fun k j => x1 (ix2 k j)) (fun j => x2 (ix2 (0 : Fin 1) j))
          (fun k j => x3 (ix2 k j)) (fun j => x4 (ix2 (0 : Fin 1) j)) p j := by
  unfold k4_pay1
  refine (logsoftmax_apply _ _ _ _ _ _ _ p j).trans ?_
  unfold Cert.Spec.head
  refine congrArg (fun l => Cert.Spec.logSoftmax l p j) (funext fun p' => funext fun j' => ?_)
  refine (lin_apply _ rfl _ _ _ _ _ p' j').trans ?_
  unfold Cert.Spec.lin
  refine congrArg₂ (· + ·) (Finset.sum_congr rfl fun k _ => congrArg₂ (· * ·) ?_ rfl) (congrFun (shapeCast_self x4 _) _)
  show max (addf _ _ (ix2 p' k)) (Ideal.ofBits .f32 0x00000000#32) = max _ Cert.Spec.cZero
  refine congrArg (max · Cert.Spec.cZero) ?_
  refine (lin_apply _ rfl _ _ _ _ _ p' k).trans ?_
  refine congrArg₂ (· + ·) (Finset.sum_congr rfl fun k' _ => congrArg₂ (· * ·) (congrFun (shapeCast_self x0 _) _) rfl)
    (congrFun (shapeCast_self x2 _) _)

end Cert.KernelIdeal.KHead4

end
-- ==== Proof.KHead4.lean ====
/-
  The classifier head over the whole array.

  The last call runs over 25 tiles of 2000 rows.  At tile t the body receives rows 2000 t … 2000 t + 1999 of z and the
  whole of the two weight matrices and the two bias rows, and writes rows 2000 t … 2000 t + 1999 of the result.  The
  head is row-wise — entry (P, j) of the result reads only row P of z — so the block a tile writes is that tile's block
  of ONE function of the whole arrays, the head of z; the 25 blocks tile the 50000 rows, so the array ends holding it.
-/
import proofs.«125030_j49014166782120_1_alg».proof.Proof.KernelIdealP.Frame
import proofs.«125030_j49014166782120_1_alg».proof.Proof.Spec
import proofs.«125030_j49014166782120_1_alg».proof.Proof.KHead4Pay
import Idealize.ShloMosaic.Lib.Pipeline.Value

set_option maxRecDepth 16384

noncomputable section

open scoped BigOperators

namespace Cert.KernelIdeal.KHead4

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-- The head reads only row p of z: two matrices with the same row there give the same entries. -/
theorem head_row {R R' C M : ℕ} (z : Cert.Spec.Mat R C) (z' : Cert.Spec.Mat R' C) (Wl1 : Cert.Spec.Mat C C)
    (bl1 : Cert.Spec.Row C) (Wl2 : Cert.Spec.Mat C M) (bl2 : Cert.Spec.Row M) (p : Fin R) (p' : Fin R')
    (h : ∀ k, z p k = z' p' k) (j : Fin M) :
    Cert.Spec.head z Wl1 bl1 Wl2 bl2 p j = Cert.Spec.head z' Wl1 bl1 Wl2 bl2 p' j := by
  unfold Cert.Spec.head Cert.Spec.logSoftmax Cert.Spec.rowMax Cert.Spec.lin Cert.Spec.linrelu Cert.Spec.lin
  simp only [h]

/-- The head of the whole arrays, index by index. -/
def G (Z : S50000x128.Idx → EReal) (W1 : S128x128.Idx → EReal) (B1 : S1x128.Idx → EReal) (W2 : S128x40.Idx → EReal)
    (B2 : S1x40.Idx → EReal) : S50000x40.Idx → EReal :=
  fun i => Cert.Spec.head (fun p k => Z (ix2 p k)) (fun k j => W1 (ix2 k j)) (fun j => B1 (ix2 (0 : Fin 1) j))
    (fun k j => W2 (ix2 k j)) (fun j => B2 (ix2 (0 : Fin 1) j)) (i 0) (i 1)

/-- The printed index maps over the grid: tile t of z and of the result is block (t, 0); the weights and biases stay at
    block (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- One block's result at an entry, from what the block's operands are: rows of z at the tile's offset, the weights
    and biases whole. -/
theorem block_eq (x0 : FVec Ideal S2000x128 .f32) (x1 : FVec Ideal S128x128 .f32) (x2 : FVec Ideal S1x128 .f32)
    (x3 : FVec Ideal S128x40 .f32) (x4 : FVec Ideal S1x40 .f32)
    (Z : S50000x128.Idx → EReal) (W1 : S128x128.Idx → EReal) (B1 : S1x128.Idx → EReal) (W2 : S128x40.Idx → EReal)
    (B2 : S1x40.Idx → EReal) (p : Fin 2000) (q : Fin 40) (P : Fin 50000)
    (h0 : ∀ k : Fin 128, x0 (ix2 p k) = Z (ix2 P k)) (h1 : x1 = W1) (h2 : x2 = B1) (h3 : x3 = W2) (h4 : x4 = B2) :
    k4_pay1 (F := Ideal) x0 x1 x2 x3 x4 (ix2 p q) = G Z W1 B1 W2 B2 (ix2 P q) := by
  subst h1 h2 h3 h4
  rw [pay_apply]
  exact head_row _ _ _ _ _ _ p P h0 q

/-- Tile t's block of z is rows 2000 t … 2000 t + 1999 of the array. -/
theorem iblk0_apply (c : Dev nD) (t : Fin cfg4.N) (p : Fin 2000) (k : Fin 128) (P : Fin 50000)
    (hP : P.val = 2000 * t.val + p.val) :
    (iblk4 V c 0 t : FVec Ideal S2000x128 .f32) (ix2 p k)
      = (V c (Pipeline.arrRef spec4 0) : S50000x128.Idx → EReal) (ix2 P k) := by
  obtain ⟨e0, e1, -⟩ := idx_facts t
  unfold iblk4
  rw [View.read_apply]
  show (V c (Pipeline.arrRef spec4 0) : S50000x128.Idx → EReal) _ = _
  congr 1
  funext a
  apply Fin.ext
  match a with
  | ⟨0, _⟩ => show win4_0.index t (0 : Fin 2) * 2000 + 1 * p.val = P.val; rw [e0, hP]; omega
  | ⟨1, _⟩ => show win4_0.index t (1 : Fin 2) * 128 + 1 * k.val = k.val; rw [e1]; omega

/-- The weights' and biases' blocks are their whole arrays, at every tile. -/
theorem iblk1_eq (c : Dev nD) (t : Fin cfg4.N) :
    (iblk4 V c 1 t : FVec Ideal S128x128 .f32) = (V c (Pipeline.arrRef spec4 1) : S128x128.Idx → EReal) := by
  obtain ⟨-, -, e0, e1, -⟩ := idx_facts t
  funext x
  unfold iblk4
  rw [View.read_apply]
  show (V c (Pipeline.arrRef spec4 1) : S128x128.Idx → EReal) _ = _
  congr 1
  funext a
  apply Fin.ext
  match a with
  | ⟨0, _⟩ => show win4_1.index t (0 : Fin 2) * 128 + 1 * (x 0).val = (x 0).val; rw [e0]; omega
  | ⟨1, _⟩ => show win4_1.index t (1 : Fin 2) * 128 + 1 * (x 1).val = (x 1).val; rw [e1]; omega

theorem iblk2_eq (c : Dev nD) (t : Fin cfg4.N) :
    (iblk4 V c 2 t : FVec Ideal S1x128 .f32) = (V c (Pipeline.arrRef spec4 2) : S1x128.Idx → EReal) := by
  obtain ⟨-, -, -, -, e0, e1, -⟩ := idx_facts t
  funext x
  unfold iblk4
  rw [View.read_apply]
  show (V c (Pipeline.arrRef spec4 2) : S1x128.Idx → EReal) _ = _
  congr 1
  funext a
  apply Fin.ext
  match a with
  | ⟨0, _⟩ => show win4_2.index t (0 : Fin 2) * 1 + 1 * (x 0).val = (x 0).val; rw [e0]; omega
  | ⟨1, _⟩ => show win4_2.index t (1 : Fin 2) * 128 + 1 * (x 1).val = (x 1).val; rw [e1]; omega

theorem iblk3_eq (c : Dev nD) (t : Fin cfg4.N) :
    (iblk4 V c 3 t : FVec Ideal S128x40 .f32) = (V c (Pipeline.arrRef spec4 3) : S128x40.Idx → EReal) := by
  obtain ⟨-, -, -, -, -, -, e0, e1, -⟩ := idx_facts t
  funext x
  unfold iblk4
  rw [View.read_apply]
  show (V c (Pipeline.arrRef spec4 3) : S128x40.Idx → EReal) _ = _
  congr 1
  funext a
  apply Fin.ext
  match a with
  | ⟨0, _⟩ => show win4_3.index t (0 : Fin 2) * 128 + 1 * (x 0).val = (x 0).val; rw [e0]; omega
  | ⟨1, _⟩ => show win4_3.index t (1 : Fin 2) * 40 + 1 * (x 1).val = (x 1).val; rw [e1]; omega

theorem iblk4_eq (c : Dev nD) (t : Fin cfg4.N) :
    (iblk4 V c 4 t : FVec Ideal S1x40 .f32) = (V c (Pipeline.arrRef spec4 4) : S1x40.Idx → EReal) := by
  obtain ⟨-, -, -, -, -, -, -, -, e0, e1, -⟩ := idx_facts t
  funext x
  unfold iblk4
  rw [View.read_apply]
  show (V c (Pipeline.arrRef spec4 4) : S1x40.Idx → EReal) _ = _
  congr 1
  funext a
  apply Fin.ext
  match a with
  | ⟨0, _⟩ => show win4_4.index t (0 : Fin 2) * 1 + 1 * (x 0).val = (x 0).val; rw [e0]; omega
  | ⟨1, _⟩ => show win4_4.index t (1 : Fin 2) * 40 + 1 * (x 1).val = (x 1).val; rw [e1]; omega

/-- WHAT TILE t WRITES BACK is block t of the head of the arrays as the call finds them. -/
theorem flushed_eq (c : Dev nD) (t : Fin cfg4.N) :
    (dat4 (F := Ideal) V c).flushed 5 t = ((cfg4.win 5).blk t).view.read (Elt Ideal)
      (G (V c (Pipeline.arrRef spec4 0)) (V c (Pipeline.arrRef spec4 1)) (V c (Pipeline.arrRef spec4 2))
        (V c (Pipeline.arrRef spec4 3)) (V c (Pipeline.arrRef spec4 4))) := by
  show (cfg4.win 5).cut (grid4.coords t) ((dat4 V c).after 5 t) = _
  rw [after4_5]
  unfold out4_5
  rw [View.canon_unit_zero hz]
  simp only [View.ld_unit_zero (S := S2000x128) hz, View.ld_unit_zero (S := S128x128) hz,
    View.ld_unit_zero (S := S1x128) hz, View.ld_unit_zero (S := S128x40) hz, View.ld_unit_zero (S := S1x40) hz]
  obtain ⟨-, -, -, -, -, -, -, -, -, -, e0, e1⟩ := idx_facts t
  funext y
  obtain ⟨p, q, rfl⟩ : ∃ (p : Fin 2000) (q : Fin 40), y = ix2 p q := ⟨y 0, y 1, eq_ix2 y⟩
  have hP : 2000 * t.val + p.val < 50000 := by
    have ht : t.val < 25 := lt_of_lt_of_eq t.isLt (N_4 : cfg4.N = 25)
    have := p.isLt; omega
  rw [View.read_apply]
  refine (block_eq _ _ _ _ _ _ _ _ _ _ p q ⟨2000 * t.val + p.val, hP⟩
    (fun k => iblk0_apply V c t p k ⟨2000 * t.val + p.val, hP⟩ rfl)
    (iblk1_eq V c t) (iblk2_eq V c t) (iblk3_eq V c t) (iblk4_eq V c t)).trans ?_
  congr 1
  funext a
  apply Fin.ext
  match a with
  | ⟨0, _⟩ => show 2000 * t.val + p.val = win4_5.index t (0 : Fin 2) * 2000 + 1 * p.val; rw [e0]; omega
  | ⟨1, _⟩ => show q.val = win4_5.index t (1 : Fin 2) * 40 + 1 * q.val; rw [e1]; omega

/-- An index of the array is in tile t's block iff each coordinate is in the block's range on its axis. -/
theorem mem_blk (t : Fin cfg4.N) (i : S50000x40.Idx) :
    i ∈ ((cfg4.win 5).blk t).view.set ↔ ∀ a : Fin 2, win4_5.index t a * S2000x40.size a ≤ (i a).val
      ∧ (i a).val < win4_5.index t a * S2000x40.size a + S2000x40.size a := by
  show i ∈ ((View.whole main_v52).slice (win4_5.rect t)).set ↔ _
  rw [View.set_slice_whole, Rect.mem_set_unit]
  exact Iff.rfl

/-- Row P lies in tile P / 2000. -/
theorem cover (i : S50000x40.Idx) : ∃ t : Fin cfg4.N, (cfg4.win 5).flush t = true ∧ i ∈ ((cfg4.win 5).blk t).view.set := by
  have hi0 : (i 0).val < 50000 := (i 0).isLt
  have hi1 : (i 1).val < 40 := (i 1).isLt
  have hN : cfg4.N = 25 := N_4
  refine ⟨⟨(i 0).val / 2000, by rw [hN]; omega⟩, flush4_5 _, ?_⟩
  obtain ⟨-, -, -, -, -, -, -, -, -, -, e0, e1⟩ := idx_facts ⟨(i 0).val / 2000, by rw [hN]; omega⟩
  rw [mem_blk]
  intro a
  match a with
  | ⟨0, _⟩ =>
    show win4_5.index _ (0 : Fin 2) * 2000 ≤ (i 0).val ∧ (i 0).val < win4_5.index _ (0 : Fin 2) * 2000 + 2000
    rw [e0]; show (i 0).val / 2000 * 2000 ≤ (i 0).val ∧ (i 0).val < (i 0).val / 2000 * 2000 + 2000; omega
  | ⟨1, _⟩ =>
    show win4_5.index _ (1 : Fin 2) * 40 ≤ (i 1).val ∧ (i 1).val < win4_5.index _ (1 : Fin 2) * 40 + 40
    rw [e1]; omega

/-- THE ARRAY after the call: the head of the arrays as the call finds them. -/
theorem final5 (c : Dev nD) : (dat4 (F := Ideal) V c).arrAt 5 cfg4.N
    = G (V c (Pipeline.arrRef spec4 0)) (V c (Pipeline.arrRef spec4 1)) (V c (Pipeline.arrRef spec4 2))
        (V c (Pipeline.arrRef spec4 3)) (V c (Pipeline.arrRef spec4 4)) :=
  (dat4 (F := Ideal) V c).arrAt_eq_of_cover 5 _ (fun t _ => flushed_eq V c t) cover

/-- The same, entry by entry. -/
theorem arr5 (c : Dev nD) (p : Fin 50000) (j : Fin 40) :
    ((dat4 (F := Ideal) V c).arrAt 5 cfg4.N : S50000x40.Idx → EReal) (ix2 p j)
      = Cert.Spec.head (fun p k => (V c (Pipeline.arrRef spec4 0) : S50000x128.Idx → EReal) (ix2 p k))
          (fun k j => (V c (Pipeline.arrRef spec4 1) : S128x128.Idx → EReal) (ix2 k j))
          (fun j => (V c (Pipeline.arrRef spec4 2) : S1x128.Idx → EReal) (ix2 0 j))
          (fun k j => (V c (Pipeline.arrRef spec4 3) : S128x40.Idx → EReal) (ix2 k j))
          (fun j => (V c (Pipeline.arrRef spec4 4) : S1x40.Idx → EReal) (ix2 0 j)) p j := by
  rw [final5]
  rfl

end Cert.KernelIdeal.KHead4

end
-- ==== Proof.KChainC.lean ====
/-
  The classifier head of the kernel program, read off the run's last boundaries.

  After the second convolution the program recasts the two bias vectors of the head as one-row matrices and runs the
  head's kernel on the convolution's output, the two weight matrices and the two bias rows. The weight matrices
  and the bias vectors are argument arrays nothing has written, so they hold their launch contents; a vector recast
  as one row reads, at its row, the vector. So the result array is, entry by entry, the head — two linear layers with
  the rectifier between them and the row-wise log-softmax — of whatever the second convolution left.
-/
import proofs.«125030_j49014166782120_1_alg».proof.Proof.KChainBase
import proofs.«125030_j49014166782120_1_alg».proof.Proof.KHead4

set_option maxRecDepth 16384

noncomputable section

namespace Cert.KernelIdeal.KChain

open Idealize.ShloMosaic Idealize.ShloMosaic.TcCoe Idealize.ShloMosaic.Tactic
open Idealize.SL.Sem
open Cert.KernelIdeal Cert.KernelIdeal.Gen Cert.KernelIdeal.GenP
open ValueIdx Cert.Spec

variable (m : (ℓ : Loc nD τ sig) → Buf (Elt Ideal) ℓ) (ρ : Dev nD → PrngReg) (c : Dev nD)

/-! ## The head's parameters hold their launch contents -/

/-- The first bias vector after the fourth kernel: no stretch writes it and it is no kernel's output. -/
theorem k8_arg15 : W8 m ρ c (Proc.devRef .tc main_arg15) = argv m c main_arg15 :=
  a8 m ρ c _ (by decide) (a7 m ρ c _ (by host_keep) (a6 m ρ c _ (by decide) (a5 m ρ c _ (by host_keep) (a4 m ρ c _ (by decide) (a3 m ρ c _ (by host_keep) (a2 m ρ c _ (by decide) (a1 m ρ c _ (by host_keep))))))))
/-- The second bias vector, likewise. -/
theorem k8_arg17 : W8 m ρ c (Proc.devRef .tc main_arg17) = argv m c main_arg17 :=
  a8 m ρ c _ (by decide) (a7 m ρ c _ (by host_keep) (a6 m ρ c _ (by decide) (a5 m ρ c _ (by host_keep) (a4 m ρ c _ (by decide) (a3 m ρ c _ (by host_keep) (a2 m ρ c _ (by decide) (a1 m ρ c _ (by host_keep))))))))
/-- The first weight matrix before the head's kernel. -/
theorem k9_arg14 : W9 m ρ c (Proc.devRef .tc main_arg14) = argv m c main_arg14 :=
  a9 m ρ c _ (by host_keep) (a8 m ρ c _ (by decide) (a7 m ρ c _ (by host_keep) (a6 m ρ c _ (by decide) (a5 m ρ c _ (by host_keep) (a4 m ρ c _ (by decide) (a3 m ρ c _ (by host_keep) (a2 m ρ c _ (by decide) (a1 m ρ c _ (by host_keep)))))))))
/-- The second weight matrix, likewise. -/
theorem k9_arg16 : W9 m ρ c (Proc.devRef .tc main_arg16) = argv m c main_arg16 :=
  a9 m ρ c _ (by host_keep) (a8 m ρ c _ (by decide) (a7 m ρ c _ (by host_keep) (a6 m ρ c _ (by decide) (a5 m ρ c _ (by host_keep) (a4 m ρ c _ (by decide) (a3 m ρ c _ (by host_keep) (a2 m ρ c _ (by decide) (a1 m ρ c _ (by host_keep)))))))))

/-! ## The last host stretch: the two bias rows -/

/-- The first bias row is the first bias vector recast as one row. -/
theorem w9_v50 : W9 m ρ c (Proc.devRef .tc main_v50) = shapeCast S1x128 (W8 m ρ c (Proc.devRef .tc main_arg15)) shapeCasts_S128_S1x128 := by
  show StableHlo.after hostOps4 _ (Proc.devRef .tc main_v50) = _
  after_results_simp
  rfl
/-- The second bias row is the second bias vector recast as one row. -/
theorem w9_v51 : W9 m ρ c (Proc.devRef .tc main_v51) = shapeCast S1x40 (W8 m ρ c (Proc.devRef .tc main_arg17)) shapeCasts_S40_S1x40 := by
  show StableHlo.after hostOps4 _ (Proc.devRef .tc main_v51) = _
  after_results_simp
  rfl
/-- The stretch leaves the second convolution's output as it was. -/
theorem w9_v49 : W9 m ρ c (Proc.devRef .tc main_v49) = W8 m ρ c (Proc.devRef .tc main_v49) := by host_keep

/-! ## The head's kernel -/

/-- The head of equal arguments is equal, entry by entry. -/
theorem head_congr {R C M : ℕ} (z z' : Cert.Spec.Mat R C) (W1 W1' : Cert.Spec.Mat C C) (b1 b1' : Cert.Spec.Row C)
    (W2 W2' : Cert.Spec.Mat C M) (b2 b2' : Cert.Spec.Row M) (hz : z = z') (h1 : W1 = W1') (hb1 : b1 = b1') (h2 : W2 = W2')
    (hb2 : b2 = b2') (p : Fin R) (j : Fin M) :
    Cert.Spec.head z W1 b1 W2 b2 p j = Cert.Spec.head z' W1' b1' W2' b2' p j := by
  subst hz h1 hb1 h2 hb2; rfl

/-- What the head's kernel finds in its five input arrays, read at coordinates: the second convolution's output, -/
theorem in0 (z : Cert.Spec.Mat 50000 128)
    (hz : ∀ p j, (W8 m ρ c (Proc.devRef .tc main_v49) : S50000x128.Idx → EReal) (ix2 p j) = z p j) :
    (fun p k => (V9 m ρ c (Pipeline.arrRef spec4 0) : S50000x128.Idx → EReal) (ix2 p k)) = z :=
  have a0 : (V9 m ρ c (Pipeline.arrRef spec4 0) : S50000x128.Idx → EReal) = W8 m ρ c (Proc.devRef .tc main_v49) := w9_v49 m ρ c
  funext fun p => funext fun k => (congrFun a0 (ix2 p k)).trans (hz p k)
/-- the first weight matrix, -/
theorem in1 : (fun k j => (V9 m ρ c (Pipeline.arrRef spec4 1) : S128x128.Idx → EReal) (ix2 k j)) = cur (argv m c main_arg14) :=
  have a1 : (V9 m ρ c (Pipeline.arrRef spec4 1) : S128x128.Idx → EReal) = argv m c main_arg14 := k9_arg14 m ρ c
  funext fun k => funext fun j => congrFun a1 (ix2 k j)
/-- the first bias vector as a row, -/
theorem in2 : (fun j => (V9 m ρ c (Pipeline.arrRef spec4 2) : S1x128.Idx → EReal) (ix2 0 j)) = row1 (argv m c main_arg15) :=
  have a2 : (V9 m ρ c (Pipeline.arrRef spec4 2) : S1x128.Idx → EReal) = shapeCast S1x128 (argv m c main_arg15) shapeCasts_S128_S1x128 :=
    (w9_v50 m ρ c).trans (congrArg (fun b => shapeCast S1x128 b shapeCasts_S128_S1x128) (k8_arg15 m ρ c))
  funext fun j => (congrFun a2 (ix2 0 j)).trans (rowcast _ _ j)
/-- the second weight matrix, -/
theorem in3 : (fun k j => (V9 m ρ c (Pipeline.arrRef spec4 3) : S128x40.Idx → EReal) (ix2 k j)) = cur (argv m c main_arg16) :=
  have a3 : (V9 m ρ c (Pipeline.arrRef spec4 3) : S128x40.Idx → EReal) = argv m c main_arg16 := k9_arg16 m ρ c
  funext fun k => funext fun j => congrFun a3 (ix2 k j)
/-- and the second bias vector as a row. -/
theorem in4 : (fun j => (V9 m ρ c (Pipeline.arrRef spec4 4) : S1x40.Idx → EReal) (ix2 0 j)) = row1 (argv m c main_arg17) :=
  have a4 : (V9 m ρ c (Pipeline.arrRef spec4 4) : S1x40.Idx → EReal) = shapeCast S1x40 (argv m c main_arg17) shapeCasts_S40_S1x40 :=
    (w9_v51 m ρ c).trans (congrArg (fun b => shapeCast S1x40 b shapeCasts_S40_S1x40) (k8_arg17 m ρ c))
  funext fun j => (congrFun a4 (ix2 0 j)).trans (rowcast _ _ j)

/-- THE RESULT: with `z` what the second convolution left, the result array is the head of `z` under the launch contents
    of the head's two weight matrices and two bias vectors. -/
theorem head_value (z : Cert.Spec.Mat 50000 128)
    (hz : ∀ p j, (W8 m ρ c (Proc.devRef .tc main_v49) : S50000x128.Idx → EReal) (ix2 p j) = z p j) (p : Fin 50000) (j : Fin 40) :
    (W10 m ρ c (Proc.devRef .tc main_v52) : S50000x40.Idx → EReal) (ix2 p j)
      = Cert.Spec.head z (cur (argv m c main_arg14)) (row1 (argv m c main_arg15)) (cur (argv m c main_arg16)) (row1 (argv m c main_arg17)) p j := by
  have e : W10 m ρ c (Proc.devRef .tc main_v52) = (dat4 (V9 m ρ) c).arrAt 5 cfg4.N := W10_arr m ρ c 5
  rw [e]
  refine (KHead4.arr5 (V9 m ρ) c p j).trans ?_
  exact head_congr _ _ _ _ _ _ _ _ _ _ (in0 m ρ c z hz) (in1 m ρ c) (in2 m ρ c) (in3 m ρ c) (in4 m ρ c) p j

end Cert.KernelIdeal.KChain

end
-- ==== Proof.KChain.lean ====
/-
  The idealized kernel program's result array, entry by entry: the first convolution's output (the aggregation, the
  linear layer with its column sums, the batch statistics, the normalised and twice-layered rows), fed through the
  second convolution and the classifier head, is the specification's network `modelK` of the argument arrays.
-/
import proofs.«125030_j49014166782120_1_alg».proof.Proof.KChainA
import proofs.«125030_j49014166782120_1_alg».proof.Proof.KChainB
import proofs.«125030_j49014166782120_1_alg».proof.Proof.KChainC

set_option maxRecDepth 16384

noncomputable section

namespace Cert.KernelIdeal.KChain

open Idealize.ShloMosaic Idealize.ShloMosaic.TcCoe
open Idealize.SL.Sem
open Cert.KernelIdeal Cert.KernelIdeal.Gen Cert.KernelIdeal.GenP
open ValueIdx Cert.Spec

variable (m : (ℓ : Loc nD τ sig) → Buf (Elt Ideal) ℓ) (ρ : Dev nD → PrngReg) (c : Dev nD)

/-- The result array after the last pallas_call's write-backs is the network of the launch arrays. -/
theorem W10_value (p : Fin 50000) (j : Fin 40) :
    (W10 m ρ c (Proc.devRef .tc main_v52) : S50000x40.Idx → EReal) (ix2 p j)
      = modelK (Cert.Agg.A (argv m c main_arg1)) (cur (argv m c main_arg0))
          (cur (argv m c main_arg2)) (row1 (argv m c main_arg3)) (row1 (argv m c main_arg4)) (row1 (argv m c main_arg5))
          (cur (argv m c main_arg6)) (row1 (argv m c main_arg7))
          (cur (argv m c main_arg8)) (row1 (argv m c main_arg9)) (row1 (argv m c main_arg10)) (row1 (argv m c main_arg11))
          (cur (argv m c main_arg12)) (row1 (argv m c main_arg13))
          (cur (argv m c main_arg14)) (row1 (argv m c main_arg15)) (cur (argv m c main_arg16)) (row1 (argv m c main_arg17)) p j := by
  refine (head_value m ρ c _ (fun p j => conv2_value m ρ c _ (fun p j => conv1_value m ρ c p j) p j) p j).trans ?_
  unfold modelK
  rfl

end Cert.KernelIdeal.KChain

end
-- ==== Proof.LibHostLine.lean ====
/-
  A straight line of host operations, each writing one buffer of its own: what a buffer holds at the end of the line.

  The buffers' contents after a line is the fold of the operations' results over the contents before it, so a line
  cut in two folds the second part over what the first leaves.  Suppose every operation of the line writes exactly
  one reference, and cut the line at one operation.  A reference that is none of those the part after the cut writes
  is written by none of its operations, so at the end of the line its buffer holds what it held right after the
  operation at the cut.  For the operation's own result this is the operation's function of what its operands'
  buffers held right before it; and when the operands too are written by nothing from the cut on (in particular are
  not the result), what they held right before the cut is what they hold at the end.  So at the END of the line

      result = f (operand₁ at the end) (operand₂ at the end) …

  for a constant, a one-, a two- and a three-operand operation.  A program in which every value has a buffer of its
  own, written once and after its operands, satisfies the conditions at every operation, and its buffers' final
  contents then follow one operation at a time, each from the earlier ones.
-/
import Idealize.ShloMosaic.Lib.StableHlo.Run

noncomputable section

namespace Cert.Lib.HostLine

open Idealize.ShloMosaic Idealize.ShloMosaic.StableHlo

variable {τ : Topo} {sig : RefSig} {Val : EltTy → Type}

variable {τ : Topo} {sig : RefSig} {Val : EltTy → Type}

/-- Operation by operation, the one reference each operation of a line writes. -/
abbrev WritesOne (l : List (HloOp τ sig Val)) (w : List (Ref sig .tc)) : Prop :=
  List.Forall₂ (fun op r => op.writes = {Proc.devRef (τ := τ) .tc r}) l w

/-- Two lines run one after the other: the second folds over what the first leaves. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- A reference that is none of those a line writes is written by none of its operations. -/
theorem not_written {l : List (HloOp τ sig Val)} {w : List (Ref sig .tc)} (h : WritesOne l w) :
    ∀ {r : Ref sig .tc}, r ∉ w → ∀ op ∈ l, Proc.devRef (τ := τ) .tc r ∉ op.writes := by
  induction h with
  | nil => intro r _ op hop; cases hop
  | @cons op' r' l' w' hab _ ih =>
    intro r hr op hop
    rcases List.mem_cons.mp hop with rfl | hop
    · rw [hab, Finset.mem_singleton]
      exact devRef_ne_of_ne fun e => hr (e ▸ List.mem_cons_self)
    · exact ih (fun hm => hr (List.mem_cons_of_mem _ hm)) op hop

/-- A buffer the rest of the line does not write holds at the end what it held after the operation at the cut. -/
theorem after_cut {l pre post : List (HloOp τ sig Val)} {op : HloOp τ sig Val} {wpost : List (Ref sig .tc)}
    (e : l = pre ++ op :: post) (hpost : WritesOne post wpost) (V : Valuation τ sig Val)
    {r : Ref sig .tc} (hr : r ∉ wpost) :
    after l V (Proc.devRef .tc r) = op.result (after pre V) (Proc.devRef .tc r) := by
  subst e
  rw [after_app, after_cons]
  exact after_of_forall_not_mem post _ (not_written hpost hr)

/-- A constant's buffer, not written again, holds the constant at the end. -/
theorem fin_nullary {l pre post : List (HloOp τ sig Val)} {wpost : List (Ref sig .tc)} (V : Valuation τ sig Val)
    (y : Ref sig .tc) (v : y.ty.Contents Val) (hy)
    (e : l = pre ++ nullary y v hy :: post) (hpost : WritesOne post wpost) (hy' : y ∉ wpost) :
    after l V (Proc.devRef .tc y) = v := by
  rw [after_cut e hpost V hy', nullary_result]

/-- A one-operand operation's buffer, not written again, holds at the end the operation's function of what the
    operand's buffer holds at the end, when nothing from the operation on writes the operand. -/
theorem fin_unary {l pre post : List (HloOp τ sig Val)} {wpost : List (Ref sig .tc)} (V : Valuation τ sig Val)
    (x y : Ref sig .tc) (f : x.ty.Contents Val → y.ty.Contents Val) (hx hy)
    (e : l = pre ++ unary x y f hx hy :: post) (hpost : WritesOne post wpost)
    (hy' : y ∉ wpost) (hx' : x ∉ y :: wpost) :
    after l V (Proc.devRef .tc y) = f (after l V (Proc.devRef .tc x)) := by
  have nx : x ≠ y := fun h => hx' (by rw [h]; exact List.mem_cons_self)
  rw [after_cut e hpost V hy', after_cut e hpost V (fun h => hx' (List.mem_cons_of_mem _ h)), unary_result,
    unary_result_ne x y f hx hy _ nx]

/-- The same for two operands. -/
theorem fin_binary {l pre post : List (HloOp τ sig Val)} {wpost : List (Ref sig .tc)} (V : Valuation τ sig Val)
    (a b y : Ref sig .tc) (f : a.ty.Contents Val → b.ty.Contents Val → y.ty.Contents Val) (ha hb hy)
    (e : l = pre ++ binary a b y f ha hb hy :: post) (hpost : WritesOne post wpost)
    (hy' : y ∉ wpost) (ha' : a ∉ y :: wpost) (hb' : b ∉ y :: wpost) :
    after l V (Proc.devRef .tc y) = f (after l V (Proc.devRef .tc a)) (after l V (Proc.devRef .tc b)) := by
  have na : a ≠ y := fun h => ha' (by rw [h]; exact List.mem_cons_self)
  have nb : b ≠ y := fun h => hb' (by rw [h]; exact List.mem_cons_self)
  rw [after_cut e hpost V hy', after_cut e hpost V (fun h => ha' (List.mem_cons_of_mem _ h)),
    after_cut e hpost V (fun h => hb' (List.mem_cons_of_mem _ h)), binary_result,
    binary_result_ne a b y f ha hb hy _ na, binary_result_ne a b y f ha hb hy _ nb]

/-- The same for three operands. -/
theorem fin_ternary {l pre post : List (HloOp τ sig Val)} {wpost : List (Ref sig .tc)} (V : Valuation τ sig Val)
    (c a b y : Ref sig .tc) (f : c.ty.Contents Val → a.ty.Contents Val → b.ty.Contents Val → y.ty.Contents Val) (hc ha hb hy)
    (e : l = pre ++ ternary c a b y f hc ha hb hy :: post) (hpost : WritesOne post wpost)
    (hy' : y ∉ wpost) (hc' : c ∉ y :: wpost) (ha' : a ∉ y :: wpost) (hb' : b ∉ y :: wpost) :
    after l V (Proc.devRef .tc y)
      = f (after l V (Proc.devRef .tc c)) (after l V (Proc.devRef .tc a)) (after l V (Proc.devRef .tc b)) := by
  have nc : c ≠ y := fun h => hc' (by rw [h]; exact List.mem_cons_self)
  have na : a ≠ y := fun h => ha' (by rw [h]; exact List.mem_cons_self)
  have nb : b ≠ y := fun h => hb' (by rw [h]; exact List.mem_cons_self)
  rw [after_cut e hpost V hy', after_cut e hpost V (fun h => hc' (List.mem_cons_of_mem _ h)),
    after_cut e hpost V (fun h => ha' (List.mem_cons_of_mem _ h)),
    after_cut e hpost V (fun h => hb' (List.mem_cons_of_mem _ h)), ternary_result,
    ternary_result_ne a b c y f hc ha hb hy _ nc, ternary_result_ne a b c y f hc ha hb hy _ na,
    ternary_result_ne a b c y f hc ha hb hy _ nb]

end Cert.Lib.HostLine

end
-- ==== Proof.RefLine.lean ====
/- The reference line's buffers at its end. Every value of the program has a buffer of its own, written once and
   after its operands, so at the end of the line each operation's buffer holds the operation's function of what its
   operands' buffers hold at the end; here the list of written references that makes this usable one operation at a
   time, and the same for a reshape. -/
import proofs.«125030_j49014166782120_1_alg».proof.Proof.RefOps
import proofs.«125030_j49014166782120_1_alg».proof.Proof.LibHostLine
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Lib.HostLine

variable {F : FTy → Type} [FloatOps F]

/-- Operation by operation, the reference each operation of the line writes. -/
abbrev ws : List (Ref sig .tc) :=
  [main_v0, main_v1, main_v2, main_v3, main_c, main_v4, main_v5, main_c_0, main_v6, main_v7,
   main_v8, main_v9, main_v10, main_cst, main_v11, main_v12, main_v13, main_v14, main_v15, main_v16,
   main_v17, main_v18, main_cst_1, main_v19, main_cst_2, main_v20, main_v21, main_c_3, main_call0_cst, main_call0_v0,
   main_call0_v1, main_call0_cst_0, main_call0_v2, main_call0_v3, main_call0_v4, main_call0_v5, main_call0_v6, main_call0_v7, main_call0_cst_1, main_call0_v8,
   main_call0_cst_2, main_call0_v9, main_call0_v10, main_call0_v11, main_call0_cst_3, main_call0_v12, main_call0_cst_4, main_call0_call0_v0, main_call0_call0_v1, main_v22,
   main_v23, main_v24, main_v25, main_cst_4, main_v26, main_v27, main_v28, main_v29, main_v30, main_v31,
   main_v32, main_v33, main_v34, main_v35, main_v36, main_v37, main_call1_cst, main_call1_v0, main_v38, main_v39,
   main_v40, main_v41, main_v42, main_call2_cst, main_call2_v0, main_v43, main_call3_cst, main_call3_v0, main_v44, main_c_5,
   main_v45, main_v46, main_c_6, main_v47, main_v48, main_v49, main_v50, main_v51, main_cst_7, main_v52,
   main_v53, main_v54, main_v55, main_v56, main_v57, main_v58, main_v59, main_cst_8, main_v60, main_cst_9,
   main_v61, main_v62, main_c_10, main_call4_cst, main_call4_v0, main_call4_v1, main_call4_cst_0, main_call4_v2, main_call4_v3, main_call4_v4,
   main_call4_v5, main_call4_v6, main_call4_v7, main_call4_cst_1, main_call4_v8, main_call4_cst_2, main_call4_v9, main_call4_v10, main_call4_v11, main_call4_cst_3,
   main_call4_v12, main_call4_cst_4, main_call4_call0_v0, main_call4_call0_v1, main_v63, main_v64, main_v65, main_v66, main_cst_11, main_v67,
   main_v68, main_v69, main_v70, main_v71, main_v72, main_v73, main_v74, main_v75, main_v76, main_v77,
   main_v78, main_call5_cst, main_call5_v0, main_v79, main_v80, main_v81, main_v82, main_v83, main_call6_cst, main_call6_v0,
   main_v84, main_v85, main_v86, main_v87, main_v88, main_call7_cst, main_call7_v0, main_v89, main_v90, main_v91,
   main_v92, main_v93, main_call8_cst, main_call8_v0, main_call8_cst_0, main_call8_v1, main_call8_v2, main_call8_v3, main_call8_v4, main_call8_v5,
   main_call8_v6, main_call8_cst_1, main_call8_v7, main_call8_v8, main_call8_v9, main_call8_v10, main_v94]

/-- Each operation writes exactly its own value's buffer. -/
theorem ops_writes : WritesOne (ops : List (HloOp τ sig (Elt F))) ws := by
  repeat (first | exact List.Forall₂.nil | refine List.Forall₂.cons rfl ?_)

/-- The same for the line from any operation on. -/
theorem ws_drop (n : Nat) : WritesOne ((ops : List (HloOp τ sig (Elt F))).drop n) (ws.drop n) :=
  List.forall₂_drop n ops_writes

/-- A reshape's buffer, not written again, holds at the end the operand's contents at the end read at the new shape,
    when nothing from the operation on writes the operand. -/
theorem fin_reshape {l pre post : List (HloOp τ sig (Elt F))} {wpost : List (Ref sig .tc)} (V : Valuation τ sig (Elt F))
    (x y : Ref sig .tc) (he : x.ty.elt = y.ty.elt) (hn : x.ty.shape.ShapeCasts y.ty.shape) (hx hy)
    (e : l = pre ++ reshape x y he hn hx hy :: post) (hpost : WritesOne post wpost)
    (hy' : y ∉ wpost) (hx' : x ∉ y :: wpost) :
    after l V (Proc.devRef .tc y) = fun i => he ▸ shapeCast y.ty.shape (after l V (Proc.devRef .tc x)) hn i := by
  have nx : x ≠ y := fun h => hx' (by rw [h]; exact List.mem_cons_self)
  rw [after_cut e hpost V hy', after_cut e hpost V (fun h => hx' (List.mem_cons_of_mem _ h)), reshape_result,
    reshape_result_ne x y he hn hx hy _ nx]

end Cert.ReferenceIdeal.RefRun

end
-- ==== Proof.RefFoldA1.lean ====
/- The reference line's buffers at its end, read as the array-level stages (part A1): each stage's buffer holds the
   stage's function of what its inputs' buffers hold at the end, by the operations' equations in order. -/
import proofs.«125030_j49014166782120_1_alg».proof.Proof.RefLine
import proofs.«125030_j49014166782120_1_alg».proof.Proof.RefStages
import proofs.«125030_j49014166782120_1_alg».proof.Proof.Agg

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Lib.HostLine Cert.RefStages

/-- The sources' buffer at the end. -/
theorem end_src (V : Valuation τ sig (Elt Ideal)) :
    after (ops (F := Ideal)) V (Proc.devRef .tc main_v1) = Cert.Agg.srcOfR (after (ops (F := Ideal)) V (Proc.devRef .tc main_arg1)) := by
  have q0 := fin_unary V main_arg1 main_v0 _ _ _ (l := ops (F := Ideal)) (pre := (ops (F := Ideal)).take 0) (post := (ops (F := Ideal)).drop 1) rfl (ws_drop 1) (by decide) (by decide)
  have q1 := fin_reshape V main_v0 main_v1 _ _ _ _ (l := ops (F := Ideal)) (pre := (ops (F := Ideal)).take 1) (post := (ops (F := Ideal)).drop 2) rfl (ws_drop 2) (by decide) (by decide)
  rw [q1, q0]
  clear q0 q1
  generalize after (ops (F := Ideal)) V (Proc.devRef .tc main_arg1) = a0
  rfl

/-- The destinations' buffer at the end. -/
theorem end_dst (V : Valuation τ sig (Elt Ideal)) :
    after (ops (F := Ideal)) V (Proc.devRef .tc main_v3) = Cert.Agg.dstOfR (after (ops (F := Ideal)) V (Proc.devRef .tc main_arg1)) := by
  have q2 := fin_unary V main_arg1 main_v2 _ _ _ (l := ops (F := Ideal)) (pre := (ops (F := Ideal)).take 2) (post := (ops (F := Ideal)).drop 3) rfl (ws_drop 3) (by decide) (by decide)
  have q3 := fin_reshape V main_v2 main_v3 _ _ _ _ (l := ops (F := Ideal)) (pre := (ops (F := Ideal)).take 3) (post := (ops (F := Ideal)).drop 4) rfl (ws_drop 4) (by decide) (by decide)
  rw [q3, q2]
  clear q2 q3
  generalize after (ops (F := Ideal)) V (Proc.devRef .tc main_arg1) = a0
  rfl

/-- The first aggregation's buffer at the end. -/
theorem end_agg1 (V : Valuation τ sig (Elt Ideal)) :
    after (ops (F := Ideal)) V (Proc.devRef .tc main_v14) = Cert.Agg.aggCoreR (after (ops (F := Ideal)) V (Proc.devRef .tc main_v1)) (after (ops (F := Ideal)) V (Proc.devRef .tc main_v3)) (after (ops (F := Ideal)) V (Proc.devRef .tc main_arg0)) := by
  have q4 := fin_nullary V main_c _ _ (l := ops (F := Ideal)) (pre := (ops (F := Ideal)).take 4) (post := (ops (F := Ideal)).drop 5) rfl (ws_drop 5) (by decide)
  have q5 := fin_unary V main_c main_v4 _ _ _ (l := ops (F := Ideal)) (pre := (ops (F := Ideal)).take 5) (post := (ops (F := Ideal)).drop 6) rfl (ws_drop 6) (by decide) (by decide)
  have q6 := fin_binary V main_v1 main_v4 main_v5 _ _ _ _ (l := ops (F := Ideal)) (pre := (ops (F := Ideal)).take 6) (post := (ops (F := Ideal)).drop 7) rfl (ws_drop 7) (by decide) (by decide) (by decide)
  have q7 := fin_nullary V main_c_0 _ _ (l := ops (F := Ideal)) (pre := (ops (F := Ideal)).take 7) (post := (ops (F := Ideal)).drop 8) rfl (ws_drop 8) (by decide)
  have q8 := fin_unary V main_c_0 main_v6 _ _ _ (l := ops (F := Ideal)) (pre := (ops (F := Ideal)).take 8) (post := (ops (F := Ideal)).drop 9) rfl (ws_drop 9) (by decide) (by decide)
  have q9 := fin_binary V main_v1 main_v6 main_v7 _ _ _ _ (l := ops (F := Ideal)) (pre := (ops (F := Ideal)).take 9) (post := (ops (F := Ideal)).drop 10) rfl (ws_drop 10) (by decide) (by decide) (by decide)
  have q10 := fin_ternary V main_v5 main_v7 main_v1 main_v8 _ _ _ _ _ (l := ops (F := Ideal)) (pre := (ops (F := Ideal)).take 10) (post := (ops (F := Ideal)).drop 11) rfl (ws_drop 11) (by decide) (by decide) (by decide) (by decide)
  have q11 := fin_unary V main_v8 main_v9 _ _ _ (l := ops (F := Ideal)) (pre := (ops (F := Ideal)).take 11) (post := (ops (F := Ideal)).drop 12) rfl (ws_drop 12) (by decide) (by decide)
  have q12 := fin_binary V main_arg0 main_v9 main_v10 _ _ _ _ (l := ops (F := Ideal)) (pre := (ops (F := Ideal)).take 12) (post := (ops (F := Ideal)).drop 13) rfl (ws_drop 13) (by decide) (by decide) (by decide)
  have q13 := fin_nullary V main_cst _ _ (l := ops (F := Ideal)) (pre := (ops (F := Ideal)).take 13) (post := (ops (F := Ideal)).drop 14) rfl (ws_drop 14) (by decide)
  have q14 := fin_unary V main_cst main_v11 _ _ _ (l := ops (F := Ideal)) (pre := (ops (F := Ideal)).take 14) (post := (ops (F := Ideal)).drop 15) rfl (ws_drop 15) (by decide) (by decide)
  have q15 := fin_unary V main_v3 main_v12 _ _ _ (l := ops (F := Ideal)) (pre := (ops (F := Ideal)).take 15) (post := (ops (F := Ideal)).drop 16) rfl (ws_drop 16) (by decide) (by decide)
  have q16 := fin_ternary V main_v11 main_v12 main_v10 main_v13 _ _ _ _ _ (l := ops (F := Ideal)) (pre := (ops (F := Ideal)).take 16) (post := (ops (F := Ideal)).drop 17) rfl (ws_drop 17) (by decide) (by decide) (by decide) (by decide)
  have q17 := fin_binary V main_arg0 main_v13 main_v14 _ _ _ _ (l := ops (F := Ideal)) (pre := (ops (F := Ideal)).take 17) (post := (ops (F := Ideal)).drop 18) rfl (ws_drop 18) (by decide) (by decide) (by decide)
  rw [q17, q16, q15, q14, q13, q12, q11, q10, q9, q8, q7, q6, q5, q4]
  clear q4 q5 q6 q7 q8 q9 q10 q11 q12 q13 q14 q15 q16 q17
  generalize after (ops (F := Ideal)) V (Proc.devRef .tc main_arg0) = a0
  generalize after (ops (F := Ideal)) V (Proc.devRef .tc main_v3) = a1
  generalize after (ops (F := Ideal)) V (Proc.devRef .tc main_v1) = a2
  rfl

/-- The first convolution's first linear layer. -/
theorem end_lin1 (V : Valuation τ sig (Elt Ideal)) :
    after (ops (F := Ideal)) V (Proc.devRef .tc main_v18) = refLin (after (ops (F := Ideal)) V (Proc.devRef .tc main_v14)) (after (ops (F := Ideal)) V (Proc.devRef .tc main_arg2)) (after (ops (F := Ideal)) V (Proc.devRef .tc main_arg3)) := by
  have q18 := fin_binary V main_v14 main_arg2 main_v15 _ _ _ _ (l := ops (F := Ideal)) (pre := (ops (F := Ideal)).take 18) (post := (ops (F := Ideal)).drop 19) rfl (ws_drop 19) (by decide) (by decide) (by decide)
  have q19 := fin_unary V main_arg3 main_v16 _ _ _ (l := ops (F := Ideal)) (pre := (ops (F := Ideal)).take 19) (post := (ops (F := Ideal)).drop 20) rfl (ws_drop 20) (by decide) (by decide)
  have q20 := fin_unary V main_v16 main_v17 _ _ _ (l := ops (F := Ideal)) (pre := (ops (F := Ideal)).take 20) (post := (ops (F := Ideal)).drop 21) rfl (ws_drop 21) (by decide) (by decide)
  have q21 := fin_binary V main_v15 main_v17 main_v18 _ _ _ _ (l := ops (F := Ideal)) (pre := (ops (F := Ideal)).take 21) (post := (ops (F := Ideal)).drop 22) rfl (ws_drop 22) (by decide) (by decide) (by decide)
  rw [q21, q20, q19, q18]
  clear q18 q19 q20 q21
  generalize after (ops (F := Ideal)) V (Proc.devRef .tc main_arg3) = a0
  generalize after (ops (F := Ideal)) V (Proc.devRef .tc main_v14) = a1
  generalize after (ops (F := Ideal)) V (Proc.devRef .tc main_arg2) = a2
  rfl

/-- Its column means. -/
theorem end_mean1 (V : Valuation τ sig (Elt Ideal)) :
    after (ops (F := Ideal)) V (Proc.devRef .tc main_v21) = refMean (after (ops (F := Ideal)) V (Proc.devRef .tc main_v18)) := by
  have q22 := fin_nullary V main_cst_1 _ _ (l := ops (F := Ideal)) (pre := (ops (F := Ideal)).take 22) (post := (ops (F := Ideal)).drop 23) rfl (ws_drop 23) (by decide)
  have q23 := fin_binary V main_v18 main_cst_1 main_v19 _ _ _ _ (l := ops (F := Ideal)) (pre := (ops (F := Ideal)).take 23) (post := (ops (F := Ideal)).drop 24) rfl (ws_drop 24) (by decide) (by decide) (by decide)
  have q24 := fin_nullary V main_cst_2 _ _ (l := ops (F := Ideal)) (pre := (ops (F := Ideal)).take 24) (post := (ops (F := Ideal)).drop 25) rfl (ws_drop 25) (by decide)
  have q25 := fin_unary V main_cst_2 main_v20 _ _ _ (l := ops (F := Ideal)) (pre := (ops (F := Ideal)).take 25) (post := (ops (F := Ideal)).drop 26) rfl (ws_drop 26) (by decide) (by decide)
  have q26 := fin_binary V main_v19 main_v20 main_v21 _ _ _ _ (l := ops (F := Ideal)) (pre := (ops (F := Ideal)).take 26) (post := (ops (F := Ideal)).drop 27) rfl (ws_drop 27) (by decide) (by decide) (by decide)
  rw [q26, q25, q24, q23, q22]
  clear q22 q23 q24 q25 q26
  generalize after (ops (F := Ideal)) V (Proc.devRef .tc main_v18) = a0
  rfl

end Cert.ReferenceIdeal.RefRun

end
-- ==== Proof.RefFoldA2.lean ====
/- The reference line's buffers at its end, read as the array-level stages (part A2): each stage's buffer holds the
   stage's function of what its inputs' buffers hold at the end, by the operations' equations in order. -/
import proofs.«125030_j49014166782120_1_alg».proof.Proof.RefLine
import proofs.«125030_j49014166782120_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Lib.HostLine Cert.RefStages

/-- The first convolution's column variances. -/
theorem end_var1 (V : Valuation τ sig (Elt Ideal)) :
    after (ops (F := Ideal)) V (Proc.devRef .tc main_v22) = refVar (after (ops (F := Ideal)) V (Proc.devRef .tc main_v18)) := by
  have q27 := fin_nullary V main_c_3 _ _ (l := ops (F := Ideal)) (pre := (ops (F := Ideal)).take 27) (post := (ops (F := Ideal)).drop 28) rfl (ws_drop 28) (by decide)
  have q28 := fin_nullary V main_call0_cst _ _ (l := ops (F := Ideal)) (pre := (ops (F := Ideal)).take 28) (post := (ops (F := Ideal)).drop 29) rfl (ws_drop 29) (by decide)
  have q29 := fin_binary V main_v18 main_call0_cst main_call0_v0 _ _ _ _ (l := ops (F := Ideal)) (pre := (ops (F := Ideal)).take 29) (post := (ops (F := Ideal)).drop 30) rfl (ws_drop 30) (by decide) (by decide) (by decide)
  have q30 := fin_unary V main_call0_v0 main_call0_v1 _ _ _ (l := ops (F := Ideal)) (pre := (ops (F := Ideal)).take 30) (post := (ops (F := Ideal)).drop 31) rfl (ws_drop 31) (by decide) (by decide)
  have q31 := fin_nullary V main_call0_cst_0 _ _ (l := ops (F := Ideal)) (pre := (ops (F := Ideal)).take 31) (post := (ops (F := Ideal)).drop 32) rfl (ws_drop 32) (by decide)
  have q32 := fin_unary V main_call0_cst_0 main_call0_v2 _ _ _ (l := ops (F := Ideal)) (pre := (ops (F := Ideal)).take 32) (post := (ops (F := Ideal)).drop 33) rfl (ws_drop 33) (by decide) (by decide)
  have q33 := fin_binary V main_call0_v1 main_call0_v2 main_call0_v3 _ _ _ _ (l := ops (F := Ideal)) (pre := (ops (F := Ideal)).take 33) (post := (ops (F := Ideal)).drop 34) rfl (ws_drop 34) (by decide) (by decide) (by decide)
  have q34 := fin_unary V main_call0_v3 main_call0_v4 _ _ _ (l := ops (F := Ideal)) (pre := (ops (F := Ideal)).take 34) (post := (ops (F := Ideal)).drop 35) rfl (ws_drop 35) (by decide) (by decide)
  have q35 := fin_binary V main_v18 main_call0_v4 main_call0_v5 _ _ _ _ (l := ops (F := Ideal)) (pre := (ops (F := Ideal)).take 35) (post := (ops (F := Ideal)).drop 36) rfl (ws_drop 36) (by decide) (by decide) (by decide)
  have q36 := fin_binary V main_call0_v5 main_call0_v5 main_call0_v6 _ _ _ _ (l := ops (F := Ideal)) (pre := (ops (F := Ideal)).take 36) (post := (ops (F := Ideal)).drop 37) rfl (ws_drop 37) (by decide) (by decide) (by decide)
  have q37 := fin_unary V main_c_3 main_call0_v7 _ _ _ (l := ops (F := Ideal)) (pre := (ops (F := Ideal)).take 37) (post := (ops (F := Ideal)).drop 38) rfl (ws_drop 38) (by decide) (by decide)
  have q38 := fin_nullary V main_call0_cst_1 _ _ (l := ops (F := Ideal)) (pre := (ops (F := Ideal)).take 38) (post := (ops (F := Ideal)).drop 39) rfl (ws_drop 39) (by decide)
  have q39 := fin_binary V main_call0_cst_1 main_call0_v7 main_call0_v8 _ _ _ _ (l := ops (F := Ideal)) (pre := (ops (F := Ideal)).take 39) (post := (ops (F := Ideal)).drop 40) rfl (ws_drop 40) (by decide) (by decide) (by decide)
  have q40 := fin_nullary V main_call0_cst_2 _ _ (l := ops (F := Ideal)) (pre := (ops (F := Ideal)).take 40) (post := (ops (F := Ideal)).drop 41) rfl (ws_drop 41) (by decide)
  have q41 := fin_binary V main_call0_v6 main_call0_cst_2 main_call0_v9 _ _ _ _ (l := ops (F := Ideal)) (pre := (ops (F := Ideal)).take 41) (post := (ops (F := Ideal)).drop 42) rfl (ws_drop 42) (by decide) (by decide) (by decide)
  have q42 := fin_unary V main_call0_v8 main_call0_v10 _ _ _ (l := ops (F := Ideal)) (pre := (ops (F := Ideal)).take 42) (post := (ops (F := Ideal)).drop 43) rfl (ws_drop 43) (by decide) (by decide)
  have q43 := fin_binary V main_call0_v9 main_call0_v10 main_call0_v11 _ _ _ _ (l := ops (F := Ideal)) (pre := (ops (F := Ideal)).take 43) (post := (ops (F := Ideal)).drop 44) rfl (ws_drop 44) (by decide) (by decide) (by decide)
  have q44 := fin_nullary V main_call0_cst_3 _ _ (l := ops (F := Ideal)) (pre := (ops (F := Ideal)).take 44) (post := (ops (F := Ideal)).drop 45) rfl (ws_drop 45) (by decide)
  have q45 := fin_binary V main_call0_v8 main_call0_cst_3 main_call0_v12 _ _ _ _ (l := ops (F := Ideal)) (pre := (ops (F := Ideal)).take 45) (post := (ops (F := Ideal)).drop 46) rfl (ws_drop 46) (by decide) (by decide) (by decide)
  have q46 := fin_nullary V main_call0_cst_4 _ _ (l := ops (F := Ideal)) (pre := (ops (F := Ideal)).take 46) (post := (ops (F := Ideal)).drop 47) rfl (ws_drop 47) (by decide)
  have q47 := fin_unary V main_call0_cst_4 main_call0_call0_v0 _ _ _ (l := ops (F := Ideal)) (pre := (ops (F := Ideal)).take 47) (post := (ops (F := Ideal)).drop 48) rfl (ws_drop 48) (by decide) (by decide)
  have q48 := fin_unary V main_call0_call0_v0 main_call0_call0_v1 _ _ _ (l := ops (F := Ideal)) (pre := (ops (F := Ideal)).take 48) (post := (ops (F := Ideal)).drop 49) rfl (ws_drop 49) (by decide) (by decide)
  have q49 := fin_ternary V main_call0_v12 main_call0_v11 main_call0_call0_v1 main_v22 _ _ _ _ _ (l := ops (F := Ideal)) (pre := (ops (F := Ideal)).take 49) (post := (ops (F := Ideal)).drop 50) rfl (ws_drop 50) (by decide) (by decide) (by decide) (by decide)
  rw [q49, q48, q47, q46, q45, q44, q43, q42, q41, q40, q39, q38, q37, q36, q35, q34,
    q33, q32, q31, q30, q29, q28, q27]
  clear q27 q28 q29 q30 q31 q32 q33 q34 q35 q36 q37 q38 q39 q40 q41 q42 q43 q44 q45 q46 q47 q48 q49
  generalize after (ops (F := Ideal)) V (Proc.devRef .tc main_v18) = a0
  rfl

end Cert.ReferenceIdeal.RefRun

end
-- ==== Proof.RefFoldA3.lean ====
/- The reference line's buffers at its end, read as the array-level stages (part A3): each stage's buffer holds the
   stage's function of what its inputs' buffers hold at the end, by the operations' equations in order. -/
import proofs.«125030_j49014166782120_1_alg».proof.Proof.RefLine
import proofs.«125030_j49014166782120_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Lib.HostLine Cert.RefStages

/-- The first convolution's normalisation and rectifier. -/
theorem end_bn1 (V : Valuation τ sig (Elt Ideal)) :
    after (ops (F := Ideal)) V (Proc.devRef .tc main_v38) = refBnRelu (after (ops (F := Ideal)) V (Proc.devRef .tc main_v18)) (after (ops (F := Ideal)) V (Proc.devRef .tc main_v21)) (after (ops (F := Ideal)) V (Proc.devRef .tc main_v22)) (after (ops (F := Ideal)) V (Proc.devRef .tc main_arg4)) (after (ops (F := Ideal)) V (Proc.devRef .tc main_arg5)) := by
  have q50 := fin_unary V main_v21 main_v23 _ _ _ (l := ops (F := Ideal)) (pre := (ops (F := Ideal)).take 50) (post := (ops (F := Ideal)).drop 51) rfl (ws_drop 51) (by decide) (by decide)
  have q51 := fin_unary V main_v23 main_v24 _ _ _ (l := ops (F := Ideal)) (pre := (ops (F := Ideal)).take 51) (post := (ops (F := Ideal)).drop 52) rfl (ws_drop 52) (by decide) (by decide)
  have q52 := fin_binary V main_v18 main_v24 main_v25 _ _ _ _ (l := ops (F := Ideal)) (pre := (ops (F := Ideal)).take 52) (post := (ops (F := Ideal)).drop 53) rfl (ws_drop 53) (by decide) (by decide) (by decide)
  have q53 := fin_nullary V main_cst_4 _ _ (l := ops (F := Ideal)) (pre := (ops (F := Ideal)).take 53) (post := (ops (F := Ideal)).drop 54) rfl (ws_drop 54) (by decide)
  have q54 := fin_unary V main_cst_4 main_v26 _ _ _ (l := ops (F := Ideal)) (pre := (ops (F := Ideal)).take 54) (post := (ops (F := Ideal)).drop 55) rfl (ws_drop 55) (by decide) (by decide)
  have q55 := fin_binary V main_v22 main_v26 main_v27 _ _ _ _ (l := ops (F := Ideal)) (pre := (ops (F := Ideal)).take 55) (post := (ops (F := Ideal)).drop 56) rfl (ws_drop 56) (by decide) (by decide) (by decide)
  have q56 := fin_unary V main_v27 main_v28 _ _ _ (l := ops (F := Ideal)) (pre := (ops (F := Ideal)).take 56) (post := (ops (F := Ideal)).drop 57) rfl (ws_drop 57) (by decide) (by decide)
  have q57 := fin_unary V main_v28 main_v29 _ _ _ (l := ops (F := Ideal)) (pre := (ops (F := Ideal)).take 57) (post := (ops (F := Ideal)).drop 58) rfl (ws_drop 58) (by decide) (by decide)
  have q58 := fin_unary V main_v29 main_v30 _ _ _ (l := ops (F := Ideal)) (pre := (ops (F := Ideal)).take 58) (post := (ops (F := Ideal)).drop 59) rfl (ws_drop 59) (by decide) (by decide)
  have q59 := fin_binary V main_v25 main_v30 main_v31 _ _ _ _ (l := ops (F := Ideal)) (pre := (ops (F := Ideal)).take 59) (post := (ops (F := Ideal)).drop 60) rfl (ws_drop 60) (by decide) (by decide) (by decide)
  have q60 := fin_unary V main_arg4 main_v32 _ _ _ (l := ops (F := Ideal)) (pre := (ops (F := Ideal)).take 60) (post := (ops (F := Ideal)).drop 61) rfl (ws_drop 61) (by decide) (by decide)
  have q61 := fin_unary V main_v32 main_v33 _ _ _ (l := ops (F := Ideal)) (pre := (ops (F := Ideal)).take 61) (post := (ops (F := Ideal)).drop 62) rfl (ws_drop 62) (by decide) (by decide)
  have q62 := fin_binary V main_v31 main_v33 main_v34 _ _ _ _ (l := ops (F := Ideal)) (pre := (ops (F := Ideal)).take 62) (post := (ops (F := Ideal)).drop 63) rfl (ws_drop 63) (by decide) (by decide) (by decide)
  have q63 := fin_unary V main_arg5 main_v35 _ _ _ (l := ops (F := Ideal)) (pre := (ops (F := Ideal)).take 63) (post := (ops (F := Ideal)).drop 64) rfl (ws_drop 64) (by decide) (by decide)
  have q64 := fin_unary V main_v35 main_v36 _ _ _ (l := ops (F := Ideal)) (pre := (ops (F := Ideal)).take 64) (post := (ops (F := Ideal)).drop 65) rfl (ws_drop 65) (by decide) (by decide)
  have q65 := fin_binary V main_v34 main_v36 main_v37 _ _ _ _ (l := ops (F := Ideal)) (pre := (ops (F := Ideal)).take 65) (post := (ops (F := Ideal)).drop 66) rfl (ws_drop 66) (by decide) (by decide) (by decide)
  have q66 := fin_nullary V main_call1_cst _ _ (l := ops (F := Ideal)) (pre := (ops (F := Ideal)).take 66) (post := (ops (F := Ideal)).drop 67) rfl (ws_drop 67) (by decide)
  have q67 := fin_unary V main_call1_cst main_call1_v0 _ _ _ (l := ops (F := Ideal)) (pre := (ops (F := Ideal)).take 67) (post := (ops (F := Ideal)).drop 68) rfl (ws_drop 68) (by decide) (by decide)
  have q68 := fin_binary V main_v37 main_call1_v0 main_v38 _ _ _ _ (l := ops (F := Ideal)) (pre := (ops (F := Ideal)).take 68) (post := (ops (F := Ideal)).drop 69) rfl (ws_drop 69) (by decide) (by decide) (by decide)
  rw [q68, q67, q66, q65, q64, q63, q62, q61, q60, q59, q58, q57, q56, q55, q54, q53,
    q52, q51, q50]
  clear q50 q51 q52 q53 q54 q55 q56 q57 q58 q59 q60 q61 q62 q63 q64 q65 q66 q67 q68
  generalize after (ops (F := Ideal)) V (Proc.devRef .tc main_arg5) = a0
  generalize after (ops (F := Ideal)) V (Proc.devRef .tc main_arg4) = a1
  generalize after (ops (F := Ideal)) V (Proc.devRef .tc main_v22) = a2
  generalize after (ops (F := Ideal)) V (Proc.devRef .tc main_v18) = a3
  generalize after (ops (F := Ideal)) V (Proc.devRef .tc main_v21) = a4
  rfl

/-- Its second linear layer and rectifier. -/
theorem end_lr1 (V : Valuation τ sig (Elt Ideal)) :
    after (ops (F := Ideal)) V (Proc.devRef .tc main_v43) = refLinRelu (after (ops (F := Ideal)) V (Proc.devRef .tc main_v38)) (after (ops (F := Ideal)) V (Proc.devRef .tc main_arg6)) (after (ops (F := Ideal)) V (Proc.devRef .tc main_arg7)) := by
  have q69 := fin_binary V main_v38 main_arg6 main_v39 _ _ _ _ (l := ops (F := Ideal)) (pre := (ops (F := Ideal)).take 69) (post := (ops (F := Ideal)).drop 70) rfl (ws_drop 70) (by decide) (by decide) (by decide)
  have q70 := fin_unary V main_arg7 main_v40 _ _ _ (l := ops (F := Ideal)) (pre := (ops (F := Ideal)).take 70) (post := (ops (F := Ideal)).drop 71) rfl (ws_drop 71) (by decide) (by decide)
  have q71 := fin_unary V main_v40 main_v41 _ _ _ (l := ops (F := Ideal)) (pre := (ops (F := Ideal)).take 71) (post := (ops (F := Ideal)).drop 72) rfl (ws_drop 72) (by decide) (by decide)
  have q72 := fin_binary V main_v39 main_v41 main_v42 _ _ _ _ (l := ops (F := Ideal)) (pre := (ops (F := Ideal)).take 72) (post := (ops (F := Ideal)).drop 73) rfl (ws_drop 73) (by decide) (by decide) (by decide)
  have q73 := fin_nullary V main_call2_cst _ _ (l := ops (F := Ideal)) (pre := (ops (F := Ideal)).take 73) (post := (ops (F := Ideal)).drop 74) rfl (ws_drop 74) (by decide)
  have q74 := fin_unary V main_call2_cst main_call2_v0 _ _ _ (l := ops (F := Ideal)) (pre := (ops (F := Ideal)).take 74) (post := (ops (F := Ideal)).drop 75) rfl (ws_drop 75) (by decide) (by decide)
  have q75 := fin_binary V main_v42 main_call2_v0 main_v43 _ _ _ _ (l := ops (F := Ideal)) (pre := (ops (F := Ideal)).take 75) (post := (ops (F := Ideal)).drop 76) rfl (ws_drop 76) (by decide) (by decide) (by decide)
  rw [q75, q74, q73, q72, q71, q70, q69]
  clear q69 q70 q71 q72 q73 q74 q75
  generalize after (ops (F := Ideal)) V (Proc.devRef .tc main_arg7) = a0
  generalize after (ops (F := Ideal)) V (Proc.devRef .tc main_v38) = a1
  generalize after (ops (F := Ideal)) V (Proc.devRef .tc main_arg6) = a2
  rfl

/-- The rectifier between the two convolutions. -/
theorem end_relu (V : Valuation τ sig (Elt Ideal)) :
    after (ops (F := Ideal)) V (Proc.devRef .tc main_v44) = refRelu (after (ops (F := Ideal)) V (Proc.devRef .tc main_v43)) := by
  have q76 := fin_nullary V main_call3_cst _ _ (l := ops (F := Ideal)) (pre := (ops (F := Ideal)).take 76) (post := (ops (F := Ideal)).drop 77) rfl (ws_drop 77) (by decide)
  have q77 := fin_unary V main_call3_cst main_call3_v0 _ _ _ (l := ops (F := Ideal)) (pre := (ops (F := Ideal)).take 77) (post := (ops (F := Ideal)).drop 78) rfl (ws_drop 78) (by decide) (by decide)
  have q78 := fin_binary V main_v43 main_call3_v0 main_v44 _ _ _ _ (l := ops (F := Ideal)) (pre := (ops (F := Ideal)).take 78) (post := (ops (F := Ideal)).drop 79) rfl (ws_drop 79) (by decide) (by decide) (by decide)
  rw [q78, q77, q76]
  clear q76 q77 q78
  generalize after (ops (F := Ideal)) V (Proc.devRef .tc main_v43) = a0
  rfl

end Cert.ReferenceIdeal.RefRun

end
-- ==== Proof.RefFoldB1.lean ====
/- The reference line's buffers at its end, read as the array-level stages (part B1): each stage's buffer holds the
   stage's function of what its inputs' buffers hold at the end, by the operations' equations in order. -/
import proofs.«125030_j49014166782120_1_alg».proof.Proof.RefLine
import proofs.«125030_j49014166782120_1_alg».proof.Proof.RefStages
import proofs.«125030_j49014166782120_1_alg».proof.Proof.Agg

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Lib.HostLine Cert.RefStages

/-- The second aggregation's buffer at the end. -/
theorem end_agg2 (V : Valuation τ sig (Elt Ideal)) :
    after (ops (F := Ideal)) V (Proc.devRef .tc main_v55) = Cert.Agg.aggCoreR (after (ops (F := Ideal)) V (Proc.devRef .tc main_v1)) (after (ops (F := Ideal)) V (Proc.devRef .tc main_v3)) (after (ops (F := Ideal)) V (Proc.devRef .tc main_v44)) := by
  have q79 := fin_nullary V main_c_5 _ _ (l := ops (F := Ideal)) (pre := (ops (F := Ideal)).take 79) (post := (ops (F := Ideal)).drop 80) rfl (ws_drop 80) (by decide)
  have q80 := fin_unary V main_c_5 main_v45 _ _ _ (l := ops (F := Ideal)) (pre := (ops (F := Ideal)).take 80) (post := (ops (F := Ideal)).drop 81) rfl (ws_drop 81) (by decide) (by decide)
  have q81 := fin_binary V main_v1 main_v45 main_v46 _ _ _ _ (l := ops (F := Ideal)) (pre := (ops (F := Ideal)).take 81) (post := (ops (F := Ideal)).drop 82) rfl (ws_drop 82) (by decide) (by decide) (by decide)
  have q82 := fin_nullary V main_c_6 _ _ (l := ops (F := Ideal)) (pre := (ops (F := Ideal)).take 82) (post := (ops (F := Ideal)).drop 83) rfl (ws_drop 83) (by decide)
  have q83 := fin_unary V main_c_6 main_v47 _ _ _ (l := ops (F := Ideal)) (pre := (ops (F := Ideal)).take 83) (post := (ops (F := Ideal)).drop 84) rfl (ws_drop 84) (by decide) (by decide)
  have q84 := fin_binary V main_v1 main_v47 main_v48 _ _ _ _ (l := ops (F := Ideal)) (pre := (ops (F := Ideal)).take 84) (post := (ops (F := Ideal)).drop 85) rfl (ws_drop 85) (by decide) (by decide) (by decide)
  have q85 := fin_ternary V main_v46 main_v48 main_v1 main_v49 _ _ _ _ _ (l := ops (F := Ideal)) (pre := (ops (F := Ideal)).take 85) (post := (ops (F := Ideal)).drop 86) rfl (ws_drop 86) (by decide) (by decide) (by decide) (by decide)
  have q86 := fin_unary V main_v49 main_v50 _ _ _ (l := ops (F := Ideal)) (pre := (ops (F := Ideal)).take 86) (post := (ops (F := Ideal)).drop 87) rfl (ws_drop 87) (by decide) (by decide)
  have q87 := fin_binary V main_v44 main_v50 main_v51 _ _ _ _ (l := ops (F := Ideal)) (pre := (ops (F := Ideal)).take 87) (post := (ops (F := Ideal)).drop 88) rfl (ws_drop 88) (by decide) (by decide) (by decide)
  have q88 := fin_nullary V main_cst_7 _ _ (l := ops (F := Ideal)) (pre := (ops (F := Ideal)).take 88) (post := (ops (F := Ideal)).drop 89) rfl (ws_drop 89) (by decide)
  have q89 := fin_unary V main_cst_7 main_v52 _ _ _ (l := ops (F := Ideal)) (pre := (ops (F := Ideal)).take 89) (post := (ops (F := Ideal)).drop 90) rfl (ws_drop 90) (by decide) (by decide)
  have q90 := fin_unary V main_v3 main_v53 _ _ _ (l := ops (F := Ideal)) (pre := (ops (F := Ideal)).take 90) (post := (ops (F := Ideal)).drop 91) rfl (ws_drop 91) (by decide) (by decide)
  have q91 := fin_ternary V main_v52 main_v53 main_v51 main_v54 _ _ _ _ _ (l := ops (F := Ideal)) (pre := (ops (F := Ideal)).take 91) (post := (ops (F := Ideal)).drop 92) rfl (ws_drop 92) (by decide) (by decide) (by decide) (by decide)
  have q92 := fin_binary V main_v44 main_v54 main_v55 _ _ _ _ (l := ops (F := Ideal)) (pre := (ops (F := Ideal)).take 92) (post := (ops (F := Ideal)).drop 93) rfl (ws_drop 93) (by decide) (by decide) (by decide)
  rw [q92, q91, q90, q89, q88, q87, q86, q85, q84, q83, q82, q81, q80, q79]
  clear q79 q80 q81 q82 q83 q84 q85 q86 q87 q88 q89 q90 q91 q92
  generalize after (ops (F := Ideal)) V (Proc.devRef .tc main_v44) = a0
  generalize after (ops (F := Ideal)) V (Proc.devRef .tc main_v3) = a1
  generalize after (ops (F := Ideal)) V (Proc.devRef .tc main_v1) = a2
  rfl

/-- The second convolution's first linear layer. -/
theorem end_lin2 (V : Valuation τ sig (Elt Ideal)) :
    after (ops (F := Ideal)) V (Proc.devRef .tc main_v59) = refLin (after (ops (F := Ideal)) V (Proc.devRef .tc main_v55)) (after (ops (F := Ideal)) V (Proc.devRef .tc main_arg8)) (after (ops (F := Ideal)) V (Proc.devRef .tc main_arg9)) := by
  have q93 := fin_binary V main_v55 main_arg8 main_v56 _ _ _ _ (l := ops (F := Ideal)) (pre := (ops (F := Ideal)).take 93) (post := (ops (F := Ideal)).drop 94) rfl (ws_drop 94) (by decide) (by decide) (by decide)
  have q94 := fin_unary V main_arg9 main_v57 _ _ _ (l := ops (F := Ideal)) (pre := (ops (F := Ideal)).take 94) (post := (ops (F := Ideal)).drop 95) rfl (ws_drop 95) (by decide) (by decide)
  have q95 := fin_unary V main_v57 main_v58 _ _ _ (l := ops (F := Ideal)) (pre := (ops (F := Ideal)).take 95) (post := (ops (F := Ideal)).drop 96) rfl (ws_drop 96) (by decide) (by decide)
  have q96 := fin_binary V main_v56 main_v58 main_v59 _ _ _ _ (l := ops (F := Ideal)) (pre := (ops (F := Ideal)).take 96) (post := (ops (F := Ideal)).drop 97) rfl (ws_drop 97) (by decide) (by decide) (by decide)
  rw [q96, q95, q94, q93]
  clear q93 q94 q95 q96
  generalize after (ops (F := Ideal)) V (Proc.devRef .tc main_arg9) = a0
  generalize after (ops (F := Ideal)) V (Proc.devRef .tc main_v55) = a1
  generalize after (ops (F := Ideal)) V (Proc.devRef .tc main_arg8) = a2
  rfl

/-- Its column means. -/
theorem end_mean2 (V : Valuation τ sig (Elt Ideal)) :
    after (ops (F := Ideal)) V (Proc.devRef .tc main_v62) = refMean (after (ops (F := Ideal)) V (Proc.devRef .tc main_v59)) := by
  have q97 := fin_nullary V main_cst_8 _ _ (l := ops (F := Ideal)) (pre := (ops (F := Ideal)).take 97) (post := (ops (F := Ideal)).drop 98) rfl (ws_drop 98) (by decide)
  have q98 := fin_binary V main_v59 main_cst_8 main_v60 _ _ _ _ (l := ops (F := Ideal)) (pre := (ops (F := Ideal)).take 98) (post := (ops (F := Ideal)).drop 99) rfl (ws_drop 99) (by decide) (by decide) (by decide)
  have q99 := fin_nullary V main_cst_9 _ _ (l := ops (F := Ideal)) (pre := (ops (F := Ideal)).take 99) (post := (ops (F := Ideal)).drop 100) rfl (ws_drop 100) (by decide)
  have q100 := fin_unary V main_cst_9 main_v61 _ _ _ (l := ops (F := Ideal)) (pre := (ops (F := Ideal)).take 100) (post := (ops (F := Ideal)).drop 101) rfl (ws_drop 101) (by decide) (by decide)
  have q101 := fin_binary V main_v60 main_v61 main_v62 _ _ _ _ (l := ops (F := Ideal)) (pre := (ops (F := Ideal)).take 101) (post := (ops (F := Ideal)).drop 102) rfl (ws_drop 102) (by decide) (by decide) (by decide)
  rw [q101, q100, q99, q98, q97]
  clear q97 q98 q99 q100 q101
  generalize after (ops (F := Ideal)) V (Proc.devRef .tc main_v59) = a0
  rfl

end Cert.ReferenceIdeal.RefRun

end
-- ==== Proof.RefFoldB2.lean ====
/- The reference line's buffers at its end, read as the array-level stages (part B2): each stage's buffer holds the
   stage's function of what its inputs' buffers hold at the end, by the operations' equations in order. -/
import proofs.«125030_j49014166782120_1_alg».proof.Proof.RefLine
import proofs.«125030_j49014166782120_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Lib.HostLine Cert.RefStages

/-- The second convolution's column variances. -/
theorem end_var2 (V : Valuation τ sig (Elt Ideal)) :
    after (ops (F := Ideal)) V (Proc.devRef .tc main_v63) = refVar (after (ops (F := Ideal)) V (Proc.devRef .tc main_v59)) := by
  have q102 := fin_nullary V main_c_10 _ _ (l := ops (F := Ideal)) (pre := (ops (F := Ideal)).take 102) (post := (ops (F := Ideal)).drop 103) rfl (ws_drop 103) (by decide)
  have q103 := fin_nullary V main_call4_cst _ _ (l := ops (F := Ideal)) (pre := (ops (F := Ideal)).take 103) (post := (ops (F := Ideal)).drop 104) rfl (ws_drop 104) (by decide)
  have q104 := fin_binary V main_v59 main_call4_cst main_call4_v0 _ _ _ _ (l := ops (F := Ideal)) (pre := (ops (F := Ideal)).take 104) (post := (ops (F := Ideal)).drop 105) rfl (ws_drop 105) (by decide) (by decide) (by decide)
  have q105 := fin_unary V main_call4_v0 main_call4_v1 _ _ _ (l := ops (F := Ideal)) (pre := (ops (F := Ideal)).take 105) (post := (ops (F := Ideal)).drop 106) rfl (ws_drop 106) (by decide) (by decide)
  have q106 := fin_nullary V main_call4_cst_0 _ _ (l := ops (F := Ideal)) (pre := (ops (F := Ideal)).take 106) (post := (ops (F := Ideal)).drop 107) rfl (ws_drop 107) (by decide)
  have q107 := fin_unary V main_call4_cst_0 main_call4_v2 _ _ _ (l := ops (F := Ideal)) (pre := (ops (F := Ideal)).take 107) (post := (ops (F := Ideal)).drop 108) rfl (ws_drop 108) (by decide) (by decide)
  have q108 := fin_binary V main_call4_v1 main_call4_v2 main_call4_v3 _ _ _ _ (l := ops (F := Ideal)) (pre := (ops (F := Ideal)).take 108) (post := (ops (F := Ideal)).drop 109) rfl (ws_drop 109) (by decide) (by decide) (by decide)
  have q109 := fin_unary V main_call4_v3 main_call4_v4 _ _ _ (l := ops (F := Ideal)) (pre := (ops (F := Ideal)).take 109) (post := (ops (F := Ideal)).drop 110) rfl (ws_drop 110) (by decide) (by decide)
  have q110 := fin_binary V main_v59 main_call4_v4 main_call4_v5 _ _ _ _ (l := ops (F := Ideal)) (pre := (ops (F := Ideal)).take 110) (post := (ops (F := Ideal)).drop 111) rfl (ws_drop 111) (by decide) (by decide) (by decide)
  have q111 := fin_binary V main_call4_v5 main_call4_v5 main_call4_v6 _ _ _ _ (l := ops (F := Ideal)) (pre := (ops (F := Ideal)).take 111) (post := (ops (F := Ideal)).drop 112) rfl (ws_drop 112) (by decide) (by decide) (by decide)
  have q112 := fin_unary V main_c_10 main_call4_v7 _ _ _ (l := ops (F := Ideal)) (pre := (ops (F := Ideal)).take 112) (post := (ops (F := Ideal)).drop 113) rfl (ws_drop 113) (by decide) (by decide)
  have q113 := fin_nullary V main_call4_cst_1 _ _ (l := ops (F := Ideal)) (pre := (ops (F := Ideal)).take 113) (post := (ops (F := Ideal)).drop 114) rfl (ws_drop 114) (by decide)
  have q114 := fin_binary V main_call4_cst_1 main_call4_v7 main_call4_v8 _ _ _ _ (l := ops (F := Ideal)) (pre := (ops (F := Ideal)).take 114) (post := (ops (F := Ideal)).drop 115) rfl (ws_drop 115) (by decide) (by decide) (by decide)
  have q115 := fin_nullary V main_call4_cst_2 _ _ (l := ops (F := Ideal)) (pre := (ops (F := Ideal)).take 115) (post := (ops (F := Ideal)).drop 116) rfl (ws_drop 116) (by decide)
  have q116 := fin_binary V main_call4_v6 main_call4_cst_2 main_call4_v9 _ _ _ _ (l := ops (F := Ideal)) (pre := (ops (F := Ideal)).take 116) (post := (ops (F := Ideal)).drop 117) rfl (ws_drop 117) (by decide) (by decide) (by decide)
  have q117 := fin_unary V main_call4_v8 main_call4_v10 _ _ _ (l := ops (F := Ideal)) (pre := (ops (F := Ideal)).take 117) (post := (ops (F := Ideal)).drop 118) rfl (ws_drop 118) (by decide) (by decide)
  have q118 := fin_binary V main_call4_v9 main_call4_v10 main_call4_v11 _ _ _ _ (l := ops (F := Ideal)) (pre := (ops (F := Ideal)).take 118) (post := (ops (F := Ideal)).drop 119) rfl (ws_drop 119) (by decide) (by decide) (by decide)
  have q119 := fin_nullary V main_call4_cst_3 _ _ (l := ops (F := Ideal)) (pre := (ops (F := Ideal)).take 119) (post := (ops (F := Ideal)).drop 120) rfl (ws_drop 120) (by decide)
  have q120 := fin_binary V main_call4_v8 main_call4_cst_3 main_call4_v12 _ _ _ _ (l := ops (F := Ideal)) (pre := (ops (F := Ideal)).take 120) (post := (ops (F := Ideal)).drop 121) rfl (ws_drop 121) (by decide) (by decide) (by decide)
  have q121 := fin_nullary V main_call4_cst_4 _ _ (l := ops (F := Ideal)) (pre := (ops (F := Ideal)).take 121) (post := (ops (F := Ideal)).drop 122) rfl (ws_drop 122) (by decide)
  have q122 := fin_unary V main_call4_cst_4 main_call4_call0_v0 _ _ _ (l := ops (F := Ideal)) (pre := (ops (F := Ideal)).take 122) (post := (ops (F := Ideal)).drop 123) rfl (ws_drop 123) (by decide) (by decide)
  have q123 := fin_unary V main_call4_call0_v0 main_call4_call0_v1 _ _ _ (l := ops (F := Ideal)) (pre := (ops (F := Ideal)).take 123) (post := (ops (F := Ideal)).drop 124) rfl (ws_drop 124) (by decide) (by decide)
  have q124 := fin_ternary V main_call4_v12 main_call4_v11 main_call4_call0_v1 main_v63 _ _ _ _ _ (l := ops (F := Ideal)) (pre := (ops (F := Ideal)).take 124) (post := (ops (F := Ideal)).drop 125) rfl (ws_drop 125) (by decide) (by decide) (by decide) (by decide)
  rw [q124, q123, q122, q121, q120, q119, q118, q117, q116, q115, q114, q113, q112, q111, q110, q109,
    q108, q107, q106, q105, q104, q103, q102]
  clear q102 q103 q104 q105 q106 q107 q108 q109 q110 q111 q112 q113 q114 q115 q116 q117 q118 q119 q120 q121 q122 q123 q124
  generalize after (ops (F := Ideal)) V (Proc.devRef .tc main_v59) = a0
  rfl

end Cert.ReferenceIdeal.RefRun

end
-- ==== Proof.RefFoldB3.lean ====
/- The reference line's buffers at its end, read as the array-level stages (part B3): each stage's buffer holds the
   stage's function of what its inputs' buffers hold at the end, by the operations' equations in order. -/
import proofs.«125030_j49014166782120_1_alg».proof.Proof.RefLine
import proofs.«125030_j49014166782120_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Lib.HostLine Cert.RefStages

/-- The second convolution's normalisation and rectifier. -/
theorem end_bn2 (V : Valuation τ sig (Elt Ideal)) :
    after (ops (F := Ideal)) V (Proc.devRef .tc main_v79) = refBnRelu (after (ops (F := Ideal)) V (Proc.devRef .tc main_v59)) (after (ops (F := Ideal)) V (Proc.devRef .tc main_v62)) (after (ops (F := Ideal)) V (Proc.devRef .tc main_v63)) (after (ops (F := Ideal)) V (Proc.devRef .tc main_arg10)) (after (ops (F := Ideal)) V (Proc.devRef .tc main_arg11)) := by
  have q125 := fin_unary V main_v62 main_v64 _ _ _ (l := ops (F := Ideal)) (pre := (ops (F := Ideal)).take 125) (post := (ops (F := Ideal)).drop 126) rfl (ws_drop 126) (by decide) (by decide)
  have q126 := fin_unary V main_v64 main_v65 _ _ _ (l := ops (F := Ideal)) (pre := (ops (F := Ideal)).take 126) (post := (ops (F := Ideal)).drop 127) rfl (ws_drop 127) (by decide) (by decide)
  have q127 := fin_binary V main_v59 main_v65 main_v66 _ _ _ _ (l := ops (F := Ideal)) (pre := (ops (F := Ideal)).take 127) (post := (ops (F := Ideal)).drop 128) rfl (ws_drop 128) (by decide) (by decide) (by decide)
  have q128 := fin_nullary V main_cst_11 _ _ (l := ops (F := Ideal)) (pre := (ops (F := Ideal)).take 128) (post := (ops (F := Ideal)).drop 129) rfl (ws_drop 129) (by decide)
  have q129 := fin_unary V main_cst_11 main_v67 _ _ _ (l := ops (F := Ideal)) (pre := (ops (F := Ideal)).take 129) (post := (ops (F := Ideal)).drop 130) rfl (ws_drop 130) (by decide) (by decide)
  have q130 := fin_binary V main_v63 main_v67 main_v68 _ _ _ _ (l := ops (F := Ideal)) (pre := (ops (F := Ideal)).take 130) (post := (ops (F := Ideal)).drop 131) rfl (ws_drop 131) (by decide) (by decide) (by decide)
  have q131 := fin_unary V main_v68 main_v69 _ _ _ (l := ops (F := Ideal)) (pre := (ops (F := Ideal)).take 131) (post := (ops (F := Ideal)).drop 132) rfl (ws_drop 132) (by decide) (by decide)
  have q132 := fin_unary V main_v69 main_v70 _ _ _ (l := ops (F := Ideal)) (pre := (ops (F := Ideal)).take 132) (post := (ops (F := Ideal)).drop 133) rfl (ws_drop 133) (by decide) (by decide)
  have q133 := fin_unary V main_v70 main_v71 _ _ _ (l := ops (F := Ideal)) (pre := (ops (F := Ideal)).take 133) (post := (ops (F := Ideal)).drop 134) rfl (ws_drop 134) (by decide) (by decide)
  have q134 := fin_binary V main_v66 main_v71 main_v72 _ _ _ _ (l := ops (F := Ideal)) (pre := (ops (F := Ideal)).take 134) (post := (ops (F := Ideal)).drop 135) rfl (ws_drop 135) (by decide) (by decide) (by decide)
  have q135 := fin_unary V main_arg10 main_v73 _ _ _ (l := ops (F := Ideal)) (pre := (ops (F := Ideal)).take 135) (post := (ops (F := Ideal)).drop 136) rfl (ws_drop 136) (by decide) (by decide)
  have q136 := fin_unary V main_v73 main_v74 _ _ _ (l := ops (F := Ideal)) (pre := (ops (F := Ideal)).take 136) (post := (ops (F := Ideal)).drop 137) rfl (ws_drop 137) (by decide) (by decide)
  have q137 := fin_binary V main_v72 main_v74 main_v75 _ _ _ _ (l := ops (F := Ideal)) (pre := (ops (F := Ideal)).take 137) (post := (ops (F := Ideal)).drop 138) rfl (ws_drop 138) (by decide) (by decide) (by decide)
  have q138 := fin_unary V main_arg11 main_v76 _ _ _ (l := ops (F := Ideal)) (pre := (ops (F := Ideal)).take 138) (post := (ops (F := Ideal)).drop 139) rfl (ws_drop 139) (by decide) (by decide)
  have q139 := fin_unary V main_v76 main_v77 _ _ _ (l := ops (F := Ideal)) (pre := (ops (F := Ideal)).take 139) (post := (ops (F := Ideal)).drop 140) rfl (ws_drop 140) (by decide) (by decide)
  have q140 := fin_binary V main_v75 main_v77 main_v78 _ _ _ _ (l := ops (F := Ideal)) (pre := (ops (F := Ideal)).take 140) (post := (ops (F := Ideal)).drop 141) rfl (ws_drop 141) (by decide) (by decide) (by decide)
  have q141 := fin_nullary V main_call5_cst _ _ (l := ops (F := Ideal)) (pre := (ops (F := Ideal)).take 141) (post := (ops (F := Ideal)).drop 142) rfl (ws_drop 142) (by decide)
  have q142 := fin_unary V main_call5_cst main_call5_v0 _ _ _ (l := ops (F := Ideal)) (pre := (ops (F := Ideal)).take 142) (post := (ops (F := Ideal)).drop 143) rfl (ws_drop 143) (by decide) (by decide)
  have q143 := fin_binary V main_v78 main_call5_v0 main_v79 _ _ _ _ (l := ops (F := Ideal)) (pre := (ops (F := Ideal)).take 143) (post := (ops (F := Ideal)).drop 144) rfl (ws_drop 144) (by decide) (by decide) (by decide)
  rw [q143, q142, q141, q140, q139, q138, q137, q136, q135, q134, q133, q132, q131, q130, q129, q128,
    q127, q126, q125]
  clear q125 q126 q127 q128 q129 q130 q131 q132 q133 q134 q135 q136 q137 q138 q139 q140 q141 q142 q143
  generalize after (ops (F := Ideal)) V (Proc.devRef .tc main_arg11) = a0
  generalize after (ops (F := Ideal)) V (Proc.devRef .tc main_arg10) = a1
  generalize after (ops (F := Ideal)) V (Proc.devRef .tc main_v63) = a2
  generalize after (ops (F := Ideal)) V (Proc.devRef .tc main_v59) = a3
  generalize after (ops (F := Ideal)) V (Proc.devRef .tc main_v62) = a4
  rfl

/-- Its second linear layer and rectifier. -/
theorem end_lr2 (V : Valuation τ sig (Elt Ideal)) :
    after (ops (F := Ideal)) V (Proc.devRef .tc main_v84) = refLinRelu (after (ops (F := Ideal)) V (Proc.devRef .tc main_v79)) (after (ops (F := Ideal)) V (Proc.devRef .tc main_arg12)) (after (ops (F := Ideal)) V (Proc.devRef .tc main_arg13)) := by
  have q144 := fin_binary V main_v79 main_arg12 main_v80 _ _ _ _ (l := ops (F := Ideal)) (pre := (ops (F := Ideal)).take 144) (post := (ops (F := Ideal)).drop 145) rfl (ws_drop 145) (by decide) (by decide) (by decide)
  have q145 := fin_unary V main_arg13 main_v81 _ _ _ (l := ops (F := Ideal)) (pre := (ops (F := Ideal)).take 145) (post := (ops (F := Ideal)).drop 146) rfl (ws_drop 146) (by decide) (by decide)
  have q146 := fin_unary V main_v81 main_v82 _ _ _ (l := ops (F := Ideal)) (pre := (ops (F := Ideal)).take 146) (post := (ops (F := Ideal)).drop 147) rfl (ws_drop 147) (by decide) (by decide)
  have q147 := fin_binary V main_v80 main_v82 main_v83 _ _ _ _ (l := ops (F := Ideal)) (pre := (ops (F := Ideal)).take 147) (post := (ops (F := Ideal)).drop 148) rfl (ws_drop 148) (by decide) (by decide) (by decide)
  have q148 := fin_nullary V main_call6_cst _ _ (l := ops (F := Ideal)) (pre := (ops (F := Ideal)).take 148) (post := (ops (F := Ideal)).drop 149) rfl (ws_drop 149) (by decide)
  have q149 := fin_unary V main_call6_cst main_call6_v0 _ _ _ (l := ops (F := Ideal)) (pre := (ops (F := Ideal)).take 149) (post := (ops (F := Ideal)).drop 150) rfl (ws_drop 150) (by decide) (by decide)
  have q150 := fin_binary V main_v83 main_call6_v0 main_v84 _ _ _ _ (l := ops (F := Ideal)) (pre := (ops (F := Ideal)).take 150) (post := (ops (F := Ideal)).drop 151) rfl (ws_drop 151) (by decide) (by decide) (by decide)
  rw [q150, q149, q148, q147, q146, q145, q144]
  clear q144 q145 q146 q147 q148 q149 q150
  generalize after (ops (F := Ideal)) V (Proc.devRef .tc main_arg13) = a0
  generalize after (ops (F := Ideal)) V (Proc.devRef .tc main_v79) = a1
  generalize after (ops (F := Ideal)) V (Proc.devRef .tc main_arg12) = a2
  rfl

/-- The head's first linear layer and rectifier. -/
theorem end_lr3 (V : Valuation τ sig (Elt Ideal)) :
    after (ops (F := Ideal)) V (Proc.devRef .tc main_v89) = refLinRelu (after (ops (F := Ideal)) V (Proc.devRef .tc main_v84)) (after (ops (F := Ideal)) V (Proc.devRef .tc main_arg14)) (after (ops (F := Ideal)) V (Proc.devRef .tc main_arg15)) := by
  have q151 := fin_binary V main_v84 main_arg14 main_v85 _ _ _ _ (l := ops (F := Ideal)) (pre := (ops (F := Ideal)).take 151) (post := (ops (F := Ideal)).drop 152) rfl (ws_drop 152) (by decide) (by decide) (by decide)
  have q152 := fin_unary V main_arg15 main_v86 _ _ _ (l := ops (F := Ideal)) (pre := (ops (F := Ideal)).take 152) (post := (ops (F := Ideal)).drop 153) rfl (ws_drop 153) (by decide) (by decide)
  have q153 := fin_unary V main_v86 main_v87 _ _ _ (l := ops (F := Ideal)) (pre := (ops (F := Ideal)).take 153) (post := (ops (F := Ideal)).drop 154) rfl (ws_drop 154) (by decide) (by decide)
  have q154 := fin_binary V main_v85 main_v87 main_v88 _ _ _ _ (l := ops (F := Ideal)) (pre := (ops (F := Ideal)).take 154) (post := (ops (F := Ideal)).drop 155) rfl (ws_drop 155) (by decide) (by decide) (by decide)
  have q155 := fin_nullary V main_call7_cst _ _ (l := ops (F := Ideal)) (pre := (ops (F := Ideal)).take 155) (post := (ops (F := Ideal)).drop 156) rfl (ws_drop 156) (by decide)
  have q156 := fin_unary V main_call7_cst main_call7_v0 _ _ _ (l := ops (F := Ideal)) (pre := (ops (F := Ideal)).take 156) (post := (ops (F := Ideal)).drop 157) rfl (ws_drop 157) (by decide) (by decide)
  have q157 := fin_binary V main_v88 main_call7_v0 main_v89 _ _ _ _ (l := ops (F := Ideal)) (pre := (ops (F := Ideal)).take 157) (post := (ops (F := Ideal)).drop 158) rfl (ws_drop 158) (by decide) (by decide) (by decide)
  rw [q157, q156, q155, q154, q153, q152, q151]
  clear q151 q152 q153 q154 q155 q156 q157
  generalize after (ops (F := Ideal)) V (Proc.devRef .tc main_arg15) = a0
  generalize after (ops (F := Ideal)) V (Proc.devRef .tc main_v84) = a1
  generalize after (ops (F := Ideal)) V (Proc.devRef .tc main_arg14) = a2
  rfl

/-- The head's last linear layer. -/
theorem end_out (V : Valuation τ sig (Elt Ideal)) :
    after (ops (F := Ideal)) V (Proc.devRef .tc main_v93) = refLinOut (after (ops (F := Ideal)) V (Proc.devRef .tc main_v89)) (after (ops (F := Ideal)) V (Proc.devRef .tc main_arg16)) (after (ops (F := Ideal)) V (Proc.devRef .tc main_arg17)) := by
  have q158 := fin_binary V main_v89 main_arg16 main_v90 _ _ _ _ (l := ops (F := Ideal)) (pre := (ops (F := Ideal)).take 158) (post := (ops (F := Ideal)).drop 159) rfl (ws_drop 159) (by decide) (by decide) (by decide)
  have q159 := fin_unary V main_arg17 main_v91 _ _ _ (l := ops (F := Ideal)) (pre := (ops (F := Ideal)).take 159) (post := (ops (F := Ideal)).drop 160) rfl (ws_drop 160) (by decide) (by decide)
  have q160 := fin_unary V main_v91 main_v92 _ _ _ (l := ops (F := Ideal)) (pre := (ops (F := Ideal)).take 160) (post := (ops (F := Ideal)).drop 161) rfl (ws_drop 161) (by decide) (by decide)
  have q161 := fin_binary V main_v90 main_v92 main_v93 _ _ _ _ (l := ops (F := Ideal)) (pre := (ops (F := Ideal)).take 161) (post := (ops (F := Ideal)).drop 162) rfl (ws_drop 162) (by decide) (by decide) (by decide)
  rw [q161, q160, q159, q158]
  clear q158 q159 q160 q161
  generalize after (ops (F := Ideal)) V (Proc.devRef .tc main_arg17) = a0
  generalize after (ops (F := Ideal)) V (Proc.devRef .tc main_v89) = a1
  generalize after (ops (F := Ideal)) V (Proc.devRef .tc main_arg16) = a2
  rfl

end Cert.ReferenceIdeal.RefRun

end
-- ==== Proof.RefFoldC.lean ====
/- The reference line's buffers at its end, read as the array-level stages (part C): the row-wise log-softmax. Its
   operations sit inside a called function, whose operations carry a transport along each buffer's type; the
   transports are removed one by one by rewriting (each is the identity at a literal buffer), never by computing
   through the reduction over the whole 50000 × 40 array. -/
import proofs.«125030_j49014166782120_1_alg».proof.Proof.RefLine
import proofs.«125030_j49014166782120_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Lib.HostLine Cert.RefStages

/-- A value moved to a typed reference's buffer type and back is the value. -/
theorem ofBuf_toBuf {Val : EltTy → Type} {T : BufTy} (x : StableHlo.TRef sig T) (v : T.Contents Val) :
    x.ofBuf (x.toBuf v) = v := by
  simp only [TRef.ofBuf, TRef.toBuf, cast_cast, cast_eq]

/-- The row-wise log-softmax. -/
theorem end_lsm (V : Valuation τ sig (Elt Ideal)) :
    after (ops (F := Ideal)) V (Proc.devRef .tc main_v94) = refLogSoftmax (after (ops (F := Ideal)) V (Proc.devRef .tc main_v93)) := by
  have q162 := fin_nullary V main_call8_cst _ _ (l := ops (F := Ideal)) (pre := (ops (F := Ideal)).take 162) (post := (ops (F := Ideal)).drop 163) rfl (ws_drop 163) (by decide)
  have q163 := fin_binary V main_v93 main_call8_cst main_call8_v0 _ _ _ _ (l := ops (F := Ideal)) (pre := (ops (F := Ideal)).take 163) (post := (ops (F := Ideal)).drop 164) rfl (ws_drop 164) (by decide) (by decide) (by decide)
  have q164 := fin_nullary V main_call8_cst_0 _ _ (l := ops (F := Ideal)) (pre := (ops (F := Ideal)).take 164) (post := (ops (F := Ideal)).drop 165) rfl (ws_drop 165) (by decide)
  have q165 := fin_unary V main_call8_cst_0 main_call8_v1 _ _ _ (l := ops (F := Ideal)) (pre := (ops (F := Ideal)).take 165) (post := (ops (F := Ideal)).drop 166) rfl (ws_drop 166) (by decide) (by decide)
  have q166 := fin_binary V main_call8_v1 main_call8_v0 main_call8_v2 _ _ _ _ (l := ops (F := Ideal)) (pre := (ops (F := Ideal)).take 166) (post := (ops (F := Ideal)).drop 167) rfl (ws_drop 167) (by decide) (by decide) (by decide)
  have q167 := fin_unary V main_call8_v2 main_call8_v3 _ _ _ (l := ops (F := Ideal)) (pre := (ops (F := Ideal)).take 167) (post := (ops (F := Ideal)).drop 168) rfl (ws_drop 168) (by decide) (by decide)
  have q168 := fin_unary V main_call8_v3 main_call8_v4 _ _ _ (l := ops (F := Ideal)) (pre := (ops (F := Ideal)).take 168) (post := (ops (F := Ideal)).drop 169) rfl (ws_drop 169) (by decide) (by decide)
  have q169 := fin_binary V main_v93 main_call8_v4 main_call8_v5 _ _ _ _ (l := ops (F := Ideal)) (pre := (ops (F := Ideal)).take 169) (post := (ops (F := Ideal)).drop 170) rfl (ws_drop 170) (by decide) (by decide) (by decide)
  have q170 := fin_unary V main_call8_v5 main_call8_v6 _ _ _ (l := ops (F := Ideal)) (pre := (ops (F := Ideal)).take 170) (post := (ops (F := Ideal)).drop 171) rfl (ws_drop 171) (by decide) (by decide)
  have q171 := fin_nullary V main_call8_cst_1 _ _ (l := ops (F := Ideal)) (pre := (ops (F := Ideal)).take 171) (post := (ops (F := Ideal)).drop 172) rfl (ws_drop 172) (by decide)
  have q172 := fin_binary V main_call8_v6 main_call8_cst_1 main_call8_v7 _ _ _ _ (l := ops (F := Ideal)) (pre := (ops (F := Ideal)).take 172) (post := (ops (F := Ideal)).drop 173) rfl (ws_drop 173) (by decide) (by decide) (by decide)
  have q173 := fin_unary V main_call8_v7 main_call8_v8 _ _ _ (l := ops (F := Ideal)) (pre := (ops (F := Ideal)).take 173) (post := (ops (F := Ideal)).drop 174) rfl (ws_drop 174) (by decide) (by decide)
  have q174 := fin_unary V main_call8_v8 main_call8_v9 _ _ _ (l := ops (F := Ideal)) (pre := (ops (F := Ideal)).take 174) (post := (ops (F := Ideal)).drop 175) rfl (ws_drop 175) (by decide) (by decide)
  have q175 := fin_unary V main_call8_v9 main_call8_v10 _ _ _ (l := ops (F := Ideal)) (pre := (ops (F := Ideal)).take 175) (post := (ops (F := Ideal)).drop 176) rfl (ws_drop 176) (by decide) (by decide)
  have q176 := fin_binary V main_call8_v5 main_call8_v10 main_v94 _ _ _ _ (l := ops (F := Ideal)) (pre := (ops (F := Ideal)).take 176) (post := (ops (F := Ideal)).drop 177) rfl (ws_drop 177) (by decide) (by decide) (by decide)
  rw [q176, q175, q174, q173, q172, q171, q170, q169, q168, q167, q166, q165, q164, q163, q162]
  clear q176 q175 q174 q173 q172 q171 q170 q169 q168 q167 q166 q165 q164 q163 q162
  generalize after (ops (F := Ideal)) V (Proc.devRef .tc main_v93) = a0
  simp only [ofBuf_toBuf]
  rw [show ∀ z, (main_call8.v11).toBuf (Val := Elt Ideal) z = z from fun z => rfl]
  rw [show (TRef.of main_v93 : StableHlo.TRef sig ⟨S50000x40, .f32⟩).ofBuf (Val := Elt Ideal) a0 = a0 from rfl]
  simp only [refLogSoftmax, refShifted, refRowMax, colsOf, kNegInf, kZero]

end Cert.ReferenceIdeal.RefRun

end
-- ==== Proof.RefFold.lean ====
/- The reference's result as the array-level model: the result buffer at the end of the line is the model — the
   classifier head on the second convolution of the aggregated, rectified first convolution of the aggregated input —
   of what the argument arrays held at launch; and with the run, every execution ends with the result buffer at that
   value and the arguments unchanged. -/
import proofs.«125030_j49014166782120_1_alg».proof.Proof.RefRun
import proofs.«125030_j49014166782120_1_alg».proof.Proof.Agg
import proofs.«125030_j49014166782120_1_alg».proof.Proof.RefFoldA1
import proofs.«125030_j49014166782120_1_alg».proof.Proof.RefFoldA2
import proofs.«125030_j49014166782120_1_alg».proof.Proof.RefFoldA3
import proofs.«125030_j49014166782120_1_alg».proof.Proof.RefFoldB1
import proofs.«125030_j49014166782120_1_alg».proof.Proof.RefFoldB2
import proofs.«125030_j49014166782120_1_alg».proof.Proof.RefFoldB3
import proofs.«125030_j49014166782120_1_alg».proof.Proof.RefFoldC

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Lib.HostLine Cert.RefStages

/-- The result buffer at the end of the line, from any contents before it: the stages composed, each argument array
    holding at the end what it held before. -/
theorem fold_val (V : Valuation τ sig (Elt Ideal)) :
    after (ops (F := Ideal)) V (Proc.devRef .tc main_v94)
      = refModel (Cert.Agg.aggCoreR (Cert.Agg.srcOfR (V (Proc.devRef .tc main_arg1))) (Cert.Agg.dstOfR (V (Proc.devRef .tc main_arg1))))
          (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7))
          (V (Proc.devRef .tc main_arg8)) (V (Proc.devRef .tc main_arg9)) (V (Proc.devRef .tc main_arg10)) (V (Proc.devRef .tc main_arg11)) (V (Proc.devRef .tc main_arg12)) (V (Proc.devRef .tc main_arg13))
          (V (Proc.devRef .tc main_arg14)) (V (Proc.devRef .tc main_arg15)) (V (Proc.devRef .tc main_arg16)) (V (Proc.devRef .tc main_arg17)) := by
  rw [end_lsm V, end_out V, end_lr3 V, end_lr2 V, end_bn2 V, end_var2 V, end_mean2 V, end_lin2 V, end_agg2 V, end_relu V,
    end_lr1 V, end_bn1 V, end_var1 V, end_mean1 V, end_lin1 V, end_agg1 V, end_dst V, end_src V,
    arg_keep V main_arg0 (by decide), arg_keep V main_arg1 (by decide), arg_keep V main_arg2 (by decide), arg_keep V main_arg3 (by decide),
    arg_keep V main_arg4 (by decide), arg_keep V main_arg5 (by decide), arg_keep V main_arg6 (by decide), arg_keep V main_arg7 (by decide),
    arg_keep V main_arg8 (by decide), arg_keep V main_arg9 (by decide), arg_keep V main_arg10 (by decide), arg_keep V main_arg11 (by decide),
    arg_keep V main_arg12 (by decide), arg_keep V main_arg13 (by decide), arg_keep V main_arg14 (by decide), arg_keep V main_arg15 (by decide),
    arg_keep V main_arg16 (by decide), arg_keep V main_arg17 (by decide)]
  rfl

/-- The same over a launch's contents on a device. -/
theorem fold_eq (m : (ℓ : Loc nD τ sig) → Buf (Elt Ideal) ℓ) (c : Dev nD) :
    after (ops (F := Ideal)) (launchContents m c) (Proc.devRef .tc main_v94)
      = refModel (Cert.Agg.aggCoreR (Cert.Agg.srcOfR (m ((c.tc : Thread nD τ).loc main_arg1))) (Cert.Agg.dstOfR (m ((c.tc : Thread nD τ).loc main_arg1))))
          (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
          (m ((c.tc : Thread nD τ).loc main_arg14)) (m ((c.tc : Thread nD τ).loc main_arg15)) (m ((c.tc : Thread nD τ).loc main_arg16)) (m ((c.tc : Thread nD τ).loc main_arg17)) :=
  fold_val (launchContents m c)

/-- On every device, from any memory with zero counters: every weakly fair execution of the reference's @main
    terminates with the result buffer at the model of the launch's argument arrays, and the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v94)
        = refModel (Cert.Agg.aggCoreR (Cert.Agg.srcOfR (m ((c.tc : Thread nD τ).loc main_arg1))) (Cert.Agg.dstOfR (m ((c.tc : Thread nD τ).loc main_arg1))))
          (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
          (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c).1.trans (fold_eq m c), (h c).2⟩) (run m ρ)

end Cert.ReferenceIdeal.RefRun

end
-- ==== Proof.Assembly.lean ====
/-
  The certificate's claims assembled: the reference's aggregation read as the curried aggregation, the value claim
  from the two runs, and the claim.
-/
import proofs.«125030_j49014166782120_1_alg».proof.Proof.AssemblyCore
import proofs.«125030_j49014166782120_1_alg».proof.Proof.Agg
import proofs.«125030_j49014166782120_1_alg».proof.Proof.RefRead
import proofs.«125030_j49014166782120_1_alg».proof.Proof.KChain
import proofs.«125030_j49014166782120_1_alg».proof.Proof.RefFold

noncomputable section

namespace Cert.Proof.Parts

open Idealize.ShloMosaic Idealize.SL.Sem Idealize.ShloMosaic.ValueIdx

/-- An aggregation of arrays that is the kernel's aggregation reads, at an entry, as the aggregation over explicit
    coordinates of the array read over explicit coordinates: every index is its pair of coordinates. -/
theorem bridge_of
    (aggRef : (Cert.ReferenceIdeal.S2x800000.Idx → BitVec 32) → FVec Ideal Cert.ReferenceIdeal.S50000x128 .f32 → FVec Ideal Cert.ReferenceIdeal.S50000x128 .f32)
    (hEq : ∀ ei y, aggRef ei y = Cert.Agg.aggK ei y)
    (ei : Cert.ReferenceIdeal.S2x800000.Idx → BitVec 32) (y : FVec Ideal Cert.ReferenceIdeal.S50000x128 .f32) (p : Fin 50000) (j : Fin 128) :
    aggRef ei y (ix2 p j) = Cert.Agg.A ei (cur y) p j := by
  have e : (fun i : Cert.KernelIdeal.S50000x128.Idx => cur y (i 0) (i 1)) = y := funext fun i => congrArg y (eq_ix2 i).symm
  exact (congrFun (hEq ei y) (ix2 p j)).trans (congrFun (congrArg (Cert.Agg.aggK ei) e.symm) (ix2 p j))

/-- The value claim from the two runs: the kernel's result array at `modelK` of the arguments, the reference's run at
    its array-level network over an aggregation that is the kernel's. -/
theorem algebraic_of_runs
    (aggRef : (Cert.ReferenceIdeal.S2x800000.Idx → BitVec 32) → FVec Ideal Cert.ReferenceIdeal.S50000x128 .f32 → FVec Ideal Cert.ReferenceIdeal.S50000x128 .f32)
    (hEq : ∀ ei y, aggRef ei y = Cert.Agg.aggK ei y)
    (hK : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD)
      (p : Fin 50000) (j : Fin 40),
      (Cert.KernelIdeal.GenP.W10 m ρ c (Proc.devRef .tc Cert.KernelIdeal.main_v52) : Cert.KernelIdeal.S50000x40.Idx → EReal) (ix2 p j) = valK Cert.Agg.A m c p j)
    (hRef : ∀ (m : (ℓ : Loc Cert.ReferenceIdeal.nD Cert.ReferenceIdeal.τ Cert.ReferenceIdeal.sig) → Buf (Elt Ideal) ℓ) (ρ : Dev Cert.ReferenceIdeal.nD → PrngReg),
      θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v94)
        = Cert.RefStages.refModel (aggRef (m ((c.tc : Thread Cert.ReferenceIdeal.nD Cert.ReferenceIdeal.τ).loc Cert.ReferenceIdeal.main_arg1)))
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10))
          (m ((c.tc : Thread Cert.ReferenceIdeal.nD Cert.ReferenceIdeal.τ).loc Cert.ReferenceIdeal.main_arg11))
          (m ((c.tc : Thread Cert.ReferenceIdeal.nD Cert.ReferenceIdeal.τ).loc Cert.ReferenceIdeal.main_arg12))
          (m ((c.tc : Thread Cert.ReferenceIdeal.nD Cert.ReferenceIdeal.τ).loc Cert.ReferenceIdeal.main_arg13))
          (m ((c.tc : Thread Cert.ReferenceIdeal.nD Cert.ReferenceIdeal.τ).loc Cert.ReferenceIdeal.main_arg14))
          (m ((c.tc : Thread Cert.ReferenceIdeal.nD Cert.ReferenceIdeal.τ).loc Cert.ReferenceIdeal.main_arg15))
          (m ((c.tc : Thread Cert.ReferenceIdeal.nD Cert.ReferenceIdeal.τ).loc Cert.ReferenceIdeal.main_arg16))
          (m ((c.tc : Thread Cert.ReferenceIdeal.nD Cert.ReferenceIdeal.τ).loc Cert.ReferenceIdeal.main_arg17))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))) :
    Cert.algebraic_KernelIdeal_ReferenceIdeal :=
  algebraic_of Cert.Agg.A Cert.Agg.A_real aggRef (bridge_of aggRef hEq) hK hRef
    (fun agg A' hA => Cert.RefStages.refModel_apply agg A' hA)

/-- The reference's twin of the aggregation is the kernel's. -/
theorem aggR_bridge : ∀ ei y, Cert.Agg.aggR ei y = Cert.Agg.aggK ei y := fun ei y => by rw [Cert.Agg.aggR_eq]

/-- The kernel's result array is `modelK` of the argument arrays. -/
theorem kernel_value : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD)
      (p : Fin 50000) (j : Fin 40),
      (Cert.KernelIdeal.GenP.W10 m ρ c (Proc.devRef .tc Cert.KernelIdeal.main_v52) : Cert.KernelIdeal.S50000x40.Idx → EReal) (ix2 p j) = valK Cert.Agg.A m c p j :=
  fun m ρ c p j => Cert.KernelIdeal.KChain.W10_value m ρ c p j

/-- The value claim from the reference's run alone. -/
theorem algebraic_of_ref
    (aggRef : (Cert.ReferenceIdeal.S2x800000.Idx → BitVec 32) → FVec Ideal Cert.ReferenceIdeal.S50000x128 .f32 → FVec Ideal Cert.ReferenceIdeal.S50000x128 .f32)
    (hEq : ∀ ei y, aggRef ei y = Cert.Agg.aggK ei y)
    (hRef : ∀ (m : (ℓ : Loc Cert.ReferenceIdeal.nD Cert.ReferenceIdeal.τ Cert.ReferenceIdeal.sig) → Buf (Elt Ideal) ℓ) (ρ : Dev Cert.ReferenceIdeal.nD → PrngReg),
      θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v94)
        = Cert.RefStages.refModel (aggRef (m ((c.tc : Thread Cert.ReferenceIdeal.nD Cert.ReferenceIdeal.τ).loc Cert.ReferenceIdeal.main_arg1)))
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10))
          (m ((c.tc : Thread Cert.ReferenceIdeal.nD Cert.ReferenceIdeal.τ).loc Cert.ReferenceIdeal.main_arg11))
          (m ((c.tc : Thread Cert.ReferenceIdeal.nD Cert.ReferenceIdeal.τ).loc Cert.ReferenceIdeal.main_arg12))
          (m ((c.tc : Thread Cert.ReferenceIdeal.nD Cert.ReferenceIdeal.τ).loc Cert.ReferenceIdeal.main_arg13))
          (m ((c.tc : Thread Cert.ReferenceIdeal.nD Cert.ReferenceIdeal.τ).loc Cert.ReferenceIdeal.main_arg14))
          (m ((c.tc : Thread Cert.ReferenceIdeal.nD Cert.ReferenceIdeal.τ).loc Cert.ReferenceIdeal.main_arg15))
          (m ((c.tc : Thread Cert.ReferenceIdeal.nD Cert.ReferenceIdeal.τ).loc Cert.ReferenceIdeal.main_arg16))
          (m ((c.tc : Thread Cert.ReferenceIdeal.nD Cert.ReferenceIdeal.τ).loc Cert.ReferenceIdeal.main_arg17))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))) :
    Cert.algebraic_KernelIdeal_ReferenceIdeal :=
  algebraic_of_runs aggRef hEq kernel_value hRef

/-- THE VALUE CLAIM: both programs end with the reference's network of the arguments as their result, and with
    unchanged arguments. -/
theorem algebraic : Cert.algebraic_KernelIdeal_ReferenceIdeal :=
  algebraic_of_ref (fun ei => Cert.Agg.aggCoreR (Cert.Agg.srcOfR ei) (Cert.Agg.dstOfR ei)) (fun ei y => rfl)
    (fun m ρ => Cert.ReferenceIdeal.RefRun.run_value m ρ)

/-- The certificate's claim. -/
theorem claim : Cert.Claim := claim_of algebraic

end Cert.Proof.Parts

end
-- ==== Proof.lean ====
/-
  The two programs compute the same graph network on 50000 nodes: two convolutions — each the neighbour
  aggregation, a linear layer, batch normalisation over all rows with its affine map and the rectifier, a second
  linear layer and the rectifier — and a classifier head of two linear layers ending in a row-wise log-softmax.
  The kernel tiles the rows, accumulates every column's sum and sum of squares over the grid, and takes the variance
  as the mean of the squares minus the square of the mean; the reference takes it as the mean of the squared
  deviations from the mean.  On the extended reals the two formulas need not agree; under the precondition every
  float argument has real entries, every intermediate matrix is then real, and on real columns the two variances
  are equal; the reference's one extra rectifier acts on a value that is already rectified.  So both result arrays
  are the same function of the arguments.  The claim is the three frames (each program runs, terminates without a
  fault and leaves its arguments unchanged), the idealization ledger, which is empty, and the value claim.
-/
import proofs.«125030_j49014166782120_1_alg».proof.Defs
import proofs.«125030_j49014166782120_1_alg».proof.Proof.Assembly

theorem Cert.Proof.claim : Cert.Claim := Cert.Proof.Parts.claim
